-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 999999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S1000000x128 : Shape := ⟨2, ![1000000, 128]⟩
abbrev S50x4096 : Shape := ⟨2, ![50, 4096]⟩
abbrev S32x50x128 : Shape := ⟨3, ![32, 50, 128]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S8x128 : Shape := ⟨2, ![8, 128]⟩
abbrev S1x8x128 : Shape := ⟨3, ![1, 8, 128]⟩
abbrev S1x128 : Shape := ⟨2, ![1, 128]⟩
abbrev S128 : Shape := ⟨1, ![128]⟩
abbrev S42x128 : Shape := ⟨2, ![42, 128]⟩
abbrev S1x42x128 : Shape := ⟨3, ![1, 42, 128]⟩
abbrev S1x16 : Shape := ⟨2, ![1, 16]⟩
abbrev S16 : Shape := ⟨1, ![16]⟩
abbrev S50x4096x128 : Shape := ⟨3, ![50, 4096, 128]⟩
abbrev S4096x50x128 : Shape := ⟨3, ![4096, 50, 128]⟩

abbrev nBuf : Table → Nat
  | .hbm => 7
  | .local .scVector .vmem => 6
  | _ => 0

abbrev bufTy : (tb : Table) → Fin (nBuf tb) → BufTy
  | .hbm, ⟨0, _⟩ => ⟨S4096x50, .i32⟩
  | .hbm, ⟨1, _⟩ => ⟨S1000000x128, .f32⟩
  | .hbm, ⟨2, _⟩ => ⟨S50x4096, .i32⟩
  | .hbm, ⟨3, _⟩ => ⟨S32x50x128, .i32⟩
  | .hbm, ⟨4, _⟩ => ⟨S204800x128, .f32⟩
  | .hbm, ⟨5, _⟩ => ⟨S50x4096x128, .f32⟩
  | .hbm, ⟨6, _⟩ => ⟨S4096x50x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21_r0 : BitVec 32 := 0#32
  let c0_i32_22_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_20_r1 : BitVec 32 := 8#32
  let c0_i32_21_r1 : BitVec 32 := 0#32
  ![v1.toNat, 8, 0]
@[reducible] def k0_t1_loop : Scf.Loop 32 :=
  let c0_i32_14 : BitVec 32 := 0#32
  let c10_i32 : BitVec 32 := 10#32
  let v15 : BitVec 32 := Scalar.addi c0_i32_14 c10_i32
  let c1_i32_15 : BitVec 32 := 1#32
  ⟨c0_i32_14, v15, c1_i32_15⟩
def k0_off3 (k0_t1 : Fin k0_t1_loop.trips) (c0_i32_19 : BitVec 32) : Fin 2 → Nat :=
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let v20 : BitVec 32 := Scalar.addi v19 c0_i32_19
  let c0_i32_20 : BitVec 32 := 0#32
  ![v20.toNat, 0]
@[reducible] def k0_t2_loop : Scf.Loop 32 :=
  let c0_i32_24 : BitVec 32 := 0#32
  let c128_i32 : BitVec 32 := 128#32
  let v24 : BitVec 32 := Scalar.addi c0_i32_24 c128_i32
  let c1_i32_25 : BitVec 32 := 1#32
  ⟨c0_i32_24, v24, c1_i32_25⟩
def k0_off4 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v114 : Index := Scalar.indexCast arg22
  let c0 : Index := 0#32
  ![v114.toNat, 0]
def k0_off5 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v123 : Index := Scalar.indexCast arg22
  let c16 : Index := 16#32
  ![v123.toNat, 16]
def k0_off6 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v132 : Index := Scalar.indexCast arg22
  let c32 : Index := 32#32
  ![v132.toNat, 32]
def k0_off7 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v141 : Index := Scalar.indexCast arg22
  let c48 : Index := 48#32
  ![v141.toNat, 48]
def k0_off8 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v150 : Index := Scalar.indexCast arg22
  let c64 : Index := 64#32
  ![v150.toNat, 64]
def k0_off9 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v159 : Index := Scalar.indexCast arg22
  let c80 : Index := 80#32
  ![v159.toNat, 80]
def k0_off10 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v168 : Index := Scalar.indexCast arg22
  let c96 : Index := 96#32
  ![v168.toNat, 96]
def k0_off11 (k0_t2 : Fin k0_t2_loop.trips) : Fin 2 → Nat :=
  let c0_i32_24 : BitVec 32 := 0#32
  let c1_i32_25 : BitVec 32 := 1#32
  let arg22 : BitVec 32 := Scf.iv c0_i32_24 c1_i32_25 k0_t2
  let v177 : Index := Scalar.indexCast arg22
  let c112 : Index := 112#32
  ![v177.toNat, 112]
def k0_off12 (i : grid0.Coords) (k0_t1 : Fin k0_t1_loop.trips) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let v20 : BitVec 32 := Scalar.addi v19 c0_i32_19
  let c128_i32_27 : BitVec 32 := 128#32
  let v25 : BitVec 32 := Scalar.muli v20 c128_i32_27
  let v26 : BitVec 32 := Scalar.addi v2 v25
  let c0_i32_28 : BitVec 32 := 0#32
  ![v26.toNat, 0]
def k0_cond1 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let c0_i32_19 : BitVec 32 := 0#32
  let v20 : BitVec 32 := Scalar.addi v19 c0_i32_19
  let c4_i32 : BitVec 32 := 4#32
  let v29 : BitVec 32 := Scalar.addi v20 c4_i32
  let c5_i32_30 : BitVec 32 := 5#32
  let v30 : BitVec 32 := Scalar.subi v29 c5_i32_30
  let c0_i32_31 : BitVec 32 := 0#32
  let v31 : BitVec 1 := Scalar.cmpi .sge v30 c0_i32_31
  let v32 : BitVec 32 := Scalar.extui v31
  let c0_i32_32 : BitVec 32 := 0#32
  let v33 : BitVec 1 := Scalar.cmpi .ne v32 c0_i32_32
  v33

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let c0_i32_19 : BitVec 32 := 0#32
  let v20 : BitVec 32 := Scalar.addi v19 c0_i32_19
  let c4_i32_115 : BitVec 32 := 4#32
  let v114 : BitVec 32 := Scalar.addi v20 c4_i32_115
  let c5_i32_116 : BitVec 32 := 5#32
  let v115 : BitVec 32 := Scalar.subi v114 c5_i32_116
  let c128_i32_117 : BitVec 32 := 128#32
  let v116 : BitVec 32 := Scalar.muli v115 c128_i32_117
  let v117 : BitVec 32 := Scalar.addi v2 v116
  let c0_i32_118 : BitVec 32 := 0#32
  ![v117.toNat, 0]
def k0_cond2 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let c0_i32_19 : BitVec 32 := 0#32
  let v20 : BitVec 32 := Scalar.addi v19 c0_i32_19
  let c4_i32_33 : BitVec 32 := 4#32
  let v34 : BitVec 32 := Scalar.addi v20 c4_i32_33
  let c50_i32 : BitVec 32 := 50#32
  let v35 : BitVec 1 := Scalar.cmpi .slt v34 c50_i32
  let v36 : BitVec 32 := Scalar.extui v35
  let c0_i32_34 : BitVec 32 := 0#32
  let v37 : BitVec 1 := Scalar.cmpi .ne v36 c0_i32_34
  v37

def k0_off14 (k0_t1 : Fin k0_t1_loop.trips) : Fin 2 → Nat :=
  let c0_i32_14 : BitVec 32 := 0#32
  let c1_i32_15 : BitVec 32 := 1#32
  let arg21 : BitVec 32 := Scf.iv c0_i32_14 c1_i32_15 k0_t1
  let c5_i32 : BitVec 32 := 5#32
  let v19 : BitVec 32 := Scalar.muli arg21 c5_i32
  let c0_i32_19 : BitVec 32 := 0#32
  let v20 : BitVec 32 := Scalar.addi v19 c0_i32_19
  let c4_i32_115 : BitVec 32 := 4#32
  let v114 : BitVec 32 := Scalar.addi v20 c4_i32_115
  let c0_i32_116 : BitVec 32 := 0#32
  ![v114.toNat, 0]
@[reducible] def k0_t3_loop : Scf.Loop 32 :=
  let c0_i32_41 : BitVec 32 := 0#32
  let c128_i32_42 : BitVec 32 := 128#32
  let v43 : BitVec 32 := Scalar.addi c0_i32_41 c128_i32_42
  let c1_i32_43 : BitVec 32 := 1#32
  ⟨c0_i32_41, v43, c1_i32_43⟩
def k0_off15 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v114 : Index := Scalar.indexCast arg22
  let c0 : Index := 0#32
  ![v114.toNat, 0]
def k0_off16 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v123 : Index := Scalar.indexCast arg22
  let c16 : Index := 16#32
  ![v123.toNat, 16]
def k0_off17 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v132 : Index := Scalar.indexCast arg22
  let c32 : Index := 32#32
  ![v132.toNat, 32]
def k0_off18 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v141 : Index := Scalar.indexCast arg22
  let c48 : Index := 48#32
  ![v141.toNat, 48]
def k0_off19 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v150 : Index := Scalar.indexCast arg22
  let c64 : Index := 64#32
  ![v150.toNat, 64]
def k0_off20 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v159 : Index := Scalar.indexCast arg22
  let c80 : Index := 80#32
  ![v159.toNat, 80]
def k0_off21 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v168 : Index := Scalar.indexCast arg22
  let c96 : Index := 96#32
  ![v168.toNat, 96]
def k0_off22 (k0_t3 : Fin k0_t3_loop.trips) : Fin 2 → Nat :=
  let c0_i32_41 : BitVec 32 := 0#32
  let c1_i32_43 : BitVec 32 := 1#32
  let arg22 : BitVec 32 := Scf.iv c0_i32_41 c1_i32_43 k0_t3
  let v177 : Index := Scalar.indexCast arg22
  let c112 : Index := 112#32
  ![v177.toNat, 112]
def k0_cond3 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_35 : BitVec 32 := 5#32
  let v38 : BitVec 32 := Scalar.muli arg21 c5_i32_35
  let c1_i32_36 : BitVec 32 := 1#32
  let v39 : BitVec 32 := Scalar.addi v38 c1_i32_36
  let c4_i32_48 : BitVec 32 := 4#32
  let v48 : BitVec 32 := Scalar.addi v39 c4_i32_48
  let c5_i32_49 : BitVec 32 := 5#32
  let v49 : BitVec 32 := Scalar.subi v48 c5_i32_49
  let c0_i32_50 : BitVec 32 := 0#32
  let v50 : BitVec 1 := Scalar.cmpi .sge v49 c0_i32_50
  let v51 : BitVec 32 := Scalar.extui v50
  let c0_i32_51 : BitVec 32 := 0#32
  let v52 : BitVec 1 := Scalar.cmpi .ne v51 c0_i32_51
  v52

def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32_35 : BitVec 32 := 5#32
  let v38 : BitVec 32 := Scalar.muli arg21 c5_i32_35
  let c1_i32_36 : BitVec 32 := 1#32
  let v39 : BitVec 32 := Scalar.addi v38 c1_i32_36
  let c4_i32_115 : BitVec 32 := 4#32
  let v114 : BitVec 32 := Scalar.addi v39 c4_i32_115
  let c5_i32_116 : BitVec 32 := 5#32
  let v115 : BitVec 32 := Scalar.subi v114 c5_i32_116
  let c128_i32_117 : BitVec 32 := 128#32
  let v116 : BitVec 32 := Scalar.muli v115 c128_i32_117
  let v117 : BitVec 32 := Scalar.addi v2 v116
  let c0_i32_118 : BitVec 32 := 0#32
  ![v117.toNat, 0]
def k0_cond4 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_35 : BitVec 32 := 5#32
  let v38 : BitVec 32 := Scalar.muli arg21 c5_i32_35
  let c1_i32_36 : BitVec 32 := 1#32
  let v39 : BitVec 32 := Scalar.addi v38 c1_i32_36
  let c4_i32_52 : BitVec 32 := 4#32
  let v53 : BitVec 32 := Scalar.addi v39 c4_i32_52
  let c50_i32_53 : BitVec 32 := 50#32
  let v54 : BitVec 1 := Scalar.cmpi .slt v53 c50_i32_53
  let v55 : BitVec 32 := Scalar.extui v54
  let c0_i32_54 : BitVec 32 := 0#32
  let v56 : BitVec 1 := Scalar.cmpi .ne v55 c0_i32_54
  v56

def k0_off24 (k0_t1 : Fin k0_t1_loop.trips) : Fin 2 → Nat :=
  let c0_i32_14 : BitVec 32 := 0#32
  let c1_i32_15 : BitVec 32 := 1#32
  let arg21 : BitVec 32 := Scf.iv c0_i32_14 c1_i32_15 k0_t1
  let c5_i32_35 : BitVec 32 := 5#32
  let v38 : BitVec 32 := Scalar.muli arg21 c5_i32_35
  let c1_i32_36 : BitVec 32 := 1#32
  let v39 : BitVec 32 := Scalar.addi v38 c1_i32_36
  let c4_i32_115 : BitVec 32 := 4#32
  let v114 : BitVec 32 := Scalar.addi v39 c4_i32_115
  let c0_i32_116 : BitVec 32 := 0#32
  ![v114.toNat, 0]
@[reducible] def k0_t4_loop : Scf.Loop 32 :=
  let c0_i32_61 : BitVec 32 := 0#32
  let c128_i32_62 : BitVec 32 := 128#32
  let v62 : BitVec 32 := Scalar.addi c0_i32_61 c128_i32_62
  let c1_i32_63 : BitVec 32 := 1#32
  ⟨c0_i32_61, v62, c1_i32_63⟩
def k0_off25 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v114 : Index := Scalar.indexCast arg22
  let c0 : Index := 0#32
  ![v114.toNat, 0]
def k0_off26 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v123 : Index := Scalar.indexCast arg22
  let c16 : Index := 16#32
  ![v123.toNat, 16]
def k0_off27 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v132 : Index := Scalar.indexCast arg22
  let c32 : Index := 32#32
  ![v132.toNat, 32]
def k0_off28 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v141 : Index := Scalar.indexCast arg22
  let c48 : Index := 48#32
  ![v141.toNat, 48]
def k0_off29 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v150 : Index := Scalar.indexCast arg22
  let c64 : Index := 64#32
  ![v150.toNat, 64]
def k0_off30 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v159 : Index := Scalar.indexCast arg22
  let c80 : Index := 80#32
  ![v159.toNat, 80]
def k0_off31 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v168 : Index := Scalar.indexCast arg22
  let c96 : Index := 96#32
  ![v168.toNat, 96]
def k0_off32 (k0_t4 : Fin k0_t4_loop.trips) : Fin 2 → Nat :=
  let c0_i32_61 : BitVec 32 := 0#32
  let c1_i32_63 : BitVec 32 := 1#32
  let arg22 : BitVec 32 := Scf.iv c0_i32_61 c1_i32_63 k0_t4
  let v177 : Index := Scalar.indexCast arg22
  let c112 : Index := 112#32
  ![v177.toNat, 112]
def k0_cond5 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_55 : BitVec 32 := 5#32
  let v57 : BitVec 32 := Scalar.muli arg21 c5_i32_55
  let c2_i32_56 : BitVec 32 := 2#32
  let v58 : BitVec 32 := Scalar.addi v57 c2_i32_56
  let c4_i32_68 : BitVec 32 := 4#32
  let v67 : BitVec 32 := Scalar.addi v58 c4_i32_68
  let c5_i32_69 : BitVec 32 := 5#32
  let v68 : BitVec 32 := Scalar.subi v67 c5_i32_69
  let c0_i32_70 : BitVec 32 := 0#32
  let v69 : BitVec 1 := Scalar.cmpi .sge v68 c0_i32_70
  let v70 : BitVec 32 := Scalar.extui v69
  let c0_i32_71 : BitVec 32 := 0#32
  let v71 : BitVec 1 := Scalar.cmpi .ne v70 c0_i32_71
  v71

def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32_55 : BitVec 32 := 5#32
  let v57 : BitVec 32 := Scalar.muli arg21 c5_i32_55
  let c2_i32_56 : BitVec 32 := 2#32
  let v58 : BitVec 32 := Scalar.addi v57 c2_i32_56
  let c4_i32_115 : BitVec 32 := 4#32
  let v114 : BitVec 32 := Scalar.addi v58 c4_i32_115
  let c5_i32_116 : BitVec 32 := 5#32
  let v115 : BitVec 32 := Scalar.subi v114 c5_i32_116
  let c128_i32_117 : BitVec 32 := 128#32
  let v116 : BitVec 32 := Scalar.muli v115 c128_i32_117
  let v117 : BitVec 32 := Scalar.addi v2 v116
  let c0_i32_118 : BitVec 32 := 0#32
  ![v117.toNat, 0]
def k0_cond6 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_55 : BitVec 32 := 5#32
  let v57 : BitVec 32 := Scalar.muli arg21 c5_i32_55
  let c2_i32_56 : BitVec 32 := 2#32
  let v58 : BitVec 32 := Scalar.addi v57 c2_i32_56
  let c4_i32_72 : BitVec 32 := 4#32
  let v72 : BitVec 32 := Scalar.addi v58 c4_i32_72
  let c50_i32_73 : BitVec 32 := 50#32
  let v73 : BitVec 1 := Scalar.cmpi .slt v72 c50_i32_73
  let v74 : BitVec 32 := Scalar.extui v73
  let c0_i32_74 : BitVec 32 := 0#32
  let v75 : BitVec 1 := Scalar.cmpi .ne v74 c0_i32_74
  v75

def k0_off34 (k0_t1 : Fin k0_t1_loop.trips) : Fin 2 → Nat :=
  let c0_i32_14 : BitVec 32 := 0#32
  let c1_i32_15 : BitVec 32 := 1#32
  let arg21 : BitVec 32 := Scf.iv c0_i32_14 c1_i32_15 k0_t1
  let c5_i32_55 : BitVec 32 := 5#32
  let v57 : BitVec 32 := Scalar.muli arg21 c5_i32_55
  let c2_i32_56 : BitVec 32 := 2#32
  let v58 : BitVec 32 := Scalar.addi v57 c2_i32_56
  let c4_i32_115 : BitVec 32 := 4#32
  let v114 : BitVec 32 := Scalar.addi v58 c4_i32_115
  let c0_i32_116 : BitVec 32 := 0#32
  ![v114.toNat, 0]
@[reducible] def k0_t5_loop : Scf.Loop 32 :=
  let c0_i32_81 : BitVec 32 := 0#32
  let c128_i32_82 : BitVec 32 := 128#32
  let v81 : BitVec 32 := Scalar.addi c0_i32_81 c128_i32_82
  let c1_i32_83 : BitVec 32 := 1#32
  ⟨c0_i32_81, v81, c1_i32_83⟩
def k0_off35 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v114 : Index := Scalar.indexCast arg22
  let c0 : Index := 0#32
  ![v114.toNat, 0]
def k0_off36 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v123 : Index := Scalar.indexCast arg22
  let c16 : Index := 16#32
  ![v123.toNat, 16]
def k0_off37 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v132 : Index := Scalar.indexCast arg22
  let c32 : Index := 32#32
  ![v132.toNat, 32]
def k0_off38 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v141 : Index := Scalar.indexCast arg22
  let c48 : Index := 48#32
  ![v141.toNat, 48]
def k0_off39 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v150 : Index := Scalar.indexCast arg22
  let c64 : Index := 64#32
  ![v150.toNat, 64]
def k0_off40 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v159 : Index := Scalar.indexCast arg22
  let c80 : Index := 80#32
  ![v159.toNat, 80]
def k0_off41 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v168 : Index := Scalar.indexCast arg22
  let c96 : Index := 96#32
  ![v168.toNat, 96]
def k0_off42 (k0_t5 : Fin k0_t5_loop.trips) : Fin 2 → Nat :=
  let c0_i32_81 : BitVec 32 := 0#32
  let c1_i32_83 : BitVec 32 := 1#32
  let arg22 : BitVec 32 := Scf.iv c0_i32_81 c1_i32_83 k0_t5
  let v177 : Index := Scalar.indexCast arg22
  let c112 : Index := 112#32
  ![v177.toNat, 112]
def k0_cond7 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_75 : BitVec 32 := 5#32
  let v76 : BitVec 32 := Scalar.muli arg21 c5_i32_75
  let c3_i32_76 : BitVec 32 := 3#32
  let v77 : BitVec 32 := Scalar.addi v76 c3_i32_76
  let c4_i32_88 : BitVec 32 := 4#32
  let v86 : BitVec 32 := Scalar.addi v77 c4_i32_88
  let c5_i32_89 : BitVec 32 := 5#32
  let v87 : BitVec 32 := Scalar.subi v86 c5_i32_89
  let c0_i32_90 : BitVec 32 := 0#32
  let v88 : BitVec 1 := Scalar.cmpi .sge v87 c0_i32_90
  let v89 : BitVec 32 := Scalar.extui v88
  let c0_i32_91 : BitVec 32 := 0#32
  let v90 : BitVec 1 := Scalar.cmpi .ne v89 c0_i32_91
  v90

def k0_off43 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32_75 : BitVec 32 := 5#32
  let v76 : BitVec 32 := Scalar.muli arg21 c5_i32_75
  let c3_i32_76 : BitVec 32 := 3#32
  let v77 : BitVec 32 := Scalar.addi v76 c3_i32_76
  let c4_i32_115 : BitVec 32 := 4#32
  let v114 : BitVec 32 := Scalar.addi v77 c4_i32_115
  let c5_i32_116 : BitVec 32 := 5#32
  let v115 : BitVec 32 := Scalar.subi v114 c5_i32_116
  let c128_i32_117 : BitVec 32 := 128#32
  let v116 : BitVec 32 := Scalar.muli v115 c128_i32_117
  let v117 : BitVec 32 := Scalar.addi v2 v116
  let c0_i32_118 : BitVec 32 := 0#32
  ![v117.toNat, 0]
def k0_cond8 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_75 : BitVec 32 := 5#32
  let v76 : BitVec 32 := Scalar.muli arg21 c5_i32_75
  let c3_i32_76 : BitVec 32 := 3#32
  let v77 : BitVec 32 := Scalar.addi v76 c3_i32_76
  let c4_i32_92 : BitVec 32 := 4#32
  let v91 : BitVec 32 := Scalar.addi v77 c4_i32_92
  let c50_i32_93 : BitVec 32 := 50#32
  let v92 : BitVec 1 := Scalar.cmpi .slt v91 c50_i32_93
  let v93 : BitVec 32 := Scalar.extui v92
  let c0_i32_94 : BitVec 32 := 0#32
  let v94 : BitVec 1 := Scalar.cmpi .ne v93 c0_i32_94
  v94

def k0_off44 (k0_t1 : Fin k0_t1_loop.trips) : Fin 2 → Nat :=
  let c0_i32_14 : BitVec 32 := 0#32
  let c1_i32_15 : BitVec 32 := 1#32
  let arg21 : BitVec 32 := Scf.iv c0_i32_14 c1_i32_15 k0_t1
  let c5_i32_75 : BitVec 32 := 5#32
  let v76 : BitVec 32 := Scalar.muli arg21 c5_i32_75
  let c3_i32_76 : BitVec 32 := 3#32
  let v77 : BitVec 32 := Scalar.addi v76 c3_i32_76
  let c4_i32_115 : BitVec 32 := 4#32
  let v114 : BitVec 32 := Scalar.addi v77 c4_i32_115
  let c0_i32_116 : BitVec 32 := 0#32
  ![v114.toNat, 0]
@[reducible] def k0_t6_loop : Scf.Loop 32 :=
  let c0_i32_101 : BitVec 32 := 0#32
  let c128_i32_102 : BitVec 32 := 128#32
  let v100 : BitVec 32 := Scalar.addi c0_i32_101 c128_i32_102
  let c1_i32_103 : BitVec 32 := 1#32
  ⟨c0_i32_101, v100, c1_i32_103⟩
def k0_off45 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v114 : Index := Scalar.indexCast arg22
  let c0 : Index := 0#32
  ![v114.toNat, 0]
def k0_off46 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v123 : Index := Scalar.indexCast arg22
  let c16 : Index := 16#32
  ![v123.toNat, 16]
def k0_off47 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v132 : Index := Scalar.indexCast arg22
  let c32 : Index := 32#32
  ![v132.toNat, 32]
def k0_off48 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v141 : Index := Scalar.indexCast arg22
  let c48 : Index := 48#32
  ![v141.toNat, 48]
def k0_off49 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v150 : Index := Scalar.indexCast arg22
  let c64 : Index := 64#32
  ![v150.toNat, 64]
def k0_off50 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v159 : Index := Scalar.indexCast arg22
  let c80 : Index := 80#32
  ![v159.toNat, 80]
def k0_off51 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v168 : Index := Scalar.indexCast arg22
  let c96 : Index := 96#32
  ![v168.toNat, 96]
def k0_off52 (k0_t6 : Fin k0_t6_loop.trips) : Fin 2 → Nat :=
  let c0_i32_101 : BitVec 32 := 0#32
  let c1_i32_103 : BitVec 32 := 1#32
  let arg22 : BitVec 32 := Scf.iv c0_i32_101 c1_i32_103 k0_t6
  let v177 : Index := Scalar.indexCast arg22
  let c112 : Index := 112#32
  ![v177.toNat, 112]
def k0_cond9 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_95 : BitVec 32 := 5#32
  let v95 : BitVec 32 := Scalar.muli arg21 c5_i32_95
  let c4_i32_96 : BitVec 32 := 4#32
  let v96 : BitVec 32 := Scalar.addi v95 c4_i32_96
  let c4_i32_108 : BitVec 32 := 4#32
  let v105 : BitVec 32 := Scalar.addi v96 c4_i32_108
  let c5_i32_109 : BitVec 32 := 5#32
  let v106 : BitVec 32 := Scalar.subi v105 c5_i32_109
  let c0_i32_110 : BitVec 32 := 0#32
  let v107 : BitVec 1 := Scalar.cmpi .sge v106 c0_i32_110
  let v108 : BitVec 32 := Scalar.extui v107
  let c0_i32_111 : BitVec 32 := 0#32
  let v109 : BitVec 1 := Scalar.cmpi .ne v108 c0_i32_111
  v109

def k0_off53 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32_15 : BitVec 32 := 1#32
  let arg21 : BitVec 32 := Scf.iv c0_i32_14 c1_i32_15 k0_t1
  let c5_i32_95 : BitVec 32 := 5#32
  let v95 : BitVec 32 := Scalar.muli arg21 c5_i32_95
  let c4_i32_96 : BitVec 32 := 4#32
  let v96 : BitVec 32 := Scalar.addi v95 c4_i32_96
  let c4_i32_115 : BitVec 32 := 4#32
  let v114 : BitVec 32 := Scalar.addi v96 c4_i32_115
  let c5_i32_116 : BitVec 32 := 5#32
  let v115 : BitVec 32 := Scalar.subi v114 c5_i32_116
  let c128_i32_117 : BitVec 32 := 128#32
  let v116 : BitVec 32 := Scalar.muli v115 c128_i32_117
  let v117 : BitVec 32 := Scalar.addi v2 v116
  let c0_i32_118 : BitVec 32 := 0#32
  ![v117.toNat, 0]
def k0_cond10 (k0_t1 : Fin k0_t1_loop.trips) : BitVec 1 :=
  let c0_i32_14 : BitVec 32 := 0#32
  let c1_i32_15 : BitVec 32 := 1#32
  let arg21 : BitVec 32 := Scf.iv c0_i32_14 c1_i32_15 k0_t1
  let c5_i32_95 : BitVec 32 := 5#32
  let v95 : BitVec 32 := Scalar.muli arg21 c5_i32_95
  let c4_i32_96 : BitVec 32 := 4#32
  let v96 : BitVec 32 := Scalar.addi v95 c4_i32_96
  let c4_i32_112 : BitVec 32 := 4#32
  let v110 : BitVec 32 := Scalar.addi v96 c4_i32_112
  let c50_i32_113 : BitVec 32 := 50#32
  let v111 : BitVec 1 := Scalar.cmpi .slt v110 c50_i32_113
  let v112 : BitVec 32 := Scalar.extui v111
  let c0_i32_114 : BitVec 32 := 0#32
  let v113 : BitVec 1 := Scalar.cmpi .ne v112 c0_i32_114
  v113

def k0_off54 (k0_t1 : Fin k0_t1_loop.trips) : Fin 2 → Nat :=
  let c0_i32_14 : BitVec 32 := 0#32
  let c1_i32_15 : BitVec 32 := 1#32
  let arg21 : BitVec 32 := Scf.iv c0_i32_14 c1_i32_15 k0_t1
  let c5_i32_95 : BitVec 32 := 5#32
  let v95 : BitVec 32 := Scalar.muli arg21 c5_i32_95
  let c4_i32_96 : BitVec 32 := 4#32
  let v96 : BitVec 32 := Scalar.addi v95 c4_i32_96
  let c4_i32_115 : BitVec 32 := 4#32
  let v114 : BitVec 32 := Scalar.addi v96 c4_i32_115
  let c0_i32_116 : BitVec 32 := 0#32
  ![v114.toNat, 0]
def k0_off55 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c6272_i32 : BitVec 32 := 6272#32
  let v16 : BitVec 32 := Scalar.addi v2 c6272_i32
  let c0_i32_17 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  shapeCasts_S50x4096_S32x50x128 : S50x4096.ShapeCasts S32x50x128
  inb_S50x128_S8x128_0_0 : ∀ a, (![0, 0] : Fin 2 → Nat) a + S8x128.size a ≤ S50x128.size a
  squeezes_S1x8x128_S8x128 : S1x8x128.Squeezes S8x128
  inb_S50x128_S1x128_0_0 : ∀ a, (![0, 0] : Fin 2 → Nat) a + S1x128.size a ≤ S50x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  inb_S50x128_S1x128_1_0 : ∀ a, (![1, 0] : Fin 2 → Nat) a + S1x128.size a ≤ S50x128.size a
  inb_S50x128_S1x128_2_0 : ∀ a, (![2, 0] : Fin 2 → Nat) a + S1x128.size a ≤ S50x128.size a
  inb_S50x128_S1x128_3_0 : ∀ a, (![3, 0] : Fin 2 → Nat) a + S1x128.size a ≤ S50x128.size a
  inb_S50x128_S42x128_8_0 : ∀ a, (![8, 0] : Fin 2 → Nat) a + S42x128.size a ≤ S50x128.size a
  squeezes_S1x42x128_S42x128 : S1x42x128.Squeezes S42x128
  h_S1x16 : 0 < S1x16.numel
  shapeCasts_S1x16_S16 : S1x16.ShapeCasts S16
  shapeCasts_S16_S1x16 : S16.ShapeCasts S1x16
  shapeCasts_S204800x128_S50x4096x128 : S204800x128.ShapeCasts S50x4096x128
  transposes_S50x4096x128_S4096x50x128_1_0_2 : S50x4096x128.Transposes [1, 0, 2] S4096x50x128
  hcc0_scratch6 : 0 + S_.numel ≤ 12
  hcc0_scratch7 : 1 + S_.numel ≤ 12
  hcc0_scratch8 : 2 + S_.numel ≤ 12
  hcc0_scratch9 : 3 + S_.numel ≤ 12
  hcc0_scratch10 : 4 + S_.numel ≤ 12
  hcc0_scratch11 : 5 + S_.numel ≤ 12
  hcc0_scratch12 : 6 + S_.numel ≤ 12
  hcc0_scratch13 : 7 + S_.numel ≤ 12
  hcc0_scratch14 : 8 + S_.numel ≤ 12
  hcc0_scratch15 : 9 + S_.numel ≤ 12
  hcc0_scoped0 : 10 + S_.numel ≤ 12
  hcc0_scoped1 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x8x128.size a ≤ S32x50x128.size a
  k0_off2_inb : ∀ i : grid0.Coords, ∀ a, (k0_off2 i) a + S1x42x128.size a ≤ S32x50x128.size a
  k0_t1_ok : k0_t1_loop.OK
  k0_off3_inb : ∀ k0_t1 : Fin k0_t1_loop.trips, ∀ (r : Fin 5), ∀ a, (k0_off3 k0_t1 (BitVec.ofNat 32 r.val)) a + S1x128.size a ≤ S50x128.size a
  k0_t2_ok : k0_t2_loop.OK
  k0_off4_inb : ∀ k0_t2 : Fin k0_t2_loop.trips, ∀ a, (k0_off4 k0_t2) a + S1x16.size a ≤ S128x128.size a
  k0_off5_inb : ∀ k0_t2 : Fin k0_t2_loop.trips, ∀ a, (k0_off5 k0_t2) a + S1x16.size a ≤ S128x128.size a
  k0_off6_inb : ∀ k0_t2 : Fin k0_t2_loop.trips, ∀ a, (k0_off6 k0_t2) a + S1x16.size a ≤ S128x128.size a
  k0_off7_inb : ∀ k0_t2 : Fin k0_t2_loop.trips, ∀ a, (k0_off7 k0_t2) a + S1x16.size a ≤ S128x128.size a
  k0_off8_inb : ∀ k0_t2 : Fin k0_t2_loop.trips, ∀ a, (k0_off8 k0_t2) a + S1x16.size a ≤ S128x128.size a
  k0_off9_inb : ∀ k0_t2 : Fin k0_t2_loop.trips, ∀ a, (k0_off9 k0_t2) a + S1x16.size a ≤ S128x128.size a
  k0_off10_inb : ∀ k0_t2 : Fin k0_t2_loop.trips, ∀ a, (k0_off10 k0_t2) a + S1x16.size a ≤ S128x128.size a
  k0_off11_inb : ∀ k0_t2 : Fin k0_t2_loop.trips, ∀ a, (k0_off11 k0_t2) a + S1x16.size a ≤ S128x128.size a
  k0_off12_inb : ∀ (i : grid0.Coords) (k0_t1 : Fin k0_t1_loop.trips), ∀ (r : Fin 5), ∀ a, (k0_off12 i k0_t1 (BitVec.ofNat 32 r.val)) a + S128x128.size a ≤ S204800x128.size a
  k0_off13_inb : ∀ (i : grid0.Coords) (k0_t1 : Fin k0_t1_loop.trips), ∀ (k0_h1 : k0_cond1 k0_t1 = 1#1), ∀ a, (k0_off13 i k0_t1) a + S128x128.size a ≤ S204800x128.size a
  k0_off14_inb : ∀ k0_t1 : Fin k0_t1_loop.trips, ∀ (k0_h2 : k0_cond2 k0_t1 = 1#1), ∀ a, (k0_off14 k0_t1) a + S1x128.size a ≤ S50x128.size a
  k0_t3_ok : k0_t3_loop.OK
  k0_off15_inb : ∀ k0_t3 : Fin k0_t3_loop.trips, ∀ a, (k0_off15 k0_t3) a + S1x16.size a ≤ S128x128.size a
  k0_off16_inb : ∀ k0_t3 : Fin k0_t3_loop.trips, ∀ a, (k0_off16 k0_t3) a + S1x16.size a ≤ S128x128.size a
  k0_off17_inb : ∀ k0_t3 : Fin k0_t3_loop.trips, ∀ a, (k0_off17 k0_t3) a + S1x16.size a ≤ S128x128.size a
  k0_off18_inb : ∀ k0_t3 : Fin k0_t3_loop.trips, ∀ a, (k0_off18 k0_t3) a + S1x16.size a ≤ S128x128.size a
  k0_off19_inb : ∀ k0_t3 : Fin k0_t3_loop.trips, ∀ a, (k0_off19 k0_t3) a + S1x16.size a ≤ S128x128.size a
  k0_off20_inb : ∀ k0_t3 : Fin k0_t3_loop.trips, ∀ a, (k0_off20 k0_t3) a + S1x16.size a ≤ S128x128.size a
  k0_off21_inb : ∀ k0_t3 : Fin k0_t3_loop.trips, ∀ a, (k0_off21 k0_t3) a + S1x16.size a ≤ S128x128.size a
  k0_off22_inb : ∀ k0_t3 : Fin k0_t3_loop.trips, ∀ a, (k0_off22 k0_t3) a + S1x16.size a ≤ S128x128.size a
  k0_off23_inb : ∀ (i : grid0.Coords) (k0_t1 : Fin k0_t1_loop.trips), ∀ (k0_h3 : k0_cond3 k0_t1 = 1#1), ∀ a, (k0_off23 i k0_t1) a + S128x128.size a ≤ S204800x128.size a
  k0_off24_inb : ∀ k0_t1 : Fin k0_t1_loop.trips, ∀ (k0_h4 : k0_cond4 k0_t1 = 1#1), ∀ a, (k0_off24 k0_t1) a + S1x128.size a ≤ S50x128.size a
  k0_t4_ok : k0_t4_loop.OK
  k0_off25_inb : ∀ k0_t4 : Fin k0_t4_loop.trips, ∀ a, (k0_off25 k0_t4) a + S1x16.size a ≤ S128x128.size a
  k0_off26_inb : ∀ k0_t4 : Fin k0_t4_loop.trips, ∀ a, (k0_off26 k0_t4) a + S1x16.size a ≤ S128x128.size a
  k0_off27_inb : ∀ k0_t4 : Fin k0_t4_loop.trips, ∀ a, (k0_off27 k0_t4) a + S1x16.size a ≤ S128x128.size a
  k0_off28_inb : ∀ k0_t4 : Fin k0_t4_loop.trips, ∀ a, (k0_off28 k0_t4) a + S1x16.size a ≤ S128x128.size a
  k0_off29_inb : ∀ k0_t4 : Fin k0_t4_loop.trips, ∀ a, (k0_off29 k0_t4) a + S1x16.size a ≤ S128x128.size a
  k0_off30_inb : ∀ k0_t4 : Fin k0_t4_loop.trips, ∀ a, (k0_off30 k0_t4) a + S1x16.size a ≤ S128x128.size a
  k0_off31_inb : ∀ k0_t4 : Fin k0_t4_loop.trips, ∀ a, (k0_off31 k0_t4) a + S1x16.size a ≤ S128x128.size a
  k0_off32_inb : ∀ k0_t4 : Fin k0_t4_loop.trips, ∀ a, (k0_off32 k0_t4) a + S1x16.size a ≤ S128x128.size a
  k0_off33_inb : ∀ (i : grid0.Coords) (k0_t1 : Fin k0_t1_loop.trips), ∀ (k0_h5 : k0_cond5 k0_t1 = 1#1), ∀ a, (k0_off33 i k0_t1) a + S128x128.size a ≤ S204800x128.size a
  k0_off34_inb : ∀ k0_t1 : Fin k0_t1_loop.trips, ∀ (k0_h6 : k0_cond6 k0_t1 = 1#1), ∀ a, (k0_off34 k0_t1) a + S1x128.size a ≤ S50x128.size a
  k0_t5_ok : k0_t5_loop.OK
  k0_off35_inb : ∀ k0_t5 : Fin k0_t5_loop.trips, ∀ a, (k0_off35 k0_t5) a + S1x16.size a ≤ S128x128.size a
  k0_off36_inb : ∀ k0_t5 : Fin k0_t5_loop.trips, ∀ a, (k0_off36 k0_t5) a + S1x16.size a ≤ S128x128.size a
  k0_off37_inb : ∀ k0_t5 : Fin k0_t5_loop.trips, ∀ a, (k0_off37 k0_t5) a + S1x16.size a ≤ S128x128.size a
  k0_off38_inb : ∀ k0_t5 : Fin k0_t5_loop.trips, ∀ a, (k0_off38 k0_t5) a + S1x16.size a ≤ S128x128.size a
  k0_off39_inb : ∀ k0_t5 : Fin k0_t5_loop.trips, ∀ a, (k0_off39 k0_t5) a + S1x16.size a ≤ S128x128.size a
  k0_off40_inb : ∀ k0_t5 : Fin k0_t5_loop.trips, ∀ a, (k0_off40 k0_t5) a + S1x16.size a ≤ S128x128.size a
  k0_off41_inb : ∀ k0_t5 : Fin k0_t5_loop.trips, ∀ a, (k0_off41 k0_t5) a + S1x16.size a ≤ S128x128.size a
  k0_off42_inb : ∀ k0_t5 : Fin k0_t5_loop.trips, ∀ a, (k0_off42 k0_t5) a + S1x16.size a ≤ S128x128.size a
  k0_off43_inb : ∀ (i : grid0.Coords) (k0_t1 : Fin k0_t1_loop.trips), ∀ (k0_h7 : k0_cond7 k0_t1 = 1#1), ∀ a, (k0_off43 i k0_t1) a + S128x128.size a ≤ S204800x128.size a
  k0_off44_inb : ∀ k0_t1 : Fin k0_t1_loop.trips, ∀ (k0_h8 : k0_cond8 k0_t1 = 1#1), ∀ a, (k0_off44 k0_t1) a + S1x128.size a ≤ S50x128.size a
  k0_t6_ok : k0_t6_loop.OK
  k0_off45_inb : ∀ k0_t6 : Fin k0_t6_loop.trips, ∀ a, (k0_off45 k0_t6) a + S1x16.size a ≤ S128x128.size a
  k0_off46_inb : ∀ k0_t6 : Fin k0_t6_loop.trips, ∀ a, (k0_off46 k0_t6) a + S1x16.size a ≤ S128x128.size a
  k0_off47_inb : ∀ k0_t6 : Fin k0_t6_loop.trips, ∀ a, (k0_off47 k0_t6) a + S1x16.size a ≤ S128x128.size a
  k0_off48_inb : ∀ k0_t6 : Fin k0_t6_loop.trips, ∀ a, (k0_off48 k0_t6) a + S1x16.size a ≤ S128x128.size a
  k0_off49_inb : ∀ k0_t6 : Fin k0_t6_loop.trips, ∀ a, (k0_off49 k0_t6) a + S1x16.size a ≤ S128x128.size a
  k0_off50_inb : ∀ k0_t6 : Fin k0_t6_loop.trips, ∀ a, (k0_off50 k0_t6) a + S1x16.size a ≤ S128x128.size a
  k0_off51_inb : ∀ k0_t6 : Fin k0_t6_loop.trips, ∀ a, (k0_off51 k0_t6) a + S1x16.size a ≤ S128x128.size a
  k0_off52_inb : ∀ k0_t6 : Fin k0_t6_loop.trips, ∀ a, (k0_off52 k0_t6) a + S1x16.size a ≤ S128x128.size a
  k0_off53_inb : ∀ (i : grid0.Coords) (k0_t1 : Fin k0_t1_loop.trips), ∀ (k0_h9 : k0_cond9 k0_t1 = 1#1), ∀ a, (k0_off53 i k0_t1) a + S128x128.size a ≤ S204800x128.size a
  k0_off54_inb : ∀ k0_t1 : Fin k0_t1_loop.trips, ∀ (k0_h10 : k0_cond10 k0_t1 = 1#1), ∀ a, (k0_off54 k0_t1) a + S1x128.size a ≤ S50x128.size a
  k0_off55_inb : ∀ i : grid0.Coords, ∀ a, (k0_off55 i) a + S128x128.size a ≤ S204800x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
abbrev cc0_scoped1 : DmaSems sig S_ := SemArray.consecutive 11 S_ hcc0_scoped1

class Facts : Prop extends Facts₀ where

variable [Facts]
-- ==== ReferenceIdeal.lean ====
abbrev S4096x50 : Shape := ⟨2, ![4096, 50]⟩
abbrev S1000000x128 : Shape := ⟨2, ![1000000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | .hbm, ⟨25, _⟩ => ⟨S_, .f32⟩
  | .hbm, ⟨26, _⟩ => ⟨S4096x50x128, .f32⟩
  | .hbm, ⟨27, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  gather_S1000000x128_S4096x50x1_S4096x50x128_2_0_n_n_0_2_1128_wf : GatherDims.WF S1000000x128 S4096x50x1 S4096x50x128 [2] [0] [] [0] [] 2 ![1, 128]

variable [Facts₀]

def gather_S1000000x128_S4096x50x1_S4096x50x128_2_0_n_n_0_2_1128 : GatherDims S1000000x128 S4096x50x1 S4096x50x128 where
  offsetDims := [2]
  collapsedSliceDims := [0]
  operandBatchingDims := []
  startIndicesBatchingDims := []
  startIndexMap := [0]
  indexVectorDim := 2
  sliceSizes := ![1, 128]
  wf := gather_S1000000x128_S4096x50x1_S4096x50x128_2_0_n_n_0_2_1128_wf

class Facts : Prop extends Facts₀ where

variable [Facts]
-- ==== Proof.Spec.lean ====
/-
  The specification of the embedding lookup, one function of the two argument arrays.

  The result at batch row `b`, position `s`, feature `d` is the table row named by the index word `ids[b, s]`, read at
  feature `d`, times the embedding scale: `out[b, s, d] = w[ids[b, s], d] · c` with `c` the single-precision number
  nearest to `sqrt 128`, the same binary word on both sides of the claim (never evaluated). An index word that names
  no row of the table (excluded by the precondition) is sent to row 0 so that the function is total.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The index array, the table and the result, as literal shapes. -/
abbrev SIds : Shape := ⟨2, ![4096, 50]⟩
abbrev STab : Shape := ⟨2, ![1000000, 128]⟩
abbrev SOut : Shape := ⟨3, ![4096, 50, 128]⟩

/-- The table row an index word names; row 0 for a word outside the table. -/
def rowOf (v : BitVec 32) : Fin 1000000 := if h : v.toNat < 1000000 then ⟨v.toNat, h⟩ else ⟨0, by decide⟩

theorem rowOf_val {v : BitVec 32} (h : v.toNat < 1000000) : (rowOf v).val = v.toNat := by
  unfold rowOf; rw [dif_pos h]

/-- The embedding scale: the single-precision word for `sqrt 128`, read at the float instance. -/
def scale : F .f32 := FloatOps.ofBits .f32 0x413504F3#32

/-- The lookup: `out[b, s, d] = w[ids[b, s], d] · scale`. -/
def lookup (ids : IVec SIds 32) (w : FVec F STab .f32) : FVec F SOut .f32 :=
  fun j => FloatOps.mulf (w (ix2 (rowOf (ids (ix2 (j 0) (j 1)))) (j 2))) scale

theorem lookup_apply (ids : IVec SIds 32) (w : FVec F STab .f32) (b : Fin 4096) (s : Fin 50) (d : Fin 128) :
    lookup ids w (ix3 b s d) = FloatOps.mulf (w (ix2 (rowOf (ids (ix2 b s))) d)) scale := rfl

end Cert.Spec

end
-- ==== Proof.PreFacts.lean ====
/-
  The precondition read back: an index array on which the printed predicate is all ones holds only words between
  0 and 999999 as signed integers, so each word names a row of the 1000000-row table.

  The predicate is the conjunction of two `all`s: the float table is finite everywhere, and every index word `v`
  satisfies `0 ≤ v ∧ v ≤ 999999` signed. A reduction by `and` over every axis that comes out 1 met only 1s, so the
  second conjunct gives the two comparisons at each index; a word in that signed range reads the same unsigned.
-/
import proofs.«208012_g154618823073_cont_week2b_1161_14_alg».proof.Pre_input_domain
import Idealize.ShloMosaic.Lib.ReduceAll
import Idealize.ShloMosaic.Lib.ValueIdx

namespace Cert.Proof.PreFacts

open Idealize.ShloMosaic

/-- The scalar shape has one index. -/
instance : Subsingleton Cert.Pre_input_domain.S_.Idx := ⟨fun a b => funext fun d => d.elim0⟩

/-- Every index word lies in `[0, 999999]` as a signed integer. -/
theorem ids_lt {F : FTy → Type} [FloatOps F] [Cert.Pre_input_domain.Facts]
    (ids : IVec Cert.Pre_input_domain.S4096x50 32) (w : FVec F Cert.Pre_input_domain.S1000000x128 .f32)
    (h : Cert.Pre_input_domain.fn (F := F) ids w = fun _ => 1#1) :
    ∀ j, 0 ≤ (ids j).toInt ∧ (ids j).toInt ≤ 999999 := by
  intro j
  have e := congrFun h ValueIdx.ix0
  dsimp only [Cert.Pre_input_domain.fn] at e
  obtain ⟨-, e2⟩ := IntOp.andi_eq_one.1 e
  have ej := Host.reduce_andi_all _ _ _ _ _ e2 j
  obtain ⟨h0, h1⟩ := IntOp.andi_eq_one.1 ej
  have h0' : (0#32 : BitVec 32).toInt ≤ (ids j).toInt := IntOp.cmpi_sge.1 h0
  have h1' : (ids j).toInt ≤ (999999#32 : BitVec 32).toInt := IntOp.cmpi_sle.1 h1
  rw [show (0#32 : BitVec 32).toInt = 0 from by decide] at h0'
  rw [show (999999#32 : BitVec 32).toInt = 999999 from by decide] at h1'
  exact ⟨h0', h1'⟩

/-- Every index word, read unsigned, is below the number of table rows. -/
theorem ids_toNat_lt {F : FTy → Type} [FloatOps F] [Cert.Pre_input_domain.Facts]
    (ids : IVec Cert.Pre_input_domain.S4096x50 32) (w : FVec F Cert.Pre_input_domain.S1000000x128 .f32)
    (h : Cert.Pre_input_domain.fn (F := F) ids w = fun _ => 1#1) :
    ∀ j, (ids j).toNat < 1000000 := by
  intro j
  obtain ⟨h0, h1⟩ := ids_lt ids w h j
  have hlt := (ids j).isLt
  unfold BitVec.toInt at h0 h1
  split at h0 <;> omega

end Cert.Proof.PreFacts
-- ==== Proof.RefRun.lean ====
/-
  The reference's run, read as the specification.

  The reference is a straight line of array operations: the take of the table rows named by the index array
  (written out at its call site: the comparison with zero and the wrap-around `v + 1000000` of negative words, the
  gather of rows at the wrapped words, the in-range test `0 ≤ v ≤ 999999` and-reduced over the trailing unit axis,
  the select between the gathered row and the quiet-NaN word), then the product with the broadcast scale.

  Run from any memory, each buffer ends at the fold of the operations over the launch contents; at the result buffer
  that fold is one term `refTerm ids w` of the two argument arrays, and no operation writes an argument.

  Under the precondition every index word `v` satisfies `0 ≤ v ≤ 999999` signed. Then `v < 0` fails, so the wrapped
  word is `v`; both range comparisons hold, so the mask is 1 everywhere and the select keeps the gathered row; the
  gather's clamp `min v 999999` is `v`, and its row is the one the specification names. Hence
  `refTerm ids w [b, s, d] = w[ids[b, s], d] · scale`, the specification's lookup; the scale is the same binary word
  on both sides and is never evaluated.
-/
import proofs.«208012_g154618823073_cont_week2b_1161_14_alg».proof.Defs
import proofs.«208012_g154618823073_cont_week2b_1161_14_alg».proof.Proof.Gen.ReferenceIdeal
import proofs.«208012_g154618823073_cont_week2b_1161_14_alg».proof.Proof.Gen.Pre_input_domain
import proofs.«208012_g154618823073_cont_week2b_1161_14_alg».proof.Proof.Spec
import proofs.«208012_g154618823073_cont_week2b_1161_14_alg».proof.Proof.PreFacts
import Idealize.ShloMosaic.Lib.StableHlo.Run
import Idealize.ShloMosaic.Lib.ValueIdx

noncomputable section

namespace Cert.Proof.Ref

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The program as a list of operations -/

/-- The reference's twenty-six operations in order, the two nested calls written out at their call sites over the
    buffers of the call records: the take's twenty-three (its select the inner call's one operation), then the scale
    constant, its broadcast and the product. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 1000000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 999999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S1000000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    nullary main_cst (constant S_ .f32 0x413504F3#32),
    unary main_cst main_v1 (broadcastInDim S4096x50x128 ![] bcast_S_S4096x50x128 : (⟨S_, .f32⟩ : BufTy).Contents (Elt F) → (⟨S4096x50x128, .f32⟩ : BufTy).Contents (Elt F)),
    binary main_v0 main_v1 main_v2 (mulf : (⟨S4096x50x128, .f32⟩ : BufTy).Contents (Elt F) → (⟨S4096x50x128, .f32⟩ : BufTy).Contents (Elt F) → (⟨S4096x50x128, .f32⟩ : BufTy).Contents (Elt F)) ]

set_option maxRecDepth 1024 in
/-- The program is that straight line: the called functions' bodies put in place of the calls, sequencing
    reassociated. -/
theorem main_eq (c : Dev nD) : main (F := F) c = seq ops := by
  simp only [main, fn_take.body, fn_where.body, seq, bind_assoc, pure_bind]

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-- From any memory with zero counters every weakly fair execution terminates, each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The pieces of the reference read at an index -/

/-- A left fold by `and` over one-bit words that are all 1, from 1, is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by `and`, from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A nonnegative index word is not wrapped around. -/
theorem wrap_eq {v : BitVec 32} (h0 : 0 ≤ v.toInt) :
    Scalar.select (IntOp.cmpi .slt v 0#32) (IntOp.addi v 1000000#32) v = v := by
  have hc : ¬IntOp.cmpi .slt v 0#32 = 1#1 := by
    rw [IntOp.cmpi_slt, show (0#32 : BitVec 32).toInt = 0 from by decide]; omega
  rw [eq_zero_of_ne_one hc, select_zero]

/-- A word in `[0, 999999]` signed: its signed reading, as a natural number, is its unsigned reading, below 1000000. -/
theorem toInt_toNat {v : BitVec 32} (h0 : 0 ≤ v.toInt) (h1 : v.toInt ≤ 999999) :
    v.toInt.toNat = v.toNat ∧ v.toNat < 1000000 := by
  have hlt := v.isLt
  unfold BitVec.toInt at h0 h1 ⊢
  split at h0 <;> omega

local notation "G" => gather_S1000000x128_S4096x50x1_S4096x50x128_2_0_n_n_0_2_1128

/-- THE GATHER READ AT `(b, s, d)`: the table at row `idx[b, s, 0]`, read signed and clamped into `[0, 999999]`,
    feature `d`. -/
theorem gather_apply {α : Type} (w : S1000000x128.Idx → α) (idx : IVec S4096x50x1 32) (b : Fin 4096) (s : Fin 50) (d : Fin 128) :
    Host.gather G w idx (ix3 b s d)
      = w (ix2 (⟨min (idx (ix3 b s (0 : Fin 1))).toInt.toNat 999999, by omega⟩ : Fin 1000000) d) := by
  unfold Host.gather
  refine congrArg w (funext fun a => Fin.ext ?_)
  match a with
  | ⟨0, _⟩ =>
    show GatherDims.start G (ix3 b s d) idx ⟨0, _⟩ + GatherDims.batchCoord G (ix3 b s d) ⟨0, _⟩ + GatherDims.offCoord G (ix3 b s d) ⟨0, _⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ GatherDims.startIndexMap G from List.mem_singleton.mpr rfl)]
    have hsi : GatherDims.siIdx G (ix3 b s d) ⟨List.idxOf (⟨0, by decide⟩ : Fin 2) (GatherDims.startIndexMap G),
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start G (ix3 b s d) idx ⟨1, _⟩ + GatherDims.batchCoord G (ix3 b s d) ⟨1, _⟩ + GatherDims.offCoord G (ix3 b s d) ⟨1, _⟩ = _
    rw [GatherDims.batchCoord_eq_zero _ _ _ List.not_mem_nil]
    unfold GatherDims.start
    rw [dif_neg (show ¬(⟨1, by decide⟩ : Fin 2) ∈ GatherDims.startIndexMap G from by decide)]
    unfold GatherDims.offCoord
    rw [dif_pos (show (⟨1, by decide⟩ : Fin 2) ∈ GatherDims.sKept G from by decide)]
    simp only [Nat.zero_add]
    rfl

/-! ## The reference's result as one term of the two argument arrays -/

/-- The index words after the wrap-around of negative ones: `v + 1000000` where `v < 0`, else `v`. -/
def wrapped (ids : IVec S4096x50 32) : IVec S4096x50 32 :=
  select (cmpi .slt ids (broadcastInDim S4096x50 ![] bcast_S_S4096x50 (constantI S_ 32 0#32)))
    (addi ids (broadcastInDim S4096x50 ![] bcast_S_S4096x50 (constantI S_ 32 1000000#32))) ids

/-- The gather's start indices: the wrapped words with a trailing unit axis. -/
def start3 (ids : IVec S4096x50 32) : IVec S4096x50x1 32 :=
  broadcastInDim S4096x50x1 ![0, 1] bcast_S4096x50_S4096x50x1_0_1 (wrapped ids)

/-- Per start index, whether it lies in `[0, 999999]`. -/
def inRange (ids : IVec S4096x50 32) : IVec S4096x50x1 1 :=
  andi (cmpi .sge (start3 ids) (broadcastInDim S4096x50x1 ![] bcast_S_S4096x50x1 (constantI S_ 32 0#32)))
    (cmpi .sle (start3 ids) (broadcastInDim S4096x50x1 ![0, 1, 2] bcast_S1x1x1_S4096x50x1_0_1_2
      (broadcastInDim S1x1x1 ![2] bcast_S1_S1x1x1_2 (constantI S1 32 999999#32))))

/-- Per position, whether its index is in range: `inRange` and-reduced over the trailing unit axis. -/
def mask (ids : IVec S4096x50 32) : IVec S4096x50 1 :=
  Host.reduce IntOp.andi (inRange ids) (constantI S_ 1 1#1) reducesTo_S4096x50x1_S4096x50_d2 h_S_

/-- What the reference computes: the gathered rows where the index is in range, the quiet-NaN word elsewhere, times
    the broadcast scale. -/
def refTerm (ids : IVec S4096x50 32) (w : FVec F S1000000x128 .f32) : FVec F S4096x50x128 .f32 :=
  mulf (select (broadcastInDim S4096x50x128 ![0, 1] bcast_S4096x50_S4096x50x128_0_1 (mask ids))
      (Host.gather G w (start3 ids))
      (broadcastInDim S4096x50x128 ![] bcast_S_S4096x50x128 (constant S_ .f32 0x7FC00000#32)))
    (broadcastInDim S4096x50x128 ![] bcast_S_S4096x50x128 (constant S_ .f32 0x413504F3#32))

attribute [local irreducible] Host.reduce Host.gather in
/-- The fold of the operations at the result buffer is that term of the argument buffers' contents: each operation's
    result read at its own buffer, every other buffer left as it was. -/
theorem out_eq (V : Valuation τ sig (Elt F)) :
    after ops V (main_v2 : DevRef τ sig) = refTerm (V (main_arg0 : DevRef τ sig)) (V (main_arg1 : DevRef τ sig)) := by
  after_results
  rfl

/-- No operation writes the index array … -/
theorem arg0_eq (V : Valuation τ sig (Elt F)) : after ops V (main_arg0 : DevRef τ sig) = V (main_arg0 : DevRef τ sig) := by
  after_results

/-- … nor the table. -/
theorem arg1_eq (V : Valuation τ sig (Elt F)) : after ops V (main_arg1 : DevRef τ sig) = V (main_arg1 : DevRef τ sig) := by
  after_results

/-! ## The term read at an index, under the precondition -/

section Value

variable (ids : IVec S4096x50 32) (hids : ∀ j, 0 ≤ (ids j).toInt ∧ (ids j).toInt ≤ 999999)
include hids

/-- No index word is negative, so none is wrapped. -/
theorem wrapped_apply (j : S4096x50.Idx) : wrapped ids j = ids j := wrap_eq (hids j).1

/-- The start index at `(b, s, 0)` is the index word at `(b, s)`. -/
theorem start3_apply (k : S4096x50x1.Idx) : start3 ids k = ids (ix2 (k 0) (k 1)) := by
  have e : start3 ids k = wrapped ids (ix2 (k 0) (k 1)) := by
    unfold start3 broadcastInDim
    refine congrArg (wrapped ids) (funext fun a => ?_)
    match a with
    | ⟨0, _⟩ => rfl
    | ⟨1, _⟩ => rfl
  rw [e]
  exact wrapped_apply ids hids _

/-- Every start index is in range. -/
theorem inRange_one (k : S4096x50x1.Idx) : inRange ids k = 1#1 := by
  show IntOp.andi (IntOp.cmpi .sge (start3 ids k) 0#32) (IntOp.cmpi .sle (start3 ids k) 999999#32) = 1#1
  rw [start3_apply ids hids k]
  refine IntOp.andi_eq_one.2 ⟨IntOp.cmpi_sge.2 ?_, IntOp.cmpi_sle.2 ?_⟩
  · rw [show (0#32 : BitVec 32).toInt = 0 from by decide]; exact (hids _).1
  · rw [show (999999#32 : BitVec 32).toInt = 999999 from by decide]; exact (hids _).2

/-- So the mask is 1 at every position. -/
theorem mask_one (j : S4096x50.Idx) : mask ids j = 1#1 :=
  reduce_andi_ones _ _ _ _ (inRange_one ids hids) (fun _ => rfl) j

/-- The gathered row at `(b, s)` is the table row the index word names. -/
theorem gather_row {α : Type} (w : S1000000x128.Idx → α) (b : Fin 4096) (s : Fin 50) (d : Fin 128) :
    Host.gather G w (start3 ids) (ix3 b s d) = w (ix2 (Cert.Spec.rowOf (ids (ix2 b s))) d) := by
  rw [gather_apply]
  refine congrArg w ?_
  obtain ⟨e, hlt⟩ := toInt_toNat (hids (ix2 b s)).1 (hids (ix2 b s)).2
  have hs : start3 ids (ix3 b s (0 : Fin 1)) = ids (ix2 b s) := start3_apply ids hids _
  refine congrArg (fun r : Fin 1000000 => ix2 r d) (Fin.ext ?_)
  show min (start3 ids (ix3 b s (0 : Fin 1))).toInt.toNat 999999 = (Cert.Spec.rowOf (ids (ix2 b s))).val
  rw [hs, e, Cert.Spec.rowOf_val hlt]
  omega

/-- THE REFERENCE IS THE LOOKUP: under the precondition the reference's term is the specification, index by index. -/
theorem refTerm_eq (w : FVec Ideal S1000000x128 .f32) : refTerm (F := Ideal) ids w = Cert.Spec.lookup (F := Ideal) ids w := by
  funext j
  obtain ⟨b, s, d, rfl⟩ : ∃ (b : Fin 4096) (s : Fin 50) (d : Fin 128), j = ix3 b s d := ⟨j 0, j 1, j 2, eq_ix3 j⟩
  rw [Cert.Spec.lookup_apply]
  unfold refTerm
  rw [mulf_apply, select_apply]
  rw [show broadcastInDim S4096x50x128 ![0, 1] bcast_S4096x50_S4096x50x128_0_1 (mask ids) (ix3 b s d) = 1#1 from mask_one ids hids _,
    select_one, gather_row ids hids]
  rfl

end Value

/-! ## The run -/

/-- Every weakly fair execution of the reference from a memory satisfying the precondition terminates with the result
    buffer at the lookup of the two argument arrays and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Spec.lookup (F := Ideal) (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run defs _ _).mono (fun _ h c =>
      ⟨(h c main_v2).trans ((out_eq _).trans (refTerm_eq _ (Cert.Proof.PreFacts.ids_lt _ _ (hpre c)) _)),
        (h c main_arg0).trans (arg0_eq _), (h c main_arg1).trans (arg1_eq _)⟩)
    (run_main m ρ)

end Cert.Proof.Ref

end
-- ==== Proof.Common.lean ====
/-
  Names shared by the modules about the idealized kernel: the program as its launch theorem sees it, the ghost state
  (the handshakes' rounds beside the transfers' counters), the kernel's arrays and scratch as its tasks address
  them, and the thread of the task at grid coordinates `L` (SparseCore `L 0`, vector subcore `L 1`).
-/
import proofs.«208012_g154618823073_cont_week2b_1161_14_alg».proof.Defs
import proofs.«208012_g154618823073_cont_week2b_1161_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Ring
import Idealize.ShloMosaic.Lib.Tactic
import proofs.«208012_g154618823073_cont_week2b_1161_14_alg».proof.Proof.Gen.KernelIdeal
import proofs.«208012_g154618823073_cont_week2b_1161_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the scratch, as a task addresses them -/

/-- The index array as @main hands it over (one row of fifty lists of 128 words per task), the table, the flat result. -/
abbrev idsW : Memref sig .scVector .hbm S32x50x128 .i32 := Memref.whole main_v1_scv
abbrev tabW : Memref sig .scVector .hbm S1000000x128 .f32 := Memref.whole main_arg1_scv
abbrev outW : Memref sig .scVector .hbm S204800x128 .f32 := Memref.whole main_v2_scv
/-- A task's index lists and its five row buffers. -/
abbrev lstW : Memref sig .scVector .vmem S50x128 .i32 := Memref.whole cc0_scratch0
abbrev bufW0 : Memref sig .scVector .vmem S128x128 .f32 := Memref.whole cc0_scratch1
abbrev bufW1 : Memref sig .scVector .vmem S128x128 .f32 := Memref.whole cc0_scratch2
abbrev bufW2 : Memref sig .scVector .vmem S128x128 .f32 := Memref.whole cc0_scratch3
abbrev bufW3 : Memref sig .scVector .vmem S128x128 .f32 := Memref.whole cc0_scratch4
abbrev bufW4 : Memref sig .scVector .vmem S128x128 .f32 := Memref.whole cc0_scratch5

abbrev idsLoc (d : Dev nD) : Loc nD τ sig := (SparseCore.T d).loc main_v1
abbrev tabLoc (d : Dev nD) : Loc nD τ sig := (SparseCore.T d).loc main_arg1
abbrev outLoc (d : Dev nD) : Loc nD τ sig := (SparseCore.T d).loc main_v2

/-- The task at grid coordinates `L`: its SparseCore, its vector subcore, its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The kernel's function at the arguments the body table passes it. -/
abbrev kernelAt [FloatOps F] (L : grid0.Coords) :=
  cc0_sc_kernel (F := F) L idsW (Memref.isWhole_whole _) tabW (Memref.isWhole_whole _) outW (Memref.isWhole_whole _)
    lstW (Memref.isWhole_whole _) bufW0 (Memref.isWhole_whole _) bufW1 (Memref.isWhole_whole _) bufW2 (Memref.isWhole_whole _)
    bufW3 (Memref.isWhole_whole _) bufW4 (Memref.isWhole_whole _)
    cc0_scratch6 cc0_scratch7 cc0_scratch8 cc0_scratch9 cc0_scratch10 cc0_scratch11 cc0_scratch12 cc0_scratch13 cc0_scratch14 cc0_scratch15
    cc0_scoped0 cc0_scoped1

end Cert.Proof.KI

end
-- ==== Proof.Flat.lean ====
/-
  The lookup in the order the kernel's tasks write it, and its agreement with the specification.

  The kernel receives the index array transposed and cut into 32 tasks × 50 lists × 128 entries, and writes a flat
  array of 204800 rows: row `n` is the table row named by entry `n mod 128` of list `(n mod 6400) / 128` of task
  `n / 6400`, scaled. Reading the flat array as `[50, 4096, 128]` and exchanging the first two axes gives the
  specification's `[4096, 50, 128]` array: position `n = s · 4096 + b` of the flat order is entry `(b, s)` of the
  index array.
-/
import proofs.«208012_g154618823073_cont_week2b_1161_14_alg».proof.Proof.Spec

noncomputable section

namespace Cert.Spec

open Idealize.ShloMosaic Idealize.ShloMosaic.ValueIdx

variable {F : FTy → Type} [FloatOps F]

abbrev SIdsT : Shape := ⟨2, ![50, 4096]⟩
abbrev SLst : Shape := ⟨3, ![32, 50, 128]⟩
abbrev SFlat : Shape := ⟨2, ![204800, 128]⟩
abbrev SOutT : Shape := ⟨3, ![50, 4096, 128]⟩

/-- Row `n` of the flat order, as (task, list, entry). -/
def lstIdx (n : Fin 204800) : SLst.Idx :=
  ix3 (⟨n.val / 6400, by have := n.isLt; omega⟩ : Fin 32) (⟨n.val % 6400 / 128, by omega⟩ : Fin 50) (⟨n.val % 128, by omega⟩ : Fin 128)

/-- The lookup over the task-ordered index lists: `flat[n, d] = w[lst[n / 6400, (n mod 6400) / 128, n mod 128], d] · scale`. -/
def flatLookup (lst : IVec SLst 32) (w : FVec F STab .f32) : FVec F SFlat .f32 :=
  fun z => FloatOps.mulf (w (ix2 (rowOf (lst (lstIdx (z 0)))) (z 1))) scale

theorem flatLookup_apply (lst : IVec SLst 32) (w : FVec F STab .f32) (n : Fin 204800) (d : Fin 128) :
    flatLookup lst w (ix2 n d) = FloatOps.mulf (w (ix2 (rowOf (lst (lstIdx n))) d)) scale := rfl

end Cert.Spec

end
-- ==== Proof.Pay.lean ====
import proofs.«208012_g154618823073_cont_week2b_1161_14_alg».proof.Proof.Common
import proofs.«208012_g154618823073_cont_week2b_1161_14_alg».proof.Proof.Flat

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

/-! ## Shares: the full share halved five times, one leaf per task -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The number of the task on SparseCore `c`, vector subcore `i`: `2 i + c`, the order the kernel numbers its workers in. -/
def wid (c : Fin 2) (i : Fin 16) : Fin 32 := ⟨2 * i.val + c.val, by omega⟩

/-- Task `(c, i)`'s read share of an array every task reads whole. -/
abbrev tileShare (c : Fin 2) (i : Fin 16) : PosShare TreeShare := leaf 5 fullShare (wid c i)

/-! ## The result's row blocks: 1600 blocks of 128 rows, fifty to a task -/

theorem odiv : 1600 ∣ S204800x128.size 0 := ⟨128, rfl⟩
abbrev oPart (t : Fin 1600) : Rect S204800x128 := Rect.part (s := S204800x128) (a₀ := 0) odiv t
abbrev oSet (t : Fin 1600) : Finset S204800x128.Idx := ((outM).view.slice (oPart t)).set
/-- Block `g` of task `(c, i)`: block `50 (2 i + c) + g` of the result. -/
def tix (c : Fin 2) (i : Fin 16) (g : Fin 50) : Fin 1600 := ⟨50 * (wid c i).val + g.val, by have := (wid c i).isLt; omega⟩

/-! ## The launch memory: what the kernel is handed and what it leaves -/

variable (m : (ℓ : Loc nD τ sig) → Buf (Elt F) ℓ) (ρ : Dev nD → PrngReg)

abbrev argLoc0 (d : Dev nD) : Loc nD τ sig := (SparseCore.T d).loc main_arg0
abbrev resLoc (d : Dev nD) : Loc nD τ sig := (SparseCore.T d).loc main_v4

/-- The index lists as @main's two layout operations leave them: the index array transposed, then cut into 32 × 50 × 128. -/
def lists (d : Dev nD) : Buf (Elt F) (idsLoc d) :=
  shapeCast S32x50x128 (transpose S50x4096 [1, 0] (m (argLoc0 d)) Cert.KernelIdeal.Gen.transposes_S4096x50_S50x4096_1_0)
    Cert.KernelIdeal.Gen.shapeCasts_S50x4096_S32x50x128

/-- What the tasks leave in the flat result: the lookup in task order. -/
def flatRes (d : Dev nD) : Buf (Elt F) (outLoc d) := Cert.Spec.flatLookup (F := F) (lists m d) (m (tabLoc d))

/-- What the proof asks of the launch memory: every index word names a row of the table. -/
def PreOK : Prop := ∀ (d : Dev nD) (j : S4096x50.Idx), (m (argLoc0 d) j).toNat < 1000000

/-! ## What the handshakes carry -/

abbrev idsSh (d : Dev nD) (c : Fin 2) (i : Fin 16) : sProp 𝕄 := idsLoc d ↦{tileShare c i} lists m d
abbrev tabSh (d : Dev nD) (c : Fin 2) (i : Fin 16) : sProp 𝕄 := tabLoc d ↦{tileShare c i} m (tabLoc d)
abbrev outBlk (d : Dev nD) (t : Fin 1600) (f : Buf (Elt F) (outLoc d)) : sProp 𝕄 := outLoc d ↦[oSet t]{fullShare} f

/-- What task `(c, i)` is handed: a read share of the index lists and of the table, and its fifty blocks of the result at
    whatever they hold; -/
abbrev goRes (d : Dev nD) (c : Fin 2) (i : Fin 16) : sProp 𝕄 :=
  iprop(idsSh m d c i ∗ tabSh m d c i ∗ bigSep Finset.univ fun g : Fin 50 => iprop(∃ f, outBlk d (tix c i g) f))
/-- and what it hands back: the shares, and its blocks at the lookup. -/
abbrev tdRes (d : Dev nD) (c : Fin 2) (i : Fin 16) : sProp 𝕄 :=
  iprop(idsSh m d c i ∗ tabSh m d c i ∗ bigSep Finset.univ fun g : Fin 50 => outBlk d (tix c i g) (flatRes m d))

/-- The one call hands each SparseCore its sixteen tasks' resources, and takes the tasks' back. -/
def P : (K (F := F)).Pay (nD := nD) (Val := Elt F) (Name := ℕ) (U := UU) where
  st := fun q d c => match q with
    | 0 => bigSep Finset.univ fun i : Fin 16 => goRes m d (Fin.cast nCore_zero c) i
  dn := fun q d c => match q with
    | 0 => bigSep Finset.univ fun i : Fin 16 => tdRes m d (Fin.cast nCore_zero c) i
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KI

end
-- ==== Proof.Word.Common.lean ====
/-
  Names shared by the modules about the idealized kernel: the program as its launch theorem sees it, the ghost state
  (the handshakes' rounds beside the transfers' counters), the kernel's arrays and scratch as its tasks address
  them, and the thread of the task at grid coordinates `L` (SparseCore `L 0`, vector subcore `L 1`).
-/
import proofs.«208012_g154618823073_cont_week2b_1161_14_alg».proof.Defs
import proofs.«208012_g154618823073_cont_week2b_1161_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Ring
import Idealize.ShloMosaic.Lib.Tactic
import proofs.«208012_g154618823073_cont_week2b_1161_14_alg».proof.Proof.Gen.Kernel
import proofs.«208012_g154618823073_cont_week2b_1161_14_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the scratch, as a task addresses them -/

/-- The index array as @main hands it over (one row of fifty lists of 128 words per task), the table, the flat result. -/
abbrev idsW : Memref sig .scVector .hbm S32x50x128 .i32 := Memref.whole main_v1_scv
abbrev tabW : Memref sig .scVector .hbm S1000000x128 .f32 := Memref.whole main_arg1_scv
abbrev outW : Memref sig .scVector .hbm S204800x128 .f32 := Memref.whole main_v2_scv
/-- A task's index lists and its five row buffers. -/
abbrev lstW : Memref sig .scVector .vmem S50x128 .i32 := Memref.whole cc0_scratch0
abbrev bufW0 : Memref sig .scVector .vmem S128x128 .f32 := Memref.whole cc0_scratch1
abbrev bufW1 : Memref sig .scVector .vmem S128x128 .f32 := Memref.whole cc0_scratch2
abbrev bufW2 : Memref sig .scVector .vmem S128x128 .f32 := Memref.whole cc0_scratch3
abbrev bufW3 : Memref sig .scVector .vmem S128x128 .f32 := Memref.whole cc0_scratch4
abbrev bufW4 : Memref sig .scVector .vmem S128x128 .f32 := Memref.whole cc0_scratch5

abbrev idsLoc (d : Dev nD) : Loc nD τ sig := (SparseCore.T d).loc main_v1
abbrev tabLoc (d : Dev nD) : Loc nD τ sig := (SparseCore.T d).loc main_arg1
abbrev outLoc (d : Dev nD) : Loc nD τ sig := (SparseCore.T d).loc main_v2

/-- The task at grid coordinates `L`: its SparseCore, its vector subcore, its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The kernel's function at the arguments the body table passes it. -/
abbrev kernelAt [FloatOps F] (L : grid0.Coords) :=
  cc0_sc_kernel (F := F) L idsW (Memref.isWhole_whole _) tabW (Memref.isWhole_whole _) outW (Memref.isWhole_whole _)
    lstW (Memref.isWhole_whole _) bufW0 (Memref.isWhole_whole _) bufW1 (Memref.isWhole_whole _) bufW2 (Memref.isWhole_whole _)
    bufW3 (Memref.isWhole_whole _) bufW4 (Memref.isWhole_whole _)
    cc0_scratch6 cc0_scratch7 cc0_scratch8 cc0_scratch9 cc0_scratch10 cc0_scratch11 cc0_scratch12 cc0_scratch13 cc0_scratch14 cc0_scratch15
    cc0_scoped0 cc0_scoped1

end Cert.Proof.KW

end
-- ==== Proof.Word.Pay.lean ====
import proofs.«208012_g154618823073_cont_week2b_1161_14_alg».proof.Proof.Word.Common
import proofs.«208012_g154618823073_cont_week2b_1161_14_alg».proof.Proof.Flat

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

/-! ## Shares: the full share halved five times, one leaf per task -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The number of the task on SparseCore `c`, vector subcore `i`: `2 i + c`, the order the kernel numbers its workers in. -/
def wid (c : Fin 2) (i : Fin 16) : Fin 32 := ⟨2 * i.val + c.val, by omega⟩

/-- Task `(c, i)`'s read share of an array every task reads whole. -/
abbrev tileShare (c : Fin 2) (i : Fin 16) : PosShare TreeShare := leaf 5 fullShare (wid c i)

/-! ## The result's row blocks: 1600 blocks of 128 rows, fifty to a task -/

theorem odiv : 1600 ∣ S204800x128.size 0 := ⟨128, rfl⟩
abbrev oPart (t : Fin 1600) : Rect S204800x128 := Rect.part (s := S204800x128) (a₀ := 0) odiv t
abbrev oSet (t : Fin 1600) : Finset S204800x128.Idx := ((outM).view.slice (oPart t)).set
/-- Block `g` of task `(c, i)`: block `50 (2 i + c) + g` of the result. -/
def tix (c : Fin 2) (i : Fin 16) (g : Fin 50) : Fin 1600 := ⟨50 * (wid c i).val + g.val, by have := (wid c i).isLt; omega⟩

/-! ## The launch memory: what the kernel is handed and what it leaves -/

variable (m : (ℓ : Loc nD τ sig) → Buf (Elt F) ℓ) (ρ : Dev nD → PrngReg)

abbrev argLoc0 (d : Dev nD) : Loc nD τ sig := (SparseCore.T d).loc main_arg0
abbrev resLoc (d : Dev nD) : Loc nD τ sig := (SparseCore.T d).loc main_v4

/-- The index lists as @main's two layout operations leave them: the index array transposed, then cut into 32 × 50 × 128. -/
def lists (d : Dev nD) : Buf (Elt F) (idsLoc d) :=
  shapeCast S32x50x128 (transpose S50x4096 [1, 0] (m (argLoc0 d)) Cert.Kernel.Gen.transposes_S4096x50_S50x4096_1_0)
    Cert.Kernel.Gen.shapeCasts_S50x4096_S32x50x128

/-- What the tasks leave in the flat result: the lookup in task order. -/
def flatRes (d : Dev nD) : Buf (Elt F) (outLoc d) := Cert.Spec.flatLookup (F := F) (lists m d) (m (tabLoc d))

/-- What the proof asks of the launch memory: every index word names a row of the table. -/
def PreOK : Prop := ∀ (d : Dev nD) (j : S4096x50.Idx), (m (argLoc0 d) j).toNat < 1000000

/-! ## What the handshakes carry -/

abbrev idsSh (d : Dev nD) (c : Fin 2) (i : Fin 16) : sProp 𝕄 := idsLoc d ↦{tileShare c i} lists m d
abbrev tabSh (d : Dev nD) (c : Fin 2) (i : Fin 16) : sProp 𝕄 := tabLoc d ↦{tileShare c i} m (tabLoc d)
abbrev outBlk (d : Dev nD) (t : Fin 1600) (f : Buf (Elt F) (outLoc d)) : sProp 𝕄 := outLoc d ↦[oSet t]{fullShare} f

/-- What task `(c, i)` is handed: a read share of the index lists and of the table, and its fifty blocks of the result at
    whatever they hold; -/
abbrev goRes (d : Dev nD) (c : Fin 2) (i : Fin 16) : sProp 𝕄 :=
  iprop(idsSh m d c i ∗ tabSh m d c i ∗ bigSep Finset.univ fun g : Fin 50 => iprop(∃ f, outBlk d (tix c i g) f))
/-- and what it hands back: the shares, and its blocks at the lookup. -/
abbrev tdRes (d : Dev nD) (c : Fin 2) (i : Fin 16) : sProp 𝕄 :=
  iprop(idsSh m d c i ∗ tabSh m d c i ∗ bigSep Finset.univ fun g : Fin 50 => outBlk d (tix c i g) (flatRes m d))

/-- The one call hands each SparseCore its sixteen tasks' resources, and takes the tasks' back. -/
def P : (K (F := F)).Pay (nD := nD) (Val := Elt F) (Name := ℕ) (U := UU) where
  st := fun q d c => match q with
    | 0 => bigSep Finset.univ fun i : Fin 16 => goRes m d (Fin.cast nCore_zero c) i
  dn := fun q d c => match q with
    | 0 => bigSep Finset.univ fun i : Fin 16 => tdRes m d (Fin.cast nCore_zero c) i
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KW

end
-- ==== Proof.PreOK.lean ====
/-
  The precondition as the kernel's proof uses it: on every device each word of the index array, read unsigned, is
  below the number of table rows.

  The printed precondition says the predicate `input_domain` of the two argument arrays is all ones; that predicate's
  second conjunct bounds every index word between 0 and 999999 as a signed integer, and a word in that range reads
  the same unsigned. The two programs' preconditions are the same predicate at the two float instances.
-/
import proofs.«208012_g154618823073_cont_week2b_1161_14_alg».proof.Defs
import proofs.«208012_g154618823073_cont_week2b_1161_14_alg».proof.Proof.Gen.Pre_input_domain
import proofs.«208012_g154618823073_cont_week2b_1161_14_alg».proof.Proof.PreFacts
import proofs.«208012_g154618823073_cont_week2b_1161_14_alg».proof.Proof.Pay
import proofs.«208012_g154618823073_cont_week2b_1161_14_alg».proof.Proof.Word.Pay

namespace Cert.Proof

open Idealize.ShloMosaic

/-- The program as printed, at the bit-exact instance. -/
theorem preOK_KW (m : (ℓ : Loc Cert.Kernel.nD Cert.Kernel.τ Cert.Kernel.sig) → Buf (Elt Bits) ℓ)
    (h : Cert.Pre_Kernel (hPre_input_domain := Cert.Pre_input_domain.Gen.facts) m) : Cert.Proof.KW.PreOK (F := Bits) m :=
  fun d j => Cert.Proof.PreFacts.ids_toNat_lt (F := Bits) _ _ (h d) j

/-- The same text read at the ideal instance. -/
theorem preOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.Proof.KI.PreOK (F := Ideal) m :=
  fun d j => Cert.Proof.PreFacts.ids_toNat_lt (F := Ideal) _ _ (h d) j

end Cert.Proof
-- ==== Proof.LaunchSplit.lean ====
/-
  How the call's operands divide among the tasks and how the results gather.

  The index lists and the table are read by every task: each is held at the full share, which halved five times gives
  32 leaves, one per task; task `(c, i)` takes leaf `2 i + c`, and `(c, i) ↦ 2 i + c` is a bijection of
  `Fin 2 × Fin 16` with `Fin 32`. The flat result is cut along its rows into 1600 blocks of 128 rows, pairwise disjoint
  and covering it; task `(c, i)` takes blocks `50 (2 i + c) + g`, `g < 50`, and `(c, i, g) ↦ 50 (2 i + c) + g` is a
  bijection of `Fin 2 × Fin 16 × Fin 50` with `Fin 1600`.
-/
import proofs.«208012_g154618823073_cont_week2b_1161_14_alg».proof.Proof.Pay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)

/-! ## The two numberings are bijections -/

/-- `(c, i) ↦ 2 i + c`. -/
def widEquiv : Fin 2 × Fin 16 ≃ Fin 32 where
  toFun p := wid p.1 p.2
  invFun w := (⟨w.val % 2, by omega⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- `(c, i, g) ↦ 50 (2 i + c) + g`. -/
def tixEquiv : (Fin 2 × Fin 16) × Fin 50 ≃ Fin 1600 where
  toFun p := tix p.1.1 p.1.2 p.2
  invFun t := ((⟨t.val / 50 % 2, by omega⟩, ⟨t.val / 50 / 2, by have := t.isLt; omega⟩), ⟨t.val % 50, by omega⟩)
  left_inv p := by
    obtain ⟨⟨c, i⟩, g⟩ := p
    have hc := c.isLt
    have hi := i.isLt
    have hg := g.isLt
    refine Prod.ext (Prod.ext (Fin.ext ?_) (Fin.ext ?_)) (Fin.ext ?_)
    · show (50 * (2 * i.val + c.val) + g.val) / 50 % 2 = c.val
      omega
    · show (50 * (2 * i.val + c.val) + g.val) / 50 / 2 = i.val
      omega
    · show (50 * (2 * i.val + c.val) + g.val) % 50 = g.val
      omega
  right_inv t := by
    refine Fin.ext ?_
    show 50 * (2 * (t.val / 50 / 2) + t.val / 50 % 2) + t.val % 50 = t.val
    omega

/-- A family over the 32 task numbers, taken SparseCore by SparseCore and task by task. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod (fun p : Fin 2 × Fin 16 => Φ (widEquiv p))]
  rfl

/-- A family over the 1600 blocks, taken SparseCore by SparseCore, task by task and block by block. -/
theorem bigSep_tix (Φ : Fin 1600 → sProp 𝕄) :
    bigSep Finset.univ Φ
      = bigSep Finset.univ fun c : Fin 2 => bigSep Finset.univ fun i : Fin 16 => bigSep Finset.univ fun g : Fin 50 => Φ (tix c i g) := by
  rw [bigSep_univ_equiv tixEquiv Φ, bigSep_univ_prod (fun p : (Fin 2 × Fin 16) × Fin 50 => Φ (tixEquiv p)),
    bigSep_univ_prod (fun p : Fin 2 × Fin 16 => bigSep Finset.univ fun g : Fin 50 => Φ (tixEquiv (p, g)))]
  rfl

/-! ## A points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- An array every task reads whole, at the full share: the 32 tasks' shares of it. -/
theorem shares_split {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  exact (pointsTo_leaves Finset.univ f 5 fullShare).trans (bigSep_wid (F := F) (fun w : Fin 32 => (ℓ ↦{leaf 5 fullShare w} f : sProp 𝕄)))

/-! ## The result's 1600 row blocks are disjoint and cover it -/

theorem oSet_eq (t : Fin 1600) : oSet t = (oPart t).set := by
  show ((View.whole (main_v2_scv : Ref sig .scVector)).slice (oPart t)).set = _
  rw [View.set_slice]; exact Finset.map_refl
theorem oblocks_disjoint : ∀ i ∈ (Finset.univ : Finset (Fin 1600)), ∀ j ∈ (Finset.univ : Finset (Fin 1600)), i ≠ j → Disjoint (oSet i) (oSet j) :=
  fun i _ j _ h => by rw [oSet_eq, oSet_eq]; exact Rect.part_disjoint odiv h
theorem oblocks_cover : (Finset.univ : Finset (Fin 1600)).biUnion oSet = Finset.univ :=
  (Finset.biUnion_congr rfl fun i _ => oSet_eq i).trans (Rect.biUnion_part odiv)

/-- The flat result whole is its 1600 blocks, taken SparseCore by SparseCore, task by task, block by block. -/
theorem out_blocks (d : Dev nD) (f : Buf (Elt F) (outLoc d)) :
    (outLoc d ↦{fullShare} f : sProp 𝕄)
      = bigSep Finset.univ fun c : Fin 2 => bigSep Finset.univ fun i : Fin 16 => bigSep Finset.univ fun g : Fin 50 => outBlk d (tix c i g) f := by
  rw [← bigSep_tix (F := F) (fun t : Fin 1600 => outBlk d t f)]
  rw [← pointsTo_biUnion Finset.univ (ℓ := outLoc d) oSet oblocks_disjoint, oblocks_cover]; try rfl

/-! ## The three arrays whole are the tasks' resources -/

variable (m : (ℓ : Loc nD τ sig) → Buf (Elt F) ℓ)

/-- What the 32 tasks hold together when the result's blocks are at `f`. -/
abbrev parts (d : Dev nD) (f : Buf (Elt F) (outLoc d)) : sProp 𝕄 :=
  bigSep Finset.univ fun c : Fin 2 => bigSep Finset.univ fun i : Fin 16 =>
    iprop(idsSh m d c i ∗ tabSh m d c i ∗ bigSep Finset.univ fun g : Fin 50 => outBlk d (tix c i g) f)

/-- The index lists and the table at the full share and the flat result whole at `f` are exactly the tasks' resources. -/
theorem whole_parts (d : Dev nD) (f : Buf (Elt F) (outLoc d)) :
    (iprop((idsLoc d ↦{fullShare} lists m d) ∗ (tabLoc d ↦{fullShare} m (tabLoc d)) ∗ outLoc d ↦{fullShare} f) : sProp 𝕄)
      = parts m d f := by
  have inner (c : Fin 2) :
      (bigSep Finset.univ fun i : Fin 16 =>
          (iprop(idsSh m d c i ∗ tabSh m d c i ∗ bigSep Finset.univ fun g : Fin 50 => outBlk d (tix c i g) f) : sProp 𝕄))
        = iprop((bigSep Finset.univ fun i : Fin 16 => idsSh m d c i) ∗ (bigSep Finset.univ fun i : Fin 16 => tabSh m d c i)
            ∗ bigSep Finset.univ fun i : Fin 16 => bigSep Finset.univ fun g : Fin 50 => outBlk d (tix c i g) f) := by
    rw [bigSep_sep', bigSep_sep']
  unfold parts
  rw [bigSep_congr fun c _ => inner c, bigSep_sep', bigSep_sep']
  rw [shares_split (lists m d), shares_split (m (tabLoc d)), out_blocks d f]

/-! ## The payload's fields, and what the one call takes and hands back -/

theorem st_eq (d : Dev nD) (c : Fin ((K (F := F)).nCore 0)) :
    (P m).st 0 d c = bigSep Finset.univ fun i : Fin 16 => goRes m d (Fin.cast nCore_zero c) i := rfl
theorem dn_eq (d : Dev nD) (c : Fin ((K (F := F)).nCore 0)) :
    (P m).dn 0 d c = bigSep Finset.univ fun i : Fin 16 => tdRes m d (Fin.cast nCore_zero c) i := rfl
theorem go_eq (d : Dev nD) (c : Fin ((K (F := F)).nCore 0)) (i : Fin ((K (F := F)).nSub 0)) :
    (P m).go 0 d c i = goRes m d (Fin.cast nCore_zero c) (Fin.cast nSub_zero i) := rfl
theorem td_eq (d : Dev nD) (c : Fin ((K (F := F)).nCore 0)) (i : Fin ((K (F := F)).nSub 0)) :
    (P m).td 0 d c i = tdRes m d (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands back for the two SparseCores: the tasks' resources with the blocks at the lookup. -/
theorem dn_all (d : Dev nD) :
    (bigSep Finset.univ fun c : Fin ((K (F := F)).nCore 0) => (P m).dn 0 d c) = parts m d (flatRes m d) := by
  rw [bigSep_congr fun c _ => dn_eq m d c]
  exact bigSep_cores (F := F) (fun c => bigSep Finset.univ fun i : Fin 16 => tdRes m d c i)

/-- What the call takes: the tasks' resources, the blocks at whatever the result array holds. -/
theorem st_all (d : Dev nD) (f : Buf (Elt F) (outLoc d)) :
    parts m d f ⊢ bigSep Finset.univ fun c : Fin ((K (F := F)).nCore 0) => (P m).st 0 d c := by
  rw [bigSep_congr fun c _ => st_eq m d c,
    bigSep_cores (F := F) (fun c => bigSep Finset.univ fun i : Fin 16 => goRes m d c i)]
  refine bigSep_mono fun c _ => bigSep_mono fun i _ => ?_
  have hblk : (bigSep Finset.univ fun g : Fin 50 => outBlk d (tix c i g) f)
      ⊢ (bigSep Finset.univ fun g : Fin 50 => (iprop(∃ f', outBlk d (tix c i g) f') : sProp 𝕄)) :=
    bigSep_mono fun g _ => by
      show _ ⊢ (iprop(∃ f', outBlk d (tix c i g) f') : sProp 𝕄)
      iintro H; iexists f; iexact H
  show _ ⊢ goRes m d c i
  iintro ⟨Hi, Ht, Ho⟩
  isplitl [Hi]; · iexact Hi
  isplitl [Ht]; · iexact Ht
  iapply hblk; iexact Ho

/-! ## A SparseCore's operands are its sixteen tasks', and its results theirs -/

theorem vecSplit : (K (F := F)).VecSplit' (P m) 0 := by
  intro d c
  rw [st_eq, dn_eq, bigSep_congr fun i _ => go_eq m d c i, bigSep_congr fun i _ => td_eq m d c i,
    bigSep_tasks (F := F) (fun i => goRes m d (Fin.cast nCore_zero c) i),
    bigSep_tasks (F := F) (fun i => tdRes m d (Fin.cast nCore_zero c) i)]
  iintro H; imodintro
  isplitl [H]; · iexact H
  iintro H; iexact H

end Cert.Proof.KI

end
-- ==== Proof.FlatBridge.lean ====
/-
  The task-ordered lookup, laid back out, is the specification's lookup.

  The index array transposed has entry `ids[b, s]` at `[s, b]`; cut row-major into `[32, 50, 128]` lists, its entry at flat
  position `n = s · 4096 + b` is list entry `(n / 6400, (n mod 6400) / 128, n mod 128)`, because
  `((n / 6400) · 50 + (n mod 6400) / 128) · 128 + n mod 128 = n`. The flat result `[204800, 128]` read row-major as
  `[50, 4096, 128]` has row `n = s · 4096 + b` at `[s, b, ·]`, and exchanging the first two axes puts it at `[b, s, ·]`.
-/
import proofs.«208012_g154618823073_cont_week2b_1161_14_alg».proof.Proof.Flat
import Idealize.ShloMosaic.Lib.Pipeline.Value
import Idealize.ShloMosaic.Lib.ValueLayout

noncomputable section

namespace Cert.Spec

open Idealize.ShloMosaic Idealize.ShloMosaic.ValueIdx

variable {F : FTy → Type} [FloatOps F]

/-- The flat position of entry `(b, s)` of the index array: `s · 4096 + b`. -/
def flatPos (b : Fin 4096) (s : Fin 50) : Fin 204800 :=
  ⟨s.val * 4096 + b.val, by have := b.isLt; have := s.isLt; omega⟩

theorem flatPos_val (b : Fin 4096) (s : Fin 50) : (flatPos b s).val = s.val * 4096 + b.val := rfl

/-- The list entry the flat order reads at position `s · 4096 + b` is `ids[b, s]`. -/
theorem lists_at_flatPos (ids : IVec SIds 32) (hT : SIds.Transposes [1, 0] SIdsT) (hC : SIdsT.ShapeCasts SLst)
    (b : Fin 4096) (s : Fin 50) :
    shapeCast SLst (transpose SIdsT [1, 0] ids hT) hC (lstIdx (flatPos b s)) = ids (ix2 b s) := by
  have hb := b.isLt
  have hs := s.isLt
  refine (shapeCast_apply _ hC _ (ix2 s b) ?_).trans ?_
  · rw [Shape.rowMajor_val_two, Shape.rowMajor_val_three]
    show s.val * 4096 + b.val
      = ((s.val * 4096 + b.val) / 6400 * 50 + (s.val * 4096 + b.val) % 6400 / 128) * 128 + (s.val * 4096 + b.val) % 128
    omega
  · exact transpose_ix2_apply ids hT s b

/-- The flat result, read as `[50, 4096, 128]` and with its first two axes exchanged, is the specification's lookup. -/
theorem flat_bridge (ids : IVec SIds 32) (w : FVec F STab .f32)
    (hT : SIds.Transposes [1, 0] SIdsT) (hC : SIdsT.ShapeCasts SLst) (hC' : SFlat.ShapeCasts SOutT)
    (hT' : SOutT.Transposes [1, 0, 2] SOut) :
    transpose SOut [1, 0, 2] (shapeCast SOutT (flatLookup (shapeCast SLst (transpose SIdsT [1, 0] ids hT) hC) w) hC') hT'
      = lookup ids w := by
  funext j
  obtain ⟨b, s, d, rfl⟩ : ∃ (b : Fin 4096) (s : Fin 50) (d : Fin 128), j = ix3 b s d := ⟨j 0, j 1, j 2, eq_ix3 j⟩
  have hb := b.isLt
  have hs := s.isLt
  have hd := d.isLt
  rw [lookup_apply]
  refine (transpose_apply _ _ hT' _ (ix3 s b d) fun c => match c with | ⟨0, _⟩ => rfl | ⟨1, _⟩ => rfl | ⟨2, _⟩ => rfl).trans ?_
  refine (shapeCast_apply _ hC' _ (ix2 (flatPos b s) d) ?_).trans ?_
  · rw [Shape.rowMajor_val_two, Shape.rowMajor_val_three]
    show (s.val * 4096 + b.val) * 128 + d.val = (s.val * 4096 + b.val) * 128 + d.val
    rfl
  · rw [flatLookup_apply, lists_at_flatPos]

end Cert.Spec

end
-- ==== Proof.LaunchFacts.lean ====
/-
  The result @main leaves, as a term of the launch memory, and two facts about it.

  After the call the flat result is read as `[50, 4096, 128]` and its first two axes are exchanged; that array is the
  specification's lookup of the index array and the table. Every entry of the index lists is an entry of the index
  array, so it names a row of the table whenever every index word does.
-/
import proofs.«208012_g154618823073_cont_week2b_1161_14_alg».proof.Proof.Pay
import proofs.«208012_g154618823073_cont_week2b_1161_14_alg».proof.Proof.FlatBridge

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)

variable (m : (ℓ : Loc nD τ sig) → Buf (Elt F) ℓ)

/-- What @main leaves in its result: the flat result read as `[50, 4096, 128]`, first two axes exchanged. -/
def resOf (d : Dev nD) : Buf (Elt F) (resLoc d) :=
  transpose S4096x50x128 [1, 0, 2]
    (shapeCast S50x4096x128 (flatRes m d) Cert.KernelIdeal.Gen.shapeCasts_S204800x128_S50x4096x128)
    Cert.KernelIdeal.Gen.transposes_S50x4096x128_S4096x50x128_1_0_2

/-- It is the specification's lookup of the index array and the table. -/
theorem resOf_eq (d : Dev nD) : resOf m d = Cert.Spec.lookup (F := F) (m (argLoc0 d)) (m (tabLoc d)) := by
  unfold resOf flatRes lists
  exact Cert.Spec.flat_bridge (F := F) (m (argLoc0 d)) (m (tabLoc d)) _ _ _ _

/-- Every entry of the index lists is an entry of the index array. -/
theorem lists_lt (hpre : PreOK m) (d : Dev nD) : ∀ j : S32x50x128.Idx, (lists m d j).toNat < 1000000 := by
  intro j
  unfold lists shapeCast transpose
  exact hpre d _

end Cert.Proof.KI

end
-- ==== Proof.Launch.lean ====
/-
  The launch of the kernel's program: the ghost state's launch element, @main on the TensorCore, how the
  final memory reads the claim, and the run of the whole family of threads from one task's body.

  @main transposes the index array and cuts it into the 32 × 50 × 128 index lists, hands the two SparseCores their
  sixteen tasks' resources (a read share each of the lists and of the table, fifty row blocks each of the flat result),
  takes them back with the blocks at the lookup in task order, reads the flat result as `[50, 4096, 128]` and
  exchanges its first two axes. The index array and the table are unchanged throughout.
-/
import proofs.«208012_g154618823073_cont_week2b_1161_14_alg».proof.Proof.LaunchSplit
import proofs.«208012_g154618823073_cont_week2b_1161_14_alg».proof.Proof.LaunchFacts

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's arrays and its four layout operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S7 : Finset (DevRef τ sig) := {a0', a1', v0', v1', v2', v3', v4'}

abbrev v0Loc (d : Dev nD) : Loc nD τ sig := (SparseCore.T d).loc main_v0
abbrev v3Loc (d : Dev nD) : Loc nD τ sig := (SparseCore.T d).loc main_v3

/-- The index array transposed; -/
abbrev opT1 : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
/-- cut into the index lists; -/
abbrev opR1 : HloOp τ sig (Elt F) := StableHlo.reshape main_v0 main_v1 rfl shapeCasts_S50x4096_S32x50x128
/-- the flat result read as `[50, 4096, 128]`; -/
abbrev opR2 : HloOp τ sig (Elt F) := StableHlo.reshape main_v2 main_v3 rfl shapeCasts_S204800x128_S50x4096x128
/-- its first two axes exchanged. -/
abbrev opT2 : HloOp τ sig (Elt F) :=
  StableHlo.unary main_v3 main_v4 ((transpose S4096x50x128 [1, 0, 2] · transposes_S50x4096x128_S4096x50x128_1_0_2) :
    (⟨S50x4096x128, .f32⟩ : BufTy).Contents (Elt F) → (⟨S4096x50x128, .f32⟩ : BufTy).Contents (Elt F))

theorem hT1 : (opT1 (F := F)).bufs ⊆ S7 := show ({a0', v0'} : Finset (DevRef τ sig)) ⊆ S7 by decide
theorem hR1 : (opR1 (F := F)).bufs ⊆ S7 := show ({v0', v1'} : Finset (DevRef τ sig)) ⊆ S7 by decide
theorem hR2 : (opR2 (F := F)).bufs ⊆ S7 := show ({v2', v3'} : Finset (DevRef τ sig)) ⊆ S7 by decide
theorem hT2 : (opT2 (F := F)).bufs ⊆ S7 := show ({v3', v4'} : Finset (DevRef τ sig)) ⊆ S7 by decide

omit [FloatOps F] in
theorem held_S7 (d : Dev nD) (W : Valuation τ sig (Elt F)) :
    (held (T d) S7 W : sProp 𝕄)
      = iprop((argLoc0 d ↦{fullShare} W a0') ∗ (tabLoc d ↦{fullShare} W a1') ∗ (v0Loc d ↦{fullShare} W v0') ∗ (idsLoc d ↦{fullShare} W v1')
          ∗ (outLoc d ↦{fullShare} W v2') ∗ (v3Loc d ↦{fullShare} W v3') ∗ resLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option maxHeartbeats 2000000 in
omit [FloatOps F] in
theorem unscopedBufs_eq (d : Dev nD) (W : (b : Ref sig .tc) → Buf (Elt F) ((d.tc : Thread nD τ).loc b)) :
    (unscopedBufs d W : sProp 𝕄)
      = iprop((argLoc0 d ↦{fullShare} W main_arg0) ∗ (tabLoc d ↦{fullShare} W main_arg1) ∗ (v0Loc d ↦{fullShare} W main_v0) ∗ (idsLoc d ↦{fullShare} W main_v1)
          ∗ (outLoc d ↦{fullShare} W main_v2) ∗ (v3Loc d ↦{fullShare} W main_v3) ∗ resLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The arrays' contents: at the launch, before the call, after it, at the end -/

/-- The launch contents; -/
abbrev V0 (d : Dev nD) : Valuation τ sig (Elt F) := fun b => m (d, b)
/-- after the two operations before the call; -/
abbrev W2 (d : Dev nD) : Valuation τ sig (Elt F) := (opR1 (F := F)).result ((opT1 (F := F)).result (V0 m d))
/-- after the call, the flat result at the lookup in task order; -/
abbrev W3 (d : Dev nD) : Valuation τ sig (Elt F) := Function.update (W2 m d) v2' (flatRes m d)
/-- after the two operations that follow it. -/
abbrev W5 (d : Dev nD) : Valuation τ sig (Elt F) := (opT2 (F := F)).result ((opR2 (F := F)).result (W3 m d))

theorem unscoped_held (d : Dev nD) : (unscopedBufs d (fun b => m ((SparseCore.T d).loc b)) : sProp 𝕄) = held (T d) S7 (V0 m d) := by
  rw [unscopedBufs_eq, held_S7]

theorem W2_a0 (d : Dev nD) : W2 m d a0' = m (argLoc0 d) := by
  show (opR1 (F := F)).result ((opT1 (F := F)).result (V0 m d)) a0' = _
  rw [(opR1 (F := F)).result_of_not_mem _ (b := a0') (show a0' ∉ ({v1'} : Finset (DevRef τ sig)) by decide),
    (opT1 (F := F)).result_of_not_mem _ (b := a0') (show a0' ∉ ({v0'} : Finset (DevRef τ sig)) by decide)]
theorem W2_a1 (d : Dev nD) : W2 m d a1' = m (tabLoc d) := by
  show (opR1 (F := F)).result ((opT1 (F := F)).result (V0 m d)) a1' = _
  rw [(opR1 (F := F)).result_of_not_mem _ (b := a1') (show a1' ∉ ({v1'} : Finset (DevRef τ sig)) by decide),
    (opT1 (F := F)).result_of_not_mem _ (b := a1') (show a1' ∉ ({v0'} : Finset (DevRef τ sig)) by decide)]
theorem W2_v2 (d : Dev nD) : W2 m d v2' = m (outLoc d) := by
  show (opR1 (F := F)).result ((opT1 (F := F)).result (V0 m d)) v2' = _
  rw [(opR1 (F := F)).result_of_not_mem _ (b := v2') (show v2' ∉ ({v1'} : Finset (DevRef τ sig)) by decide),
    (opT1 (F := F)).result_of_not_mem _ (b := v2') (show v2' ∉ ({v0'} : Finset (DevRef τ sig)) by decide)]
theorem W2_v1 (d : Dev nD) : W2 m d v1' = lists m d := by
  show (opR1 (F := F)).result ((opT1 (F := F)).result (V0 m d)) v1' = _
  rw [StableHlo.reshape_result, StableHlo.unary_result]
  rfl

theorem held_W2 (d : Dev nD) :
    (held (T d) S7 (W2 m d) : sProp 𝕄)
      = iprop((argLoc0 d ↦{fullShare} m (argLoc0 d)) ∗ (tabLoc d ↦{fullShare} m (tabLoc d)) ∗ (v0Loc d ↦{fullShare} W2 m d v0')
          ∗ (idsLoc d ↦{fullShare} lists m d) ∗ (outLoc d ↦{fullShare} m (outLoc d)) ∗ (v3Loc d ↦{fullShare} W2 m d v3')
          ∗ resLoc d ↦{fullShare} W2 m d v4') := by
  rw [held_S7, W2_a0, W2_a1, W2_v1, W2_v2]

theorem held_W3 (d : Dev nD) :
    (held (T d) S7 (W3 m d) : sProp 𝕄)
      = iprop((argLoc0 d ↦{fullShare} m (argLoc0 d)) ∗ (tabLoc d ↦{fullShare} m (tabLoc d)) ∗ (v0Loc d ↦{fullShare} W2 m d v0')
          ∗ (idsLoc d ↦{fullShare} lists m d) ∗ (outLoc d ↦{fullShare} flatRes m d) ∗ (v3Loc d ↦{fullShare} W2 m d v3')
          ∗ resLoc d ↦{fullShare} W2 m d v4') := by
  rw [held_S7,
    show W3 m d a0' = m (argLoc0 d) from (Function.update_of_ne (show a0' ≠ v2' by decide) _ _).trans (W2_a0 m d),
    show W3 m d a1' = m (tabLoc d) from (Function.update_of_ne (show a1' ≠ v2' by decide) _ _).trans (W2_a1 m d),
    show W3 m d v0' = W2 m d v0' from Function.update_of_ne (show v0' ≠ v2' by decide) _ _,
    show W3 m d v1' = lists m d from (Function.update_of_ne (show v1' ≠ v2' by decide) _ _).trans (W2_v1 m d),
    show W3 m d v2' = flatRes m d from Function.update_self _ _ _,
    show W3 m d v3' = W2 m d v3' from Function.update_of_ne (show v3' ≠ v2' by decide) _ _,
    show W3 m d v4' = W2 m d v4' from Function.update_of_ne (show v4' ≠ v2' by decide) _ _]

theorem W5_a0 (d : Dev nD) : W5 m d a0' = m (argLoc0 d) := by
  show (opT2 (F := F)).result ((opR2 (F := F)).result (W3 m d)) a0' = _
  rw [(opT2 (F := F)).result_of_not_mem _ (b := a0') (show a0' ∉ ({v4'} : Finset (DevRef τ sig)) by decide),
    (opR2 (F := F)).result_of_not_mem _ (b := a0') (show a0' ∉ ({v3'} : Finset (DevRef τ sig)) by decide)]
  exact (Function.update_of_ne (show a0' ≠ v2' by decide) _ _).trans (W2_a0 m d)
theorem W5_a1 (d : Dev nD) : W5 m d a1' = m (tabLoc d) := by
  show (opT2 (F := F)).result ((opR2 (F := F)).result (W3 m d)) a1' = _
  rw [(opT2 (F := F)).result_of_not_mem _ (b := a1') (show a1' ∉ ({v4'} : Finset (DevRef τ sig)) by decide),
    (opR2 (F := F)).result_of_not_mem _ (b := a1') (show a1' ∉ ({v3'} : Finset (DevRef τ sig)) by decide)]
  exact (Function.update_of_ne (show a1' ≠ v2' by decide) _ _).trans (W2_a1 m d)
theorem W5_v4 (d : Dev nD) : W5 m d v4' = resOf m d := by
  show (opT2 (F := F)).result ((opR2 (F := F)).result (W3 m d)) v4' = _
  rw [StableHlo.unary_result, StableHlo.reshape_result]
  show transpose S4096x50x128 [1, 0, 2] (shapeCast S50x4096x128 (W3 m d v2') _) _ = _
  rw [show W3 m d v2' = flatRes m d from Function.update_self _ _ _]
  rfl

theorem held_W5 (d : Dev nD) :
    (held (T d) S7 (W5 m d) : sProp 𝕄)
      = iprop((argLoc0 d ↦{fullShare} m (argLoc0 d)) ∗ (tabLoc d ↦{fullShare} m (tabLoc d)) ∗ (v0Loc d ↦{fullShare} W5 m d v0')
          ∗ (idsLoc d ↦{fullShare} W5 m d v1') ∗ (outLoc d ↦{fullShare} W5 m d v2') ∗ (v3Loc d ↦{fullShare} W5 m d v3')
          ∗ resLoc d ↦{fullShare} resOf m d) := by
  rw [held_S7, W5_a0, W5_a1, W5_v4]

/-! ## @main on the TensorCore -/

/-- What @main leaves the claim: the index array and the table at their launch contents, the result at `resOf`. -/
abbrev FIN (d : Dev nD) : sProp 𝕄 :=
  iprop((argLoc0 d ↦{fullShare} m (argLoc0 d)) ∗ (tabLoc d ↦{fullShare} m (tabLoc d)) ∗ (resLoc d ↦{fullShare} resOf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed, then cut into the lists
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb]; · iexact Hb
    iexact Hheld
  iintro ⟨Hb, Hheld⟩
  rw [wp_ret]; imodintro
  ihave Hh := (Entails.of_eq (held_W2 m d)) $$ Hheld
  icases Hh with ⟨Ha0, Ha1, Hv0, Hv1, Hv2, Hv3, Hv4⟩
  -- the call: the lists, the table and the flat result to the 32 tasks and back
  iapply ((K (F := F)).wp_run (D (F := F)) 𝒱 (EH := EH) (P := P m) κ d 0) $$ [Hst Ha1 Hv1 Hv2 Hb Ha0 Hv0 Hv3 Hv4]
  isplitr; · iexact Hctx
  isplitl [Hst]; · iexact Hst
  isplitl [Ha1 Hv1 Hv2]
  · iapply (st_all m d (m (outLoc d)))
    rw [← whole_parts]
    isplitl [Hv1]; · iexact Hv1
    isplitl [Ha1]; · iexact Ha1
    iexact Hv2
  iintro ⟨Hst, Hdn⟩
  ihave Hdn' := (Entails.of_eq ((dn_all m d).trans (whole_parts m d (flatRes m d)).symm)) $$ Hdn
  icases Hdn' with ⟨Hv1, Ha1, Hv2⟩
  -- the flat result read as [50, 4096, 128], then its first two axes exchanged
  iapply (wp_hlo_within 𝒱 (SparseCore.T d) none Set.univ (op := opR2) (S := S7) hR2 (V := W3 m d)) $$ [Hb Ha0 Ha1 Hv0 Hv1 Hv2 Hv3 Hv4]
  · isplitl [Hb]; · iexact Hb
    rw [held_W3]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := opT2) (S := S7) hT2 (V := (opR2 (F := F)).result (W3 m d))) $$ [Hb Hheld]
  · isplitl [Hb]; · iexact Hb
    iexact Hheld
  iintro ⟨Hb, Hheld⟩
  ihave Hh := (Entails.of_eq (held_W5 m d)) $$ Hheld
  icases Hh with ⟨Ha0, Ha1, -, -, -, -, Hv4⟩
  rw [wp_ret]; imodintro; imodintro
  isplitl [Hst]; · iexact Hst
  isplitl [Ha0]; · iexact Ha0
  isplitl [Ha1]; · iexact Ha1
  iexact Hv4

/-! ## The final memory reads the claim -/

def fq (d : Dev nD) (s' : Phys nD τ sig (Elt F)) : Prop :=
  s'.mem.mem (resLoc d) = resOf m d ∧ s'.mem.mem (argLoc0 d) = m (argLoc0 d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := argLoc0 d) (I := Finset.univ) (q := fullShare) (f := m (argLoc0 d)))) $$ [HSI Ha0]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ha1]
  · isplitl [HSI] <;> iassumption
  icases H with ⟨%h2, HSI, -⟩
  ihave H := (SI_pointsTo_agree (st := s') (ℓ := resLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (resLoc c) = resOf m c ∧ r.2.mem (argLoc0 c) = m (argLoc0 c) ∧ r.2.mem (tabLoc c) = m (tabLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.Word.LaunchSplit.lean ====
/-
  How the call's operands divide among the tasks and how the results gather.

  The index lists and the table are read by every task: each is held at the full share, which halved five times gives
  32 leaves, one per task; task `(c, i)` takes leaf `2 i + c`, and `(c, i) ↦ 2 i + c` is a bijection of
  `Fin 2 × Fin 16` with `Fin 32`. The flat result is cut along its rows into 1600 blocks of 128 rows, pairwise disjoint
  and covering it; task `(c, i)` takes blocks `50 (2 i + c) + g`, `g < 50`, and `(c, i, g) ↦ 50 (2 i + c) + g` is a
  bijection of `Fin 2 × Fin 16 × Fin 50` with `Fin 1600`.
-/
import proofs.«208012_g154618823073_cont_week2b_1161_14_alg».proof.Proof.Word.Pay

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)

/-! ## The two numberings are bijections -/

/-- `(c, i) ↦ 2 i + c`. -/
def widEquiv : Fin 2 × Fin 16 ≃ Fin 32 where
  toFun p := wid p.1 p.2
  invFun w := (⟨w.val % 2, by omega⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- `(c, i, g) ↦ 50 (2 i + c) + g`. -/
def tixEquiv : (Fin 2 × Fin 16) × Fin 50 ≃ Fin 1600 where
  toFun p := tix p.1.1 p.1.2 p.2
  invFun t := ((⟨t.val / 50 % 2, by omega⟩, ⟨t.val / 50 / 2, by have := t.isLt; omega⟩), ⟨t.val % 50, by omega⟩)
  left_inv p := by
    obtain ⟨⟨c, i⟩, g⟩ := p
    have hc := c.isLt
    have hi := i.isLt
    have hg := g.isLt
    refine Prod.ext (Prod.ext (Fin.ext ?_) (Fin.ext ?_)) (Fin.ext ?_)
    · show (50 * (2 * i.val + c.val) + g.val) / 50 % 2 = c.val
      omega
    · show (50 * (2 * i.val + c.val) + g.val) / 50 / 2 = i.val
      omega
    · show (50 * (2 * i.val + c.val) + g.val) % 50 = g.val
      omega
  right_inv t := by
    refine Fin.ext ?_
    show 50 * (2 * (t.val / 50 / 2) + t.val / 50 % 2) + t.val % 50 = t.val
    omega

/-- A family over the 32 task numbers, taken SparseCore by SparseCore and task by task. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod (fun p : Fin 2 × Fin 16 => Φ (widEquiv p))]
  rfl

/-- A family over the 1600 blocks, taken SparseCore by SparseCore, task by task and block by block. -/
theorem bigSep_tix (Φ : Fin 1600 → sProp 𝕄) :
    bigSep Finset.univ Φ
      = bigSep Finset.univ fun c : Fin 2 => bigSep Finset.univ fun i : Fin 16 => bigSep Finset.univ fun g : Fin 50 => Φ (tix c i g) := by
  rw [bigSep_univ_equiv tixEquiv Φ, bigSep_univ_prod (fun p : (Fin 2 × Fin 16) × Fin 50 => Φ (tixEquiv p)),
    bigSep_univ_prod (fun p : Fin 2 × Fin 16 => bigSep Finset.univ fun g : Fin 50 => Φ (tixEquiv (p, g)))]
  rfl

/-! ## A points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- An array every task reads whole, at the full share: the 32 tasks' shares of it. -/
theorem shares_split {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  exact (pointsTo_leaves Finset.univ f 5 fullShare).trans (bigSep_wid (F := F) (fun w : Fin 32 => (ℓ ↦{leaf 5 fullShare w} f : sProp 𝕄)))

/-! ## The result's 1600 row blocks are disjoint and cover it -/

theorem oSet_eq (t : Fin 1600) : oSet t = (oPart t).set := by
  show ((View.whole (main_v2_scv : Ref sig .scVector)).slice (oPart t)).set = _
  rw [View.set_slice]; exact Finset.map_refl
theorem oblocks_disjoint : ∀ i ∈ (Finset.univ : Finset (Fin 1600)), ∀ j ∈ (Finset.univ : Finset (Fin 1600)), i ≠ j → Disjoint (oSet i) (oSet j) :=
  fun i _ j _ h => by rw [oSet_eq, oSet_eq]; exact Rect.part_disjoint odiv h
theorem oblocks_cover : (Finset.univ : Finset (Fin 1600)).biUnion oSet = Finset.univ :=
  (Finset.biUnion_congr rfl fun i _ => oSet_eq i).trans (Rect.biUnion_part odiv)

/-- The flat result whole is its 1600 blocks, taken SparseCore by SparseCore, task by task, block by block. -/
theorem out_blocks (d : Dev nD) (f : Buf (Elt F) (outLoc d)) :
    (outLoc d ↦{fullShare} f : sProp 𝕄)
      = bigSep Finset.univ fun c : Fin 2 => bigSep Finset.univ fun i : Fin 16 => bigSep Finset.univ fun g : Fin 50 => outBlk d (tix c i g) f := by
  rw [← bigSep_tix (F := F) (fun t : Fin 1600 => outBlk d t f)]
  rw [← pointsTo_biUnion Finset.univ (ℓ := outLoc d) oSet oblocks_disjoint, oblocks_cover]; try rfl

/-! ## The three arrays whole are the tasks' resources -/

variable (m : (ℓ : Loc nD τ sig) → Buf (Elt F) ℓ)

/-- What the 32 tasks hold together when the result's blocks are at `f`. -/
abbrev parts (d : Dev nD) (f : Buf (Elt F) (outLoc d)) : sProp 𝕄 :=
  bigSep Finset.univ fun c : Fin 2 => bigSep Finset.univ fun i : Fin 16 =>
    iprop(idsSh m d c i ∗ tabSh m d c i ∗ bigSep Finset.univ fun g : Fin 50 => outBlk d (tix c i g) f)

/-- The index lists and the table at the full share and the flat result whole at `f` are exactly the tasks' resources. -/
theorem whole_parts (d : Dev nD) (f : Buf (Elt F) (outLoc d)) :
    (iprop((idsLoc d ↦{fullShare} lists m d) ∗ (tabLoc d ↦{fullShare} m (tabLoc d)) ∗ outLoc d ↦{fullShare} f) : sProp 𝕄)
      = parts m d f := by
  have inner (c : Fin 2) :
      (bigSep Finset.univ fun i : Fin 16 =>
          (iprop(idsSh m d c i ∗ tabSh m d c i ∗ bigSep Finset.univ fun g : Fin 50 => outBlk d (tix c i g) f) : sProp 𝕄))
        = iprop((bigSep Finset.univ fun i : Fin 16 => idsSh m d c i) ∗ (bigSep Finset.univ fun i : Fin 16 => tabSh m d c i)
            ∗ bigSep Finset.univ fun i : Fin 16 => bigSep Finset.univ fun g : Fin 50 => outBlk d (tix c i g) f) := by
    rw [bigSep_sep', bigSep_sep']
  unfold parts
  rw [bigSep_congr fun c _ => inner c, bigSep_sep', bigSep_sep']
  rw [shares_split (lists m d), shares_split (m (tabLoc d)), out_blocks d f]

/-! ## The payload's fields, and what the one call takes and hands back -/

theorem st_eq (d : Dev nD) (c : Fin ((K (F := F)).nCore 0)) :
    (P m).st 0 d c = bigSep Finset.univ fun i : Fin 16 => goRes m d (Fin.cast nCore_zero c) i := rfl
theorem dn_eq (d : Dev nD) (c : Fin ((K (F := F)).nCore 0)) :
    (P m).dn 0 d c = bigSep Finset.univ fun i : Fin 16 => tdRes m d (Fin.cast nCore_zero c) i := rfl
theorem go_eq (d : Dev nD) (c : Fin ((K (F := F)).nCore 0)) (i : Fin ((K (F := F)).nSub 0)) :
    (P m).go 0 d c i = goRes m d (Fin.cast nCore_zero c) (Fin.cast nSub_zero i) := rfl
theorem td_eq (d : Dev nD) (c : Fin ((K (F := F)).nCore 0)) (i : Fin ((K (F := F)).nSub 0)) :
    (P m).td 0 d c i = tdRes m d (Fin.cast nCore_zero c) (Fin.cast nSub_zero i) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands back for the two SparseCores: the tasks' resources with the blocks at the lookup. -/
theorem dn_all (d : Dev nD) :
    (bigSep Finset.univ fun c : Fin ((K (F := F)).nCore 0) => (P m).dn 0 d c) = parts m d (flatRes m d) := by
  rw [bigSep_congr fun c _ => dn_eq m d c]
  exact bigSep_cores (F := F) (fun c => bigSep Finset.univ fun i : Fin 16 => tdRes m d c i)

/-- What the call takes: the tasks' resources, the blocks at whatever the result array holds. -/
theorem st_all (d : Dev nD) (f : Buf (Elt F) (outLoc d)) :
    parts m d f ⊢ bigSep Finset.univ fun c : Fin ((K (F := F)).nCore 0) => (P m).st 0 d c := by
  rw [bigSep_congr fun c _ => st_eq m d c,
    bigSep_cores (F := F) (fun c => bigSep Finset.univ fun i : Fin 16 => goRes m d c i)]
  refine bigSep_mono fun c _ => bigSep_mono fun i _ => ?_
  have hblk : (bigSep Finset.univ fun g : Fin 50 => outBlk d (tix c i g) f)
      ⊢ (bigSep Finset.univ fun g : Fin 50 => (iprop(∃ f', outBlk d (tix c i g) f') : sProp 𝕄)) :=
    bigSep_mono fun g _ => by
      show _ ⊢ (iprop(∃ f', outBlk d (tix c i g) f') : sProp 𝕄)
      iintro H; iexists f; iexact H
  show _ ⊢ goRes m d c i
  iintro ⟨Hi, Ht, Ho⟩
  isplitl [Hi]; · iexact Hi
  isplitl [Ht]; · iexact Ht
  iapply hblk; iexact Ho

/-! ## A SparseCore's operands are its sixteen tasks', and its results theirs -/

theorem vecSplit : (K (F := F)).VecSplit' (P m) 0 := by
  intro d c
  rw [st_eq, dn_eq, bigSep_congr fun i _ => go_eq m d c i, bigSep_congr fun i _ => td_eq m d c i,
    bigSep_tasks (F := F) (fun i => goRes m d (Fin.cast nCore_zero c) i),
    bigSep_tasks (F := F) (fun i => tdRes m d (Fin.cast nCore_zero c) i)]
  iintro H; imodintro
  isplitl [H]; · iexact H
  iintro H; iexact H

end Cert.Proof.KW

end
-- ==== Proof.Word.LaunchFacts.lean ====
/-
  The result @main leaves, as a term of the launch memory, and two facts about it.

  After the call the flat result is read as `[50, 4096, 128]` and its first two axes are exchanged; that array is the
  specification's lookup of the index array and the table. Every entry of the index lists is an entry of the index
  array, so it names a row of the table whenever every index word does.
-/
import proofs.«208012_g154618823073_cont_week2b_1161_14_alg».proof.Proof.Word.Pay
import proofs.«208012_g154618823073_cont_week2b_1161_14_alg».proof.Proof.FlatBridge

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)

variable (m : (ℓ : Loc nD τ sig) → Buf (Elt F) ℓ)

/-- What @main leaves in its result: the flat result read as `[50, 4096, 128]`, first two axes exchanged. -/
def resOf (d : Dev nD) : Buf (Elt F) (resLoc d) :=
  transpose S4096x50x128 [1, 0, 2]
    (shapeCast S50x4096x128 (flatRes m d) Cert.Kernel.Gen.shapeCasts_S204800x128_S50x4096x128)
    Cert.Kernel.Gen.transposes_S50x4096x128_S4096x50x128_1_0_2

/-- It is the specification's lookup of the index array and the table. -/
theorem resOf_eq (d : Dev nD) : resOf m d = Cert.Spec.lookup (F := F) (m (argLoc0 d)) (m (tabLoc d)) := by
  unfold resOf flatRes lists
  exact Cert.Spec.flat_bridge (F := F) (m (argLoc0 d)) (m (tabLoc d)) _ _ _ _

/-- Every entry of the index lists is an entry of the index array. -/
theorem lists_lt (hpre : PreOK m) (d : Dev nD) : ∀ j : S32x50x128.Idx, (lists m d j).toNat < 1000000 := by
  intro j
  unfold lists shapeCast transpose
  exact hpre d _

end Cert.Proof.KW

end
-- ==== Proof.Word.Launch.lean ====
/-
  The launch of the kernel's program: the ghost state's launch element, @main on the TensorCore, how the
  final memory reads the claim, and the run of the whole family of threads from one task's body.

  @main transposes the index array and cuts it into the 32 × 50 × 128 index lists, hands the two SparseCores their
  sixteen tasks' resources (a read share each of the lists and of the table, fifty row blocks each of the flat result),
  takes them back with the blocks at the lookup in task order, reads the flat result as `[50, 4096, 128]` and
  exchanges its first two axes. The index array and the table are unchanged throughout.
-/
import proofs.«208012_g154618823073_cont_week2b_1161_14_alg».proof.Proof.Word.LaunchSplit
import proofs.«208012_g154618823073_cont_week2b_1161_14_alg».proof.Proof.Word.LaunchFacts

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's arrays and its four layout operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S7 : Finset (DevRef τ sig) := {a0', a1', v0', v1', v2', v3', v4'}

abbrev v0Loc (d : Dev nD) : Loc nD τ sig := (SparseCore.T d).loc main_v0
abbrev v3Loc (d : Dev nD) : Loc nD τ sig := (SparseCore.T d).loc main_v3

/-- The index array transposed; -/
abbrev opT1 : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
/-- cut into the index lists; -/
abbrev opR1 : HloOp τ sig (Elt F) := StableHlo.reshape main_v0 main_v1 rfl shapeCasts_S50x4096_S32x50x128
/-- the flat result read as `[50, 4096, 128]`; -/
abbrev opR2 : HloOp τ sig (Elt F) := StableHlo.reshape main_v2 main_v3 rfl shapeCasts_S204800x128_S50x4096x128
/-- its first two axes exchanged. -/
abbrev opT2 : HloOp τ sig (Elt F) :=
  StableHlo.unary main_v3 main_v4 ((transpose S4096x50x128 [1, 0, 2] · transposes_S50x4096x128_S4096x50x128_1_0_2) :
    (⟨S50x4096x128, .f32⟩ : BufTy).Contents (Elt F) → (⟨S4096x50x128, .f32⟩ : BufTy).Contents (Elt F))

theorem hT1 : (opT1 (F := F)).bufs ⊆ S7 := show ({a0', v0'} : Finset (DevRef τ sig)) ⊆ S7 by decide
theorem hR1 : (opR1 (F := F)).bufs ⊆ S7 := show ({v0', v1'} : Finset (DevRef τ sig)) ⊆ S7 by decide
theorem hR2 : (opR2 (F := F)).bufs ⊆ S7 := show ({v2', v3'} : Finset (DevRef τ sig)) ⊆ S7 by decide
theorem hT2 : (opT2 (F := F)).bufs ⊆ S7 := show ({v3', v4'} : Finset (DevRef τ sig)) ⊆ S7 by decide

omit [FloatOps F] in
theorem held_S7 (d : Dev nD) (W : Valuation τ sig (Elt F)) :
    (held (T d) S7 W : sProp 𝕄)
      = iprop((argLoc0 d ↦{fullShare} W a0') ∗ (tabLoc d ↦{fullShare} W a1') ∗ (v0Loc d ↦{fullShare} W v0') ∗ (idsLoc d ↦{fullShare} W v1')
          ∗ (outLoc d ↦{fullShare} W v2') ∗ (v3Loc d ↦{fullShare} W v3') ∗ resLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option maxHeartbeats 2000000 in
omit [FloatOps F] in
theorem unscopedBufs_eq (d : Dev nD) (W : (b : Ref sig .tc) → Buf (Elt F) ((d.tc : Thread nD τ).loc b)) :
    (unscopedBufs d W : sProp 𝕄)
      = iprop((argLoc0 d ↦{fullShare} W main_arg0) ∗ (tabLoc d ↦{fullShare} W main_arg1) ∗ (v0Loc d ↦{fullShare} W main_v0) ∗ (idsLoc d ↦{fullShare} W main_v1)
          ∗ (outLoc d ↦{fullShare} W main_v2) ∗ (v3Loc d ↦{fullShare} W main_v3) ∗ resLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The arrays' contents: at the launch, before the call, after it, at the end -/

/-- The launch contents; -/
abbrev V0 (d : Dev nD) : Valuation τ sig (Elt F) := fun b => m (d, b)
/-- after the two operations before the call; -/
abbrev W2 (d : Dev nD) : Valuation τ sig (Elt F) := (opR1 (F := F)).result ((opT1 (F := F)).result (V0 m d))
/-- after the call, the flat result at the lookup in task order; -/
abbrev W3 (d : Dev nD) : Valuation τ sig (Elt F) := Function.update (W2 m d) v2' (flatRes m d)
/-- after the two operations that follow it. -/
abbrev W5 (d : Dev nD) : Valuation τ sig (Elt F) := (opT2 (F := F)).result ((opR2 (F := F)).result (W3 m d))

theorem unscoped_held (d : Dev nD) : (unscopedBufs d (fun b => m ((SparseCore.T d).loc b)) : sProp 𝕄) = held (T d) S7 (V0 m d) := by
  rw [unscopedBufs_eq, held_S7]

theorem W2_a0 (d : Dev nD) : W2 m d a0' = m (argLoc0 d) := by
  show (opR1 (F := F)).result ((opT1 (F := F)).result (V0 m d)) a0' = _
  rw [(opR1 (F := F)).result_of_not_mem _ (b := a0') (show a0' ∉ ({v1'} : Finset (DevRef τ sig)) by decide),
    (opT1 (F := F)).result_of_not_mem _ (b := a0') (show a0' ∉ ({v0'} : Finset (DevRef τ sig)) by decide)]
theorem W2_a1 (d : Dev nD) : W2 m d a1' = m (tabLoc d) := by
  show (opR1 (F := F)).result ((opT1 (F := F)).result (V0 m d)) a1' = _
  rw [(opR1 (F := F)).result_of_not_mem _ (b := a1') (show a1' ∉ ({v1'} : Finset (DevRef τ sig)) by decide),
    (opT1 (F := F)).result_of_not_mem _ (b := a1') (show a1' ∉ ({v0'} : Finset (DevRef τ sig)) by decide)]
theorem W2_v2 (d : Dev nD) : W2 m d v2' = m (outLoc d) := by
  show (opR1 (F := F)).result ((opT1 (F := F)).result (V0 m d)) v2' = _
  rw [(opR1 (F := F)).result_of_not_mem _ (b := v2') (show v2' ∉ ({v1'} : Finset (DevRef τ sig)) by decide),
    (opT1 (F := F)).result_of_not_mem _ (b := v2') (show v2' ∉ ({v0'} : Finset (DevRef τ sig)) by decide)]
theorem W2_v1 (d : Dev nD) : W2 m d v1' = lists m d := by
  show (opR1 (F := F)).result ((opT1 (F := F)).result (V0 m d)) v1' = _
  rw [StableHlo.reshape_result, StableHlo.unary_result]
  rfl

theorem held_W2 (d : Dev nD) :
    (held (T d) S7 (W2 m d) : sProp 𝕄)
      = iprop((argLoc0 d ↦{fullShare} m (argLoc0 d)) ∗ (tabLoc d ↦{fullShare} m (tabLoc d)) ∗ (v0Loc d ↦{fullShare} W2 m d v0')
          ∗ (idsLoc d ↦{fullShare} lists m d) ∗ (outLoc d ↦{fullShare} m (outLoc d)) ∗ (v3Loc d ↦{fullShare} W2 m d v3')
          ∗ resLoc d ↦{fullShare} W2 m d v4') := by
  rw [held_S7, W2_a0, W2_a1, W2_v1, W2_v2]

theorem held_W3 (d : Dev nD) :
    (held (T d) S7 (W3 m d) : sProp 𝕄)
      = iprop((argLoc0 d ↦{fullShare} m (argLoc0 d)) ∗ (tabLoc d ↦{fullShare} m (tabLoc d)) ∗ (v0Loc d ↦{fullShare} W2 m d v0')
          ∗ (idsLoc d ↦{fullShare} lists m d) ∗ (outLoc d ↦{fullShare} flatRes m d) ∗ (v3Loc d ↦{fullShare} W2 m d v3')
          ∗ resLoc d ↦{fullShare} W2 m d v4') := by
  rw [held_S7,
    show W3 m d a0' = m (argLoc0 d) from (Function.update_of_ne (show a0' ≠ v2' by decide) _ _).trans (W2_a0 m d),
    show W3 m d a1' = m (tabLoc d) from (Function.update_of_ne (show a1' ≠ v2' by decide) _ _).trans (W2_a1 m d),
    show W3 m d v0' = W2 m d v0' from Function.update_of_ne (show v0' ≠ v2' by decide) _ _,
    show W3 m d v1' = lists m d from (Function.update_of_ne (show v1' ≠ v2' by decide) _ _).trans (W2_v1 m d),
    show W3 m d v2' = flatRes m d from Function.update_self _ _ _,
    show W3 m d v3' = W2 m d v3' from Function.update_of_ne (show v3' ≠ v2' by decide) _ _,
    show W3 m d v4' = W2 m d v4' from Function.update_of_ne (show v4' ≠ v2' by decide) _ _]

theorem W5_a0 (d : Dev nD) : W5 m d a0' = m (argLoc0 d) := by
  show (opT2 (F := F)).result ((opR2 (F := F)).result (W3 m d)) a0' = _
  rw [(opT2 (F := F)).result_of_not_mem _ (b := a0') (show a0' ∉ ({v4'} : Finset (DevRef τ sig)) by decide),
    (opR2 (F := F)).result_of_not_mem _ (b := a0') (show a0' ∉ ({v3'} : Finset (DevRef τ sig)) by decide)]
  exact (Function.update_of_ne (show a0' ≠ v2' by decide) _ _).trans (W2_a0 m d)
theorem W5_a1 (d : Dev nD) : W5 m d a1' = m (tabLoc d) := by
  show (opT2 (F := F)).result ((opR2 (F := F)).result (W3 m d)) a1' = _
  rw [(opT2 (F := F)).result_of_not_mem _ (b := a1') (show a1' ∉ ({v4'} : Finset (DevRef τ sig)) by decide),
    (opR2 (F := F)).result_of_not_mem _ (b := a1') (show a1' ∉ ({v3'} : Finset (DevRef τ sig)) by decide)]
  exact (Function.update_of_ne (show a1' ≠ v2' by decide) _ _).trans (W2_a1 m d)
theorem W5_v4 (d : Dev nD) : W5 m d v4' = resOf m d := by
  show (opT2 (F := F)).result ((opR2 (F := F)).result (W3 m d)) v4' = _
  rw [StableHlo.unary_result, StableHlo.reshape_result]
  show transpose S4096x50x128 [1, 0, 2] (shapeCast S50x4096x128 (W3 m d v2') _) _ = _
  rw [show W3 m d v2' = flatRes m d from Function.update_self _ _ _]
  rfl

theorem held_W5 (d : Dev nD) :
    (held (T d) S7 (W5 m d) : sProp 𝕄)
      = iprop((argLoc0 d ↦{fullShare} m (argLoc0 d)) ∗ (tabLoc d ↦{fullShare} m (tabLoc d)) ∗ (v0Loc d ↦{fullShare} W5 m d v0')
          ∗ (idsLoc d ↦{fullShare} W5 m d v1') ∗ (outLoc d ↦{fullShare} W5 m d v2') ∗ (v3Loc d ↦{fullShare} W5 m d v3')
          ∗ resLoc d ↦{fullShare} resOf m d) := by
  rw [held_S7, W5_a0, W5_a1, W5_v4]

/-! ## @main on the TensorCore -/

/-- What @main leaves the claim: the index array and the table at their launch contents, the result at `resOf`. -/
abbrev FIN (d : Dev nD) : sProp 𝕄 :=
  iprop((argLoc0 d ↦{fullShare} m (argLoc0 d)) ∗ (tabLoc d ↦{fullShare} m (tabLoc d)) ∗ (resLoc d ↦{fullShare} resOf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed, then cut into the lists
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb]; · iexact Hb
    iexact Hheld
  iintro ⟨Hb, Hheld⟩
  rw [wp_ret]; imodintro
  ihave Hh := (Entails.of_eq (held_W2 m d)) $$ Hheld
  icases Hh with ⟨Ha0, Ha1, Hv0, Hv1, Hv2, Hv3, Hv4⟩
  -- the call: the lists, the table and the flat result to the 32 tasks and back
  iapply ((K (F := F)).wp_run (D (F := F)) 𝒱 (EH := EH) (P := P m) κ d 0) $$ [Hst Ha1 Hv1 Hv2 Hb Ha0 Hv0 Hv3 Hv4]
  isplitr; · iexact Hctx
  isplitl [Hst]; · iexact Hst
  isplitl [Ha1 Hv1 Hv2]
  · iapply (st_all m d (m (outLoc d)))
    rw [← whole_parts]
    isplitl [Hv1]; · iexact Hv1
    isplitl [Ha1]; · iexact Ha1
    iexact Hv2
  iintro ⟨Hst, Hdn⟩
  ihave Hdn' := (Entails.of_eq ((dn_all m d).trans (whole_parts m d (flatRes m d)).symm)) $$ Hdn
  icases Hdn' with ⟨Hv1, Ha1, Hv2⟩
  -- the flat result read as [50, 4096, 128], then its first two axes exchanged
  iapply (wp_hlo_within 𝒱 (SparseCore.T d) none Set.univ (op := opR2) (S := S7) hR2 (V := W3 m d)) $$ [Hb Ha0 Ha1 Hv0 Hv1 Hv2 Hv3 Hv4]
  · isplitl [Hb]; · iexact Hb
    rw [held_W3]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := opT2) (S := S7) hT2 (V := (opR2 (F := F)).result (W3 m d))) $$ [Hb Hheld]
  · isplitl [Hb]; · iexact Hb
    iexact Hheld
  iintro ⟨Hb, Hheld⟩
  ihave Hh := (Entails.of_eq (held_W5 m d)) $$ Hheld
  icases Hh with ⟨Ha0, Ha1, -, -, -, -, Hv4⟩
  rw [wp_ret]; imodintro; imodintro
  isplitl [Hst]; · iexact Hst
  isplitl [Ha0]; · iexact Ha0
  isplitl [Ha1]; · iexact Ha1
  iexact Hv4

/-! ## The final memory reads the claim -/

def fq (d : Dev nD) (s' : Phys nD τ sig (Elt F)) : Prop :=
  s'.mem.mem (resLoc d) = resOf m d ∧ s'.mem.mem (argLoc0 d) = m (argLoc0 d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := argLoc0 d) (I := Finset.univ) (q := fullShare) (f := m (argLoc0 d)))) $$ [HSI Ha0]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ha1]
  · isplitl [HSI] <;> iassumption
  icases H with ⟨%h2, HSI, -⟩
  ihave H := (SI_pointsTo_agree (st := s') (ℓ := resLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (resLoc c) = resOf m c ∧ r.2.mem (argLoc0 c) = m (argLoc0 c) ∧ r.2.mem (tabLoc c) = m (tabLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KW

end
-- ==== Proof.State.lean ====
import proofs.«208012_g154618823073_cont_week2b_1161_14_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

/-! ## A task's pieces, in one spelling

The kernel names its index lists, its result blocks and its semaphores through chains of the trip number; the
assertions below name them once, by their number. -/

variable (d : Dev nD) (L : grid0.Coords)

theorem lrow_inb (g : Fin 50) : ∀ a, (![g.val, 0] : Fin 2 → Nat) a + S1x128.size a ≤ S50x128.size a := by
  intro a; fin_cases a
  · show g.val + 1 ≤ 50; omega
  · show 0 + 128 ≤ 128; omega

/-- List `g` of the task's fifty, as a 128-word memref. -/
abbrev lrowM (g : Fin 50) : Memref sig .scVector .vmem S128 .i32 :=
  ((lstM).slice (Rect.unit (s := S50x128) ![g.val, 0] S1x128.size (lrow_inb g)) (fun _ => rfl)).squeeze S128 squeezes_S1x128_S128

/-- The whole table, as the kernel slices it for a gather. -/
abbrev tabSl : Memref sig .scVector .hbm S1000000x128 .f32 :=
  (tabM).slice (Rect.unit (s := S1000000x128) ![0, 0] S1000000x128.size inb_S1000000x128_S1000000x128_0_0) (fun _ => rfl)

/-- The semaphore of the gather into row buffer `j`, and of the copy out of it. -/
abbrev gcell (j : Fin 5) : SemLoc sig := SemLoc.dma ⟨j.val, show j.val < 12 by omega⟩
abbrev scell (j : Fin 5) : SemLoc sig := SemLoc.dma ⟨5 + j.val, show 5 + j.val < 12 by omega⟩

abbrev sv (j : DmaSems sig S_) (n : ℕ) : sProp 𝕄 := semVal (thr d L, SemLoc.dma j.sem) n
abbrev scr (b : Ref sig .scVector) (f : Buf (Elt F) ((thr d L).loc b)) : sProp 𝕄 := (thr d L).loc b ↦{fullShare} f

theorem pts_ids (q : PosShare TreeShare) (f : Buf (Elt F) (idsLoc d)) : ((idsM).view.loc (thr d L) ↦{q} f : sProp 𝕄) = idsLoc d ↦{q} f := rfl
theorem pts_tab (q : PosShare TreeShare) (f : Buf (Elt F) (tabLoc d)) : ((tabM).view.loc (thr d L) ↦{q} f : sProp 𝕄) = tabLoc d ↦{q} f := rfl
theorem pts_lst (f : Buf (Elt F) ((thr d L).loc cc0_scratch0)) : ((lstM).view.loc (thr d L) ↦{fullShare} f : sProp 𝕄) = scr d L cc0_scratch0 f := rfl
theorem pts_b0 (f : Buf (Elt F) ((thr d L).loc cc0_scratch1)) : ((bufM0).view.loc (thr d L) ↦{fullShare} f : sProp 𝕄) = scr d L cc0_scratch1 f := rfl
theorem pts_b1 (f : Buf (Elt F) ((thr d L).loc cc0_scratch2)) : ((bufM1).view.loc (thr d L) ↦{fullShare} f : sProp 𝕄) = scr d L cc0_scratch2 f := rfl
theorem pts_b2 (f : Buf (Elt F) ((thr d L).loc cc0_scratch3)) : ((bufM2).view.loc (thr d L) ↦{fullShare} f : sProp 𝕄) = scr d L cc0_scratch3 f := rfl
theorem pts_b3 (f : Buf (Elt F) ((thr d L).loc cc0_scratch4)) : ((bufM3).view.loc (thr d L) ↦{fullShare} f : sProp 𝕄) = scr d L cc0_scratch4 f := rfl
theorem pts_b4 (f : Buf (Elt F) ((thr d L).loc cc0_scratch5)) : ((bufM4).view.loc (thr d L) ↦{fullShare} f : sProp 𝕄) = scr d L cc0_scratch5 f := rfl

end Cert.Proof.KI

end
-- ==== Proof.Pieces.lean ====
import proofs.«208012_g154618823073_cont_week2b_1161_14_alg».proof.Proof.Common
import proofs.«208012_g154618823073_cont_week2b_1161_14_alg».proof.Proof.State
import proofs.«208012_g154618823073_cont_week2b_1161_14_alg».proof.Proof.Pay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

variable (d : Dev nD) (L : grid0.Coords)

/-! ## The trip counts and the conditions of the pipelined loop, in closed form

Trip `k` of the ten handles lists `5 k … 5 k + 4`. The copy-out of list `g - 1` is awaited unless `g = 0`; the gather of
list `g + 4` is issued unless it would pass the fiftieth list. -/

theorem trips_lt (k : Fin k0_t1_loop.trips) : k.val < 10 := lt_of_lt_of_le k.isLt k0_t1_abs.2.1

theorem cond1_iff : ∀ k : Fin k0_t1_loop.trips, (k0_cond1 k = 1#1 ↔ 1 ≤ k.val) := by decide
theorem cond2_all : ∀ k : Fin k0_t1_loop.trips, k0_cond2 k = 1#1 := by decide
theorem cond3_all : ∀ k : Fin k0_t1_loop.trips, k0_cond3 k = 1#1 := by decide
theorem cond5_all : ∀ k : Fin k0_t1_loop.trips, k0_cond5 k = 1#1 := by decide
theorem cond7_all : ∀ k : Fin k0_t1_loop.trips, k0_cond7 k = 1#1 := by decide
theorem cond9_all : ∀ k : Fin k0_t1_loop.trips, k0_cond9 k = 1#1 := by decide
theorem cond4_iff : ∀ k : Fin k0_t1_loop.trips, (k0_cond4 k = 1#1 ↔ k.val ≤ 8) := by decide
theorem cond6_iff : ∀ k : Fin k0_t1_loop.trips, (k0_cond6 k = 1#1 ↔ k.val ≤ 8) := by decide
theorem cond8_iff : ∀ k : Fin k0_t1_loop.trips, (k0_cond8 k = 1#1 ↔ k.val ≤ 8) := by decide
theorem cond10_iff : ∀ k : Fin k0_t1_loop.trips, (k0_cond10 k = 1#1 ↔ k.val ≤ 8) := by decide

/-! ## The index lists by number -/

/-- List `n` (numbers past the forty-ninth wrap; never used there). -/
abbrev lrowN (n : ℕ) : Memref sig .scVector .vmem S128 .i32 := lrowM ⟨n % 50, Nat.mod_lt _ (by decide)⟩

theorem lrow_congr {o o' : Fin 2 → ℕ} (e : o = o') (h : ∀ a, o a + S1x128.size a ≤ S50x128.size a) (h' : ∀ a, o' a + S1x128.size a ≤ S50x128.size a) :
    (((lstM).slice (Rect.unit (s := S50x128) o S1x128.size h) (fun _ => rfl)).squeeze S128 squeezes_S1x128_S128)
      = (((lstM).slice (Rect.unit (s := S50x128) o' S1x128.size h') (fun _ => rfl)).squeeze S128 squeezes_S1x128_S128) := by
  subst e; rfl

/-- A list sliced at offsets `![n, 0]` is list `n`. -/
theorem lrow_of_off (o : Fin 2 → ℕ) (h : ∀ a, o a + S1x128.size a ≤ S50x128.size a) (n : ℕ) (hn : n < 50) (e : o = ![n, 0]) :
    (((lstM).slice (Rect.unit (s := S50x128) o S1x128.size h) (fun _ => rfl)).squeeze S128 squeezes_S1x128_S128) = lrowN n :=
  lrow_congr (e.trans (by show (![n, 0] : Fin 2 → ℕ) = ![n % 50, 0]; rw [Nat.mod_eq_of_lt hn])) h _

/-! ## The result blocks by number -/

theorem L0_lt : (L 0).val < 2 := (L 0).isLt
theorem L1_lt : (L 1).val < 16 := (L 1).isLt

/-- Block `n` of the task at `L` starts at row `6400 (2 s + c) + 128 n`. -/
def oOff (n : ℕ) : Fin 2 → ℕ := ![12800 * (L 1).val + 6400 * (L 0).val + 128 * (n % 50), 0]

theorem oOff_inb (n : ℕ) : ∀ a, oOff L n a + S128x128.size a ≤ S204800x128.size a := by
  have h0 := L0_lt L; have h1 := L1_lt L; have hn : n % 50 < 50 := Nat.mod_lt _ (by decide)
  intro a; fin_cases a
  · show 12800 * (L 1).val + 6400 * (L 0).val + 128 * (n % 50) + 128 ≤ 204800; omega
  · show 0 + 128 ≤ 128; omega

abbrev oblkN (n : ℕ) : Memref sig .scVector .hbm S128x128 .f32 :=
  (outM).slice (Rect.unit (s := S204800x128) (oOff L n) S128x128.size (oOff_inb L n)) (fun _ => rfl)

theorem oblk_congr {o o' : Fin 2 → ℕ} (e : o = o') (h : ∀ a, o a + S128x128.size a ≤ S204800x128.size a) (h' : ∀ a, o' a + S128x128.size a ≤ S204800x128.size a) :
    ((outM).slice (Rect.unit (s := S204800x128) o S128x128.size h) (fun _ => rfl))
      = ((outM).slice (Rect.unit (s := S204800x128) o' S128x128.size h') (fun _ => rfl)) := by
  subst e; rfl

/-- The block the copy-out of sub-step `r` of trip `k` writes is block `5 k + r`. -/
theorem oblk_of_off12 (k : Fin k0_t1_loop.trips) (r : Fin 5) :
    ((outM).slice (Rect.unit (s := S204800x128) (k0_off12 L k (BitVec.ofNat 32 r.val)) S128x128.size (k0_off12_inb L k r)) (fun _ => rfl))
      = oblkN L (5 * k.val + r.val) := by
  have hk := trips_lt k
  refine oblk_congr ?_ _ _
  rw [k0_off12_eq, oOff, Nat.mod_eq_of_lt (by omega)]
  congr 1; omega

end Cert.Proof.KI

end
-- ==== Proof.Inv.lean ====
import proofs.«208012_g154618823073_cont_week2b_1161_14_alg».proof.Proof.Common
import proofs.«208012_g154618823073_cont_week2b_1161_14_alg».proof.Proof.Pieces

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

variable (d : Dev nD) (L : grid0.Coords)

/-! ## What a task's buffers hold, in closed form

The task at `L` is worker `w = 2 s + c`. Its list buffer holds row `w` of the index lists; the block gathered for list
`n` holds, at row `r`, the table row named by entry `r` of that list; scaled, it is the task's block `n` of the result. -/

def widL : Fin 32 := ⟨2 * (L 1).val + (L 0).val, by have := L0_lt L; have := L1_lt L; omega⟩

variable (fi : Buf (Elt F) (idsLoc d)) (fw : Buf (Elt F) (tabLoc d))

/-- The task's fifty lists: `lst[g, r] = lists[w, g, r]`. -/
def listC : S50x128.Idx → Elt F .i32 := fun j =>
  fi (ix3 (widL L) (⟨(j 0).val, (j 0).isLt⟩ : Fin 50) (⟨(j 1).val, (j 1).isLt⟩ : Fin 128))

/-- The block gathered for list `n`: `blk[r, c] = table[lists[w, n, r], c]`. -/
def gathC (n : ℕ) : S128x128.Idx → Elt F .f32 := fun y =>
  fw (ix2 (Cert.Spec.rowOf (fi (ix3 (widL L) (⟨n % 50, Nat.mod_lt _ (by decide)⟩ : Fin 50) (⟨(y 0).val, (y 0).isLt⟩ : Fin 128))))
    (⟨(y 1).val, (y 1).isLt⟩ : Fin 128))

/-- The same block scaled. -/
def scalC (n : ℕ) : S128x128.Idx → Elt F .f32 := fun y => FloatOps.mulf (gathC d L fi fw n y) Cert.Spec.scale

/-- The flat result. -/
def flatC : Buf (Elt F) (outLoc d) := Cert.Spec.flatLookup (F := F) fi fw

/-! ## The state of the pipeline before trip `n`

Lists `5 n … 5 n + 3` are being gathered into row buffers 0 … 3; row buffer 4 is free before the first trip and
otherwise being copied out to block `5 n - 1`; blocks below `5 n - 1` hold the lookup; the lists from `5 n + 4` on wait
in the list buffer. After the last trip nothing is being gathered. -/

variable (O : CellTallies nD τ sig (HIx 1)) (W : Waits sig (HIx 1)) (qT : PosShare TreeShare)

abbrev T (L : grid0.Coords) (d : Dev nD) : Thread nD τ := thr d L

/-- A read token of the table for the gather into row buffer `j`: whole, or with the table's elements lent. -/
abbrev tokWhole (j : Fin 5) : sProp 𝕄 := (tabM).view.loc (thr d L) ↦{Transfers.shareTok qT 5 j} fw
abbrev tokRest (j : Fin 5) : sProp 𝕄 := (tabM).view.loc (thr d L) ↦[Finset.univ \ (tabSl).view.set]{Transfers.shareTok qT 5 j} fw
abbrev tokLent (j : Fin 5) : sProp 𝕄 := (tabM).view.loc (thr d L) ↦[(tabSl).view.set]{Transfers.shareTok qT 5 j} fw

/-- List `n` at its contents, held by its own elements. -/
abbrev rowAt (n : ℕ) : sProp 𝕄 := (lrowN n).view.loc (thr d L) ↦[(lrowN n).view.set]{fullShare} listC d L fi
/-- List `n`'s elements of the list buffer, at anything (a list whose gather has landed is not read again). -/
abbrev rowFree (n : ℕ) : sProp 𝕄 := iprop(∃ f, (lstM).view.loc (thr d L) ↦[(lrowN n).view.set]{fullShare} f)
/-- Block `n` of the result at the lookup, and at anything. -/
abbrev blkDone (n : ℕ) : sProp 𝕄 := (oblkN L n).view.loc (thr d L) ↦[(oblkN L n).view.set]{fullShare} flatC d fi fw
abbrev blkTodo (n : ℕ) : sProp 𝕄 := iprop(∃ f, (oblkN L n).view.loc (thr d L) ↦[(oblkN L n).view.set]{fullShare} f)

/-- The gather of list `n` into row buffer 0 … 3, in flight. -/
abbrev gath0 (n : ℕ) : sProp 𝕄 :=
  iprop(Transfers.Flight (countersEmb (U := UU)) (thr d L) (gcell 0) (default : HIx 1) 524288
      iprop((((bufM0).view.loc (thr d L) ↦{fullShare} gathC d L fi fw n) ∗ rowAt d L fi n) ∗ tokLent d L fw qT 0) ∗ tokRest d L fw qT 0)
abbrev gath1 (n : ℕ) : sProp 𝕄 :=
  iprop(Transfers.Flight (countersEmb (U := UU)) (thr d L) (gcell 1) (default : HIx 1) 524288
      iprop((((bufM1).view.loc (thr d L) ↦{fullShare} gathC d L fi fw n) ∗ rowAt d L fi n) ∗ tokLent d L fw qT 1) ∗ tokRest d L fw qT 1)
abbrev gath2 (n : ℕ) : sProp 𝕄 :=
  iprop(Transfers.Flight (countersEmb (U := UU)) (thr d L) (gcell 2) (default : HIx 1) 524288
      iprop((((bufM2).view.loc (thr d L) ↦{fullShare} gathC d L fi fw n) ∗ rowAt d L fi n) ∗ tokLent d L fw qT 2) ∗ tokRest d L fw qT 2)
abbrev gath3 (n : ℕ) : sProp 𝕄 :=
  iprop(Transfers.Flight (countersEmb (U := UU)) (thr d L) (gcell 3) (default : HIx 1) 524288
      iprop((((bufM3).view.loc (thr d L) ↦{fullShare} gathC d L fi fw n) ∗ rowAt d L fi n) ∗ tokLent d L fw qT 3) ∗ tokRest d L fw qT 3)

/-- Row buffers 0 … 3 idle: each at anything, its token whole, its semaphore at zero. -/
abbrev idle0 : sProp 𝕄 := iprop((∃ f, (bufM0).view.loc (thr d L) ↦{fullShare} f) ∗ tokWhole d L fw qT 0 ∗ semVal (thr d L, gcell 0) 0)
abbrev idle1 : sProp 𝕄 := iprop((∃ f, (bufM1).view.loc (thr d L) ↦{fullShare} f) ∗ tokWhole d L fw qT 1 ∗ semVal (thr d L, gcell 1) 0)
abbrev idle2 : sProp 𝕄 := iprop((∃ f, (bufM2).view.loc (thr d L) ↦{fullShare} f) ∗ tokWhole d L fw qT 2 ∗ semVal (thr d L, gcell 2) 0)
abbrev idle3 : sProp 𝕄 := iprop((∃ f, (bufM3).view.loc (thr d L) ↦{fullShare} f) ∗ tokWhole d L fw qT 3 ∗ semVal (thr d L, gcell 3) 0)

/-- Row buffer 4: free before the first trip, else being copied out to block `5 n - 1`. -/
abbrev free4 : sProp 𝕄 := iprop((∃ f, (bufM4).view.loc (thr d L) ↦{fullShare} f) ∗ semVal (thr d L, scell 4) 0)
abbrev out4 (n : ℕ) : sProp 𝕄 :=
  iprop(Transfers.Flight (countersEmb (U := UU)) (thr d L) (scell 4) (default : HIx 1) 524288
      iprop(blkDone d L fi fw n ∗ ((bufM4).view.loc (thr d L) ↦[(bufM4).view.set]{fullShare} scalC d L fi fw n))
    ∗ ((bufM4).view.loc (thr d L) ↦[Finset.univ \ (bufM4).view.set]{fullShare} scalC d L fi fw n))

/-- The invariant of the pipelined loop. -/
def inv (n : ℕ) (_ : PUnit) : sProp 𝕄 :=
  iprop(Transfers.MayWaits (thr d L) (default : HIx 1) O
    ∗ (if n < 10 then iprop(gath0 d L fi fw qT (5 * n) ∗ gath1 d L fi fw qT (5 * n + 1) ∗ gath2 d L fi fw qT (5 * n + 2) ∗ gath3 d L fi fw qT (5 * n + 3))
        else iprop(idle0 d L fw qT ∗ idle1 d L fw qT ∗ idle2 d L fw qT ∗ idle3 d L fw qT))
    ∗ (if n = 0 then free4 d L else out4 d L fi fw (5 * n - 1))
    ∗ semVal (thr d L, gcell 4) 0 ∗ tokWhole d L fw qT 4
    ∗ semVal (thr d L, scell 0) 0 ∗ semVal (thr d L, scell 1) 0 ∗ semVal (thr d L, scell 2) 0 ∗ semVal (thr d L, scell 3) 0
    ∗ (bigSep (Ring.rangeSet 50 (5 * n + 4) 50) fun g => rowAt d L fi g.val)
    ∗ (bigSep (Ring.rangeSet 50 0 (5 * n)) fun g => rowFree d L g.val)
    ∗ (bigSep (Ring.rangeSet 50 (5 * n) 50) fun g => blkTodo d L g.val)
    ∗ (bigSep (Ring.rangeSet 50 0 (5 * n - 1)) fun g => blkDone d L fi fw g.val)
    ∗ ∃ W', ⌜∀ p ∈ W', p ∈ W ∨ p.2 = none⌝ ∗ owes (thr d L) O W')

end Cert.Proof.KI

end
-- ==== Proof.CoreStmt.lean ====
import proofs.«208012_g154618823073_cont_week2b_1161_14_alg».proof.Proof.Common
import proofs.«208012_g154618823073_cont_week2b_1161_14_alg».proof.Proof.Inv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

/-! ## What one task does, stated over its resources one by one

From a read share of the index lists (all words naming rows of the table) and of the table, its six scratch buffers at
anything, its twelve semaphores at zero and its fifty result blocks at anything, the task's run of the kernel ends
with the shares back, the scratch at anything, the semaphores at zero again and the fifty blocks at the lookup. -/

variable (d : Dev nD) (L : grid0.Coords)

def TileCore (fi : Buf (Elt F) (idsLoc d)) (fw : Buf (Elt F) (tabLoc d)) : Prop :=
  ∀ (O : CellTallies nD τ sig (HIx 1)) (W : Waits sig (HIx 1)) (qI qT : PosShare TreeShare)
    (fl : Buf (Elt F) ((thr d L).loc cc0_scratch0)) (f0 : Buf (Elt F) ((thr d L).loc cc0_scratch1)) (f1 : Buf (Elt F) ((thr d L).loc cc0_scratch2))
    (f2 : Buf (Elt F) ((thr d L).loc cc0_scratch3)) (f3 : Buf (Elt F) ((thr d L).loc cc0_scratch4)) (f4 : Buf (Elt F) ((thr d L).loc cc0_scratch5)),
    iprop(Transfers.MayWaits (thr d L) (default : HIx 1) O
        ∗ (idsLoc d ↦{qI} fi) ∗ (tabLoc d ↦{qT} fw)
        ∗ scr d L cc0_scratch0 fl ∗ scr d L cc0_scratch1 f0 ∗ scr d L cc0_scratch2 f1 ∗ scr d L cc0_scratch3 f2 ∗ scr d L cc0_scratch4 f3 ∗ scr d L cc0_scratch5 f4
        ∗ sv d L cc0_scratch6 0 ∗ sv d L cc0_scratch7 0 ∗ sv d L cc0_scratch8 0 ∗ sv d L cc0_scratch9 0 ∗ sv d L cc0_scratch10 0 ∗ sv d L cc0_scratch11 0 ∗ sv d L cc0_scratch12 0 ∗ sv d L cc0_scratch13 0 ∗ sv d L cc0_scratch14 0 ∗ sv d L cc0_scratch15 0 ∗ sv d L cc0_scoped0 0 ∗ sv d L cc0_scoped1 0
        ∗ (bigSep (Ring.rangeSet 50 0 50) fun g => blkTodo d L g.val)
        ∗ owes (thr d L) O W)
      ⊢ wp frame (wpE (defs₀ (F := F)) 𝒱₀ (thr d L) none) Set.univ (kernelAt (F := F) L)
          fun _ => iprop((idsLoc d ↦{qI} fi) ∗ (tabLoc d ↦{qT} fw)
            ∗ (∃ f, scr d L cc0_scratch0 f) ∗ (∃ f, scr d L cc0_scratch1 f) ∗ (∃ f, scr d L cc0_scratch2 f) ∗ (∃ f, scr d L cc0_scratch3 f) ∗ (∃ f, scr d L cc0_scratch4 f) ∗ (∃ f, scr d L cc0_scratch5 f)
            ∗ sv d L cc0_scratch6 0 ∗ sv d L cc0_scratch7 0 ∗ sv d L cc0_scratch8 0 ∗ sv d L cc0_scratch9 0 ∗ sv d L cc0_scratch10 0 ∗ sv d L cc0_scratch11 0 ∗ sv d L cc0_scratch12 0 ∗ sv d L cc0_scratch13 0 ∗ sv d L cc0_scratch14 0 ∗ sv d L cc0_scratch15 0 ∗ sv d L cc0_scoped0 0 ∗ sv d L cc0_scoped1 0
            ∗ (bigSep (Ring.rangeSet 50 0 50) fun g => blkDone d L fi fw g.val)
            ∗ ∃ W', ⌜∀ p ∈ W', p ∈ W ∨ p.2 = none⌝ ∗ owes (thr d L) O W')

end Cert.Proof.KI

end
-- ==== Proof.Tile.lean ====
/-
  The launch theorem's obligation for the vector-subcore kernel, from the statement of one task.

  The one call hands the task on SparseCore `c`, vector subcore `s` a read share of the index lists and of the table and
  its fifty blocks of the flat result, blocks `50 (2 s + c) + g`, `g = 0 … 49`, of the 1600 blocks of 128 rows, at
  whatever they hold; beside them the task has its own scoped storage: six scratch buffers among its buffers and twelve
  DMA semaphores among its cells, all at zero. The statement of one task speaks of these one by one and of each block
  as the kernel slices it, the 128 rows from row `12800 s + 6400 c + 128 g`. The two spellings of a block are the same
  rectangle (`50 (2 s + c) + g` blocks of 128 rows are that many rows), the scoped storage is the named buffers and
  cells and a rest that is never touched, and a read of the levels gives every wait its evidence; so the task's
  statement, framed by the rest, is the obligation, at every task of the grid.
-/
import proofs.«208012_g154618823073_cont_week2b_1161_14_alg».proof.Proof.Common
import proofs.«208012_g154618823073_cont_week2b_1161_14_alg».proof.Proof.State
import proofs.«208012_g154618823073_cont_week2b_1161_14_alg».proof.Proof.Pay
import proofs.«208012_g154618823073_cont_week2b_1161_14_alg».proof.Proof.Pieces
import proofs.«208012_g154618823073_cont_week2b_1161_14_alg».proof.Proof.Inv
import proofs.«208012_g154618823073_cont_week2b_1161_14_alg».proof.Proof.CoreStmt
import proofs.«208012_g154618823073_cont_week2b_1161_14_alg».proof.Proof.LaunchSplit

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

variable (d : Dev nD) (L : grid0.Coords)

/-! ## The task's place, and its fifty result blocks in the two spellings -/

/-- The task's SparseCore and vector subcore as the numbers the handshakes' payload is indexed by. -/
abbrev cL (L : grid0.Coords) : Fin 2 := ⟨(L 0).val, L0_lt L⟩
abbrev iL (L : grid0.Coords) : Fin 16 := ⟨(L 1).val, L1_lt L⟩

omit [FloatOps F] in
theorem unit_congr {s : Shape} {o o' sz sz' : Fin s.rank → ℕ} (eo : o = o') (es : sz = sz')
    (h : ∀ a, o a + sz a ≤ s.size a) (h' : ∀ a, o' a + sz' a ≤ s.size a) : Rect.unit o sz h = Rect.unit o' sz' h' := by
  subst eo es; rfl

omit [FloatOps F] in
/-- Block `50 (2 s + c) + g` of the 1600 blocks of 128 rows starts at row `12800 s + 6400 c + 128 g`. -/
theorem oPart_eq (g : Fin 50) :
    oPart (tix (cL L) (iL L) g) = Rect.unit (s := S204800x128) (oOff L g.val) S128x128.size (oOff_inb L g.val) := by
  have hg := g.isLt
  unfold oPart Rect.part Rect.block
  refine unit_congr ?_ ?_ _ _
  · funext a
    match a with
    | ⟨0, _⟩ =>
      show (50 * (2 * (L 1).val + (L 0).val) + g.val) * (204800 / 1600) = 12800 * (L 1).val + 6400 * (L 0).val + 128 * (g.val % 50)
      rw [Nat.mod_eq_of_lt hg]; omega
    | ⟨1, _⟩ => rfl
  · funext a
    match a with
    | ⟨0, _⟩ => rfl
    | ⟨1, _⟩ => rfl

/-- A block of the result, held by the task: as the payload spells it and as the kernel's slice does. -/
theorem pts_blk (g : Fin 50) (f : Buf (Elt F) (outLoc d)) :
    (outBlk d (tix (cL L) (iL L) g) f : sProp 𝕄)
      = ((oblkN L g.val).view.loc (thr d L) ↦[(oblkN L g.val).view.set]{fullShare} f) := by
  have e : oSet (tix (cL L) (iL L) g) = (oblkN L g.val).view.set := by
    show ((outM).view.slice (oPart (tix (cL L) (iL L) g))).set
      = ((outM).view.slice (Rect.unit (s := S204800x128) (oOff L g.val) S128x128.size (oOff_inb L g.val))).set
    rw [oPart_eq]
  show (outLoc d ↦[oSet (tix (cL L) (iL L) g)]{fullShare} f : sProp 𝕄) = _
  rw [e]

/-! ## A task's own scratch and semaphores, named one by one -/

/-- Elements taken out of a set one after the other: the assertion over the set is theirs, in order, and the rest's. -/
theorem bigSep_erase_list {I M : Type} [DecidableEq I] [URA M] (Φ : I → sProp M) :
    ∀ (l : List I) (s : Finset I), l.Nodup → (∀ g ∈ l, g ∈ s) →
      bigSep s Φ = l.foldr (fun g acc => iprop(Φ g ∗ acc)) (bigSep (l.foldl Finset.erase s) Φ)
  | [], _, _, _ => rfl
  | a :: l, s, hn, hm => by
    rw [SparseCore.bigSep_erase' (hm a List.mem_cons_self),
      bigSep_erase_list Φ l (s.erase a) (List.nodup_cons.mp hn).2 fun g hg =>
        Finset.mem_erase.mpr ⟨fun e => (List.nodup_cons.mp hn).1 (e ▸ hg), hm g (List.mem_cons_of_mem _ hg)⟩]
    rfl

/-- The task's twelve DMA semaphores, in the order the kernel takes them. -/
abbrev semList : List (DmaSem sig) :=
  [cc0_scratch6.sem, cc0_scratch7.sem, cc0_scratch8.sem, cc0_scratch9.sem, cc0_scratch10.sem, cc0_scratch11.sem, cc0_scratch12.sem,
    cc0_scratch13.sem, cc0_scratch14.sem, cc0_scratch15.sem, cc0_scoped0.sem, cc0_scoped1.sem]
/-- Its six scratch buffers. -/
abbrev bufList : List (Ref sig .scVector) := [cc0_scratch0, cc0_scratch1, cc0_scratch2, cc0_scratch3, cc0_scratch4, cc0_scratch5]

omit [FloatOps F] in
theorem semList_nodup : semList.Nodup := by decide
omit [FloatOps F] in
theorem bufList_nodup : bufList.Nodup := by decide

/-- The task's other scoped cells and buffers (none is touched). -/
def semRest : Finset (GSem nD τ sig) :=
  (semList.map fun s => ((thr d L, SemLoc.dma s) : GSem nD τ sig)).foldl Finset.erase (ownCells (thr d L))
def bufRest : Finset (DevRef τ sig) :=
  (bufList.map fun b => (Proc.scVector (cV L) (jV L)).devRef b).foldl Finset.erase (ownRefs (τ := τ) (.scVector (cV L) (jV L)))

omit [FloatOps F] in
theorem ownSems0_V :
    (ownSems0 (thr d L) : sProp 𝕄)
      = iprop(sv d L cc0_scratch6 0 ∗ sv d L cc0_scratch7 0 ∗ sv d L cc0_scratch8 0 ∗ sv d L cc0_scratch9 0 ∗ sv d L cc0_scratch10 0 ∗ sv d L cc0_scratch11 0
          ∗ sv d L cc0_scratch12 0 ∗ sv d L cc0_scratch13 0 ∗ sv d L cc0_scratch14 0 ∗ sv d L cc0_scratch15 0 ∗ sv d L cc0_scoped0 0 ∗ sv d L cc0_scoped1 0
          ∗ bigSep (semRest d L) fun g => semVal g 0) := by
  unfold SparseCore.Cfg.ownSems0
  refine (bigSep_erase_list (fun g => (semVal g 0 : sProp 𝕄)) (semList.map fun s => ((thr d L, SemLoc.dma s) : GSem nD τ sig)) _ ?_ ?_).trans rfl
  · exact List.Nodup.map (fun a b e => SemLoc.dma.inj (congrArg Prod.snd e)) semList_nodup
  · intro g hg
    obtain ⟨s, -, rfl⟩ := List.mem_map.mp hg
    exact mem_ownCells.mpr ⟨rfl, sig.sc_scopedDmaSem .scVector s (by decide)⟩

omit [FloatOps F] in
theorem ownBufs_V :
    (ownBufs (thr d L) : sProp 𝕄)
      = iprop((∃ f, scr d L cc0_scratch0 f) ∗ (∃ f, scr d L cc0_scratch1 f) ∗ (∃ f, scr d L cc0_scratch2 f) ∗ (∃ f, scr d L cc0_scratch3 f)
          ∗ (∃ f, scr d L cc0_scratch4 f) ∗ (∃ f, scr d L cc0_scratch5 f)
          ∗ bigSep (bufRest L) fun b => iprop(∃ f, ((d, b) : Loc nD τ sig) ↦{fullShare} f)) := by
  unfold SparseCore.Cfg.ownBufs
  refine (bigSep_erase_list (fun b => (iprop(∃ f, ((d, b) : Loc nD τ sig) ↦{fullShare} f) : sProp 𝕄))
    (bufList.map fun b => (Proc.scVector (cV L) (jV L)).devRef b) _ ?_ ?_).trans rfl
  · exact List.Nodup.map (Proc.devRef_injective _) bufList_nodup
  · intro b hb
    simp only [bufList, List.map_cons, List.map_nil, List.mem_cons, List.not_mem_nil, or_false] at hb
    rcases hb with rfl | rfl | rfl | rfl | rfl | rfl <;>
      exact SparseCore.Cfg.mem_ownRefs_of_owner (p := Proc.scVector (cV L) (jV L)) rfl

/-! ## The blocks the task is handed, and hands back, as the kernel's slices -/

theorem blocks_todo :
    (bigSep Finset.univ fun g : Fin 50 => (iprop(∃ f, outBlk d (tix (cL L) (iL L) g) f) : sProp 𝕄))
      = bigSep (Ring.rangeSet 50 0 50) fun g => blkTodo d L g.val := by
  rw [Ring.rangeSet_univ]
  refine bigSep_congr fun g _ => ?_
  simp only [pts_blk]

theorem blocks_done (m : (ℓ : Loc nD τ sig) → Buf (Elt F) ℓ) :
    (bigSep Finset.univ fun g : Fin 50 => (outBlk d (tix (cL L) (iL L) g) (flatRes m d) : sProp 𝕄))
      = bigSep (Ring.rangeSet 50 0 50) fun g => blkDone d L (lists m d) (m (tabLoc d)) g.val := by
  rw [Ring.rangeSet_univ]
  refine bigSep_congr fun g _ => ?_
  rw [pts_blk]
  rfl

/-! ## The task's statement, from what the launch hands it to what it takes back -/

theorem tile_open (m : (ℓ : Loc nD τ sig) → Buf (Elt F) ℓ) (hcore : TileCore d L (lists m d) (m (tabLoc d)))
    (O : CellTallies nD τ sig (HIx 1)) (W : Waits sig (HIx 1)) (hO : ∀ g, O g none = 0) :
    iprop(levAts (K (F := F)).L (K (F := F)).lev ∗ emp ∗ goRes m d (cL L) (iL L)
        ∗ scopedBufs (thr d L) ∗ scopedSems0 (thr d L) ∗ owes (thr d L) O W)
      ⊢ wp frame (wpE (defs₀ (F := F)) 𝒱₀ (thr d L) none) Set.univ (kernelAt (F := F) L)
          fun _ => iprop(tdRes m d (cL L) (iL L) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨Hi, Ht, Ho⟩, ⟨⟨%fl, Hl⟩, ⟨%f0, H0⟩, ⟨%f1, H1⟩, ⟨%f2, H2⟩, ⟨%f3, H3⟩, ⟨%f4, H4⟩, Hbufs⟩, ⟨S0, S1, S2, S3, S4, S5, S6, S7, S8, S9, S10, S11, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (blocks_todo (F := F) d L)) $$ Ho
  iapply (wp_wand_r frame _ Set.univ)
  isplitl [Hmw Hi Ht Hl H0 H1 H2 H3 H4 S0 S1 S2 S3 S4 S5 S6 S7 S8 S9 S10 S11 Ho' HO]
  · iapply (hcore O W _ _ fl f0 f1 f2 f3 f4)
    isplitl [Hmw]; · iexact Hmw
    isplitl [Hi]; · iexact Hi
    isplitl [Ht]; · iexact Ht
    isplitl [Hl]; · iexact Hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [Ho']; · iexact Ho'
    iexact HO
  · iintro %_ ⟨Hi, Ht, Hl, H0, H1, H2, H3, H4, S0, S1, S2, S3, S4, S5, S6, S7, S8, S9, S10, S11, Ho, HW⟩
    isplitl [Hi Ht Ho]
    · isplitl [Hi]; · iexact Hi
      isplitl [Ht]; · iexact Ht
      iapply (Entails.of_eq (blocks_done (F := F) d L m).symm); iexact Ho
    isplitl [Hl H0 H1 H2 H3 H4 Hbufs]
    ·
      isplitl [Hl]; · iexact Hl
      isplitl [H0]; · iexact H0
      isplitl [H1]; · iexact H1
      isplitl [H2]; · iexact H2
      isplitl [H3]; · iexact H3
      isplitl [H4]; · iexact H4
      iexact Hbufs
    isplitl [S0 S1 S2 S3 S4 S5 S6 S7 S8 S9 S10 S11 Hsems]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact Hsems
    iexact HW

/-! ## The obligation -/

/-- Grid coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

/-- The body table's entry for a vector subcore is the kernel at that subcore's coordinates. -/
theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
/-- A wait recorded at no call is one the launch's post allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- THE LAUNCH THEOREM'S OBLIGATION for the vector-subcore kernel: every task of the one call, from what the call hands
    it and its own scoped storage, runs the kernel and hands back its shares, its blocks at the lookup and its storage. -/
theorem tileObl (m : (ℓ : Loc nD τ sig) → Buf (Elt F) ℓ)
    (hcore : ∀ (d : Dev nD) (L : grid0.Coords), TileCore d L (lists m d) (m (tabLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_open d (coordsV ⟨_, hci.1⟩ ⟨_, hci.2⟩) m (hcore d _) O W hO).trans (wp_mono frame _ _ fun _ => obl_post)

end Cert.Proof.KI

end
-- ==== Proof.Word.State.lean ====
import proofs.«208012_g154618823073_cont_week2b_1161_14_alg».proof.Proof.Word.Common

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

/-! ## A task's pieces, in one spelling

The kernel names its index lists, its result blocks and its semaphores through chains of the trip number; the
assertions below name them once, by their number. -/

variable (d : Dev nD) (L : grid0.Coords)

theorem lrow_inb (g : Fin 50) : ∀ a, (![g.val, 0] : Fin 2 → Nat) a + S1x128.size a ≤ S50x128.size a := by
  intro a; fin_cases a
  · show g.val + 1 ≤ 50; omega
  · show 0 + 128 ≤ 128; omega

/-- List `g` of the task's fifty, as a 128-word memref. -/
abbrev lrowM (g : Fin 50) : Memref sig .scVector .vmem S128 .i32 :=
  ((lstM).slice (Rect.unit (s := S50x128) ![g.val, 0] S1x128.size (lrow_inb g)) (fun _ => rfl)).squeeze S128 squeezes_S1x128_S128

/-- The whole table, as the kernel slices it for a gather. -/
abbrev tabSl : Memref sig .scVector .hbm S1000000x128 .f32 :=
  (tabM).slice (Rect.unit (s := S1000000x128) ![0, 0] S1000000x128.size inb_S1000000x128_S1000000x128_0_0) (fun _ => rfl)

/-- The semaphore of the gather into row buffer `j`, and of the copy out of it. -/
abbrev gcell (j : Fin 5) : SemLoc sig := SemLoc.dma ⟨j.val, show j.val < 12 by omega⟩
abbrev scell (j : Fin 5) : SemLoc sig := SemLoc.dma ⟨5 + j.val, show 5 + j.val < 12 by omega⟩

abbrev sv (j : DmaSems sig S_) (n : ℕ) : sProp 𝕄 := semVal (thr d L, SemLoc.dma j.sem) n
abbrev scr (b : Ref sig .scVector) (f : Buf (Elt F) ((thr d L).loc b)) : sProp 𝕄 := (thr d L).loc b ↦{fullShare} f

theorem pts_ids (q : PosShare TreeShare) (f : Buf (Elt F) (idsLoc d)) : ((idsM).view.loc (thr d L) ↦{q} f : sProp 𝕄) = idsLoc d ↦{q} f := rfl
theorem pts_tab (q : PosShare TreeShare) (f : Buf (Elt F) (tabLoc d)) : ((tabM).view.loc (thr d L) ↦{q} f : sProp 𝕄) = tabLoc d ↦{q} f := rfl
theorem pts_lst (f : Buf (Elt F) ((thr d L).loc cc0_scratch0)) : ((lstM).view.loc (thr d L) ↦{fullShare} f : sProp 𝕄) = scr d L cc0_scratch0 f := rfl
theorem pts_b0 (f : Buf (Elt F) ((thr d L).loc cc0_scratch1)) : ((bufM0).view.loc (thr d L) ↦{fullShare} f : sProp 𝕄) = scr d L cc0_scratch1 f := rfl
theorem pts_b1 (f : Buf (Elt F) ((thr d L).loc cc0_scratch2)) : ((bufM1).view.loc (thr d L) ↦{fullShare} f : sProp 𝕄) = scr d L cc0_scratch2 f := rfl
theorem pts_b2 (f : Buf (Elt F) ((thr d L).loc cc0_scratch3)) : ((bufM2).view.loc (thr d L) ↦{fullShare} f : sProp 𝕄) = scr d L cc0_scratch3 f := rfl
theorem pts_b3 (f : Buf (Elt F) ((thr d L).loc cc0_scratch4)) : ((bufM3).view.loc (thr d L) ↦{fullShare} f : sProp 𝕄) = scr d L cc0_scratch4 f := rfl
theorem pts_b4 (f : Buf (Elt F) ((thr d L).loc cc0_scratch5)) : ((bufM4).view.loc (thr d L) ↦{fullShare} f : sProp 𝕄) = scr d L cc0_scratch5 f := rfl

end Cert.Proof.KW

end
-- ==== Proof.Word.Pieces.lean ====
import proofs.«208012_g154618823073_cont_week2b_1161_14_alg».proof.Proof.Word.Common
import proofs.«208012_g154618823073_cont_week2b_1161_14_alg».proof.Proof.Word.State
import proofs.«208012_g154618823073_cont_week2b_1161_14_alg».proof.Proof.Word.Pay

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

variable (d : Dev nD) (L : grid0.Coords)

/-! ## The trip counts and the conditions of the pipelined loop, in closed form

Trip `k` of the ten handles lists `5 k … 5 k + 4`. The copy-out of list `g - 1` is awaited unless `g = 0`; the gather of
list `g + 4` is issued unless it would pass the fiftieth list. -/

theorem trips_lt (k : Fin k0_t1_loop.trips) : k.val < 10 := lt_of_lt_of_le k.isLt k0_t1_abs.2.1

theorem cond1_iff : ∀ k : Fin k0_t1_loop.trips, (k0_cond1 k = 1#1 ↔ 1 ≤ k.val) := by decide
theorem cond2_all : ∀ k : Fin k0_t1_loop.trips, k0_cond2 k = 1#1 := by decide
theorem cond3_all : ∀ k : Fin k0_t1_loop.trips, k0_cond3 k = 1#1 := by decide
theorem cond5_all : ∀ k : Fin k0_t1_loop.trips, k0_cond5 k = 1#1 := by decide
theorem cond7_all : ∀ k : Fin k0_t1_loop.trips, k0_cond7 k = 1#1 := by decide
theorem cond9_all : ∀ k : Fin k0_t1_loop.trips, k0_cond9 k = 1#1 := by decide
theorem cond4_iff : ∀ k : Fin k0_t1_loop.trips, (k0_cond4 k = 1#1 ↔ k.val ≤ 8) := by decide
theorem cond6_iff : ∀ k : Fin k0_t1_loop.trips, (k0_cond6 k = 1#1 ↔ k.val ≤ 8) := by decide
theorem cond8_iff : ∀ k : Fin k0_t1_loop.trips, (k0_cond8 k = 1#1 ↔ k.val ≤ 8) := by decide
theorem cond10_iff : ∀ k : Fin k0_t1_loop.trips, (k0_cond10 k = 1#1 ↔ k.val ≤ 8) := by decide

/-! ## The index lists by number -/

/-- List `n` (numbers past the forty-ninth wrap; never used there). -/
abbrev lrowN (n : ℕ) : Memref sig .scVector .vmem S128 .i32 := lrowM ⟨n % 50, Nat.mod_lt _ (by decide)⟩

theorem lrow_congr {o o' : Fin 2 → ℕ} (e : o = o') (h : ∀ a, o a + S1x128.size a ≤ S50x128.size a) (h' : ∀ a, o' a + S1x128.size a ≤ S50x128.size a) :
    (((lstM).slice (Rect.unit (s := S50x128) o S1x128.size h) (fun _ => rfl)).squeeze S128 squeezes_S1x128_S128)
      = (((lstM).slice (Rect.unit (s := S50x128) o' S1x128.size h') (fun _ => rfl)).squeeze S128 squeezes_S1x128_S128) := by
  subst e; rfl

/-- A list sliced at offsets `![n, 0]` is list `n`. -/
theorem lrow_of_off (o : Fin 2 → ℕ) (h : ∀ a, o a + S1x128.size a ≤ S50x128.size a) (n : ℕ) (hn : n < 50) (e : o = ![n, 0]) :
    (((lstM).slice (Rect.unit (s := S50x128) o S1x128.size h) (fun _ => rfl)).squeeze S128 squeezes_S1x128_S128) = lrowN n :=
  lrow_congr (e.trans (by show (![n, 0] : Fin 2 → ℕ) = ![n % 50, 0]; rw [Nat.mod_eq_of_lt hn])) h _

/-! ## The result blocks by number -/

theorem L0_lt : (L 0).val < 2 := (L 0).isLt
theorem L1_lt : (L 1).val < 16 := (L 1).isLt

/-- Block `n` of the task at `L` starts at row `6400 (2 s + c) + 128 n`. -/
def oOff (n : ℕ) : Fin 2 → ℕ := ![12800 * (L 1).val + 6400 * (L 0).val + 128 * (n % 50), 0]

theorem oOff_inb (n : ℕ) : ∀ a, oOff L n a + S128x128.size a ≤ S204800x128.size a := by
  have h0 := L0_lt L; have h1 := L1_lt L; have hn : n % 50 < 50 := Nat.mod_lt _ (by decide)
  intro a; fin_cases a
  · show 12800 * (L 1).val + 6400 * (L 0).val + 128 * (n % 50) + 128 ≤ 204800; omega
  · show 0 + 128 ≤ 128; omega

abbrev oblkN (n : ℕ) : Memref sig .scVector .hbm S128x128 .f32 :=
  (outM).slice (Rect.unit (s := S204800x128) (oOff L n) S128x128.size (oOff_inb L n)) (fun _ => rfl)

theorem oblk_congr {o o' : Fin 2 → ℕ} (e : o = o') (h : ∀ a, o a + S128x128.size a ≤ S204800x128.size a) (h' : ∀ a, o' a + S128x128.size a ≤ S204800x128.size a) :
    ((outM).slice (Rect.unit (s := S204800x128) o S128x128.size h) (fun _ => rfl))
      = ((outM).slice (Rect.unit (s := S204800x128) o' S128x128.size h') (fun _ => rfl)) := by
  subst e; rfl

/-- The block the copy-out of sub-step `r` of trip `k` writes is block `5 k + r`. -/
theorem oblk_of_off12 (k : Fin k0_t1_loop.trips) (r : Fin 5) :
    ((outM).slice (Rect.unit (s := S204800x128) (k0_off12 L k (BitVec.ofNat 32 r.val)) S128x128.size (k0_off12_inb L k r)) (fun _ => rfl))
      = oblkN L (5 * k.val + r.val) := by
  have hk := trips_lt k
  refine oblk_congr ?_ _ _
  rw [k0_off12_eq, oOff, Nat.mod_eq_of_lt (by omega)]
  congr 1; omega

end Cert.Proof.KW

end
-- ==== Proof.Word.Inv.lean ====
import proofs.«208012_g154618823073_cont_week2b_1161_14_alg».proof.Proof.Word.Common
import proofs.«208012_g154618823073_cont_week2b_1161_14_alg».proof.Proof.Word.Pieces

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

variable (d : Dev nD) (L : grid0.Coords)

/-! ## What a task's buffers hold, in closed form

The task at `L` is worker `w = 2 s + c`. Its list buffer holds row `w` of the index lists; the block gathered for list
`n` holds, at row `r`, the table row named by entry `r` of that list; scaled, it is the task's block `n` of the result. -/

def widL : Fin 32 := ⟨2 * (L 1).val + (L 0).val, by have := L0_lt L; have := L1_lt L; omega⟩

variable (fi : Buf (Elt F) (idsLoc d)) (fw : Buf (Elt F) (tabLoc d))

/-- The task's fifty lists: `lst[g, r] = lists[w, g, r]`. -/
def listC : S50x128.Idx → Elt F .i32 := fun j =>
  fi (ix3 (widL L) (⟨(j 0).val, (j 0).isLt⟩ : Fin 50) (⟨(j 1).val, (j 1).isLt⟩ : Fin 128))

/-- The block gathered for list `n`: `blk[r, c] = table[lists[w, n, r], c]`. -/
def gathC (n : ℕ) : S128x128.Idx → Elt F .f32 := fun y =>
  fw (ix2 (Cert.Spec.rowOf (fi (ix3 (widL L) (⟨n % 50, Nat.mod_lt _ (by decide)⟩ : Fin 50) (⟨(y 0).val, (y 0).isLt⟩ : Fin 128))))
    (⟨(y 1).val, (y 1).isLt⟩ : Fin 128))

/-- The same block scaled. -/
def scalC (n : ℕ) : S128x128.Idx → Elt F .f32 := fun y => FloatOps.mulf (gathC d L fi fw n y) Cert.Spec.scale

/-- The flat result. -/
def flatC : Buf (Elt F) (outLoc d) := Cert.Spec.flatLookup (F := F) fi fw

/-! ## The state of the pipeline before trip `n`

Lists `5 n … 5 n + 3` are being gathered into row buffers 0 … 3; row buffer 4 is free before the first trip and
otherwise being copied out to block `5 n - 1`; blocks below `5 n - 1` hold the lookup; the lists from `5 n + 4` on wait
in the list buffer. After the last trip nothing is being gathered. -/

variable (O : CellTallies nD τ sig (HIx 1)) (W : Waits sig (HIx 1)) (qT : PosShare TreeShare)

abbrev T (L : grid0.Coords) (d : Dev nD) : Thread nD τ := thr d L

/-- A read token of the table for the gather into row buffer `j`: whole, or with the table's elements lent. -/
abbrev tokWhole (j : Fin 5) : sProp 𝕄 := (tabM).view.loc (thr d L) ↦{Transfers.shareTok qT 5 j} fw
abbrev tokRest (j : Fin 5) : sProp 𝕄 := (tabM).view.loc (thr d L) ↦[Finset.univ \ (tabSl).view.set]{Transfers.shareTok qT 5 j} fw
abbrev tokLent (j : Fin 5) : sProp 𝕄 := (tabM).view.loc (thr d L) ↦[(tabSl).view.set]{Transfers.shareTok qT 5 j} fw

/-- List `n` at its contents, held by its own elements. -/
abbrev rowAt (n : ℕ) : sProp 𝕄 := (lrowN n).view.loc (thr d L) ↦[(lrowN n).view.set]{fullShare} listC d L fi
/-- List `n`'s elements of the list buffer, at anything (a list whose gather has landed is not read again). -/
abbrev rowFree (n : ℕ) : sProp 𝕄 := iprop(∃ f, (lstM).view.loc (thr d L) ↦[(lrowN n).view.set]{fullShare} f)
/-- Block `n` of the result at the lookup, and at anything. -/
abbrev blkDone (n : ℕ) : sProp 𝕄 := (oblkN L n).view.loc (thr d L) ↦[(oblkN L n).view.set]{fullShare} flatC d fi fw
abbrev blkTodo (n : ℕ) : sProp 𝕄 := iprop(∃ f, (oblkN L n).view.loc (thr d L) ↦[(oblkN L n).view.set]{fullShare} f)

/-- The gather of list `n` into row buffer 0 … 3, in flight. -/
abbrev gath0 (n : ℕ) : sProp 𝕄 :=
  iprop(Transfers.Flight (countersEmb (U := UU)) (thr d L) (gcell 0) (default : HIx 1) 524288
      iprop((((bufM0).view.loc (thr d L) ↦{fullShare} gathC d L fi fw n) ∗ rowAt d L fi n) ∗ tokLent d L fw qT 0) ∗ tokRest d L fw qT 0)
abbrev gath1 (n : ℕ) : sProp 𝕄 :=
  iprop(Transfers.Flight (countersEmb (U := UU)) (thr d L) (gcell 1) (default : HIx 1) 524288
      iprop((((bufM1).view.loc (thr d L) ↦{fullShare} gathC d L fi fw n) ∗ rowAt d L fi n) ∗ tokLent d L fw qT 1) ∗ tokRest d L fw qT 1)
abbrev gath2 (n : ℕ) : sProp 𝕄 :=
  iprop(Transfers.Flight (countersEmb (U := UU)) (thr d L) (gcell 2) (default : HIx 1) 524288
      iprop((((bufM2).view.loc (thr d L) ↦{fullShare} gathC d L fi fw n) ∗ rowAt d L fi n) ∗ tokLent d L fw qT 2) ∗ tokRest d L fw qT 2)
abbrev gath3 (n : ℕ) : sProp 𝕄 :=
  iprop(Transfers.Flight (countersEmb (U := UU)) (thr d L) (gcell 3) (default : HIx 1) 524288
      iprop((((bufM3).view.loc (thr d L) ↦{fullShare} gathC d L fi fw n) ∗ rowAt d L fi n) ∗ tokLent d L fw qT 3) ∗ tokRest d L fw qT 3)

/-- Row buffers 0 … 3 idle: each at anything, its token whole, its semaphore at zero. -/
abbrev idle0 : sProp 𝕄 := iprop((∃ f, (bufM0).view.loc (thr d L) ↦{fullShare} f) ∗ tokWhole d L fw qT 0 ∗ semVal (thr d L, gcell 0) 0)
abbrev idle1 : sProp 𝕄 := iprop((∃ f, (bufM1).view.loc (thr d L) ↦{fullShare} f) ∗ tokWhole d L fw qT 1 ∗ semVal (thr d L, gcell 1) 0)
abbrev idle2 : sProp 𝕄 := iprop((∃ f, (bufM2).view.loc (thr d L) ↦{fullShare} f) ∗ tokWhole d L fw qT 2 ∗ semVal (thr d L, gcell 2) 0)
abbrev idle3 : sProp 𝕄 := iprop((∃ f, (bufM3).view.loc (thr d L) ↦{fullShare} f) ∗ tokWhole d L fw qT 3 ∗ semVal (thr d L, gcell 3) 0)

/-- Row buffer 4: free before the first trip, else being copied out to block `5 n - 1`. -/
abbrev free4 : sProp 𝕄 := iprop((∃ f, (bufM4).view.loc (thr d L) ↦{fullShare} f) ∗ semVal (thr d L, scell 4) 0)
abbrev out4 (n : ℕ) : sProp 𝕄 :=
  iprop(Transfers.Flight (countersEmb (U := UU)) (thr d L) (scell 4) (default : HIx 1) 524288
      iprop(blkDone d L fi fw n ∗ ((bufM4).view.loc (thr d L) ↦[(bufM4).view.set]{fullShare} scalC d L fi fw n))
    ∗ ((bufM4).view.loc (thr d L) ↦[Finset.univ \ (bufM4).view.set]{fullShare} scalC d L fi fw n))

/-- The invariant of the pipelined loop. -/
def inv (n : ℕ) (_ : PUnit) : sProp 𝕄 :=
  iprop(Transfers.MayWaits (thr d L) (default : HIx 1) O
    ∗ (if n < 10 then iprop(gath0 d L fi fw qT (5 * n) ∗ gath1 d L fi fw qT (5 * n + 1) ∗ gath2 d L fi fw qT (5 * n + 2) ∗ gath3 d L fi fw qT (5 * n + 3))
        else iprop(idle0 d L fw qT ∗ idle1 d L fw qT ∗ idle2 d L fw qT ∗ idle3 d L fw qT))
    ∗ (if n = 0 then free4 d L else out4 d L fi fw (5 * n - 1))
    ∗ semVal (thr d L, gcell 4) 0 ∗ tokWhole d L fw qT 4
    ∗ semVal (thr d L, scell 0) 0 ∗ semVal (thr d L, scell 1) 0 ∗ semVal (thr d L, scell 2) 0 ∗ semVal (thr d L, scell 3) 0
    ∗ (bigSep (Ring.rangeSet 50 (5 * n + 4) 50) fun g => rowAt d L fi g.val)
    ∗ (bigSep (Ring.rangeSet 50 0 (5 * n)) fun g => rowFree d L g.val)
    ∗ (bigSep (Ring.rangeSet 50 (5 * n) 50) fun g => blkTodo d L g.val)
    ∗ (bigSep (Ring.rangeSet 50 0 (5 * n - 1)) fun g => blkDone d L fi fw g.val)
    ∗ ∃ W', ⌜∀ p ∈ W', p ∈ W ∨ p.2 = none⌝ ∗ owes (thr d L) O W')

end Cert.Proof.KW

end
-- ==== Proof.Word.CoreStmt.lean ====
import proofs.«208012_g154618823073_cont_week2b_1161_14_alg».proof.Proof.Word.Common
import proofs.«208012_g154618823073_cont_week2b_1161_14_alg».proof.Proof.Word.Inv

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

/-! ## What one task does, stated over its resources one by one

From a read share of the index lists (all words naming rows of the table) and of the table, its six scratch buffers at
anything, its twelve semaphores at zero and its fifty result blocks at anything, the task's run of the kernel ends
with the shares back, the scratch at anything, the semaphores at zero again and the fifty blocks at the lookup. -/

variable (d : Dev nD) (L : grid0.Coords)

def TileCore (fi : Buf (Elt F) (idsLoc d)) (fw : Buf (Elt F) (tabLoc d)) : Prop :=
  ∀ (O : CellTallies nD τ sig (HIx 1)) (W : Waits sig (HIx 1)) (qI qT : PosShare TreeShare)
    (fl : Buf (Elt F) ((thr d L).loc cc0_scratch0)) (f0 : Buf (Elt F) ((thr d L).loc cc0_scratch1)) (f1 : Buf (Elt F) ((thr d L).loc cc0_scratch2))
    (f2 : Buf (Elt F) ((thr d L).loc cc0_scratch3)) (f3 : Buf (Elt F) ((thr d L).loc cc0_scratch4)) (f4 : Buf (Elt F) ((thr d L).loc cc0_scratch5)),
    iprop(Transfers.MayWaits (thr d L) (default : HIx 1) O
        ∗ (idsLoc d ↦{qI} fi) ∗ (tabLoc d ↦{qT} fw)
        ∗ scr d L cc0_scratch0 fl ∗ scr d L cc0_scratch1 f0 ∗ scr d L cc0_scratch2 f1 ∗ scr d L cc0_scratch3 f2 ∗ scr d L cc0_scratch4 f3 ∗ scr d L cc0_scratch5 f4
        ∗ sv d L cc0_scratch6 0 ∗ sv d L cc0_scratch7 0 ∗ sv d L cc0_scratch8 0 ∗ sv d L cc0_scratch9 0 ∗ sv d L cc0_scratch10 0 ∗ sv d L cc0_scratch11 0 ∗ sv d L cc0_scratch12 0 ∗ sv d L cc0_scratch13 0 ∗ sv d L cc0_scratch14 0 ∗ sv d L cc0_scratch15 0 ∗ sv d L cc0_scoped0 0 ∗ sv d L cc0_scoped1 0
        ∗ (bigSep (Ring.rangeSet 50 0 50) fun g => blkTodo d L g.val)
        ∗ owes (thr d L) O W)
      ⊢ wp frame (wpE (defs₀ (F := F)) 𝒱₀ (thr d L) none) Set.univ (kernelAt (F := F) L)
          fun _ => iprop((idsLoc d ↦{qI} fi) ∗ (tabLoc d ↦{qT} fw)
            ∗ (∃ f, scr d L cc0_scratch0 f) ∗ (∃ f, scr d L cc0_scratch1 f) ∗ (∃ f, scr d L cc0_scratch2 f) ∗ (∃ f, scr d L cc0_scratch3 f) ∗ (∃ f, scr d L cc0_scratch4 f) ∗ (∃ f, scr d L cc0_scratch5 f)
            ∗ sv d L cc0_scratch6 0 ∗ sv d L cc0_scratch7 0 ∗ sv d L cc0_scratch8 0 ∗ sv d L cc0_scratch9 0 ∗ sv d L cc0_scratch10 0 ∗ sv d L cc0_scratch11 0 ∗ sv d L cc0_scratch12 0 ∗ sv d L cc0_scratch13 0 ∗ sv d L cc0_scratch14 0 ∗ sv d L cc0_scratch15 0 ∗ sv d L cc0_scoped0 0 ∗ sv d L cc0_scoped1 0
            ∗ (bigSep (Ring.rangeSet 50 0 50) fun g => blkDone d L fi fw g.val)
            ∗ ∃ W', ⌜∀ p ∈ W', p ∈ W ∨ p.2 = none⌝ ∗ owes (thr d L) O W')

end Cert.Proof.KW

end
-- ==== Proof.Word.Tile.lean ====
/-
  The launch theorem's obligation for the vector-subcore kernel, from the statement of one task.

  The one call hands the task on SparseCore `c`, vector subcore `s` a read share of the index lists and of the table and
  its fifty blocks of the flat result, blocks `50 (2 s + c) + g`, `g = 0 … 49`, of the 1600 blocks of 128 rows, at
  whatever they hold; beside them the task has its own scoped storage: six scratch buffers among its buffers and twelve
  DMA semaphores among its cells, all at zero. The statement of one task speaks of these one by one and of each block
  as the kernel slices it, the 128 rows from row `12800 s + 6400 c + 128 g`. The two spellings of a block are the same
  rectangle (`50 (2 s + c) + g` blocks of 128 rows are that many rows), the scoped storage is the named buffers and
  cells and a rest that is never touched, and a read of the levels gives every wait its evidence; so the task's
  statement, framed by the rest, is the obligation, at every task of the grid.
-/
import proofs.«208012_g154618823073_cont_week2b_1161_14_alg».proof.Proof.Word.Common
import proofs.«208012_g154618823073_cont_week2b_1161_14_alg».proof.Proof.Word.State
import proofs.«208012_g154618823073_cont_week2b_1161_14_alg».proof.Proof.Word.Pay
import proofs.«208012_g154618823073_cont_week2b_1161_14_alg».proof.Proof.Word.Pieces
import proofs.«208012_g154618823073_cont_week2b_1161_14_alg».proof.Proof.Word.Inv
import proofs.«208012_g154618823073_cont_week2b_1161_14_alg».proof.Proof.Word.CoreStmt
import proofs.«208012_g154618823073_cont_week2b_1161_14_alg».proof.Proof.Word.LaunchSplit

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

variable (d : Dev nD) (L : grid0.Coords)

/-! ## The task's place, and its fifty result blocks in the two spellings -/

/-- The task's SparseCore and vector subcore as the numbers the handshakes' payload is indexed by. -/
abbrev cL (L : grid0.Coords) : Fin 2 := ⟨(L 0).val, L0_lt L⟩
abbrev iL (L : grid0.Coords) : Fin 16 := ⟨(L 1).val, L1_lt L⟩

omit [FloatOps F] in
theorem unit_congr {s : Shape} {o o' sz sz' : Fin s.rank → ℕ} (eo : o = o') (es : sz = sz')
    (h : ∀ a, o a + sz a ≤ s.size a) (h' : ∀ a, o' a + sz' a ≤ s.size a) : Rect.unit o sz h = Rect.unit o' sz' h' := by
  subst eo es; rfl

omit [FloatOps F] in
/-- Block `50 (2 s + c) + g` of the 1600 blocks of 128 rows starts at row `12800 s + 6400 c + 128 g`. -/
theorem oPart_eq (g : Fin 50) :
    oPart (tix (cL L) (iL L) g) = Rect.unit (s := S204800x128) (oOff L g.val) S128x128.size (oOff_inb L g.val) := by
  have hg := g.isLt
  unfold oPart Rect.part Rect.block
  refine unit_congr ?_ ?_ _ _
  · funext a
    match a with
    | ⟨0, _⟩ =>
      show (50 * (2 * (L 1).val + (L 0).val) + g.val) * (204800 / 1600) = 12800 * (L 1).val + 6400 * (L 0).val + 128 * (g.val % 50)
      rw [Nat.mod_eq_of_lt hg]; omega
    | ⟨1, _⟩ => rfl
  · funext a
    match a with
    | ⟨0, _⟩ => rfl
    | ⟨1, _⟩ => rfl

/-- A block of the result, held by the task: as the payload spells it and as the kernel's slice does. -/
theorem pts_blk (g : Fin 50) (f : Buf (Elt F) (outLoc d)) :
    (outBlk d (tix (cL L) (iL L) g) f : sProp 𝕄)
      = ((oblkN L g.val).view.loc (thr d L) ↦[(oblkN L g.val).view.set]{fullShare} f) := by
  have e : oSet (tix (cL L) (iL L) g) = (oblkN L g.val).view.set := by
    show ((outM).view.slice (oPart (tix (cL L) (iL L) g))).set
      = ((outM).view.slice (Rect.unit (s := S204800x128) (oOff L g.val) S128x128.size (oOff_inb L g.val))).set
    rw [oPart_eq]
  show (outLoc d ↦[oSet (tix (cL L) (iL L) g)]{fullShare} f : sProp 𝕄) = _
  rw [e]

/-! ## A task's own scratch and semaphores, named one by one -/

/-- Elements taken out of a set one after the other: the assertion over the set is theirs, in order, and the rest's. -/
theorem bigSep_erase_list {I M : Type} [DecidableEq I] [URA M] (Φ : I → sProp M) :
    ∀ (l : List I) (s : Finset I), l.Nodup → (∀ g ∈ l, g ∈ s) →
      bigSep s Φ = l.foldr (fun g acc => iprop(Φ g ∗ acc)) (bigSep (l.foldl Finset.erase s) Φ)
  | [], _, _, _ => rfl
  | a :: l, s, hn, hm => by
    rw [SparseCore.bigSep_erase' (hm a List.mem_cons_self),
      bigSep_erase_list Φ l (s.erase a) (List.nodup_cons.mp hn).2 fun g hg =>
        Finset.mem_erase.mpr ⟨fun e => (List.nodup_cons.mp hn).1 (e ▸ hg), hm g (List.mem_cons_of_mem _ hg)⟩]
    rfl

/-- The task's twelve DMA semaphores, in the order the kernel takes them. -/
abbrev semList : List (DmaSem sig) :=
  [cc0_scratch6.sem, cc0_scratch7.sem, cc0_scratch8.sem, cc0_scratch9.sem, cc0_scratch10.sem, cc0_scratch11.sem, cc0_scratch12.sem,
    cc0_scratch13.sem, cc0_scratch14.sem, cc0_scratch15.sem, cc0_scoped0.sem, cc0_scoped1.sem]
/-- Its six scratch buffers. -/
abbrev bufList : List (Ref sig .scVector) := [cc0_scratch0, cc0_scratch1, cc0_scratch2, cc0_scratch3, cc0_scratch4, cc0_scratch5]

omit [FloatOps F] in
theorem semList_nodup : semList.Nodup := by decide
omit [FloatOps F] in
theorem bufList_nodup : bufList.Nodup := by decide

/-- The task's other scoped cells and buffers (none is touched). -/
def semRest : Finset (GSem nD τ sig) :=
  (semList.map fun s => ((thr d L, SemLoc.dma s) : GSem nD τ sig)).foldl Finset.erase (ownCells (thr d L))
def bufRest : Finset (DevRef τ sig) :=
  (bufList.map fun b => (Proc.scVector (cV L) (jV L)).devRef b).foldl Finset.erase (ownRefs (τ := τ) (.scVector (cV L) (jV L)))

omit [FloatOps F] in
theorem ownSems0_V :
    (ownSems0 (thr d L) : sProp 𝕄)
      = iprop(sv d L cc0_scratch6 0 ∗ sv d L cc0_scratch7 0 ∗ sv d L cc0_scratch8 0 ∗ sv d L cc0_scratch9 0 ∗ sv d L cc0_scratch10 0 ∗ sv d L cc0_scratch11 0
          ∗ sv d L cc0_scratch12 0 ∗ sv d L cc0_scratch13 0 ∗ sv d L cc0_scratch14 0 ∗ sv d L cc0_scratch15 0 ∗ sv d L cc0_scoped0 0 ∗ sv d L cc0_scoped1 0
          ∗ bigSep (semRest d L) fun g => semVal g 0) := by
  unfold SparseCore.Cfg.ownSems0
  refine (bigSep_erase_list (fun g => (semVal g 0 : sProp 𝕄)) (semList.map fun s => ((thr d L, SemLoc.dma s) : GSem nD τ sig)) _ ?_ ?_).trans rfl
  · exact List.Nodup.map (fun a b e => SemLoc.dma.inj (congrArg Prod.snd e)) semList_nodup
  · intro g hg
    obtain ⟨s, -, rfl⟩ := List.mem_map.mp hg
    exact mem_ownCells.mpr ⟨rfl, sig.sc_scopedDmaSem .scVector s (by decide)⟩

omit [FloatOps F] in
theorem ownBufs_V :
    (ownBufs (thr d L) : sProp 𝕄)
      = iprop((∃ f, scr d L cc0_scratch0 f) ∗ (∃ f, scr d L cc0_scratch1 f) ∗ (∃ f, scr d L cc0_scratch2 f) ∗ (∃ f, scr d L cc0_scratch3 f)
          ∗ (∃ f, scr d L cc0_scratch4 f) ∗ (∃ f, scr d L cc0_scratch5 f)
          ∗ bigSep (bufRest L) fun b => iprop(∃ f, ((d, b) : Loc nD τ sig) ↦{fullShare} f)) := by
  unfold SparseCore.Cfg.ownBufs
  refine (bigSep_erase_list (fun b => (iprop(∃ f, ((d, b) : Loc nD τ sig) ↦{fullShare} f) : sProp 𝕄))
    (bufList.map fun b => (Proc.scVector (cV L) (jV L)).devRef b) _ ?_ ?_).trans rfl
  · exact List.Nodup.map (Proc.devRef_injective _) bufList_nodup
  · intro b hb
    simp only [bufList, List.map_cons, List.map_nil, List.mem_cons, List.not_mem_nil, or_false] at hb
    rcases hb with rfl | rfl | rfl | rfl | rfl | rfl <;>
      exact SparseCore.Cfg.mem_ownRefs_of_owner (p := Proc.scVector (cV L) (jV L)) rfl

/-! ## The blocks the task is handed, and hands back, as the kernel's slices -/

theorem blocks_todo :
    (bigSep Finset.univ fun g : Fin 50 => (iprop(∃ f, outBlk d (tix (cL L) (iL L) g) f) : sProp 𝕄))
      = bigSep (Ring.rangeSet 50 0 50) fun g => blkTodo d L g.val := by
  rw [Ring.rangeSet_univ]
  refine bigSep_congr fun g _ => ?_
  simp only [pts_blk]

theorem blocks_done (m : (ℓ : Loc nD τ sig) → Buf (Elt F) ℓ) :
    (bigSep Finset.univ fun g : Fin 50 => (outBlk d (tix (cL L) (iL L) g) (flatRes m d) : sProp 𝕄))
      = bigSep (Ring.rangeSet 50 0 50) fun g => blkDone d L (lists m d) (m (tabLoc d)) g.val := by
  rw [Ring.rangeSet_univ]
  refine bigSep_congr fun g _ => ?_
  rw [pts_blk]
  rfl

/-! ## The task's statement, from what the launch hands it to what it takes back -/

theorem tile_open (m : (ℓ : Loc nD τ sig) → Buf (Elt F) ℓ) (hcore : TileCore d L (lists m d) (m (tabLoc d)))
    (O : CellTallies nD τ sig (HIx 1)) (W : Waits sig (HIx 1)) (hO : ∀ g, O g none = 0) :
    iprop(levAts (K (F := F)).L (K (F := F)).lev ∗ emp ∗ goRes m d (cL L) (iL L)
        ∗ scopedBufs (thr d L) ∗ scopedSems0 (thr d L) ∗ owes (thr d L) O W)
      ⊢ wp frame (wpE (defs₀ (F := F)) 𝒱₀ (thr d L) none) Set.univ (kernelAt (F := F) L)
          fun _ => iprop(tdRes m d (cL L) (iL L) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  iintro ⟨#Hlv, -, ⟨Hi, Ht, Ho⟩, ⟨⟨%fl, Hl⟩, ⟨%f0, H0⟩, ⟨%f1, H1⟩, ⟨%f2, H2⟩, ⟨%f3, H3⟩, ⟨%f4, H4⟩, Hbufs⟩, ⟨S0, S1, S2, S3, S4, S5, S6, S7, S8, S9, S10, S11, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (blocks_todo (F := F) d L)) $$ Ho
  iapply (wp_wand_r frame _ Set.univ)
  isplitl [Hmw Hi Ht Hl H0 H1 H2 H3 H4 S0 S1 S2 S3 S4 S5 S6 S7 S8 S9 S10 S11 Ho' HO]
  · iapply (hcore O W _ _ fl f0 f1 f2 f3 f4)
    isplitl [Hmw]; · iexact Hmw
    isplitl [Hi]; · iexact Hi
    isplitl [Ht]; · iexact Ht
    isplitl [Hl]; · iexact Hl
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [Ho']; · iexact Ho'
    iexact HO
  · iintro %_ ⟨Hi, Ht, Hl, H0, H1, H2, H3, H4, S0, S1, S2, S3, S4, S5, S6, S7, S8, S9, S10, S11, Ho, HW⟩
    isplitl [Hi Ht Ho]
    · isplitl [Hi]; · iexact Hi
      isplitl [Ht]; · iexact Ht
      iapply (Entails.of_eq (blocks_done (F := F) d L m).symm); iexact Ho
    isplitl [Hl H0 H1 H2 H3 H4 Hbufs]
    ·
      isplitl [Hl]; · iexact Hl
      isplitl [H0]; · iexact H0
      isplitl [H1]; · iexact H1
      isplitl [H2]; · iexact H2
      isplitl [H3]; · iexact H3
      isplitl [H4]; · iexact H4
      iexact Hbufs
    isplitl [S0 S1 S2 S3 S4 S5 S6 S7 S8 S9 S10 S11 Hsems]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact Hsems
    iexact HW

/-! ## The obligation -/

/-- Grid coordinates from a SparseCore and a vector subcore of the grid. -/
def coordsV (c : Fin (grid0.bound 0)) (s : Fin (grid0.bound 1)) : grid0.Coords :=
  fun | 0 => c | 1 => s | ⟨_ + 2, h⟩ => absurd h (Nat.not_lt.2 (Nat.le_add_left _ _))

/-- The body table's entry for a vector subcore is the kernel at that subcore's coordinates. -/
theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
/-- A wait recorded at no call is one the launch's post allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- THE LAUNCH THEOREM'S OBLIGATION for the vector-subcore kernel: every task of the one call, from what the call hands
    it and its own scoped storage, runs the kernel and hands back its shares, its blocks at the lookup and its storage. -/
theorem tileObl (m : (ℓ : Loc nD τ sig) → Buf (Elt F) ℓ)
    (hcore : ∀ (d : Dev nD) (L : grid0.Coords), TileCore d L (lists m d) (m (tabLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_open d (coordsV ⟨_, hci.1⟩ ⟨_, hci.2⟩) m (hcore d _) O W hO).trans (wp_mono frame _ _ fun _ => obl_post)

end Cert.Proof.KW

end
-- ==== Proof.Runs.lean ====
import proofs.«208012_g154618823073_cont_week2b_1161_14_alg».proof.Proof.Common
import proofs.«208012_g154618823073_cont_week2b_1161_14_alg».proof.Proof.Inv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

/-! ## Runs of numbered pieces: taking the next five, adding the last five -/

section Runs
variable {M : Type} [URA M]

theorem take1 (A : ℕ → sProp M) (lo hi : ℕ) (h : lo < hi) (hh : hi ≤ 50) :
    bigSep (Ring.rangeSet 50 lo hi) (fun g => A g.val) = iprop(A lo ∗ bigSep (Ring.rangeSet 50 (lo + 1) hi) fun g => A g.val) := by
  rw [Ring.bigSep_rangeSet_head h (by omega)]

theorem take5 (A : ℕ → sProp M) (lo hi : ℕ) (h : lo + 5 ≤ hi) (hh : hi ≤ 50) :
    bigSep (Ring.rangeSet 50 lo hi) (fun g => A g.val)
      = iprop(A lo ∗ A (lo + 1) ∗ A (lo + 2) ∗ A (lo + 3) ∗ A (lo + 4) ∗ bigSep (Ring.rangeSet 50 (lo + 5) hi) fun g => A g.val) := by
  rw [take1 A lo hi (by omega) hh, take1 A (lo + 1) hi (by omega) hh, take1 A (lo + 1 + 1) hi (by omega) hh,
    take1 A (lo + 1 + 1 + 1) hi (by omega) hh, take1 A (lo + 1 + 1 + 1 + 1) hi (by omega) hh]

theorem push1 (A : ℕ → sProp M) (lo hi : ℕ) (h : lo ≤ hi) (hh : hi < 50) :
    bigSep (Ring.rangeSet 50 lo (hi + 1)) (fun g => A g.val) = iprop(A hi ∗ bigSep (Ring.rangeSet 50 lo hi) fun g => A g.val) := by
  rw [Ring.bigSep_rangeSet_last (by omega) (by omega)]; rfl

theorem push5 (A : ℕ → sProp M) (lo hi : ℕ) (h : lo ≤ hi) (hh : hi + 5 ≤ 50) :
    bigSep (Ring.rangeSet 50 lo (hi + 5)) (fun g => A g.val)
      = iprop(A (hi + 4) ∗ A (hi + 3) ∗ A (hi + 2) ∗ A (hi + 1) ∗ A hi ∗ bigSep (Ring.rangeSet 50 lo hi) fun g => A g.val) := by
  rw [show hi + 5 = hi + 4 + 1 from rfl, push1 A lo (hi + 4) (by omega) (by omega), show hi + 4 = hi + 3 + 1 from rfl,
    push1 A lo (hi + 3) (by omega) (by omega), show hi + 3 = hi + 2 + 1 from rfl, push1 A lo (hi + 2) (by omega) (by omega),
    show hi + 2 = hi + 1 + 1 from rfl, push1 A lo (hi + 1) (by omega) (by omega), push1 A lo hi h (by omega)]

end Runs

end Cert.Proof.KI

end
-- ==== Proof.ScaleTrip.lean ====
/-
  One trip of a row-scaling loop, as a value.

  A gathered block of 128 rows by 128 features sits in a buffer and is scaled row by row: trip `r` loads the eight
  sixteen-lane chunks `[r, 16 c : 16 c + 16]`, `c = 0 … 7`, of row `r`, multiplies every lane by the embedding scale and
  stores each chunk back where it was. Before trip `r` the buffer holds `scaledTo r G`: the rows below `r` of the
  gathered block `G` times the scale, the rest as gathered. The eight chunks tile row `r` and touch no other row, and
  every load of the trip reads a row not yet scaled, so the trip turns `scaledTo r G` into `scaledTo (r + 1) G`;
  `scaledTo 0 G = G` and `scaledTo 128 G` is the whole block scaled.

  The product is the one the vector operations take lane by lane, at any float instance.
-/
import proofs.«208012_g154618823073_cont_week2b_1161_14_alg».proof.Proof.Gen.KernelIdeal.Skeleton
import proofs.«208012_g154618823073_cont_week2b_1161_14_alg».proof.Proof.Spec
import Idealize.ShloMosaic.Lib.Writes
import Idealize.ShloMosaic.Lib.ValueIdx
import Idealize.ShloMosaic.Lib.Pipeline.Value

noncomputable section

namespace Cert.Proof.KI

open Cert.KernelIdeal Cert.KernelIdeal.Gen Idealize.ShloMosaic Idealize.ShloMosaic.ValueIdx

variable {F : FTy → Type} [FloatOps F]

/-- The block with its rows below `r` scaled and the rest as gathered. -/
def scaledTo (r : ℕ) (G : S128x128.Idx → F .f32) : S128x128.Idx → F .f32 :=
  fun y => if (y 0).val < r then FloatOps.mulf (G y) Cert.Spec.scale else G y

/-- Nothing is scaled before the first trip … -/
theorem scaledTo_zero (G : S128x128.Idx → F .f32) : scaledTo 0 G = G := by
  funext y; unfold scaledTo; rw [if_neg (Nat.not_lt_zero _)]

/-- … and everything after the last. -/
theorem scaledTo_all (G : S128x128.Idx → F .f32) : scaledTo 128 G = fun y => FloatOps.mulf (G y) Cert.Spec.scale := by
  funext y; unfold scaledTo; rw [if_pos (idx2_lt0 y)]

/-- One chunk's new value: the sixteen lanes, each times the scale. -/
def scaleChunk (v : Vec F S1x16 .f32) : FVec F S1x16 .f32 :=
  shapeCast S1x16 (mulf (shapeCast S16 v shapeCasts_S1x16_S16) (broadcast S16 (Scalar.ofBits .f32 0x413504F3#32))) shapeCasts_S16_S1x16

/-- Lane by lane: the two re-layings between `[1, 16]` and `[16]` cancel. -/
theorem scaleChunk_apply (v : Vec F S1x16 .f32) (x : S1x16.Idx) : scaleChunk v x = FloatOps.mulf (v x) Cert.Spec.scale := by
  have e : scaleChunk v = fun x => FloatOps.mulf (v x) Cert.Spec.scale :=
    shapeCast_shapeCast (fun x => FloatOps.mulf (v x) Cert.Spec.scale) shapeCasts_S1x16_S16 shapeCasts_S16_S1x16
  rw [e]

section Core

variable {sig : RefSig} {κ : Kind} {sp : Space} (v : View sig κ sp S128x128 .f32) (f : v.ty.Contents (Elt F))
  (G : S128x128.Idx → F .f32) (r : ℕ) (hf : v.read (Elt F) f = scaledTo r G)

/-- An element of the chunk of row `r` at column offset `k` lies in row `r`. -/
theorem row_of_mem {k : ℕ} {inb : ∀ a, (![r, k] : Fin 2 → ℕ) a + S1x16.size a ≤ S128x128.size a} {y : S128x128.Idx}
    (h : y ∈ (Rect.unit (s := S128x128) ![r, k] S1x16.size inb).set) : (y 0).val = r := by
  have h0 := (Rect.mem_set_unit.mp h) 0
  have e0 : (![r, k] : Fin 2 → ℕ) 0 = r := rfl
  have s0 : S1x16.size 0 = 1 := rfl
  rw [e0, s0] at h0
  omega

/-- An element of row `r` whose column lies in `[k, k + 16)` is in that chunk. -/
theorem mem_chunk {k : ℕ} (inb : ∀ a, (![r, k] : Fin 2 → ℕ) a + S1x16.size a ≤ S128x128.size a) {y : S128x128.Idx}
    (hy : (y 0).val = r) (hk : k ≤ (y 1).val ∧ (y 1).val < k + 16) :
    y ∈ (Rect.unit (s := S128x128) ![r, k] S1x16.size inb).set := by
  refine Rect.mem_set_unit.mpr fun a => ?_
  match a with
  | ⟨0, _⟩ =>
    show r ≤ (y 0).val ∧ (y 0).val < r + 1
    omega
  | ⟨1, _⟩ =>
    show k ≤ (y 1).val ∧ (y 1).val < k + 16
    exact hk

include hf in
/-- What one chunk's store writes is the next stage of the block there: row `r` is not yet scaled when it is loaded, and
    is scaled after. -/
theorem piece_eq {k : ℕ} (inb : ∀ a, (![r, k] : Fin 2 → ℕ) a + S1x16.size a ≤ S128x128.size a)
    (x : (Rect.unit (s := S128x128) ![r, k] S1x16.size inb).shape.Idx) :
    scaleChunk (v.readAt (Elt F) (Rect.unit (s := S128x128) ![r, k] S1x16.size inb).toLoadRect f) x
      = scaledTo (r + 1) G ((Rect.unit (s := S128x128) ![r, k] S1x16.size inb).emb x) := by
  have hrow : (((Rect.unit (s := S128x128) ![r, k] S1x16.size inb).emb x) 0).val = r :=
    row_of_mem r (LoadRect.idx_mem (Rect.unit (s := S128x128) ![r, k] S1x16.size inb).toLoadRect x)
  rw [scaleChunk_apply, View.readAt_apply, hf]
  show FloatOps.mulf (scaledTo r G ((Rect.unit (s := S128x128) ![r, k] S1x16.size inb).emb x)) Cert.Spec.scale = _
  unfold scaledTo
  rw [if_neg (by rw [hrow]; exact Nat.lt_irrefl r), if_pos (by rw [hrow]; exact Nat.lt_succ_self r)]

include hf in
/-- ONE TRIP: from a block scaled below row `r`, the eight stores of row `r`'s chunks, each the chunk as loaded times the
    scale, leave the block scaled below row `r + 1`. The chunks tile row `r` and touch no other row. -/
theorem scale_trip_core
    (o0 o1 o2 o3 o4 o5 o6 o7 : Fin 2 → ℕ)
    (i0 : ∀ a, o0 a + S1x16.size a ≤ S128x128.size a)
    (i1 : ∀ a, o1 a + S1x16.size a ≤ S128x128.size a)
    (i2 : ∀ a, o2 a + S1x16.size a ≤ S128x128.size a)
    (i3 : ∀ a, o3 a + S1x16.size a ≤ S128x128.size a)
    (i4 : ∀ a, o4 a + S1x16.size a ≤ S128x128.size a)
    (i5 : ∀ a, o5 a + S1x16.size a ≤ S128x128.size a)
    (i6 : ∀ a, o6 a + S1x16.size a ≤ S128x128.size a)
    (i7 : ∀ a, o7 a + S1x16.size a ≤ S128x128.size a)
    (e0 : o0 = ![r, 0])     (e1 : o1 = ![r, 16])     (e2 : o2 = ![r, 32])     (e3 : o3 = ![r, 48])     (e4 : o4 = ![r, 64])     (e5 : o5 = ![r, 80])     (e6 : o6 = ![r, 96])     (e7 : o7 = ![r, 112]) :
    v.read (Elt F) (v.writes (Elt F) f
      [⟨Rect.unit (s := S128x128) o7 S1x16.size i7, scaleChunk (v.readAt (Elt F) (Rect.unit (s := S128x128) o7 S1x16.size i7).toLoadRect f)⟩,
       ⟨Rect.unit (s := S128x128) o6 S1x16.size i6, scaleChunk (v.readAt (Elt F) (Rect.unit (s := S128x128) o6 S1x16.size i6).toLoadRect f)⟩,
       ⟨Rect.unit (s := S128x128) o5 S1x16.size i5, scaleChunk (v.readAt (Elt F) (Rect.unit (s := S128x128) o5 S1x16.size i5).toLoadRect f)⟩,
       ⟨Rect.unit (s := S128x128) o4 S1x16.size i4, scaleChunk (v.readAt (Elt F) (Rect.unit (s := S128x128) o4 S1x16.size i4).toLoadRect f)⟩,
       ⟨Rect.unit (s := S128x128) o3 S1x16.size i3, scaleChunk (v.readAt (Elt F) (Rect.unit (s := S128x128) o3 S1x16.size i3).toLoadRect f)⟩,
       ⟨Rect.unit (s := S128x128) o2 S1x16.size i2, scaleChunk (v.readAt (Elt F) (Rect.unit (s := S128x128) o2 S1x16.size i2).toLoadRect f)⟩,
       ⟨Rect.unit (s := S128x128) o1 S1x16.size i1, scaleChunk (v.readAt (Elt F) (Rect.unit (s := S128x128) o1 S1x16.size i1).toLoadRect f)⟩,
       ⟨Rect.unit (s := S128x128) o0 S1x16.size i0, scaleChunk (v.readAt (Elt F) (Rect.unit (s := S128x128) o0 S1x16.size i0).toLoadRect f)⟩])
      = scaledTo (r + 1) G := by
  subst e0 e1 e2 e3 e4 e5 e6 e7
  funext y
  by_cases hy : (y 0).val = r
  · refine View.read_writes_apply_of_pieces v f (scaledTo (r + 1) G) _ ?_ y ?_
    · intro p hp
      simp only [List.mem_cons, List.not_mem_nil, or_false] at hp
      rcases hp with rfl | rfl | rfl | rfl | rfl | rfl | rfl | rfl <;> exact piece_eq v f G r hf _
    · have h1 : (y 1).val < 128 := idx2_lt1 y
      by_cases c0 : (y 1).val < 16
      · exact ⟨_, (List.Mem.tail _ (List.Mem.tail _ (List.Mem.tail _ (List.Mem.tail _ (List.Mem.tail _ (List.Mem.tail _ (List.Mem.tail _ (List.Mem.head _)))))))), mem_chunk r i0 hy ⟨by omega, by omega⟩⟩
      by_cases c1 : (y 1).val < 32
      · exact ⟨_, (List.Mem.tail _ (List.Mem.tail _ (List.Mem.tail _ (List.Mem.tail _ (List.Mem.tail _ (List.Mem.tail _ (List.Mem.head _))))))), mem_chunk r i1 hy ⟨by omega, by omega⟩⟩
      by_cases c2 : (y 1).val < 48
      · exact ⟨_, (List.Mem.tail _ (List.Mem.tail _ (List.Mem.tail _ (List.Mem.tail _ (List.Mem.tail _ (List.Mem.head _)))))), mem_chunk r i2 hy ⟨by omega, by omega⟩⟩
      by_cases c3 : (y 1).val < 64
      · exact ⟨_, (List.Mem.tail _ (List.Mem.tail _ (List.Mem.tail _ (List.Mem.tail _ (List.Mem.head _))))), mem_chunk r i3 hy ⟨by omega, by omega⟩⟩
      by_cases c4 : (y 1).val < 80
      · exact ⟨_, (List.Mem.tail _ (List.Mem.tail _ (List.Mem.tail _ (List.Mem.head _)))), mem_chunk r i4 hy ⟨by omega, by omega⟩⟩
      by_cases c5 : (y 1).val < 96
      · exact ⟨_, (List.Mem.tail _ (List.Mem.tail _ (List.Mem.head _))), mem_chunk r i5 hy ⟨by omega, by omega⟩⟩
      by_cases c6 : (y 1).val < 112
      · exact ⟨_, (List.Mem.tail _ (List.Mem.head _)), mem_chunk r i6 hy ⟨by omega, by omega⟩⟩
      exact ⟨_, (List.Mem.head _), mem_chunk r i7 hy ⟨by omega, by omega⟩⟩
  · have hn : ∀ p ∈ ([⟨Rect.unit (s := S128x128) ![r, 112] S1x16.size i7, scaleChunk (v.readAt (Elt F) (Rect.unit (s := S128x128) ![r, 112] S1x16.size i7).toLoadRect f)⟩,
        ⟨Rect.unit (s := S128x128) ![r, 96] S1x16.size i6, scaleChunk (v.readAt (Elt F) (Rect.unit (s := S128x128) ![r, 96] S1x16.size i6).toLoadRect f)⟩,
        ⟨Rect.unit (s := S128x128) ![r, 80] S1x16.size i5, scaleChunk (v.readAt (Elt F) (Rect.unit (s := S128x128) ![r, 80] S1x16.size i5).toLoadRect f)⟩,
        ⟨Rect.unit (s := S128x128) ![r, 64] S1x16.size i4, scaleChunk (v.readAt (Elt F) (Rect.unit (s := S128x128) ![r, 64] S1x16.size i4).toLoadRect f)⟩,
        ⟨Rect.unit (s := S128x128) ![r, 48] S1x16.size i3, scaleChunk (v.readAt (Elt F) (Rect.unit (s := S128x128) ![r, 48] S1x16.size i3).toLoadRect f)⟩,
        ⟨Rect.unit (s := S128x128) ![r, 32] S1x16.size i2, scaleChunk (v.readAt (Elt F) (Rect.unit (s := S128x128) ![r, 32] S1x16.size i2).toLoadRect f)⟩,
        ⟨Rect.unit (s := S128x128) ![r, 16] S1x16.size i1, scaleChunk (v.readAt (Elt F) (Rect.unit (s := S128x128) ![r, 16] S1x16.size i1).toLoadRect f)⟩,
        ⟨Rect.unit (s := S128x128) ![r, 0] S1x16.size i0, scaleChunk (v.readAt (Elt F) (Rect.unit (s := S128x128) ![r, 0] S1x16.size i0).toLoadRect f)⟩] : List (View.Piece (Elt F) S128x128 .f32)), y ∉ p.1.set := by
      intro p hp
      simp only [List.mem_cons, List.not_mem_nil, or_false] at hp
      rcases hp with rfl | rfl | rfl | rfl | rfl | rfl | rfl | rfl <;> (intro h; dsimp only at h; exact hy (row_of_mem r h))
    rw [View.read_writes_apply_of_forall_not_mem v f y _ hn, hf]
    unfold scaledTo
    by_cases hlt : (y 0).val < r
    · rw [if_pos hlt, if_pos (by omega)]
    · rw [if_neg hlt, if_neg (by omega)]

end Core

/-! ## The five row buffers

Each scaling loop's trip is the core at that buffer's whole view: the eight offsets are `[r, 16 c]`, `c = 0 … 7`, and
each stored value is the chunk as loaded, lane by lane times the scale (for the fifth chunk the product is taken in one
step and re-laid to `[1, 16]` in the next). Stores are listed last first. -/

/-- One trip of the first row buffer's scaling loop. -/
theorem scale_trip0 (G : S128x128.Idx → F .f32) (r : Fin k0_t2_loop.trips) :
    (Memref.whole cc0_scratch1).view.writes (Elt F) (scaledTo r.val G)
      [⟨Rect.unit (s := S128x128) (k0_off11 r) S1x16.size (k0_off11_inb r), k0_pay33 (View.readAt (Elt F) (Memref.whole cc0_scratch1).view (Rect.unit (s := S128x128) (k0_off11 r) S1x16.size (k0_off11_inb r)).toLoadRect (scaledTo r.val G))⟩,
       ⟨Rect.unit (s := S128x128) (k0_off10 r) S1x16.size (k0_off10_inb r), k0_pay32 (View.readAt (Elt F) (Memref.whole cc0_scratch1).view (Rect.unit (s := S128x128) (k0_off10 r) S1x16.size (k0_off10_inb r)).toLoadRect (scaledTo r.val G))⟩,
       ⟨Rect.unit (s := S128x128) (k0_off9 r) S1x16.size (k0_off9_inb r), k0_pay31 (View.readAt (Elt F) (Memref.whole cc0_scratch1).view (Rect.unit (s := S128x128) (k0_off9 r) S1x16.size (k0_off9_inb r)).toLoadRect (scaledTo r.val G))⟩,
       ⟨Rect.unit (s := S128x128) (k0_off8 r) S1x16.size (k0_off8_inb r), k0_pay30 (k0_pay9 (View.readAt (Elt F) (Memref.whole cc0_scratch1).view (Rect.unit (s := S128x128) (k0_off8 r) S1x16.size (k0_off8_inb r)).toLoadRect (scaledTo r.val G)))⟩,
       ⟨Rect.unit (s := S128x128) (k0_off7 r) S1x16.size (k0_off7_inb r), k0_pay8 (View.readAt (Elt F) (Memref.whole cc0_scratch1).view (Rect.unit (s := S128x128) (k0_off7 r) S1x16.size (k0_off7_inb r)).toLoadRect (scaledTo r.val G))⟩,
       ⟨Rect.unit (s := S128x128) (k0_off6 r) S1x16.size (k0_off6_inb r), k0_pay7 (View.readAt (Elt F) (Memref.whole cc0_scratch1).view (Rect.unit (s := S128x128) (k0_off6 r) S1x16.size (k0_off6_inb r)).toLoadRect (scaledTo r.val G))⟩,
       ⟨Rect.unit (s := S128x128) (k0_off5 r) S1x16.size (k0_off5_inb r), k0_pay6 (View.readAt (Elt F) (Memref.whole cc0_scratch1).view (Rect.unit (s := S128x128) (k0_off5 r) S1x16.size (k0_off5_inb r)).toLoadRect (scaledTo r.val G))⟩,
       ⟨Rect.unit (s := S128x128) (k0_off4 r) S1x16.size (k0_off4_inb r), k0_pay5 (View.readAt (Elt F) (Memref.whole cc0_scratch1).view (Rect.unit (s := S128x128) (k0_off4 r) S1x16.size (k0_off4_inb r)).toLoadRect (scaledTo r.val G))⟩]
      = scaledTo (r.val + 1) G :=
  scale_trip_core (Memref.whole cc0_scratch1).view (scaledTo r.val G) G r.val rfl
    (k0_off4 r) (k0_off5 r) (k0_off6 r) (k0_off7 r) (k0_off8 r) (k0_off9 r) (k0_off10 r) (k0_off11 r)
    (k0_off4_inb r) (k0_off5_inb r) (k0_off6_inb r) (k0_off7_inb r) (k0_off8_inb r) (k0_off9_inb r) (k0_off10_inb r) (k0_off11_inb r)
    (k0_off4_eq r) (k0_off5_eq r) (k0_off6_eq r) (k0_off7_eq r) (k0_off8_eq r) (k0_off9_eq r) (k0_off10_eq r) (k0_off11_eq r)

/-- One trip of the second row buffer's scaling loop. -/
theorem scale_trip1 (G : S128x128.Idx → F .f32) (r : Fin k0_t3_loop.trips) :
    (Memref.whole cc0_scratch2).view.writes (Elt F) (scaledTo r.val G)
      [⟨Rect.unit (s := S128x128) (k0_off22 r) S1x16.size (k0_off22_inb r), k0_pay37 (View.readAt (Elt F) (Memref.whole cc0_scratch2).view (Rect.unit (s := S128x128) (k0_off22 r) S1x16.size (k0_off22_inb r)).toLoadRect (scaledTo r.val G))⟩,
       ⟨Rect.unit (s := S128x128) (k0_off21 r) S1x16.size (k0_off21_inb r), k0_pay36 (View.readAt (Elt F) (Memref.whole cc0_scratch2).view (Rect.unit (s := S128x128) (k0_off21 r) S1x16.size (k0_off21_inb r)).toLoadRect (scaledTo r.val G))⟩,
       ⟨Rect.unit (s := S128x128) (k0_off20 r) S1x16.size (k0_off20_inb r), k0_pay35 (View.readAt (Elt F) (Memref.whole cc0_scratch2).view (Rect.unit (s := S128x128) (k0_off20 r) S1x16.size (k0_off20_inb r)).toLoadRect (scaledTo r.val G))⟩,
       ⟨Rect.unit (s := S128x128) (k0_off19 r) S1x16.size (k0_off19_inb r), k0_pay34 (k0_pay14 (View.readAt (Elt F) (Memref.whole cc0_scratch2).view (Rect.unit (s := S128x128) (k0_off19 r) S1x16.size (k0_off19_inb r)).toLoadRect (scaledTo r.val G)))⟩,
       ⟨Rect.unit (s := S128x128) (k0_off18 r) S1x16.size (k0_off18_inb r), k0_pay13 (View.readAt (Elt F) (Memref.whole cc0_scratch2).view (Rect.unit (s := S128x128) (k0_off18 r) S1x16.size (k0_off18_inb r)).toLoadRect (scaledTo r.val G))⟩,
       ⟨Rect.unit (s := S128x128) (k0_off17 r) S1x16.size (k0_off17_inb r), k0_pay12 (View.readAt (Elt F) (Memref.whole cc0_scratch2).view (Rect.unit (s := S128x128) (k0_off17 r) S1x16.size (k0_off17_inb r)).toLoadRect (scaledTo r.val G))⟩,
       ⟨Rect.unit (s := S128x128) (k0_off16 r) S1x16.size (k0_off16_inb r), k0_pay11 (View.readAt (Elt F) (Memref.whole cc0_scratch2).view (Rect.unit (s := S128x128) (k0_off16 r) S1x16.size (k0_off16_inb r)).toLoadRect (scaledTo r.val G))⟩,
       ⟨Rect.unit (s := S128x128) (k0_off15 r) S1x16.size (k0_off15_inb r), k0_pay10 (View.readAt (Elt F) (Memref.whole cc0_scratch2).view (Rect.unit (s := S128x128) (k0_off15 r) S1x16.size (k0_off15_inb r)).toLoadRect (scaledTo r.val G))⟩]
      = scaledTo (r.val + 1) G :=
  scale_trip_core (Memref.whole cc0_scratch2).view (scaledTo r.val G) G r.val rfl
    (k0_off15 r) (k0_off16 r) (k0_off17 r) (k0_off18 r) (k0_off19 r) (k0_off20 r) (k0_off21 r) (k0_off22 r)
    (k0_off15_inb r) (k0_off16_inb r) (k0_off17_inb r) (k0_off18_inb r) (k0_off19_inb r) (k0_off20_inb r) (k0_off21_inb r) (k0_off22_inb r)
    (k0_off15_eq r) (k0_off16_eq r) (k0_off17_eq r) (k0_off18_eq r) (k0_off19_eq r) (k0_off20_eq r) (k0_off21_eq r) (k0_off22_eq r)

/-- One trip of the third row buffer's scaling loop. -/
theorem scale_trip2 (G : S128x128.Idx → F .f32) (r : Fin k0_t4_loop.trips) :
    (Memref.whole cc0_scratch3).view.writes (Elt F) (scaledTo r.val G)
      [⟨Rect.unit (s := S128x128) (k0_off32 r) S1x16.size (k0_off32_inb r), k0_pay41 (View.readAt (Elt F) (Memref.whole cc0_scratch3).view (Rect.unit (s := S128x128) (k0_off32 r) S1x16.size (k0_off32_inb r)).toLoadRect (scaledTo r.val G))⟩,
       ⟨Rect.unit (s := S128x128) (k0_off31 r) S1x16.size (k0_off31_inb r), k0_pay40 (View.readAt (Elt F) (Memref.whole cc0_scratch3).view (Rect.unit (s := S128x128) (k0_off31 r) S1x16.size (k0_off31_inb r)).toLoadRect (scaledTo r.val G))⟩,
       ⟨Rect.unit (s := S128x128) (k0_off30 r) S1x16.size (k0_off30_inb r), k0_pay39 (View.readAt (Elt F) (Memref.whole cc0_scratch3).view (Rect.unit (s := S128x128) (k0_off30 r) S1x16.size (k0_off30_inb r)).toLoadRect (scaledTo r.val G))⟩,
       ⟨Rect.unit (s := S128x128) (k0_off29 r) S1x16.size (k0_off29_inb r), k0_pay38 (k0_pay19 (View.readAt (Elt F) (Memref.whole cc0_scratch3).view (Rect.unit (s := S128x128) (k0_off29 r) S1x16.size (k0_off29_inb r)).toLoadRect (scaledTo r.val G)))⟩,
       ⟨Rect.unit (s := S128x128) (k0_off28 r) S1x16.size (k0_off28_inb r), k0_pay18 (View.readAt (Elt F) (Memref.whole cc0_scratch3).view (Rect.unit (s := S128x128) (k0_off28 r) S1x16.size (k0_off28_inb r)).toLoadRect (scaledTo r.val G))⟩,
       ⟨Rect.unit (s := S128x128) (k0_off27 r) S1x16.size (k0_off27_inb r), k0_pay17 (View.readAt (Elt F) (Memref.whole cc0_scratch3).view (Rect.unit (s := S128x128) (k0_off27 r) S1x16.size (k0_off27_inb r)).toLoadRect (scaledTo r.val G))⟩,
       ⟨Rect.unit (s := S128x128) (k0_off26 r) S1x16.size (k0_off26_inb r), k0_pay16 (View.readAt (Elt F) (Memref.whole cc0_scratch3).view (Rect.unit (s := S128x128) (k0_off26 r) S1x16.size (k0_off26_inb r)).toLoadRect (scaledTo r.val G))⟩,
       ⟨Rect.unit (s := S128x128) (k0_off25 r) S1x16.size (k0_off25_inb r), k0_pay15 (View.readAt (Elt F) (Memref.whole cc0_scratch3).view (Rect.unit (s := S128x128) (k0_off25 r) S1x16.size (k0_off25_inb r)).toLoadRect (scaledTo r.val G))⟩]
      = scaledTo (r.val + 1) G :=
  scale_trip_core (Memref.whole cc0_scratch3).view (scaledTo r.val G) G r.val rfl
    (k0_off25 r) (k0_off26 r) (k0_off27 r) (k0_off28 r) (k0_off29 r) (k0_off30 r) (k0_off31 r) (k0_off32 r)
    (k0_off25_inb r) (k0_off26_inb r) (k0_off27_inb r) (k0_off28_inb r) (k0_off29_inb r) (k0_off30_inb r) (k0_off31_inb r) (k0_off32_inb r)
    (k0_off25_eq r) (k0_off26_eq r) (k0_off27_eq r) (k0_off28_eq r) (k0_off29_eq r) (k0_off30_eq r) (k0_off31_eq r) (k0_off32_eq r)

/-- One trip of the fourth row buffer's scaling loop. -/
theorem scale_trip3 (G : S128x128.Idx → F .f32) (r : Fin k0_t5_loop.trips) :
    (Memref.whole cc0_scratch4).view.writes (Elt F) (scaledTo r.val G)
      [⟨Rect.unit (s := S128x128) (k0_off42 r) S1x16.size (k0_off42_inb r), k0_pay45 (View.readAt (Elt F) (Memref.whole cc0_scratch4).view (Rect.unit (s := S128x128) (k0_off42 r) S1x16.size (k0_off42_inb r)).toLoadRect (scaledTo r.val G))⟩,
       ⟨Rect.unit (s := S128x128) (k0_off41 r) S1x16.size (k0_off41_inb r), k0_pay44 (View.readAt (Elt F) (Memref.whole cc0_scratch4).view (Rect.unit (s := S128x128) (k0_off41 r) S1x16.size (k0_off41_inb r)).toLoadRect (scaledTo r.val G))⟩,
       ⟨Rect.unit (s := S128x128) (k0_off40 r) S1x16.size (k0_off40_inb r), k0_pay43 (View.readAt (Elt F) (Memref.whole cc0_scratch4).view (Rect.unit (s := S128x128) (k0_off40 r) S1x16.size (k0_off40_inb r)).toLoadRect (scaledTo r.val G))⟩,
       ⟨Rect.unit (s := S128x128) (k0_off39 r) S1x16.size (k0_off39_inb r), k0_pay42 (k0_pay24 (View.readAt (Elt F) (Memref.whole cc0_scratch4).view (Rect.unit (s := S128x128) (k0_off39 r) S1x16.size (k0_off39_inb r)).toLoadRect (scaledTo r.val G)))⟩,
       ⟨Rect.unit (s := S128x128) (k0_off38 r) S1x16.size (k0_off38_inb r), k0_pay23 (View.readAt (Elt F) (Memref.whole cc0_scratch4).view (Rect.unit (s := S128x128) (k0_off38 r) S1x16.size (k0_off38_inb r)).toLoadRect (scaledTo r.val G))⟩,
       ⟨Rect.unit (s := S128x128) (k0_off37 r) S1x16.size (k0_off37_inb r), k0_pay22 (View.readAt (Elt F) (Memref.whole cc0_scratch4).view (Rect.unit (s := S128x128) (k0_off37 r) S1x16.size (k0_off37_inb r)).toLoadRect (scaledTo r.val G))⟩,
       ⟨Rect.unit (s := S128x128) (k0_off36 r) S1x16.size (k0_off36_inb r), k0_pay21 (View.readAt (Elt F) (Memref.whole cc0_scratch4).view (Rect.unit (s := S128x128) (k0_off36 r) S1x16.size (k0_off36_inb r)).toLoadRect (scaledTo r.val G))⟩,
       ⟨Rect.unit (s := S128x128) (k0_off35 r) S1x16.size (k0_off35_inb r), k0_pay20 (View.readAt (Elt F) (Memref.whole cc0_scratch4).view (Rect.unit (s := S128x128) (k0_off35 r) S1x16.size (k0_off35_inb r)).toLoadRect (scaledTo r.val G))⟩]
      = scaledTo (r.val + 1) G :=
  scale_trip_core (Memref.whole cc0_scratch4).view (scaledTo r.val G) G r.val rfl
    (k0_off35 r) (k0_off36 r) (k0_off37 r) (k0_off38 r) (k0_off39 r) (k0_off40 r) (k0_off41 r) (k0_off42 r)
    (k0_off35_inb r) (k0_off36_inb r) (k0_off37_inb r) (k0_off38_inb r) (k0_off39_inb r) (k0_off40_inb r) (k0_off41_inb r) (k0_off42_inb r)
    (k0_off35_eq r) (k0_off36_eq r) (k0_off37_eq r) (k0_off38_eq r) (k0_off39_eq r) (k0_off40_eq r) (k0_off41_eq r) (k0_off42_eq r)

/-- One trip of the fifth row buffer's scaling loop. -/
theorem scale_trip4 (G : S128x128.Idx → F .f32) (r : Fin k0_t6_loop.trips) :
    (Memref.whole cc0_scratch5).view.writes (Elt F) (scaledTo r.val G)
      [⟨Rect.unit (s := S128x128) (k0_off52 r) S1x16.size (k0_off52_inb r), k0_pay4 (View.readAt (Elt F) (Memref.whole cc0_scratch5).view (Rect.unit (s := S128x128) (k0_off52 r) S1x16.size (k0_off52_inb r)).toLoadRect (scaledTo r.val G))⟩,
       ⟨Rect.unit (s := S128x128) (k0_off51 r) S1x16.size (k0_off51_inb r), k0_pay3 (View.readAt (Elt F) (Memref.whole cc0_scratch5).view (Rect.unit (s := S128x128) (k0_off51 r) S1x16.size (k0_off51_inb r)).toLoadRect (scaledTo r.val G))⟩,
       ⟨Rect.unit (s := S128x128) (k0_off50 r) S1x16.size (k0_off50_inb r), k0_pay2 (View.readAt (Elt F) (Memref.whole cc0_scratch5).view (Rect.unit (s := S128x128) (k0_off50 r) S1x16.size (k0_off50_inb r)).toLoadRect (scaledTo r.val G))⟩,
       ⟨Rect.unit (s := S128x128) (k0_off49 r) S1x16.size (k0_off49_inb r), k0_pay1 (k0_pay29 (View.readAt (Elt F) (Memref.whole cc0_scratch5).view (Rect.unit (s := S128x128) (k0_off49 r) S1x16.size (k0_off49_inb r)).toLoadRect (scaledTo r.val G)))⟩,
       ⟨Rect.unit (s := S128x128) (k0_off48 r) S1x16.size (k0_off48_inb r), k0_pay28 (View.readAt (Elt F) (Memref.whole cc0_scratch5).view (Rect.unit (s := S128x128) (k0_off48 r) S1x16.size (k0_off48_inb r)).toLoadRect (scaledTo r.val G))⟩,
       ⟨Rect.unit (s := S128x128) (k0_off47 r) S1x16.size (k0_off47_inb r), k0_pay27 (View.readAt (Elt F) (Memref.whole cc0_scratch5).view (Rect.unit (s := S128x128) (k0_off47 r) S1x16.size (k0_off47_inb r)).toLoadRect (scaledTo r.val G))⟩,
       ⟨Rect.unit (s := S128x128) (k0_off46 r) S1x16.size (k0_off46_inb r), k0_pay26 (View.readAt (Elt F) (Memref.whole cc0_scratch5).view (Rect.unit (s := S128x128) (k0_off46 r) S1x16.size (k0_off46_inb r)).toLoadRect (scaledTo r.val G))⟩,
       ⟨Rect.unit (s := S128x128) (k0_off45 r) S1x16.size (k0_off45_inb r), k0_pay25 (View.readAt (Elt F) (Memref.whole cc0_scratch5).view (Rect.unit (s := S128x128) (k0_off45 r) S1x16.size (k0_off45_inb r)).toLoadRect (scaledTo r.val G))⟩]
      = scaledTo (r.val + 1) G :=
  scale_trip_core (Memref.whole cc0_scratch5).view (scaledTo r.val G) G r.val rfl
    (k0_off45 r) (k0_off46 r) (k0_off47 r) (k0_off48 r) (k0_off49 r) (k0_off50 r) (k0_off51 r) (k0_off52 r)
    (k0_off45_inb r) (k0_off46_inb r) (k0_off47_inb r) (k0_off48_inb r) (k0_off49_inb r) (k0_off50_inb r) (k0_off51_inb r) (k0_off52_inb r)
    (k0_off45_eq r) (k0_off46_eq r) (k0_off47_eq r) (k0_off48_eq r) (k0_off49_eq r) (k0_off50_eq r) (k0_off51_eq r) (k0_off52_eq r)

end Cert.Proof.KI

end
-- ==== Proof.Values.lean ====
import proofs.«208012_g154618823073_cont_week2b_1161_14_alg».proof.Proof.Inv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## Stores and reads through the views, as values -/

/-- A store of a whole buffer leaves the payload: the whole rectangle places every index at itself, so every
    element is written, with the payload's element there. -/
theorem writes_whole (b : Ref sig .scVector) (f w : b.ty.Contents (Elt F)) :
    (Memref.whole b).view.writes (Elt F) f [⟨Rect.whole b.ty.shape, w⟩] = w := by
  rw [View.writes_singleton]
  funext i
  have h := View.write_emb_of_mem (v := ((Memref.whole b).view.slice (Rect.whole b.ty.shape))) f w (Finset.mem_univ i)
  rw [show ((Memref.whole b).view.slice (Rect.whole b.ty.shape)).emb i = i from Rect.emb_whole_apply _ i] at h
  exact h.trans (cast_eq _ _)

variable (d : Dev nD) (L : grid0.Coords) (fi : Buf (Elt F) (idsLoc d)) (fw : Buf (Elt F) (tabLoc d))

/-- Every word of the list buffer's closed form is a word of the index array: a list read anywhere in the buffer
    reads words below the table's height when the array's words are. -/
theorem hin_all (hfi : ∀ j, (fi j).toNat < 1000000) (o : Fin 2 → ℕ) (h : ∀ a, o a + S1x128.size a ≤ S50x128.size a) :
    ∀ x : S128.Idx, (View.read (Elt F) (((lstM).slice (Rect.unit (s := S50x128) o S1x128.size h) (fun _ => rfl)).squeeze S128 squeezes_S1x128_S128).view
      (listC d L fi) x).toNat < 1000000 := by
  intro x
  rw [(View.read_apply _ _).trans (cast_eq _ _)]
  exact hfi _

/-- Entry `x` of list `g` sits at row `g`, column `x` of the list buffer: the squeeze puts the one row coordinate
    `0` in front of the entry, and the slice moves it down by `g` rows. -/
theorem lrow_emb (g : Fin 50) (x : S128.Idx) :
    (lrowM g).view.emb x = (ix2 g (⟨(x 0).val, (x 0).isLt⟩ : Fin 128) : S50x128.Idx) := by
  have hz := Shape.rowMajor_reshapeEquiv (s := S1x128) (s' := S128) squeezes_S1x128_S128.numel_eq x
  rw [Shape.rowMajor_val_two, Shape.rowMajor_val_one] at hz
  have h0 : ((Shape.reshapeEquiv (s := S1x128) (s' := S128) squeezes_S1x128_S128.numel_eq x) 0).val < 1 :=
    (Shape.reshapeEquiv (s := S1x128) (s' := S128) squeezes_S1x128_S128.numel_eq x 0).isLt
  change ((Shape.reshapeEquiv (s := S1x128) (s' := S128) squeezes_S1x128_S128.numel_eq x) 0).val * 128
    + ((Shape.reshapeEquiv (s := S1x128) (s' := S128) squeezes_S1x128_S128.numel_eq x) 1).val = (x 0).val at hz
  funext a
  apply Fin.ext
  match a with
  | ⟨0, _⟩ =>
    show g.val + 1 * ((Shape.reshapeEquiv (s := S1x128) (s' := S128) squeezes_S1x128_S128.numel_eq x) 0).val = g.val
    omega
  | ⟨1, _⟩ =>
    show 0 + 1 * ((Shape.reshapeEquiv (s := S1x128) (s' := S128) squeezes_S1x128_S128.numel_eq x) 1).val = (x 0).val
    omega

/-- List `g` read at entry `x` is the list buffer's row `g` at column `x`. -/
theorem read_lrow (g : Fin 50) (c : S50x128.Idx → Elt F .i32) (x : S128.Idx) :
    View.read (Elt F) (lrowM g).view c x = c (ix2 g (⟨(x 0).val, (x 0).isLt⟩ : Fin 128)) := by
  rw [(View.read_apply _ _).trans (cast_eq _ _), lrow_emb]

/-- The list buffer's closed form at row `g`, column `r` is word `(w, g, r)` of the index lists. -/
theorem listC_ix2 (g : Fin 50) (r : Fin 128) : listC d L fi (ix2 g r) = fi (ix3 (widL L) g r) := rfl

/-- The row the offset list names for row `k` of a gathered block: word `k` of list `n`. -/
theorem rows_lrow (n : ℕ) (hnum : S128.numel = S128x128.size (gathers_S1000000x128_S128x128).axis')
    (hin : ∀ x : S128.Idx, (View.read (Elt F) (lrowN n).view (listC d L fi) x).toNat < S1000000x128.size (gathers_S1000000x128_S128x128).axis)
    (k : Fin (S128x128.size (gathers_S1000000x128_S128x128).axis')) :
    (SparseCore.rows (View.read (Elt F) (lrowN n).view (listC d L fi)) hnum hin k).val
      = (fi (ix3 (widL L) (⟨n % 50, Nat.mod_lt _ (by decide)⟩ : Fin 50) (⟨k.val, k.isLt⟩ : Fin 128))).toNat := by
  show (View.read (Elt F) (lrowN n).view (listC d L fi) (S128.rowMajor.symm (k.cast hnum.symm))).toNat = _
  rw [read_lrow, listC_ix2]
  have hx : (⟨((S128.rowMajor.symm (k.cast hnum.symm)) 0).val, ((S128.rowMajor.symm (k.cast hnum.symm)) 0).isLt⟩ : Fin 128) = ⟨k.val, k.isLt⟩ := by
    apply Fin.ext
    have h1 := Shape.rowMajor_val_one (S128.rowMajor.symm (k.cast hnum.symm))
    rw [Equiv.apply_symm_apply] at h1
    exact h1.symm
  rw [hx]

/-- The whole table sliced whole places every index at itself. -/
theorem tabSl_emb (z : S1000000x128.Idx) : (tabSl).view.emb z = z := by
  funext a
  apply Fin.ext
  match a with
  | ⟨0, _⟩ => show 0 + 1 * (z 0).val = (z 0).val; omega
  | ⟨1, _⟩ => show 0 + 1 * (z 1).val = (z 1).val; omega

/-- What the gather of list `n` delivers: at row `r`, column `c` of the block, the table at the row word `r` of the
    list names, column `c`. The offset list's word `r` is word `(w, n, r)` of the index lists; it is below the
    table's height, so the row it names is its value. -/
theorem gather_closed (n : ℕ) (hn : n < 50) (hnum : S128.numel = S128x128.size (gathers_S1000000x128_S128x128).axis')
    (hin : ∀ x : S128.Idx, (View.read (Elt F) (lrowN n).view (listC d L fi) x).toNat < S1000000x128.size (gathers_S1000000x128_S128x128).axis) :
    SparseCore.gatherPayload gathers_S1000000x128_S128x128 (View.read (Elt F) (tabSl).view fw)
      (SparseCore.rows (View.read (Elt F) (lrowN n).view (listC d L fi)) hnum hin) = gathC d L fi fw n := by
  funext y
  unfold SparseCore.gatherPayload
  refine ((View.read_apply _ _).trans (cast_eq _ _)).trans ?_
  rw [tabSl_emb]
  unfold gathC
  refine congrArg fw ?_
  have hk := rows_lrow d L fi n hnum hin (y (gathers_S1000000x128_S128x128).axis')
  have hlt : (fi (ix3 (widL L) (⟨n % 50, Nat.mod_lt _ (by decide)⟩ : Fin 50)
      (⟨(y (gathers_S1000000x128_S128x128).axis').val, (y (gathers_S1000000x128_S128x128).axis').isLt⟩ : Fin 128))).toNat < 1000000 := by
    rw [← hk]; exact (SparseCore.rows (View.read (Elt F) (lrowN n).view (listC d L fi)) hnum hin _).isLt
  funext a
  apply Fin.ext
  match a with
  | ⟨0, _⟩ =>
    have e0 := Shape.Gathers.idx_axis gathers_S1000000x128_S128x128
      (SparseCore.rows (View.read (Elt F) (lrowN n).view (listC d L fi)) hnum hin) y
    show ((gathers_S1000000x128_S128x128).idx (SparseCore.rows (View.read (Elt F) (lrowN n).view (listC d L fi)) hnum hin) y
      (gathers_S1000000x128_S128x128).axis).val = _
    rw [e0, hk]
    exact (Cert.Spec.rowOf_val hlt).symm
  | ⟨1, _⟩ =>
    exact Shape.Gathers.idx_of_ne gathers_S1000000x128_S128x128 _ y ⟨1, by decide⟩ (by decide)

/-- The same for the list memref spelt by a row number equal to `n mod 50`. -/
theorem gather_closed_row (m n : ℕ) (hn : n < 50) (hm : m = n % 50)
    (h : ∀ a, (![m, 0] : Fin 2 → ℕ) a + S1x128.size a ≤ S50x128.size a)
    (hnum : S128.numel = S128x128.size (gathers_S1000000x128_S128x128).axis')
    (hin : ∀ x : S128.Idx, (View.read (Elt F) (((lstM).slice (Rect.unit (s := S50x128) ![m, 0] S1x128.size h) (fun _ => rfl)).squeeze S128 squeezes_S1x128_S128).view
      (listC d L fi) x).toNat < S1000000x128.size (gathers_S1000000x128_S128x128).axis) :
    SparseCore.gatherPayload gathers_S1000000x128_S128x128 (View.read (Elt F) (tabSl).view fw)
      (SparseCore.rows (View.read (Elt F) (((lstM).slice (Rect.unit (s := S50x128) ![m, 0] S1x128.size h) (fun _ => rfl)).squeeze S128 squeezes_S1x128_S128).view
        (listC d L fi)) hnum hin) = gathC d L fi fw n := by
  subst hm
  exact gather_closed d L fi fw n hn hnum hin

/-- The same for the list memref spelt by its offsets `![n, 0]`: it is list `n`. -/
theorem gather_closed_off (o : Fin 2 → ℕ) (h : ∀ a, o a + S1x128.size a ≤ S50x128.size a) (n : ℕ) (hn : n < 50) (e : o = ![n, 0])
    (hnum : S128.numel = S128x128.size (gathers_S1000000x128_S128x128).axis')
    (hin : ∀ x : S128.Idx, (View.read (Elt F) (((lstM).slice (Rect.unit (s := S50x128) o S1x128.size h) (fun _ => rfl)).squeeze S128 squeezes_S1x128_S128).view
      (listC d L fi) x).toNat < S1000000x128.size (gathers_S1000000x128_S128x128).axis) :
    SparseCore.gatherPayload gathers_S1000000x128_S128x128 (View.read (Elt F) (tabSl).view fw)
      (SparseCore.rows (View.read (Elt F) (((lstM).slice (Rect.unit (s := S50x128) o S1x128.size h) (fun _ => rfl)).squeeze S128 squeezes_S1x128_S128).view
        (listC d L fi)) hnum hin) = gathC d L fi fw n := by
  subst e
  exact gather_closed_row d L fi fw n n hn (Nat.mod_eq_of_lt hn).symm h hnum hin

/-- A scaled block written to block `n` of the task is the flat lookup there. Element `y` of the block sits at row
    `6400 w + 128 n + y 0`, column `y 1` of the flat result; that row is entry `y 0` of list `n` of task `w`
    (`128 n + y 0 < 6400`), so the flat lookup there is the table row that word names, at column `y 1`, scaled. -/
theorem block_landed (n : ℕ) (hn : n < 50) (g : Buf (Elt F) ((oblkN L n).view.loc (thr d L))) :
    ∀ i ∈ (oblkN L n).view.set,
      (oblkN L n).view.writes (Elt F) g [⟨Rect.whole _, scalC d L fi fw n⟩] i = flatC d fi fw i := by
  intro i hi
  obtain ⟨y, -, rfl⟩ := Finset.mem_map.mp hi
  have h := View.read_writes_cons_emb (oblkN L n).view g (Rect.whole _) (scalC d L fi fw n) [] y
  rw [Rect.emb_whole_apply, (View.read_apply _ _).trans (cast_eq _ _)] at h
  rw [h]
  have hy0 : (y 0).val < 128 := (y 0).isLt
  have hL0 := L0_lt L
  have hL1 := L1_lt L
  have hn50 : n % 50 < 50 := Nat.mod_lt _ (by decide)
  have e0 : (((oblkN L n).view.emb y) 0).val = 12800 * (L 1).val + 6400 * (L 0).val + 128 * (n % 50) + (y 0).val := by
    show 12800 * (L 1).val + 6400 * (L 0).val + 128 * (n % 50) + 1 * (y 0).val = _
    omega
  have e1 : ((oblkN L n).view.emb y) 1 = (⟨(y 1).val, (y 1).isLt⟩ : Fin 128) := by
    apply Fin.ext
    show 0 + 1 * (y 1).val = (y 1).val
    omega
  have hl : Cert.Spec.lstIdx (((oblkN L n).view.emb y) 0)
      = ix3 (widL L) (⟨n % 50, Nat.mod_lt _ (by decide)⟩ : Fin 50) (⟨(y 0).val, (y 0).isLt⟩ : Fin 128) := by
    funext a
    match a with
    | ⟨0, _⟩ =>
      apply Fin.ext
      show (((oblkN L n).view.emb y) 0).val / 6400 = 2 * (L 1).val + (L 0).val
      rw [e0]; omega
    | ⟨1, _⟩ =>
      apply Fin.ext
      show (((oblkN L n).view.emb y) 0).val % 6400 / 128 = n % 50
      rw [e0]; omega
    | ⟨2, _⟩ =>
      apply Fin.ext
      show (((oblkN L n).view.emb y) 0).val % 128 = (y 0).val
      rw [e0]; omega
  show FloatOps.mulf (gathC d L fi fw n y) Cert.Spec.scale
    = FloatOps.mulf (fw (ix2 (Cert.Spec.rowOf (fi (Cert.Spec.lstIdx (((oblkN L n).view.emb y) 0)))) (((oblkN L n).view.emb y) 1))) Cert.Spec.scale
  rw [hl, e1]
  rfl

/-- Element `x` of the task's lists 0 … 7, as the index array holds them: word `(w, x 0, x 1)`. The squeeze
    puts the one task coordinate `0` in front of `x`; the slice moves it to task `w`. -/
theorem ids8_emb (x : S8x128.Idx) :
    (((idsM).slice (Rect.unit (s := S32x50x128) (k0_off1 L) S1x8x128.size (k0_off1_inb L)) (fun _ => rfl)).squeeze S8x128 squeezes_S1x8x128_S8x128).view.emb x
      = (ix3 (widL L) (⟨(x 0).val, by have := (x 0).isLt; show (x 0).val < 50; have : (x 0).val < 8 := this; omega⟩ : Fin 50)
          (⟨(x 1).val, (x 1).isLt⟩ : Fin 128) : S32x50x128.Idx) := by
  have hz := Shape.rowMajor_reshapeEquiv (s := S1x8x128) (s' := S8x128) squeezes_S1x8x128_S8x128.numel_eq x
  rw [Shape.rowMajor_val_three, Shape.rowMajor_val_two] at hz
  change (((Shape.reshapeEquiv (s := S1x8x128) (s' := S8x128) squeezes_S1x8x128_S8x128.numel_eq x) 0).val * 8 + ((Shape.reshapeEquiv (s := S1x8x128) (s' := S8x128) squeezes_S1x8x128_S8x128.numel_eq x) 1).val) * 128 + ((Shape.reshapeEquiv (s := S1x8x128) (s' := S8x128) squeezes_S1x8x128_S8x128.numel_eq x) 2).val = (x 0).val * 128 + (x 1).val at hz
  have h0 : ((Shape.reshapeEquiv (s := S1x8x128) (s' := S8x128) squeezes_S1x8x128_S8x128.numel_eq x) 0).val < 1 := ((Shape.reshapeEquiv (s := S1x8x128) (s' := S8x128) squeezes_S1x8x128_S8x128.numel_eq x) 0).isLt
  have h1 : ((Shape.reshapeEquiv (s := S1x8x128) (s' := S8x128) squeezes_S1x8x128_S8x128.numel_eq x) 1).val < 8 := ((Shape.reshapeEquiv (s := S1x8x128) (s' := S8x128) squeezes_S1x8x128_S8x128.numel_eq x) 1).isLt
  have h2 : ((Shape.reshapeEquiv (s := S1x8x128) (s' := S8x128) squeezes_S1x8x128_S8x128.numel_eq x) 2).val < 128 := ((Shape.reshapeEquiv (s := S1x8x128) (s' := S8x128) squeezes_S1x8x128_S8x128.numel_eq x) 2).isLt
  have hx0 : (x 0).val < 8 := (x 0).isLt
  have hx1 : (x 1).val < 128 := (x 1).isLt
  have hoff := k0_off1_eq L
  funext a
  apply Fin.ext
  match a with
  | ⟨0, _⟩ =>
    show k0_off1 L 0 + 1 * ((Shape.reshapeEquiv (s := S1x8x128) (s' := S8x128) squeezes_S1x8x128_S8x128.numel_eq x) 0).val = 2 * (L 1).val + (L 0).val
    rw [hoff]
    show 2 * (L 1).val + (L 0).val + 1 * ((Shape.reshapeEquiv (s := S1x8x128) (s' := S8x128) squeezes_S1x8x128_S8x128.numel_eq x) 0).val = 2 * (L 1).val + (L 0).val
    omega
  | ⟨1, _⟩ =>
    show k0_off1 L 1 + 1 * ((Shape.reshapeEquiv (s := S1x8x128) (s' := S8x128) squeezes_S1x8x128_S8x128.numel_eq x) 1).val = (x 0).val
    rw [hoff]
    show 0 + 1 * ((Shape.reshapeEquiv (s := S1x8x128) (s' := S8x128) squeezes_S1x8x128_S8x128.numel_eq x) 1).val = (x 0).val
    omega
  | ⟨2, _⟩ =>
    show k0_off1 L 2 + 1 * ((Shape.reshapeEquiv (s := S1x8x128) (s' := S8x128) squeezes_S1x8x128_S8x128.numel_eq x) 2).val = (x 1).val
    rw [hoff]
    show 0 + 1 * ((Shape.reshapeEquiv (s := S1x8x128) (s' := S8x128) squeezes_S1x8x128_S8x128.numel_eq x) 2).val = (x 1).val
    omega

/-- Element `x` of the task's lists 8 … 49, as the index array holds them: word `(w, 8 + x 0, x 1)`. The squeeze
    puts the one task coordinate `0` in front of `x`; the slice moves it to task `w`, list 8. -/
theorem ids42_emb (x : S42x128.Idx) :
    (((idsM).slice (Rect.unit (s := S32x50x128) (k0_off2 L) S1x42x128.size (k0_off2_inb L)) (fun _ => rfl)).squeeze S42x128 squeezes_S1x42x128_S42x128).view.emb x
      = (ix3 (widL L) (⟨8 + (x 0).val, by have := (x 0).isLt; show 8 + (x 0).val < 50; have : (x 0).val < 42 := this; omega⟩ : Fin 50)
          (⟨(x 1).val, (x 1).isLt⟩ : Fin 128) : S32x50x128.Idx) := by
  have hz := Shape.rowMajor_reshapeEquiv (s := S1x42x128) (s' := S42x128) squeezes_S1x42x128_S42x128.numel_eq x
  rw [Shape.rowMajor_val_three, Shape.rowMajor_val_two] at hz
  change (((Shape.reshapeEquiv (s := S1x42x128) (s' := S42x128) squeezes_S1x42x128_S42x128.numel_eq x) 0).val * 42 + ((Shape.reshapeEquiv (s := S1x42x128) (s' := S42x128) squeezes_S1x42x128_S42x128.numel_eq x) 1).val) * 128 + ((Shape.reshapeEquiv (s := S1x42x128) (s' := S42x128) squeezes_S1x42x128_S42x128.numel_eq x) 2).val = (x 0).val * 128 + (x 1).val at hz
  have h0 : ((Shape.reshapeEquiv (s := S1x42x128) (s' := S42x128) squeezes_S1x42x128_S42x128.numel_eq x) 0).val < 1 := ((Shape.reshapeEquiv (s := S1x42x128) (s' := S42x128) squeezes_S1x42x128_S42x128.numel_eq x) 0).isLt
  have h1 : ((Shape.reshapeEquiv (s := S1x42x128) (s' := S42x128) squeezes_S1x42x128_S42x128.numel_eq x) 1).val < 42 := ((Shape.reshapeEquiv (s := S1x42x128) (s' := S42x128) squeezes_S1x42x128_S42x128.numel_eq x) 1).isLt
  have h2 : ((Shape.reshapeEquiv (s := S1x42x128) (s' := S42x128) squeezes_S1x42x128_S42x128.numel_eq x) 2).val < 128 := ((Shape.reshapeEquiv (s := S1x42x128) (s' := S42x128) squeezes_S1x42x128_S42x128.numel_eq x) 2).isLt
  have hx0 : (x 0).val < 42 := (x 0).isLt
  have hx1 : (x 1).val < 128 := (x 1).isLt
  have hoff := k0_off2_eq L
  funext a
  apply Fin.ext
  match a with
  | ⟨0, _⟩ =>
    show k0_off2 L 0 + 1 * ((Shape.reshapeEquiv (s := S1x42x128) (s' := S42x128) squeezes_S1x42x128_S42x128.numel_eq x) 0).val = 2 * (L 1).val + (L 0).val
    rw [hoff]
    show 2 * (L 1).val + (L 0).val + 1 * ((Shape.reshapeEquiv (s := S1x42x128) (s' := S42x128) squeezes_S1x42x128_S42x128.numel_eq x) 0).val = 2 * (L 1).val + (L 0).val
    omega
  | ⟨1, _⟩ =>
    show k0_off2 L 1 + 1 * ((Shape.reshapeEquiv (s := S1x42x128) (s' := S42x128) squeezes_S1x42x128_S42x128.numel_eq x) 1).val = 8 + (x 0).val
    rw [hoff]
    show 8 + 1 * ((Shape.reshapeEquiv (s := S1x42x128) (s' := S42x128) squeezes_S1x42x128_S42x128.numel_eq x) 1).val = 8 + (x 0).val
    omega
  | ⟨2, _⟩ =>
    show k0_off2 L 2 + 1 * ((Shape.reshapeEquiv (s := S1x42x128) (s' := S42x128) squeezes_S1x42x128_S42x128.numel_eq x) 2).val = (x 1).val
    rw [hoff]
    show 0 + 1 * ((Shape.reshapeEquiv (s := S1x42x128) (s' := S42x128) squeezes_S1x42x128_S42x128.numel_eq x) 2).val = (x 1).val
    omega

/-- The payload of the copy of lists 0 … 7, at element `x`, is the list buffer's closed form at the element's place. -/
theorem pay8_apply (x : S8x128.Idx) :
    (ReadAs.same.apply (View.read (Elt F) (((idsM).slice (Rect.unit (s := S32x50x128) (k0_off1 L) S1x8x128.size (k0_off1_inb L)) (fun _ => rfl)).squeeze S8x128 squeezes_S1x8x128_S8x128).view fi)) x = listC d L fi ((Rect.unit (s := S50x128) ![0, 0] S8x128.size inb_S50x128_S8x128_0_0).emb x) := by
  show View.read (Elt F) (((idsM).slice (Rect.unit (s := S32x50x128) (k0_off1 L) S1x8x128.size (k0_off1_inb L)) (fun _ => rfl)).squeeze S8x128 squeezes_S1x8x128_S8x128).view fi x = _
  rw [(View.read_apply _ _).trans (cast_eq _ _), ids8_emb]
  unfold listC
  refine congrArg fi ?_
  funext a
  match a with
  | ⟨0, _⟩ => rfl
  | ⟨1, _⟩ => apply Fin.ext; show (x 0).val = 0 + 1 * (x 0).val; omega
  | ⟨2, _⟩ => apply Fin.ext; show (x 1).val = 0 + 1 * (x 1).val; omega

/-- The payload of the copy of lists 8 … 49, at element `x`, is the list buffer's closed form at the element's place. -/
theorem pay42_apply (x : S42x128.Idx) :
    (ReadAs.same.apply (View.read (Elt F) (((idsM).slice (Rect.unit (s := S32x50x128) (k0_off2 L) S1x42x128.size (k0_off2_inb L)) (fun _ => rfl)).squeeze S42x128 squeezes_S1x42x128_S42x128).view fi)) x = listC d L fi ((Rect.unit (s := S50x128) ![8, 0] S42x128.size inb_S50x128_S42x128_8_0).emb x) := by
  show View.read (Elt F) (((idsM).slice (Rect.unit (s := S32x50x128) (k0_off2 L) S1x42x128.size (k0_off2_inb L)) (fun _ => rfl)).squeeze S42x128 squeezes_S1x42x128_S42x128).view fi x = _
  rw [(View.read_apply _ _).trans (cast_eq _ _), ids42_emb]
  unfold listC
  refine congrArg fi ?_
  funext a
  match a with
  | ⟨0, _⟩ => rfl
  | ⟨1, _⟩ => apply Fin.ext; show 8 + (x 0).val = 8 + 1 * (x 0).val; omega
  | ⟨2, _⟩ => apply Fin.ext; show (x 1).val = 0 + 1 * (x 1).val; omega

/-- After the copy of lists 0 … 7 lands, rows 0 … 7 of the list buffer hold the closed form, whatever the buffer held. -/
theorem lists_landed8 (fl : Buf (Elt F) ((thr d L).loc cc0_scratch0)) :
    ∀ i ∈ ((lstM).slice (Rect.unit (s := S50x128) ![0, 0] S8x128.size inb_S50x128_S8x128_0_0) (fun _ => rfl)).view.set,
      (lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  obtain ⟨x, -, rfl⟩ := Finset.mem_map.mp hi
  have h := View.read_writes_cons_emb (lstM).view fl (Rect.unit (s := S50x128) ![0, 0] S8x128.size inb_S50x128_S8x128_0_0)
    (ReadAs.same.apply (View.read (Elt F) (((idsM).slice (Rect.unit (s := S32x50x128) (k0_off1 L) S1x8x128.size (k0_off1_inb L)) (fun _ => rfl)).squeeze S8x128 squeezes_S1x8x128_S8x128).view fi)) [] x
  rw [(View.read_apply _ _).trans (cast_eq _ _)] at h
  exact h.trans (pay8_apply d L fi x)

/-- An element of rows 0 … 7 is not one of rows 8 … 49. -/
theorem row8_not_mem42 (x : S8x128.Idx) :
    ((lstM).view.slice (Rect.unit (s := S50x128) ![0, 0] S8x128.size inb_S50x128_S8x128_0_0)).emb x ∉ ((lstM).view.slice (Rect.unit (s := S50x128) ![8, 0] S42x128.size inb_S50x128_S42x128_8_0)).setOn Finset.univ := by
  intro hm
  obtain ⟨x', -, hx'⟩ := Finset.mem_map.mp hm
  have h0 := congrArg (fun j : S50x128.Idx => (j 0).val) hx'
  have hx0 : (x 0).val < 8 := (x 0).isLt
  change 8 + 1 * (x' 0).val = 0 + 1 * (x 0).val at h0
  omega

/-- After the copy of lists 8 … 49 lands over the first copy, rows 8 … 49 hold the closed form; -/
theorem lists_landed42 (fl : Buf (Elt F) ((thr d L).loc cc0_scratch0)) :
    ∀ i ∈ ((lstM).slice (Rect.unit (s := S50x128) ![8, 0] S42x128.size inb_S50x128_S42x128_8_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  obtain ⟨x, -, rfl⟩ := Finset.mem_map.mp hi
  have h := View.read_writes_cons_emb (lstM).view fl (Rect.unit (s := S50x128) ![8, 0] S42x128.size inb_S50x128_S42x128_8_0)
    (ReadAs.same.apply (View.read (Elt F) (((idsM).slice (Rect.unit (s := S32x50x128) (k0_off2 L) S1x42x128.size (k0_off2_inb L)) (fun _ => rfl)).squeeze S42x128 squeezes_S1x42x128_S42x128).view fi))
    [⟨Rect.unit (s := S50x128) ![0, 0] S8x128.size inb_S50x128_S8x128_0_0, ReadAs.same.apply (View.read (Elt F) (((idsM).slice (Rect.unit (s := S32x50x128) (k0_off1 L) S1x8x128.size (k0_off1_inb L)) (fun _ => rfl)).squeeze S8x128 squeezes_S1x8x128_S8x128).view fi)⟩] x
  rw [(View.read_apply _ _).trans (cast_eq _ _)] at h
  exact h.trans (pay42_apply d L fi x)

/-- and rows 0 … 7 still do: the second copy writes no element of them. -/
theorem lists_landed42_low (fl : Buf (Elt F) ((thr d L).loc cc0_scratch0)) :
    ∀ i ∈ ((lstM).slice (Rect.unit (s := S50x128) ![0, 0] S8x128.size inb_S50x128_S8x128_0_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  have hi' := hi
  obtain ⟨x, -, rfl⟩ := Finset.mem_map.mp hi
  rw [View.writes_cons]
  refine (View.write_of_not_mem _ _ _ (row8_not_mem42 x)).trans ?_
  exact lists_landed8 d L fi fl _ hi'

/-- Both together: after the two copies every row of the list buffer they wrote holds the closed form. -/
theorem lists_landed50 (fl : Buf (Elt F) ((thr d L).loc cc0_scratch0)) :
    ∀ i ∈ ((lstM).slice (Rect.unit (s := S50x128) ![0, 0] S8x128.size inb_S50x128_S8x128_0_0) (fun _ => rfl)).view.set ∪ ((lstM).slice (Rect.unit (s := S50x128) ![8, 0] S42x128.size inb_S50x128_S42x128_8_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  rcases Finset.mem_union.mp hi with h | h
  · exact lists_landed42_low d L fi fl i h
  · exact lists_landed42 d L fi fl i h

end Cert.Proof.KI

end
-- ==== Proof.Canon.lean ====
import proofs.«208012_g154618823073_cont_week2b_1161_14_alg».proof.Proof.Common
import proofs.«208012_g154618823073_cont_week2b_1161_14_alg».proof.Proof.Runs
import proofs.«208012_g154618823073_cont_week2b_1161_14_alg».proof.Proof.ScaleTrip
import proofs.«208012_g154618823073_cont_week2b_1161_14_alg».proof.Proof.Values

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

variable (d : Dev nD) (L : grid0.Coords) (fi : Buf (Elt F) (idsLoc d)) (fw : Buf (Elt F) (tabLoc d)) (qT : PosShare TreeShare)

/-! ## From the program's spellings to the numbered pieces -/

/-- A list sliced at its offsets, at the list buffer's closed form, is the numbered list's assertion. -/
theorem rowAt_congr {o o' : Fin 2 → ℕ} (e : o = o') (h : ∀ a, o a + S1x128.size a ≤ S50x128.size a) (h' : ∀ a, o' a + S1x128.size a ≤ S50x128.size a) :
    (((((lstM).slice (Rect.unit (s := S50x128) o S1x128.size h) (fun _ => rfl)).squeeze S128 squeezes_S1x128_S128).view.loc (thr d L)
        ↦[(((lstM).slice (Rect.unit (s := S50x128) o S1x128.size h) (fun _ => rfl)).squeeze S128 squeezes_S1x128_S128).view.set]{fullShare} listC d L fi) : sProp 𝕄)
      = ((((lstM).slice (Rect.unit (s := S50x128) o' S1x128.size h') (fun _ => rfl)).squeeze S128 squeezes_S1x128_S128).view.loc (thr d L)
        ↦[(((lstM).slice (Rect.unit (s := S50x128) o' S1x128.size h') (fun _ => rfl)).squeeze S128 squeezes_S1x128_S128).view.set]{fullShare} listC d L fi) := by
  subst e; rfl

theorem rowAt_of (o : Fin 2 → ℕ) (h : ∀ a, o a + S1x128.size a ≤ S50x128.size a) (n : ℕ) (hn : n < 50) (e : o = ![n, 0]) :
    (((((lstM).slice (Rect.unit (s := S50x128) o S1x128.size h) (fun _ => rfl)).squeeze S128 squeezes_S1x128_S128).view.loc (thr d L)
        ↦[(((lstM).slice (Rect.unit (s := S50x128) o S1x128.size h) (fun _ => rfl)).squeeze S128 squeezes_S1x128_S128).view.set]{fullShare} listC d L fi) : sProp 𝕄)
      = rowAt d L fi n :=
  rowAt_congr d L fi (e.trans (by show (![n, 0] : Fin 2 → ℕ) = ![n % 50, 0]; rw [Nat.mod_eq_of_lt hn])) h _

theorem blk_congr {o o' : Fin 2 → ℕ} (e : o = o') (h : ∀ a, o a + S128x128.size a ≤ S204800x128.size a) (h' : ∀ a, o' a + S128x128.size a ≤ S204800x128.size a)
    (f : Buf (Elt F) (outLoc d)) :
    ((((outM).slice (Rect.unit (s := S204800x128) o S128x128.size h) (fun _ => rfl)).view.loc (thr d L)
        ↦[((outM).slice (Rect.unit (s := S204800x128) o S128x128.size h) (fun _ => rfl)).view.set]{fullShare} f) : sProp 𝕄)
      = (((outM).slice (Rect.unit (s := S204800x128) o' S128x128.size h') (fun _ => rfl)).view.loc (thr d L)
        ↦[((outM).slice (Rect.unit (s := S204800x128) o' S128x128.size h') (fun _ => rfl)).view.set]{fullShare} f) := by
  subst e; rfl

/-- The block written at sub-step `r` of trip `k` is block `5 k + r`. -/
theorem blk_of (k : Fin k0_t1_loop.trips) (r : Fin 5) (f : Buf (Elt F) (outLoc d)) :
    ((((outM).slice (Rect.unit (s := S204800x128) (k0_off12 L k (BitVec.ofNat 32 r.val)) S128x128.size (k0_off12_inb L k r)) (fun _ => rfl)).view.loc (thr d L)
        ↦[((outM).slice (Rect.unit (s := S204800x128) (k0_off12 L k (BitVec.ofNat 32 r.val)) S128x128.size (k0_off12_inb L k r)) (fun _ => rfl)).view.set]{fullShare} f) : sProp 𝕄)
      = ((oblkN L (5 * k.val + r.val)).view.loc (thr d L) ↦[(oblkN L (5 * k.val + r.val)).view.set]{fullShare} f) := by
  have hk := trips_lt k
  refine blk_congr d L ?_ _ _ f
  rw [k0_off12_eq, oOff, Nat.mod_eq_of_lt (by omega)]
  congr 1; omega

theorem off12_eq (k : Fin k0_t1_loop.trips) (r : Fin 5) : k0_off12 L k (BitVec.ofNat 32 r.val) = oOff L (5 * k.val + r.val) := by
  have hk := trips_lt k
  rw [k0_off12_eq, oOff, Nat.mod_eq_of_lt (by omega)]
  congr 1; omega

/-- The scaling loops run 128 trips. -/
theorem trips_t2 : Scf.trips k0_t2_loop.lb k0_t2_loop.ub k0_t2_loop.st = 128 := rfl
theorem trips_t3 : Scf.trips k0_t3_loop.lb k0_t3_loop.ub k0_t3_loop.st = 128 := rfl
theorem trips_t4 : Scf.trips k0_t4_loop.lb k0_t4_loop.ub k0_t4_loop.st = 128 := rfl
theorem trips_t5 : Scf.trips k0_t5_loop.lb k0_t5_loop.ub k0_t5_loop.st = 128 := rfl
theorem trips_t6 : Scf.trips k0_t6_loop.lb k0_t6_loop.ub k0_t6_loop.st = 128 := rfl

/-- After the last trip the block is the scaled block. -/
theorem scaled_done (n T : ℕ) (hT : T = 128) : scaledTo T (gathC d L fi fw n) = scalC d L fi fw n := by
  subst hT; rw [scaledTo_all]; rfl

/-- What a copy reads off a whole buffer is the buffer's contents. -/
theorem read_same_whole (b : Ref sig .scVector) (X : b.ty.Contents (Elt F)) :
    ReadAs.same.apply (View.read (Elt F) (Memref.whole b).view X) = X := by
  show View.read (Elt F) (View.whole b) X = X
  exact View.read_whole b X

/-- The copy-out's payload: the buffer after its 128 scaling trips. -/
theorem pay_scaled (b : Ref sig .scVector) (hb : b.ty = ⟨S128x128, .f32⟩) (n T : ℕ) (hT : T = 128)
    (P : S128x128.Idx → Elt F .f32) (X : S128x128.Idx → Elt F .f32) (hX : X = scaledTo T (gathC d L fi fw n)) (hP : P = X) :
    P = scalC d L fi fw n := by
  rw [hP, hX]; exact scaled_done d L fi fw n T hT

/-- A block the copy-out landed in, spelt by its offsets, is the numbered block at the lookup. -/
theorem blk_canon (o : Fin 2 → ℕ) (h : ∀ a, o a + S128x128.size a ≤ S204800x128.size a) (n : ℕ) (hn : n < 50) (e : o = oOff L n)
    (g : Buf (Elt F) (outLoc d)) (P : S128x128.Idx → Elt F .f32) (hP : P = scalC d L fi fw n) :
    ((((outM).slice (Rect.unit (s := S204800x128) o S128x128.size h) (fun _ => rfl)).view.loc (thr d L)
        ↦[((outM).slice (Rect.unit (s := S204800x128) o S128x128.size h) (fun _ => rfl)).view.set]{fullShare}
          ((outM).slice (Rect.unit (s := S204800x128) o S128x128.size h) (fun _ => rfl)).view.writes (Elt F) g [⟨Rect.whole _, P⟩]) : sProp 𝕄)
      ⊢ blkDone d L fi fw n := by
  subst e; subst hP
  exact Entails.of_eq (pointsTo_congr (block_landed d L fi fw n hn g))

theorem gath_canon0 (o : Fin 2 → ℕ) (h : ∀ a, o a + S1x128.size a ≤ S50x128.size a) (n : ℕ) (hn : n < 50) (e : o = ![n, 0])
    (X : Buf (Elt F) ((bufM0).view.loc (thr d L))) (P : S128x128.Idx → Elt F .f32) (hP : P = gathC d L fi fw n) :
    iprop(Transfers.Flight (countersEmb (U := UU)) (thr d L) (gcell 0) (default : HIx 1) 524288
        iprop((((bufM0).view.loc (thr d L) ↦{fullShare} (bufM0).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 0)
      ∗ tokRest d L fw qT 0)
      ⊢ gath0 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM0).view.loc (thr d L) ↦{fullShare} f : sProp 𝕄))
          (show (bufM0).view.writes (Elt F) X [⟨Rect.whole _, gathC d L fi fw n⟩] = gathC d L fi fw n from writes_whole (F := F) cc0_scratch1 X (gathC d L fi fw n))))
        (Entails.of_eq (rowAt_of d L fi o h n hn e))) (BI.Entails.refl _)))
    iexact Hf
  · iexact Ht

theorem gath_canon1 (o : Fin 2 → ℕ) (h : ∀ a, o a + S1x128.size a ≤ S50x128.size a) (n : ℕ) (hn : n < 50) (e : o = ![n, 0])
    (X : Buf (Elt F) ((bufM1).view.loc (thr d L))) (P : S128x128.Idx → Elt F .f32) (hP : P = gathC d L fi fw n) :
    iprop(Transfers.Flight (countersEmb (U := UU)) (thr d L) (gcell 1) (default : HIx 1) 524288
        iprop((((bufM1).view.loc (thr d L) ↦{fullShare} (bufM1).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 1)
      ∗ tokRest d L fw qT 1)
      ⊢ gath1 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM1).view.loc (thr d L) ↦{fullShare} f : sProp 𝕄))
          (show (bufM1).view.writes (Elt F) X [⟨Rect.whole _, gathC d L fi fw n⟩] = gathC d L fi fw n from writes_whole (F := F) cc0_scratch2 X (gathC d L fi fw n))))
        (Entails.of_eq (rowAt_of d L fi o h n hn e))) (BI.Entails.refl _)))
    iexact Hf
  · iexact Ht

theorem gath_canon2 (o : Fin 2 → ℕ) (h : ∀ a, o a + S1x128.size a ≤ S50x128.size a) (n : ℕ) (hn : n < 50) (e : o = ![n, 0])
    (X : Buf (Elt F) ((bufM2).view.loc (thr d L))) (P : S128x128.Idx → Elt F .f32) (hP : P = gathC d L fi fw n) :
    iprop(Transfers.Flight (countersEmb (U := UU)) (thr d L) (gcell 2) (default : HIx 1) 524288
        iprop((((bufM2).view.loc (thr d L) ↦{fullShare} (bufM2).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 2)
      ∗ tokRest d L fw qT 2)
      ⊢ gath2 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM2).view.loc (thr d L) ↦{fullShare} f : sProp 𝕄))
          (show (bufM2).view.writes (Elt F) X [⟨Rect.whole _, gathC d L fi fw n⟩] = gathC d L fi fw n from writes_whole (F := F) cc0_scratch3 X (gathC d L fi fw n))))
        (Entails.of_eq (rowAt_of d L fi o h n hn e))) (BI.Entails.refl _)))
    iexact Hf
  · iexact Ht

theorem gath_canon3 (o : Fin 2 → ℕ) (h : ∀ a, o a + S1x128.size a ≤ S50x128.size a) (n : ℕ) (hn : n < 50) (e : o = ![n, 0])
    (X : Buf (Elt F) ((bufM3).view.loc (thr d L))) (P : S128x128.Idx → Elt F .f32) (hP : P = gathC d L fi fw n) :
    iprop(Transfers.Flight (countersEmb (U := UU)) (thr d L) (gcell 3) (default : HIx 1) 524288
        iprop((((bufM3).view.loc (thr d L) ↦{fullShare} (bufM3).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 3)
      ∗ tokRest d L fw qT 3)
      ⊢ gath3 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM3).view.loc (thr d L) ↦{fullShare} f : sProp 𝕄))
          (show (bufM3).view.writes (Elt F) X [⟨Rect.whole _, gathC d L fi fw n⟩] = gathC d L fi fw n from writes_whole (F := F) cc0_scratch4 X (gathC d L fi fw n))))
        (Entails.of_eq (rowAt_of d L fi o h n hn e))) (BI.Entails.refl _)))
    iexact Hf
  · iexact Ht

/-- The copy-out of block `n` from row buffer 4, in flight, in the invariant's spelling. -/
theorem out4_canon (o : Fin 2 → ℕ) (h : ∀ a, o a + S128x128.size a ≤ S204800x128.size a) (n : ℕ) (hn : n < 50) (e : o = oOff L n)
    (g : Buf (Elt F) (outLoc d)) (P : S128x128.Idx → Elt F .f32) (hP : P = scalC d L fi fw n) (T : ℕ) (hT : T = 128) :
    iprop(Transfers.Flight (countersEmb (U := UU)) (thr d L) (scell 4) (default : HIx 1) 524288
        iprop((((outM).slice (Rect.unit (s := S204800x128) o S128x128.size h) (fun _ => rfl)).view.loc (thr d L)
            ↦[((outM).slice (Rect.unit (s := S204800x128) o S128x128.size h) (fun _ => rfl)).view.set]{fullShare}
              ((outM).slice (Rect.unit (s := S204800x128) o S128x128.size h) (fun _ => rfl)).view.writes (Elt F) g [⟨Rect.whole _, P⟩])
          ∗ ((bufM4).view.loc (thr d L) ↦[(bufM4).view.set]{fullShare} scaledTo T (gathC d L fi fw n)))
      ∗ ((bufM4).view.loc (thr d L) ↦[Finset.univ \ (bufM4).view.set]{fullShare} scaledTo T (gathC d L fi fw n)))
      ⊢ out4 d L fi fw n := by
  rw [scaled_done d L fi fw n T hT]
  iintro ⟨Hf, Hr⟩
  isplitl [Hf]
  · iapply (Transfers.Flight_mono (countersEmb (U := UU)) (thr d L)
      (BI.sep_mono (blk_canon d L fi fw o h n hn e g P hP) (BI.Entails.refl _)))
    iexact Hf
  · iexact Hr

end Cert.Proof.KI

end
-- ==== Proof.Rows.lean ====
import proofs.«208012_g154618823073_cont_week2b_1161_14_alg».proof.Proof.Values

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## The list buffer as its fifty lists

List `g` is row `g` of the `[50, 128]` buffer: its elements are those whose row coordinate is `g`. So the fifty lists are
pairwise disjoint and together are the whole buffer, and the buffer held whole is the fifty lists held each by its own
elements. -/

variable (d : Dev nD) (L : grid0.Coords) (fi : Buf (Elt F) (idsLoc d))

/-- An element of the buffer is in list `g` exactly when its row is `g`. -/
theorem mem_lrow (g : Fin 50) (i : S50x128.Idx) : i ∈ (lrowM g).view.set ↔ (i 0).val = g.val := by
  have hs : (lrowM g).view.set = (Rect.unit (s := S50x128) ![g.val, 0] S1x128.size (lrow_inb g)).set :=
    (View.set_reshape _ _).trans (View.set_slice_whole _ _)
  rw [hs, Rect.mem_set_unit]
  constructor
  · intro h
    have h0 := h 0
    change g.val ≤ (i 0).val ∧ (i 0).val < g.val + 1 at h0
    omega
  · intro h a
    match a with
    | ⟨0, _⟩ => show g.val ≤ (i 0).val ∧ (i 0).val < g.val + 1; omega
    | ⟨1, _⟩ => show 0 ≤ (i 1).val ∧ (i 1).val < 0 + 128; have := (i 1).isLt; change (i 1).val < 128 at this; omega

/-- An element is among lists 0 … 7 exactly when its row is below 8, -/
theorem mem_rows8 (i : S50x128.Idx) : i ∈ ((lstM).slice (Rect.unit (s := S50x128) ![0, 0] S8x128.size inb_S50x128_S8x128_0_0) (fun _ => rfl)).view.set ↔ (i 0).val < 8 := by
  have hs : ((lstM).slice (Rect.unit (s := S50x128) ![0, 0] S8x128.size inb_S50x128_S8x128_0_0) (fun _ => rfl)).view.set = (Rect.unit (s := S50x128) ![0, 0] S8x128.size inb_S50x128_S8x128_0_0).set := View.set_slice_whole _ _
  rw [hs, Rect.mem_set_unit]
  constructor
  · intro h
    have h0 := h 0
    change 0 ≤ (i 0).val ∧ (i 0).val < 0 + 8 at h0
    omega
  · intro h a
    match a with
    | ⟨0, _⟩ => show 0 ≤ (i 0).val ∧ (i 0).val < 0 + 8; omega
    | ⟨1, _⟩ => show 0 ≤ (i 1).val ∧ (i 1).val < 0 + 128; have := (i 1).isLt; change (i 1).val < 128 at this; omega

/-- and among lists 8 … 49 exactly when it is 8 or more. -/
theorem mem_rows42 (i : S50x128.Idx) : i ∈ ((lstM).slice (Rect.unit (s := S50x128) ![8, 0] S42x128.size inb_S50x128_S42x128_8_0) (fun _ => rfl)).view.set ↔ 8 ≤ (i 0).val := by
  have hs : ((lstM).slice (Rect.unit (s := S50x128) ![8, 0] S42x128.size inb_S50x128_S42x128_8_0) (fun _ => rfl)).view.set = (Rect.unit (s := S50x128) ![8, 0] S42x128.size inb_S50x128_S42x128_8_0).set := View.set_slice_whole _ _
  rw [hs, Rect.mem_set_unit]
  constructor
  · intro h
    have h0 := h 0
    change 8 ≤ (i 0).val ∧ (i 0).val < 8 + 42 at h0
    omega
  · intro h a
    match a with
    | ⟨0, _⟩ => show 8 ≤ (i 0).val ∧ (i 0).val < 8 + 42; have := (i 0).isLt; change (i 0).val < 50 at this; omega
    | ⟨1, _⟩ => show 0 ≤ (i 1).val ∧ (i 1).val < 0 + 128; have := (i 1).isLt; change (i 1).val < 128 at this; omega

/-- The elements of list `g`, as a set of the buffer's indices. -/
abbrev lrowS (g : Fin 50) : Finset S50x128.Idx := (lrowM g).view.set

/-- Different lists share no element. -/
theorem lrows_disjoint : ∀ g ∈ (Finset.univ : Finset (Fin 50)), ∀ g' ∈ (Finset.univ : Finset (Fin 50)), g ≠ g' →
    Disjoint (lrowS g) (lrowS g') := by
  intro g _ g' _ hne
  rw [Finset.disjoint_left]
  intro i hi hi'
  rw [mem_lrow] at hi hi'
  exact hne (Fin.ext (hi.symm.trans hi'))

/-- Every element is in some list. -/
theorem lrows_cover : (Finset.univ : Finset (Fin 50)).biUnion lrowS = Finset.univ := by
  ext i
  simp only [Finset.mem_biUnion, Finset.mem_univ, true_and, iff_true]
  exact ⟨⟨(i 0).val, (i 0).isLt⟩, (mem_lrow _ i).mpr rfl⟩

/-- List `n` by number is list `g` when `n mod 50 = g`: the same elements. -/
theorem lrowN_set (n : ℕ) (g : Fin 50) (h : n % 50 = g.val) : ((lrowN n).view.set : Finset S50x128.Idx) = lrowS g := by
  obtain ⟨gv, hgv⟩ := g
  dsimp only at h
  subst h
  rfl

/-- List `n` held by its own elements is the buffer held on list `g`'s elements, when `n mod 50 = g`. -/
theorem lrowN_pts (n : ℕ) (g : Fin 50) (h : n % 50 = g.val) (f : Buf (Elt F) ((thr d L).loc cc0_scratch0)) :
    ((lrowN n).view.loc (thr d L) ↦[(lrowN n).view.set]{fullShare} f : sProp 𝕄)
      = ((lstM).view.loc (thr d L) ↦[lrowS g]{fullShare} f) := by
  obtain ⟨gv, hgv⟩ := g
  dsimp only at h
  subst h
  rfl

/-- The buffer held whole is its fifty lists, each held by its own elements. -/
theorem rows_split (f : Buf (Elt F) ((thr d L).loc cc0_scratch0)) :
    ((lstM).view.loc (thr d L) ↦{fullShare} f : sProp 𝕄)
      = bigSep (Ring.rangeSet 50 0 50) (fun g => (lrowN g.val).view.loc (thr d L) ↦[(lrowN g.val).view.set]{fullShare} f) := by
  rw [Ring.rangeSet_univ,
    bigSep_congr (Ψ := fun g : Fin 50 => ((lstM).view.loc (thr d L) ↦[lrowS g]{fullShare} f : sProp 𝕄))
      fun g _ => lrowN_pts d L g.val g (Nat.mod_eq_of_lt g.isLt) f,
    ← pointsTo_biUnion Finset.univ (ℓ := (lstM).view.loc (thr d L)) lrowS lrows_disjoint,
    lrows_cover]

/-- The elements outside lists 0 … 3 are those of lists 4 … 49. -/
theorem rest_set : ((((Finset.univ : Finset S50x128.Idx) \ lrowS 0) \ lrowS 1) \ lrowS 2) \ lrowS 3 = (Ring.rangeSet 50 4 50).biUnion lrowS := by
  ext i
  simp only [Finset.mem_sdiff, Finset.mem_univ, true_and, Finset.mem_biUnion, Ring.mem_rangeSet]
  rw [mem_lrow, mem_lrow, mem_lrow, mem_lrow]
  have e0 : ((0 : Fin 50)).val = 0 := rfl
  have e1 : ((1 : Fin 50)).val = 1 := rfl
  have e2 : ((2 : Fin 50)).val = 2 := rfl
  have e3 : ((3 : Fin 50)).val = 3 := rfl
  rw [e0, e1, e2, e3]
  constructor
  · intro h
    have hi := (i 0).isLt
    change (i 0).val < 50 at hi
    exact ⟨⟨(i 0).val, hi⟩, ⟨by show 4 ≤ (i 0).val; omega, hi⟩, (mem_lrow _ i).mpr rfl⟩
  · rintro ⟨g, ⟨h4, _⟩, hg⟩
    rw [mem_lrow] at hg
    omega

/-- The buffer less lists 0 … 3 is lists 4 … 49. -/
theorem rest_rows (f : Buf (Elt F) ((thr d L).loc cc0_scratch0)) :
    ((lstM).view.loc (thr d L) ↦[(((Finset.univ \ (lrowM (0 : Fin 50)).view.set) \ (lrowM (1 : Fin 50)).view.set)
        \ (lrowM (2 : Fin 50)).view.set) \ (lrowM (3 : Fin 50)).view.set]{fullShare} f : sProp 𝕄)
      = bigSep (Ring.rangeSet 50 4 50) (fun g => (lrowN g.val).view.loc (thr d L) ↦[(lrowN g.val).view.set]{fullShare} f) := by
  have h1 : (bigSep (Ring.rangeSet 50 4 50) (fun g => (lrowN g.val).view.loc (thr d L) ↦[(lrowN g.val).view.set]{fullShare} f) : sProp 𝕄)
      = bigSep (Ring.rangeSet 50 4 50) (fun g : Fin 50 => ((lstM).view.loc (thr d L) ↦[lrowS g]{fullShare} f : sProp 𝕄)) :=
    bigSep_congr fun g _ => lrowN_pts d L g.val g (Nat.mod_eq_of_lt g.isLt) f
  have h2 : ((lstM).view.loc (thr d L) ↦[(Ring.rangeSet 50 4 50).biUnion lrowS]{fullShare} f : sProp 𝕄)
      = bigSep (Ring.rangeSet 50 4 50) (fun g : Fin 50 => ((lstM).view.loc (thr d L) ↦[lrowS g]{fullShare} f : sProp 𝕄)) :=
    pointsTo_biUnion (Ring.rangeSet 50 4 50) (ℓ := (lstM).view.loc (thr d L)) lrowS
      (fun g _ g' _ hne => lrows_disjoint g (Finset.mem_univ _) g' (Finset.mem_univ _) hne)
  rw [h1, ← h2, ← rest_set]

/-- After the two copies land, list `g` holds the closed form: its row is among rows 0 … 7 or among rows 8 … 49. -/
theorem row_landed (g : Fin 50) (fl : Buf (Elt F) ((thr d L).loc cc0_scratch0)) :
    ((lrowN g.val).view.loc (thr d L) ↦[(lrowN g.val).view.set]{fullShare}
        (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] : sProp 𝕄)
      = rowAt d L fi g.val := by
  refine pointsTo_congr fun i hi => ?_
  have hi' : i ∈ lrowS g := (lrowN_set g.val g (Nat.mod_eq_of_lt g.isLt)) ▸ hi
  rw [mem_lrow] at hi'
  refine lists_landed50 d L fi fl i (Finset.mem_union.mpr ?_)
  by_cases h8 : (i 0).val < 8
  · exact .inl ((mem_rows8 i).mpr h8)
  · exact .inr ((mem_rows42 i).mpr (by omega))

/-- After the first copy lands, a list among the first eight holds the closed form. -/
theorem row_landed8 (g : Fin 50) (hg : g.val < 8) (fl : Buf (Elt F) ((thr d L).loc cc0_scratch0)) :
    ((lrowM g).view.loc (thr d L) ↦[(lrowM g).view.set]{fullShare}
        (lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] : sProp 𝕄)
      = ((lrowM g).view.loc (thr d L) ↦[(lrowM g).view.set]{fullShare} listC d L fi) := by
  refine pointsTo_congr fun i hi => ?_
  have hi' := (mem_lrow g i).mp hi
  exact lists_landed8 d L fi fl i ((mem_rows8 i).mpr (by omega))

/-- The fifty lists, each held by its own elements at some contents, are the buffer held whole at some contents. -/
theorem rows_join :
    (bigSep (Ring.rangeSet 50 0 50) (fun g => iprop(∃ f, (lstM).view.loc (thr d L) ↦[(lrowN g.val).view.set]{fullShare} f)) : sProp 𝕄)
      ⊢ iprop(∃ f, (lstM).view.loc (thr d L) ↦{fullShare} f) := by
  rw [Ring.rangeSet_univ,
    bigSep_congr (Ψ := fun g : Fin 50 => (iprop(∃ f, (lstM).view.loc (thr d L) ↦[lrowS g]{fullShare} f) : sProp 𝕄))
      fun g _ => by rw [lrowN_set g.val g (Nat.mod_eq_of_lt g.isLt)]]
  refine (bigSep_exists_pi Finset.univ (fun (g : Fin 50) (f : Buf (Elt F) ((lstM).view.loc (thr d L))) =>
    ((lstM).view.loc (thr d L) ↦[lrowS g]{fullShare} f : sProp 𝕄))).trans ?_
  iintro ⟨%fs, H⟩
  ihave H' := (pointsTo_biUnion_join Finset.univ lrowS fs (fs 0) lrows_disjoint) $$ H
  icases H' with ⟨%g, -, Hg⟩
  rw [lrows_cover]
  iexists g; iexact Hg

end Cert.Proof.KI

end
-- ==== Proof.Entry.lean ====
import proofs.«208012_g154618823073_cont_week2b_1161_14_alg».proof.Proof.Rows

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## The first four gathers

They are issued when only the copy of lists 0 … 7 has landed: the list buffer then holds that copy's payload over
whatever it held before. A list among the first eight reads the closed form through it, so its gather delivers the
same block. -/

variable (d : Dev nD) (L : grid0.Coords) (fi : Buf (Elt F) (idsLoc d)) (fw : Buf (Elt F) (tabLoc d))

/-- A list among the first eight, read after the first copy, reads the closed form: its elements are among rows 0 … 7. -/
theorem read_lrow_first (g : Fin 50) (hg : g.val < 8) (fl : Buf (Elt F) ((thr d L).loc cc0_scratch0)) :
    View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩])
      = View.read (Elt F) (lrowM g).view (listC d L fi) := by
  refine View.read_congr fun i hi => ?_
  have hi' := (mem_lrow g i).mp hi
  exact lists_landed8 d L fi fl i ((mem_rows8 i).mpr (by omega))

/-- Its words are words of the index array, below the table's height when those are. -/
theorem hin_pro (hfi : ∀ j, (fi j).toNat < 1000000) (g : Fin 50) (hg : g.val < 8) (fl : Buf (Elt F) ((thr d L).loc cc0_scratch0)) :
    ∀ x : S128.Idx, (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩]) x).toNat < 1000000 := by
  intro x
  rw [read_lrow_first d L fi g hg fl]
  exact hin_all d L fi hfi ![g.val, 0] (lrow_inb g) x

/-- The rows an offset list names depend on the list's words only. -/
theorem rows_congr {si : Shape} {o z : ℕ} {idx idx' : si.Idx → Elt F .i32} (e : idx = idx') (hn : si.numel = o)
    (h : ∀ x, (idx x).toNat < z) (h' : ∀ x, (idx' x).toNat < z) : SparseCore.rows idx hn h = SparseCore.rows idx' hn h' := by
  subst e; rfl

/-- The gather of a list among the first eight, issued after the first copy, delivers the block of the closed form. -/
theorem gather_closed_pro (g : Fin 50) (hg : g.val < 8) (fl : Buf (Elt F) ((thr d L).loc cc0_scratch0))
    (hnum : S128.numel = S128x128.size (gathers_S1000000x128_S128x128).axis')
    (hin : ∀ x : S128.Idx, (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩]) x).toNat
      < S1000000x128.size (gathers_S1000000x128_S128x128).axis) :
    SparseCore.gatherPayload gathers_S1000000x128_S128x128 (View.read (Elt F) (tabSl).view fw)
      (SparseCore.rows (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩])) hnum hin) = gathC d L fi fw g.val := by
  have e := read_lrow_first d L fi g hg fl
  have hin' : ∀ x : S128.Idx, (View.read (Elt F) (lrowM g).view (listC d L fi) x).toNat
      < S1000000x128.size (gathers_S1000000x128_S128x128).axis := by
    intro x; rw [← e]; exact hin x
  rw [rows_congr e hnum hin hin']
  exact gather_closed_row d L fi fw g.val g.val g.isLt (Nat.mod_eq_of_lt g.isLt).symm (lrow_inb g) hnum hin'

end Cert.Proof.KI

end
-- ==== Proof.LoopEntry.lean ====
import proofs.«208012_g154618823073_cont_week2b_1161_14_alg».proof.Proof.Common
import proofs.«208012_g154618823073_cont_week2b_1161_14_alg».proof.Proof.Canon
import proofs.«208012_g154618823073_cont_week2b_1161_14_alg».proof.Proof.Entry

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

variable (d : Dev nD) (L : grid0.Coords) (fi : Buf (Elt F) (idsLoc d)) (fw : Buf (Elt F) (tabLoc d)) (qT : PosShare TreeShare)

/-! ## From the prologue to the state before the first trip

The task copies lists 0–7 into the list buffer, starts the gathers of lists 0–3, then copies lists 8–49. What the two
copies land and what the first four gathers will deliver are the closed forms; the list buffer less the four lists
in flight is lists 4–49. -/

/-- The two copies' rectangles and payloads: rows 0–7 and rows 8–49 of the task's row of the index lists. -/
abbrev r8 : Rect S50x128 := Rect.unit (s := S50x128) ![0, 0] S8x128.size inb_S50x128_S8x128_0_0
abbrev r42 : Rect S50x128 := Rect.unit (s := S50x128) ![8, 0] S42x128.size inb_S50x128_S42x128_8_0
abbrev p8 : S8x128.Idx → Elt F .i32 :=
  ReadAs.same.apply (View.read (Elt F) (((idsM).slice (Rect.unit (s := S32x50x128) (k0_off1 L) S1x8x128.size (k0_off1_inb L)) (fun _ => rfl)).squeeze S8x128 squeezes_S1x8x128_S8x128).view fi)
abbrev p42 : S42x128.Idx → Elt F .i32 :=
  ReadAs.same.apply (View.read (Elt F) (((idsM).slice (Rect.unit (s := S32x50x128) (k0_off2 L) S1x42x128.size (k0_off2_inb L)) (fun _ => rfl)).squeeze S42x128 squeezes_S1x42x128_S42x128).view fi)

/-- Lists 0–3 as the prologue slices them. -/
abbrev rowLit0 : Memref sig .scVector .vmem S128 .i32 := ((lstM).slice (Rect.unit (s := S50x128) ![0, 0] S1x128.size inb_S50x128_S1x128_0_0) (fun _ => rfl)).squeeze S128 squeezes_S1x128_S128
abbrev rowLit1 : Memref sig .scVector .vmem S128 .i32 := ((lstM).slice (Rect.unit (s := S50x128) ![1, 0] S1x128.size inb_S50x128_S1x128_1_0) (fun _ => rfl)).squeeze S128 squeezes_S1x128_S128
abbrev rowLit2 : Memref sig .scVector .vmem S128 .i32 := ((lstM).slice (Rect.unit (s := S50x128) ![2, 0] S1x128.size inb_S50x128_S1x128_2_0) (fun _ => rfl)).squeeze S128 squeezes_S1x128_S128
abbrev rowLit3 : Memref sig .scVector .vmem S128 .i32 := ((lstM).slice (Rect.unit (s := S50x128) ![3, 0] S1x128.size inb_S50x128_S1x128_3_0) (fun _ => rfl)).squeeze S128 squeezes_S1x128_S128

theorem entry_gath0 (fl : Buf (Elt F) ((thr d L).loc cc0_scratch0)) (f : (bufM0).view.ty.Contents (Elt F)) (P : S128x128.Idx → Elt F .f32)
    (hP : P = gathC d L fi fw 0) :
    iprop(Transfers.Flight (countersEmb (U := UU)) (thr d L) (gcell 0) (default : HIx 1) 524288
        iprop((((bufM0).view.loc (thr d L) ↦[(bufM0).view.set]{fullShare} (bufM0).view.writes (Elt F) f [⟨Rect.whole _, P⟩])
          ∗ ((lstM).view.loc (thr d L) ↦[(rowLit0).view.set]{fullShare} (lstM).view.writes (Elt F) fl [⟨r8, p8 d L fi⟩]))
          ∗ tokLent d L fw qT 0)
      ∗ tokRest d L fw qT 0)
      ⊢ gath0 d L fi fw qT 0 := by
  subst hP
  iintro ⟨Hf, Ht⟩
  isplitl [Hf]
  · iapply (Transfers.Flight_mono (countersEmb (U := UU)) (thr d L)
      (BI.sep_mono (BI.sep_mono
        (Entails.of_eq (show (((bufM0).view.loc (thr d L) ↦[(bufM0).view.set]{fullShare} (bufM0).view.writes (Elt F) f [⟨Rect.whole _, gathC d L fi fw 0⟩]) : sProp 𝕄)
            = ((bufM0).view.loc (thr d L) ↦{fullShare} gathC d L fi fw 0) by
          rw [show (bufM0).view.writes (Elt F) f [⟨Rect.whole _, gathC d L fi fw 0⟩] = gathC d L fi fw 0 from writes_whole (F := F) cc0_scratch1 f (gathC d L fi fw 0),
            show (bufM0).view.set = Finset.univ from View.set_whole _]))
        (Entails.of_eq (row_landed8 d L fi (0 : Fin 50) (by decide) fl))) (BI.Entails.refl _)))
    iexact Hf
  · iexact Ht

theorem entry_gath1 (fl : Buf (Elt F) ((thr d L).loc cc0_scratch0)) (f : (bufM1).view.ty.Contents (Elt F)) (P : S128x128.Idx → Elt F .f32)
    (hP : P = gathC d L fi fw 1) :
    iprop(Transfers.Flight (countersEmb (U := UU)) (thr d L) (gcell 1) (default : HIx 1) 524288
        iprop((((bufM1).view.loc (thr d L) ↦[(bufM1).view.set]{fullShare} (bufM1).view.writes (Elt F) f [⟨Rect.whole _, P⟩])
          ∗ ((lstM).view.loc (thr d L) ↦[(rowLit1).view.set]{fullShare} (lstM).view.writes (Elt F) fl [⟨r8, p8 d L fi⟩]))
          ∗ tokLent d L fw qT 1)
      ∗ tokRest d L fw qT 1)
      ⊢ gath1 d L fi fw qT 1 := by
  subst hP
  iintro ⟨Hf, Ht⟩
  isplitl [Hf]
  · iapply (Transfers.Flight_mono (countersEmb (U := UU)) (thr d L)
      (BI.sep_mono (BI.sep_mono
        (Entails.of_eq (show (((bufM1).view.loc (thr d L) ↦[(bufM1).view.set]{fullShare} (bufM1).view.writes (Elt F) f [⟨Rect.whole _, gathC d L fi fw 1⟩]) : sProp 𝕄)
            = ((bufM1).view.loc (thr d L) ↦{fullShare} gathC d L fi fw 1) by
          rw [show (bufM1).view.writes (Elt F) f [⟨Rect.whole _, gathC d L fi fw 1⟩] = gathC d L fi fw 1 from writes_whole (F := F) cc0_scratch2 f (gathC d L fi fw 1),
            show (bufM1).view.set = Finset.univ from View.set_whole _]))
        (Entails.of_eq (row_landed8 d L fi (1 : Fin 50) (by decide) fl))) (BI.Entails.refl _)))
    iexact Hf
  · iexact Ht

theorem entry_gath2 (fl : Buf (Elt F) ((thr d L).loc cc0_scratch0)) (f : (bufM2).view.ty.Contents (Elt F)) (P : S128x128.Idx → Elt F .f32)
    (hP : P = gathC d L fi fw 2) :
    iprop(Transfers.Flight (countersEmb (U := UU)) (thr d L) (gcell 2) (default : HIx 1) 524288
        iprop((((bufM2).view.loc (thr d L) ↦[(bufM2).view.set]{fullShare} (bufM2).view.writes (Elt F) f [⟨Rect.whole _, P⟩])
          ∗ ((lstM).view.loc (thr d L) ↦[(rowLit2).view.set]{fullShare} (lstM).view.writes (Elt F) fl [⟨r8, p8 d L fi⟩]))
          ∗ tokLent d L fw qT 2)
      ∗ tokRest d L fw qT 2)
      ⊢ gath2 d L fi fw qT 2 := by
  subst hP
  iintro ⟨Hf, Ht⟩
  isplitl [Hf]
  · iapply (Transfers.Flight_mono (countersEmb (U := UU)) (thr d L)
      (BI.sep_mono (BI.sep_mono
        (Entails.of_eq (show (((bufM2).view.loc (thr d L) ↦[(bufM2).view.set]{fullShare} (bufM2).view.writes (Elt F) f [⟨Rect.whole _, gathC d L fi fw 2⟩]) : sProp 𝕄)
            = ((bufM2).view.loc (thr d L) ↦{fullShare} gathC d L fi fw 2) by
          rw [show (bufM2).view.writes (Elt F) f [⟨Rect.whole _, gathC d L fi fw 2⟩] = gathC d L fi fw 2 from writes_whole (F := F) cc0_scratch3 f (gathC d L fi fw 2),
            show (bufM2).view.set = Finset.univ from View.set_whole _]))
        (Entails.of_eq (row_landed8 d L fi (2 : Fin 50) (by decide) fl))) (BI.Entails.refl _)))
    iexact Hf
  · iexact Ht

theorem entry_gath3 (fl : Buf (Elt F) ((thr d L).loc cc0_scratch0)) (f : (bufM3).view.ty.Contents (Elt F)) (P : S128x128.Idx → Elt F .f32)
    (hP : P = gathC d L fi fw 3) :
    iprop(Transfers.Flight (countersEmb (U := UU)) (thr d L) (gcell 3) (default : HIx 1) 524288
        iprop((((bufM3).view.loc (thr d L) ↦[(bufM3).view.set]{fullShare} (bufM3).view.writes (Elt F) f [⟨Rect.whole _, P⟩])
          ∗ ((lstM).view.loc (thr d L) ↦[(rowLit3).view.set]{fullShare} (lstM).view.writes (Elt F) fl [⟨r8, p8 d L fi⟩]))
          ∗ tokLent d L fw qT 3)
      ∗ tokRest d L fw qT 3)
      ⊢ gath3 d L fi fw qT 3 := by
  subst hP
  iintro ⟨Hf, Ht⟩
  isplitl [Hf]
  · iapply (Transfers.Flight_mono (countersEmb (U := UU)) (thr d L)
      (BI.sep_mono (BI.sep_mono
        (Entails.of_eq (show (((bufM3).view.loc (thr d L) ↦[(bufM3).view.set]{fullShare} (bufM3).view.writes (Elt F) f [⟨Rect.whole _, gathC d L fi fw 3⟩]) : sProp 𝕄)
            = ((bufM3).view.loc (thr d L) ↦{fullShare} gathC d L fi fw 3) by
          rw [show (bufM3).view.writes (Elt F) f [⟨Rect.whole _, gathC d L fi fw 3⟩] = gathC d L fi fw 3 from writes_whole (F := F) cc0_scratch4 f (gathC d L fi fw 3),
            show (bufM3).view.set = Finset.univ from View.set_whole _]))
        (Entails.of_eq (row_landed8 d L fi (3 : Fin 50) (by decide) fl))) (BI.Entails.refl _)))
    iexact Hf
  · iexact Ht

/-- The list buffer less the four lists in flight, after both copies, is lists 4–49 at their contents. -/
theorem entry_rows (fl : Buf (Elt F) ((thr d L).loc cc0_scratch0)) :
    ((lstM).view.loc (thr d L) ↦[(((Finset.univ \ (rowLit0).view.set) \ (rowLit1).view.set) \ (rowLit2).view.set) \ (rowLit3).view.set]{fullShare}
        (lstM).view.writes (Elt F) fl [⟨r42, p42 d L fi⟩, ⟨r8, p8 d L fi⟩] : sProp 𝕄)
      ⊢ bigSep (Ring.rangeSet 50 4 50) fun g => rowAt d L fi g.val := by
  refine (Entails.of_eq (rest_rows d L _)).trans (Entails.of_eq ?_)
  exact bigSep_congr fun g _ => row_landed d L fi g fl

end Cert.Proof.KI

end
-- ==== Proof.TripFirst.lean ====
import proofs.«208012_g154618823073_cont_week2b_1161_14_alg».proof.Proof.Common
import proofs.«208012_g154618823073_cont_week2b_1161_14_alg».proof.Proof.Canon

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## The first trip of the pipelined loop

Trip 0 handles lists 0 … 4. It differs from a middle trip in one place: no copy-out is in flight when it starts, so
row buffer 4 is free, nothing is awaited before the gather of list 4 into it, and no block is finished by that wait:
after the trip the blocks 0 … 3 hold the lookup and block 4 is being written. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_first (hfi : ∀ j, (fi j).toNat < 1000000) (k : Fin k0_t1_loop.trips) (hk0 : k.val = 0) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have hk8 : k.val ≤ 8 := by omega
  have h1 : ¬ k0_cond1 k = 1#1 := fun h => by have := (cond1_iff k).1 h; omega
  have h2 := cond2_all k
  have h3 := cond3_all k
  have h4 := (cond4_iff k).2 hk8
  have h5 := cond5_all k
  have h6 := (cond6_iff k).2 hk8
  have h7 := cond7_all k
  have h8 := (cond8_iff k).2 hk8
  have h9 := cond9_all k
  have h10 := (cond10_iff k).2 hk8
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_pos hk0]
  rw [take5 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨⟨%f4, Hb4⟩, Hs4⟩, Hg4, Htab4, Hs0, Hs1, Hs2, Hs3,
    ⟨Hr4, Hr5, Hr6, Hr7, Hr8, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Hr5 := (Entails.of_eq (rowAt_of d L fi (k0_off24 k) (k0_off24_inb k h4) (5 * k.val + 5) (by omega) (k0_off24_eq k)).symm) $$ Hr5
  ihave Hr6 := (Entails.of_eq (rowAt_of d L fi (k0_off34 k) (k0_off34_inb k h6) (5 * k.val + 6) (by omega) (k0_off34_eq k)).symm) $$ Hr6
  ihave Hr7 := (Entails.of_eq (rowAt_of d L fi (k0_off44 k) (k0_off44_inb k h8) (5 * k.val + 7) (by omega) (k0_off44_eq k)).symm) $$ Hr7
  ihave Hr8 := (Entails.of_eq (rowAt_of d L fi (k0_off54 k) (k0_off54_inb k h10) (5 * k.val + 8) (by omega) (k0_off54_eq k)).symm) $$ Hr8
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_first.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hG0 : trip_first.sl.gather1_1 d L fi fw k h4 hinA = G0
  have hG0' : G0 = gathC d L fi fw (5 * k.val + 5) := by
    rw [← hG0]
    exact gather_closed_off d L fi fw (k0_off24 k) (k0_off24_inb k h4) (5 * k.val + 5) (by omega) (k0_off24_eq k) _ (hinA _ _)
  generalize hG1 : trip_first.sl.gather1_2 d L fi fw k h6 hinA = G1
  have hG1' : G1 = gathC d L fi fw (5 * k.val + 6) := by
    rw [← hG1]
    exact gather_closed_off d L fi fw (k0_off34 k) (k0_off34_inb k h6) (5 * k.val + 6) (by omega) (k0_off34_eq k) _ (hinA _ _)
  generalize hG2 : trip_first.sl.gather1_3 d L fi fw k h8 hinA = G2
  have hG2' : G2 = gathC d L fi fw (5 * k.val + 7) := by
    rw [← hG2]
    exact gather_closed_off d L fi fw (k0_off44 k) (k0_off44_inb k h8) (5 * k.val + 7) (by omega) (k0_off44_eq k) _ (hinA _ _)
  generalize hG3 : trip_first.sl.gather1_4 d L fi fw k h10 hinA = G3
  have hG3' : G3 = gathC d L fi fw (5 * k.val + 8) := by
    rw [← hG3]
    exact gather_closed_off d L fi fw (k0_off54 k) (k0_off54_inb k h10) (5 * k.val + 8) (by omega) (k0_off54_eq k) _ (hinA _ _)
  generalize hQ0 : trip_first.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_first.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_first.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_first.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_first.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_pos (show k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 5) 50) fun g => rowAt d L fi g.val := by
    rw [show 5 * (k.val + 1) + 4 = 5 * k.val + 4 + 5 by omega]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ bigSep (Ring.rangeSet 50 0 (5 * k.val - 1)) fun g => blkDone d L fi fw g.val) := by
    rw [show 5 * (k.val + 1) - 1 = 5 * k.val + 3 + 1 by omega, show 5 * k.val - 1 = 5 * k.val by omega,
      push1 (fun n => blkDone d L fi fw n) 0 (5 * k.val + 3) (by omega) (by omega), show 5 * k.val + 3 = 5 * k.val + 2 + 1 from rfl,
      push1 (fun n => blkDone d L fi fw n) 0 (5 * k.val + 2) (by omega) (by omega), show 5 * k.val + 2 = 5 * k.val + 1 + 1 from rfl,
      push1 (fun n => blkDone d L fi fw n) 0 (5 * k.val + 1) (by omega) (by omega),
      push1 (fun n => blkDone d L fi fw n) 0 (5 * k.val) (by omega) (by omega)]
  rw [eR, eT, eRD, eBD,
    show 5 * (k.val + 1) + 3 = 5 * k.val + 8 by omega, show 5 * (k.val + 1) + 2 = 5 * k.val + 7 by omega,
    show 5 * (k.val + 1) + 1 = 5 * k.val + 6 by omega, show 5 * (k.val + 1) - 1 = 5 * k.val + 4 by omega,
    show 5 * (k.val + 1) = 5 * k.val + 5 by omega]
  isplitr
  · iexact Hmw
  isplitl [Hg0 Htab0 Hg1 Htab1 Hg2 Htab2 Hg3 Htab3]
  · isplitl [Hg0 Htab0]
    · iapply (gath_canon0 d L fi fw qT (k0_off24 k) (k0_off24_inb k h4) (5 * k.val + 5) (by omega) (k0_off24_eq k)
        (scaledTo (Scf.trips k0_t2_loop.lb k0_t2_loop.ub k0_t2_loop.st) (gathC d L fi fw (5 * k.val))) G0 hG0')
      isplitl [Hg0]
      · iexact Hg0
      · iexact Htab0
    isplitl [Hg1 Htab1]
    · iapply (gath_canon1 d L fi fw qT (k0_off34 k) (k0_off34_inb k h6) (5 * k.val + 6) (by omega) (k0_off34_eq k)
        (scaledTo (Scf.trips k0_t3_loop.lb k0_t3_loop.ub k0_t3_loop.st) (gathC d L fi fw (5 * k.val + 1))) G1 hG1')
      isplitl [Hg1]
      · iexact Hg1
      · iexact Htab1
    isplitl [Hg2 Htab2]
    · iapply (gath_canon2 d L fi fw qT (k0_off44 k) (k0_off44_inb k h8) (5 * k.val + 7) (by omega) (k0_off44_eq k)
        (scaledTo (Scf.trips k0_t4_loop.lb k0_t4_loop.ub k0_t4_loop.st) (gathC d L fi fw (5 * k.val + 2))) G2 hG2')
      isplitl [Hg2]
      · iexact Hg2
      · iexact Htab2
    · iapply (gath_canon3 d L fi fw qT (k0_off54 k) (k0_off54_inb k h10) (5 * k.val + 8) (by omega) (k0_off54_eq k)
        (scaledTo (Scf.trips k0_t5_loop.lb k0_t5_loop.ub k0_t5_loop.st) (gathC d L fi fw (5 * k.val + 3))) G3 hG3')
      isplitl [Hg3]
      · iexact Hg3
      · iexact Htab3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    iexact Hbdone
  iexists _
  isplitr
  swap
  · iexact HO
  ipureintro; intro p hp
  repeat (rcases Finset.mem_insert.mp hp with rfl | hp; exact .inr rfl)
  exact hW' p hp

end Cert.Proof.KI

end
-- ==== Proof.TripMid.lean ====
import proofs.«208012_g154618823073_cont_week2b_1161_14_alg».proof.Proof.Common
import proofs.«208012_g154618823073_cont_week2b_1161_14_alg».proof.Proof.Canon

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## One trip of the pipelined loop, in the middle of the run

Trip `k` (1 ≤ k ≤ 8) handles lists `5 k … 5 k + 4`. For each row buffer in turn: the gather of its list has landed
(the buffer holds the gathered block, the list is handed back); the 128 scaling trips turn it into the scaled block;
its copy-out to the block of that number starts; the copy-out of the previous block has landed (that block holds the
lookup) and frees the previous row buffer, into which the gather of the list four ahead starts. So the state before
trip `k + 1` is the state before trip `k` with every number advanced by five. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_mid (hfi : ∀ j, (fi j).toNat < 1000000) (k : Fin k0_t1_loop.trips) (hk1 : 1 ≤ k.val) (hk8 : k.val ≤ 8) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have h1 := (cond1_iff k).2 hk1
  have h2 := cond2_all k
  have h3 := cond3_all k
  have h4 := (cond4_iff k).2 hk8
  have h5 := cond5_all k
  have h6 := (cond6_iff k).2 hk8
  have h7 := cond7_all k
  have h8 := (cond8_iff k).2 hk8
  have h9 := cond9_all k
  have h10 := (cond10_iff k).2 hk8
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_neg (show ¬ k.val = 0 by omega)]
  rw [take5 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨Hs4, Hb4⟩, Hg4, Htab4, Hs0, Hs1, Hs2, Hs3,
    ⟨Hr4, Hr5, Hr6, Hr7, Hr8, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Hr5 := (Entails.of_eq (rowAt_of d L fi (k0_off24 k) (k0_off24_inb k h4) (5 * k.val + 5) (by omega) (k0_off24_eq k)).symm) $$ Hr5
  ihave Hr6 := (Entails.of_eq (rowAt_of d L fi (k0_off34 k) (k0_off34_inb k h6) (5 * k.val + 6) (by omega) (k0_off34_eq k)).symm) $$ Hr6
  ihave Hr7 := (Entails.of_eq (rowAt_of d L fi (k0_off44 k) (k0_off44_inb k h8) (5 * k.val + 7) (by omega) (k0_off44_eq k)).symm) $$ Hr7
  ihave Hr8 := (Entails.of_eq (rowAt_of d L fi (k0_off54 k) (k0_off54_inb k h10) (5 * k.val + 8) (by omega) (k0_off54_eq k)).symm) $$ Hr8
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_mid.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hG0 : trip_mid.sl.gather1_1 d L fi fw k h4 hinA = G0
  have hG0' : G0 = gathC d L fi fw (5 * k.val + 5) := by
    rw [← hG0]
    exact gather_closed_off d L fi fw (k0_off24 k) (k0_off24_inb k h4) (5 * k.val + 5) (by omega) (k0_off24_eq k) _ (hinA _ _)
  generalize hG1 : trip_mid.sl.gather1_2 d L fi fw k h6 hinA = G1
  have hG1' : G1 = gathC d L fi fw (5 * k.val + 6) := by
    rw [← hG1]
    exact gather_closed_off d L fi fw (k0_off34 k) (k0_off34_inb k h6) (5 * k.val + 6) (by omega) (k0_off34_eq k) _ (hinA _ _)
  generalize hG2 : trip_mid.sl.gather1_3 d L fi fw k h8 hinA = G2
  have hG2' : G2 = gathC d L fi fw (5 * k.val + 7) := by
    rw [← hG2]
    exact gather_closed_off d L fi fw (k0_off44 k) (k0_off44_inb k h8) (5 * k.val + 7) (by omega) (k0_off44_eq k) _ (hinA _ _)
  generalize hG3 : trip_mid.sl.gather1_4 d L fi fw k h10 hinA = G3
  have hG3' : G3 = gathC d L fi fw (5 * k.val + 8) := by
    rw [← hG3]
    exact gather_closed_off d L fi fw (k0_off54 k) (k0_off54_inb k h10) (5 * k.val + 8) (by omega) (k0_off54_eq k) _ (hinA _ _)
  generalize hQ0 : trip_mid.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_mid.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_mid.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_mid.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_mid.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_pos (show k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 5) 50) fun g => rowAt d L fi g.val := by
    rw [show 5 * (k.val + 1) + 4 = 5 * k.val + 4 + 5 by omega]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ blkDone d L fi fw (5 * k.val - 1) ∗ bigSep (Ring.rangeSet 50 0 (5 * k.val - 1)) fun g => blkDone d L fi fw g.val) := by
    rw [show 5 * (k.val + 1) - 1 = (5 * k.val - 1) + 5 by omega,
      push5 (fun n => blkDone d L fi fw n) 0 (5 * k.val - 1) (by omega) (by omega),
      show 5 * k.val - 1 + 4 = 5 * k.val + 3 by omega, show 5 * k.val - 1 + 3 = 5 * k.val + 2 by omega,
      show 5 * k.val - 1 + 2 = 5 * k.val + 1 by omega, show 5 * k.val - 1 + 1 = 5 * k.val by omega]
  rw [eR, eT, eRD, eBD,
    show 5 * (k.val + 1) + 3 = 5 * k.val + 8 by omega, show 5 * (k.val + 1) + 2 = 5 * k.val + 7 by omega,
    show 5 * (k.val + 1) + 1 = 5 * k.val + 6 by omega, show 5 * (k.val + 1) - 1 = 5 * k.val + 4 by omega,
    show 5 * (k.val + 1) = 5 * k.val + 5 by omega]
  isplitr
  · iexact Hmw
  isplitl [Hg0 Htab0 Hg1 Htab1 Hg2 Htab2 Hg3 Htab3]
  · isplitl [Hg0 Htab0]
    · iapply (gath_canon0 d L fi fw qT (k0_off24 k) (k0_off24_inb k h4) (5 * k.val + 5) (by omega) (k0_off24_eq k)
        (scaledTo (Scf.trips k0_t2_loop.lb k0_t2_loop.ub k0_t2_loop.st) (gathC d L fi fw (5 * k.val))) G0 hG0')
      isplitl [Hg0]
      · iexact Hg0
      · iexact Htab0
    isplitl [Hg1 Htab1]
    · iapply (gath_canon1 d L fi fw qT (k0_off34 k) (k0_off34_inb k h6) (5 * k.val + 6) (by omega) (k0_off34_eq k)
        (scaledTo (Scf.trips k0_t3_loop.lb k0_t3_loop.ub k0_t3_loop.st) (gathC d L fi fw (5 * k.val + 1))) G1 hG1')
      isplitl [Hg1]
      · iexact Hg1
      · iexact Htab1
    isplitl [Hg2 Htab2]
    · iapply (gath_canon2 d L fi fw qT (k0_off44 k) (k0_off44_inb k h8) (5 * k.val + 7) (by omega) (k0_off44_eq k)
        (scaledTo (Scf.trips k0_t4_loop.lb k0_t4_loop.ub k0_t4_loop.st) (gathC d L fi fw (5 * k.val + 2))) G2 hG2')
      isplitl [Hg2]
      · iexact Hg2
      · iexact Htab2
    · iapply (gath_canon3 d L fi fw qT (k0_off54 k) (k0_off54_inb k h10) (5 * k.val + 8) (by omega) (k0_off54_eq k)
        (scaledTo (Scf.trips k0_t5_loop.lb k0_t5_loop.ub k0_t5_loop.st) (gathC d L fi fw (5 * k.val + 3))) G3 hG3')
      isplitl [Hg3]
      · iexact Hg3
      · iexact Htab3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Hs4_dst Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    isplitl [Hs4_dst]
    · iexact Hs4_dst
    iexact Hbdone
  iexists _
  isplitr
  swap
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW' p hp

end Cert.Proof.KI

end
-- ==== Proof.TripLast.lean ====
import proofs.«208012_g154618823073_cont_week2b_1161_14_alg».proof.Proof.Common
import proofs.«208012_g154618823073_cont_week2b_1161_14_alg».proof.Proof.Canon

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

/-! ## The last trip of the pipelined loop

Trip 9 handles lists 45 … 49. It differs from a middle trip in one place: there is no list four ahead, so no gather is
started into row buffers 0 … 3 once their copy-outs have landed; they end idle, each whole with its read token of the
table whole and its semaphore at zero. Only list 49 is still to be gathered (into row buffer 4) when the trip starts;
after it no list and no block remains, blocks 0 … 48 hold the lookup and block 49 is being written. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_last (hfi : ∀ j, (fi j).toNat < 1000000) (k : Fin k0_t1_loop.trips) (hk9 : k.val = 9) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have h1 := (cond1_iff k).2 (show 1 ≤ k.val by omega)
  have h2 := cond2_all k
  have h3 := cond3_all k
  have h4 : ¬ k0_cond4 k = 1#1 := fun h => by have := (cond4_iff k).1 h; omega
  have h5 := cond5_all k
  have h6 : ¬ k0_cond6 k = 1#1 := fun h => by have := (cond6_iff k).1 h; omega
  have h7 := cond7_all k
  have h8 : ¬ k0_cond8 k = 1#1 := fun h => by have := (cond8_iff k).1 h; omega
  have h9 := cond9_all k
  have h10 : ¬ k0_cond10 k = 1#1 := fun h => by have := (cond10_iff k).1 h; omega
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_neg (show ¬ k.val = 0 by omega)]
  rw [take1 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨Hs4, Hb4⟩, Hg4, Htab4, Hs0, Hs1, Hs2, Hs3,
    ⟨Hr4, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_last.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hQ0 : trip_last.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_last.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_last.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_last.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_last.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_neg (show ¬ k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 1) 50) fun g => rowAt d L fi g.val := by
    rw [Ring.rangeSet_empty (show 50 ≤ 5 * (k.val + 1) + 4 by omega), Ring.rangeSet_empty (show 50 ≤ 5 * k.val + 4 + 1 by omega)]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ blkDone d L fi fw (5 * k.val - 1) ∗ bigSep (Ring.rangeSet 50 0 (5 * k.val - 1)) fun g => blkDone d L fi fw g.val) := by
    rw [show 5 * (k.val + 1) - 1 = (5 * k.val - 1) + 5 by omega,
      push5 (fun n => blkDone d L fi fw n) 0 (5 * k.val - 1) (by omega) (by omega),
      show 5 * k.val - 1 + 4 = 5 * k.val + 3 by omega, show 5 * k.val - 1 + 3 = 5 * k.val + 2 by omega,
      show 5 * k.val - 1 + 2 = 5 * k.val + 1 by omega, show 5 * k.val - 1 + 1 = 5 * k.val by omega]
  rw [eR, eT, eRD, eBD, show 5 * (k.val + 1) - 1 = 5 * k.val + 4 by omega]
  isplitr
  · iexact Hmw
  isplitl [Hsc0 Htab0 Hg0 Hsc1 Htab1 Hg1 Hsc2 Htab2 Hg2 Hsc3 Htab3 Hg3]
  · isplitl [Hsc0 Htab0 Hg0]
    · isplitl [Hsc0]
      · iexists _; iexact Hsc0
      isplitl [Htab0]
      · iexact Htab0
      iexact Hg0
    isplitl [Hsc1 Htab1 Hg1]
    · isplitl [Hsc1]
      · iexists _; iexact Hsc1
      isplitl [Htab1]
      · iexact Htab1
      iexact Hg1
    isplitl [Hsc2 Htab2 Hg2]
    · isplitl [Hsc2]
      · iexists _; iexact Hsc2
      isplitl [Htab2]
      · iexact Htab2
      iexact Hg2
    · isplitl [Hsc3]
      · iexists _; iexact Hsc3
      isplitl [Htab3]
      · iexact Htab3
      iexact Hg3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Hs4_dst Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    isplitl [Hs4_dst]
    · iexact Hs4_dst
    iexact Hbdone
  iexists _
  isplitr
  swap
  · iexact HO
  ipureintro; intro p hp
  repeat (rcases Finset.mem_insert.mp hp with rfl | hp; exact .inr rfl)
  exact hW' p hp

end Cert.Proof.KI

end
-- ==== Proof.Body.lean ====
import proofs.«208012_g154618823073_cont_week2b_1161_14_alg».proof.Proof.Common
import proofs.«208012_g154618823073_cont_week2b_1161_14_alg».proof.Proof.LoopEntry
import proofs.«208012_g154618823073_cont_week2b_1161_14_alg».proof.Proof.CoreStmt
import proofs.«208012_g154618823073_cont_week2b_1161_14_alg».proof.Proof.Rows
import proofs.«208012_g154618823073_cont_week2b_1161_14_alg».proof.Proof.TripFirst
import proofs.«208012_g154618823073_cont_week2b_1161_14_alg».proof.Proof.TripMid
import proofs.«208012_g154618823073_cont_week2b_1161_14_alg».proof.Proof.TripLast
import proofs.«208012_g154618823073_cont_week2b_1161_14_alg».proof.Proof.LaunchFacts

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.KernelIdeal.main_v1_scv : Memref Cert.KernelIdeal.sig Kind.scVector Space.hbm Cert.KernelIdeal.S32x50x128 EltTy.i32)
local notation "tabM" => (Memref.whole Cert.KernelIdeal.main_arg1_scv : Memref Cert.KernelIdeal.sig Kind.scVector Space.hbm Cert.KernelIdeal.S1000000x128 EltTy.f32)
local notation "outM" => (Memref.whole Cert.KernelIdeal.main_v2_scv : Memref Cert.KernelIdeal.sig Kind.scVector Space.hbm Cert.KernelIdeal.S204800x128 EltTy.f32)
local notation "lstM" => (Memref.whole Cert.KernelIdeal.cc0_scratch0 : Memref Cert.KernelIdeal.sig Kind.scVector Space.vmem Cert.KernelIdeal.S50x128 EltTy.i32)
local notation "bufM0" => (Memref.whole Cert.KernelIdeal.cc0_scratch1 : Memref Cert.KernelIdeal.sig Kind.scVector Space.vmem Cert.KernelIdeal.S128x128 EltTy.f32)
local notation "bufM1" => (Memref.whole Cert.KernelIdeal.cc0_scratch2 : Memref Cert.KernelIdeal.sig Kind.scVector Space.vmem Cert.KernelIdeal.S128x128 EltTy.f32)
local notation "bufM2" => (Memref.whole Cert.KernelIdeal.cc0_scratch3 : Memref Cert.KernelIdeal.sig Kind.scVector Space.vmem Cert.KernelIdeal.S128x128 EltTy.f32)
local notation "bufM3" => (Memref.whole Cert.KernelIdeal.cc0_scratch4 : Memref Cert.KernelIdeal.sig Kind.scVector Space.vmem Cert.KernelIdeal.S128x128 EltTy.f32)
local notation "bufM4" => (Memref.whole Cert.KernelIdeal.cc0_scratch5 : Memref Cert.KernelIdeal.sig Kind.scVector Space.vmem Cert.KernelIdeal.S128x128 EltTy.f32)

open Idealize.ShloMosaic.ValueIdx

variable (d : Dev nD) (L : grid0.Coords) (fi : Buf (Elt F) (idsLoc d)) (fw : Buf (Elt F) (tabLoc d))

/-! ## One task, from its first copy to its last wait

The prologue copies the task's lists in and starts the first four gathers; the ten trips of the pipelined loop keep
the invariant; after the last trip only block 49's copy-out is in flight, and the kernel's last wait lands it. The
table's read share is dealt as five tokens, one per row buffer's gather, and joined again at the end; the fifty lists
of the list buffer are joined again once every gather has handed its list back. -/

/-- A family over five is its five members. -/
theorem bigSep_fin5 {M : Type} [URA M] (Φ : Fin 5 → sProp M) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem trips_t1 : Scf.trips k0_t1_loop.lb k0_t1_loop.ub k0_t1_loop.st = 10 := rfl

/-- Any trip keeps the invariant: the first, a middle one, the last. -/
theorem trip (hfi : ∀ j, (fi j).toNat < 1000000) (O : CellTallies nD τ sig (HIx 1)) (W : Waits sig (HIx 1)) (qT : PosShare TreeShare)
    (k : Fin k0_t1_loop.trips) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  by_cases h0 : k.val = 0
  · exact trip_first d L fi fw O W qT hfi k h0 v2
  by_cases h9 : k.val = 9
  · exact trip_last d L fi fw O W qT hfi k h9 v2
  · exact trip_mid d L fi fw O W qT hfi k (by omega) (by omega) v2

set_option maxHeartbeats 1600000 in
theorem core_of (hfi : ∀ j, (fi j).toNat < 1000000) : TileCore d L fi fw := by
  intro O W qI qT fl f0 f1 f2 f3 f4
  unfold kernelAt
  simp only [cc0_sc_kernel_eq_skeleton]; unfold cc0_sc_kernel_skel
  iintro ⟨#Hmw, Hids, Htab, Hlst, Hb0, Hb1, Hb2, Hb3, Hb4, Hg0, Hg1, Hg2, Hg3, Hg4, Hs0, Hs1, Hs2, Hs3, Hs4, Hc0, Hc1, Hblk, HO⟩
  ihave Hids := (Entails.of_eq (pts_ids (F := F) d L _ _).symm) $$ Hids
  ihave Htab := (Entails.of_eq (pts_tab (F := F) d L _ _).symm) $$ Htab
  ihave Hlst := (Entails.of_eq (pts_lst (F := F) d L _).symm) $$ Hlst
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Htoks := (Transfers.pointsTo_toks_split (ℓ := (tabM).view.loc (thr d L)) (S := Finset.univ) (f := fw) qT 5) $$ Htab
  rw [bigSep_fin5]
  icases Htoks with ⟨Hdrop, Htab0, Htab1, Htab2, Htab3, Htab4⟩
  have hin0 := hin_pro d L fi hfi (0 : Fin 50) (by decide) fl
  have hin1 := hin_pro d L fi hfi (1 : Fin 50) (by decide) fl
  have hin2 := hin_pro d L fi hfi (2 : Fin 50) (by decide) fl
  have hin3 := hin_pro d L fi hfi (3 : Fin 50) (by decide) fl
  sl_exec
  generalize hG0 : core_of.sl.gather1 d L fi fw fl hin0 = G0
  have hG0' : G0 = gathC d L fi fw 0 := by
    rw [← hG0]; exact gather_closed_pro d L fi fw (0 : Fin 50) (by decide) fl _ hin0
  generalize hG1 : core_of.sl.gather2 d L fi fw fl hin1 = G1
  have hG1' : G1 = gathC d L fi fw 1 := by
    rw [← hG1]; exact gather_closed_pro d L fi fw (1 : Fin 50) (by decide) fl _ hin1
  generalize hG2 : core_of.sl.gather3 d L fi fw fl hin2 = G2
  have hG2' : G2 = gathC d L fi fw 2 := by
    rw [← hG2]; exact gather_closed_pro d L fi fw (2 : Fin 50) (by decide) fl _ hin2
  generalize hG3 : core_of.sl.gather4 d L fi fw fl hin3 = G3
  have hG3' : G3 = gathC d L fi fw 3 := by
    rw [← hG3]; exact gather_closed_pro d L fi fw (3 : Fin 50) (by decide) fl _ hin3
  generalize hD0 : core_of.sl.dma0 d L fi = D0
  have hD0' : D0 = p8 d L fi := by rw [← hD0]; rfl
  generalize hD1 : core_of.sl.dma0_1 d L fi = D1
  have hD1' : D1 = p42 d L fi := by rw [← hD1]; rfl
  subst hD0' hD1'
  sl_for (inv d L fi fw O W qT) $$ [Hg0 Htab0 Hg1 Htab1 Hg2 Htab2 Hg3 Htab3 Hb4 Hs4 Hg4 Htab4 Hs0 Hs1 Hs2 Hs3 Hlst Hblk HO]
  case region =>
    intro k a
    exact trip d L fi fw hfi O W qT k _
  · unfold inv
    rw [if_pos (show 0 < 10 by decide), if_pos rfl]
    simp only [Nat.mul_zero, Nat.zero_add, Nat.zero_sub]
    rw [Ring.bigSep_rangeSet_empty (le_refl 0), Ring.bigSep_rangeSet_empty (le_refl 0)]
    isplitr
    · iexact Hmw
    isplitl [Hg0 Htab0 Hg1 Htab1 Hg2 Htab2 Hg3 Htab3]
    · isplitl [Hg0 Htab0]
      · iapply (entry_gath0 d L fi fw qT fl f0 G0 hG0')
        isplitl [Hg0]
        · iexact Hg0
        · iexact Htab0
      isplitl [Hg1 Htab1]
      · iapply (entry_gath1 d L fi fw qT fl f1 G1 hG1')
        isplitl [Hg1]
        · iexact Hg1
        · iexact Htab1
      isplitl [Hg2 Htab2]
      · iapply (entry_gath2 d L fi fw qT fl f2 G2 hG2')
        isplitl [Hg2]
        · iexact Hg2
        · iexact Htab2
      · iapply (entry_gath3 d L fi fw qT fl f3 G3 hG3')
        isplitl [Hg3]
        · iexact Hg3
        · iexact Htab3
    isplitl [Hb4 Hs4]
    · isplitl [Hb4]
      · iexists _; iexact Hb4
      · iexact Hs4
    isplitl [Hg4]
    · iexact Hg4
    isplitl [Htab4]
    · iexact Htab4
    isplitl [Hs0]
    · iexact Hs0
    isplitl [Hs1]
    · iexact Hs1
    isplitl [Hs2]
    · iexact Hs2
    isplitl [Hs3]
    · iexact Hs3
    isplitl [Hlst]
    · iapply (entry_rows d L fi fl); iexact Hlst
    isplitr
    · iempintro
    isplitl [Hblk]
    · iexact Hblk
    isplitr
    · iempintro
    iexists _
    isplitr
    swap
    · iexact HO
    ipureintro; intro p hp
    rcases Finset.mem_insert.mp hp with rfl | hp
    · exact .inr rfl
    rcases Finset.mem_insert.mp hp with rfl | hp
    · exact .inr rfl
    exact .inl hp
  iintro %_ HI
  unfold inv
  rw [trips_t1, if_neg (show ¬ (10 : ℕ) < 10 by decide), if_neg (show ¬ (10 : ℕ) = 0 by decide)]
  icases HI with ⟨-, ⟨⟨⟨%b0, Hbf0⟩, Htab0, Hg0⟩, ⟨⟨%b1, Hbf1⟩, Htab1, Hg1⟩, ⟨⟨%b2, Hbf2⟩, Htab2, Hg2⟩, ⟨⟨%b3, Hbf3⟩, Htab3, Hg3⟩⟩, ⟨Hs4, Hsc4⟩, Hg4, Htab4, Hs0, Hs1, Hs2, Hs3, Hrows, Hrdone, Htodo, Hbdone, %W', %hW', HO⟩
  sl_exec
  sl_step
  isplitl [Hids]
  · iexact Hids
  isplitl [Hdrop Htab0 Htab1 Htab2 Htab3 Htab4]
  · iapply (Transfers.pointsTo_toks_join (ℓ := (tabM).view.loc (thr d L)) (S := Finset.univ) (f := fw) qT 5)
    rw [bigSep_fin5]
    isplitl [Hdrop]
    · iexact Hdrop
    isplitl [Htab0]
    · iexact Htab0
    isplitl [Htab1]
    · iexact Htab1
    isplitl [Htab2]
    · iexact Htab2
    isplitl [Htab3]
    · iexact Htab3
    · iexact Htab4
  isplitl [Hrdone]
  · iapply (rows_join d L); iexact Hrdone
  isplitl [Hbf0]
  · iexists _; iexact Hbf0
  isplitl [Hbf1]
  · iexists _; iexact Hbf1
  isplitl [Hbf2]
  · iexists _; iexact Hbf2
  isplitl [Hbf3]
  · iexists _; iexact Hbf3
  isplitl [Hsc4]
  · iexists _; iexact Hsc4
  isplitl [Hg0]
  · iexact Hg0
  isplitl [Hg1]
  · iexact Hg1
  isplitl [Hg2]
  · iexact Hg2
  isplitl [Hg3]
  · iexact Hg3
  isplitl [Hg4]
  · iexact Hg4
  isplitl [Hs0]
  · iexact Hs0
  isplitl [Hs1]
  · iexact Hs1
  isplitl [Hs2]
  · iexact Hs2
  isplitl [Hs3]
  · iexact Hs3
  isplitl [Hs4]
  · iexact Hs4
  isplitl [Hc0]
  · iexact Hc0
  isplitl [Hc1]
  · iexact Hc1
  isplitl [Hbdone Hs4_dst]
  · rw [show (50 : ℕ) = 49 + 1 from rfl, push1 (fun n => blkDone d L fi fw n) 0 49 (by omega) (by omega)]
    isplitl [Hs4_dst]
    · iexact Hs4_dst
    · iexact Hbdone
  iexists _
  isplitr
  swap
  · iexact HO
  ipureintro; intro p hp
  rcases Finset.mem_insert.mp hp with rfl | hp
  · exact .inr rfl
  exact hW' p hp

/-- Every task of the kernel, from the precondition on the index array. -/
theorem core (m : (ℓ : Loc nD τ sig) → Buf (Elt F) ℓ) (hpre : PreOK m) (d : Dev nD) (L : grid0.Coords) :
    TileCore d L (lists m d) (m (tabLoc d)) :=
  core_of d L (lists m d) (m (tabLoc d)) (lists_lt m hpre d)

end Cert.Proof.KI

end
-- ==== Proof.Word.Runs.lean ====
import proofs.«208012_g154618823073_cont_week2b_1161_14_alg».proof.Proof.Word.Common
import proofs.«208012_g154618823073_cont_week2b_1161_14_alg».proof.Proof.Word.Inv

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

/-! ## Runs of numbered pieces: taking the next five, adding the last five -/

section Runs
variable {M : Type} [URA M]

theorem take1 (A : ℕ → sProp M) (lo hi : ℕ) (h : lo < hi) (hh : hi ≤ 50) :
    bigSep (Ring.rangeSet 50 lo hi) (fun g => A g.val) = iprop(A lo ∗ bigSep (Ring.rangeSet 50 (lo + 1) hi) fun g => A g.val) := by
  rw [Ring.bigSep_rangeSet_head h (by omega)]

theorem take5 (A : ℕ → sProp M) (lo hi : ℕ) (h : lo + 5 ≤ hi) (hh : hi ≤ 50) :
    bigSep (Ring.rangeSet 50 lo hi) (fun g => A g.val)
      = iprop(A lo ∗ A (lo + 1) ∗ A (lo + 2) ∗ A (lo + 3) ∗ A (lo + 4) ∗ bigSep (Ring.rangeSet 50 (lo + 5) hi) fun g => A g.val) := by
  rw [take1 A lo hi (by omega) hh, take1 A (lo + 1) hi (by omega) hh, take1 A (lo + 1 + 1) hi (by omega) hh,
    take1 A (lo + 1 + 1 + 1) hi (by omega) hh, take1 A (lo + 1 + 1 + 1 + 1) hi (by omega) hh]

theorem push1 (A : ℕ → sProp M) (lo hi : ℕ) (h : lo ≤ hi) (hh : hi < 50) :
    bigSep (Ring.rangeSet 50 lo (hi + 1)) (fun g => A g.val) = iprop(A hi ∗ bigSep (Ring.rangeSet 50 lo hi) fun g => A g.val) := by
  rw [Ring.bigSep_rangeSet_last (by omega) (by omega)]; rfl

theorem push5 (A : ℕ → sProp M) (lo hi : ℕ) (h : lo ≤ hi) (hh : hi + 5 ≤ 50) :
    bigSep (Ring.rangeSet 50 lo (hi + 5)) (fun g => A g.val)
      = iprop(A (hi + 4) ∗ A (hi + 3) ∗ A (hi + 2) ∗ A (hi + 1) ∗ A hi ∗ bigSep (Ring.rangeSet 50 lo hi) fun g => A g.val) := by
  rw [show hi + 5 = hi + 4 + 1 from rfl, push1 A lo (hi + 4) (by omega) (by omega), show hi + 4 = hi + 3 + 1 from rfl,
    push1 A lo (hi + 3) (by omega) (by omega), show hi + 3 = hi + 2 + 1 from rfl, push1 A lo (hi + 2) (by omega) (by omega),
    show hi + 2 = hi + 1 + 1 from rfl, push1 A lo (hi + 1) (by omega) (by omega), push1 A lo hi h (by omega)]

end Runs

end Cert.Proof.KW

end
-- ==== Proof.Word.ScaleTrip.lean ====
/-
  One trip of a row-scaling loop, as a value.

  A gathered block of 128 rows by 128 features sits in a buffer and is scaled row by row: trip `r` loads the eight
  sixteen-lane chunks `[r, 16 c : 16 c + 16]`, `c = 0 … 7`, of row `r`, multiplies every lane by the embedding scale and
  stores each chunk back where it was. Before trip `r` the buffer holds `scaledTo r G`: the rows below `r` of the
  gathered block `G` times the scale, the rest as gathered. The eight chunks tile row `r` and touch no other row, and
  every load of the trip reads a row not yet scaled, so the trip turns `scaledTo r G` into `scaledTo (r + 1) G`;
  `scaledTo 0 G = G` and `scaledTo 128 G` is the whole block scaled.

  The product is the one the vector operations take lane by lane, at any float instance.
-/
import proofs.«208012_g154618823073_cont_week2b_1161_14_alg».proof.Proof.Gen.Kernel.Skeleton
import proofs.«208012_g154618823073_cont_week2b_1161_14_alg».proof.Proof.Spec
import Idealize.ShloMosaic.Lib.Writes
import Idealize.ShloMosaic.Lib.ValueIdx
import Idealize.ShloMosaic.Lib.Pipeline.Value

noncomputable section

namespace Cert.Proof.KW

open Cert.Kernel Cert.Kernel.Gen Idealize.ShloMosaic Idealize.ShloMosaic.ValueIdx

variable {F : FTy → Type} [FloatOps F]

/-- The block with its rows below `r` scaled and the rest as gathered. -/
def scaledTo (r : ℕ) (G : S128x128.Idx → F .f32) : S128x128.Idx → F .f32 :=
  fun y => if (y 0).val < r then FloatOps.mulf (G y) Cert.Spec.scale else G y

/-- Nothing is scaled before the first trip … -/
theorem scaledTo_zero (G : S128x128.Idx → F .f32) : scaledTo 0 G = G := by
  funext y; unfold scaledTo; rw [if_neg (Nat.not_lt_zero _)]

/-- … and everything after the last. -/
theorem scaledTo_all (G : S128x128.Idx → F .f32) : scaledTo 128 G = fun y => FloatOps.mulf (G y) Cert.Spec.scale := by
  funext y; unfold scaledTo; rw [if_pos (idx2_lt0 y)]

/-- One chunk's new value: the sixteen lanes, each times the scale. -/
def scaleChunk (v : Vec F S1x16 .f32) : FVec F S1x16 .f32 :=
  shapeCast S1x16 (mulf (shapeCast S16 v shapeCasts_S1x16_S16) (broadcast S16 (Scalar.ofBits .f32 0x413504F3#32))) shapeCasts_S16_S1x16

/-- Lane by lane: the two re-layings between `[1, 16]` and `[16]` cancel. -/
theorem scaleChunk_apply (v : Vec F S1x16 .f32) (x : S1x16.Idx) : scaleChunk v x = FloatOps.mulf (v x) Cert.Spec.scale := by
  have e : scaleChunk v = fun x => FloatOps.mulf (v x) Cert.Spec.scale :=
    shapeCast_shapeCast (fun x => FloatOps.mulf (v x) Cert.Spec.scale) shapeCasts_S1x16_S16 shapeCasts_S16_S1x16
  rw [e]

section Core

variable {sig : RefSig} {κ : Kind} {sp : Space} (v : View sig κ sp S128x128 .f32) (f : v.ty.Contents (Elt F))
  (G : S128x128.Idx → F .f32) (r : ℕ) (hf : v.read (Elt F) f = scaledTo r G)

/-- An element of the chunk of row `r` at column offset `k` lies in row `r`. -/
theorem row_of_mem {k : ℕ} {inb : ∀ a, (![r, k] : Fin 2 → ℕ) a + S1x16.size a ≤ S128x128.size a} {y : S128x128.Idx}
    (h : y ∈ (Rect.unit (s := S128x128) ![r, k] S1x16.size inb).set) : (y 0).val = r := by
  have h0 := (Rect.mem_set_unit.mp h) 0
  have e0 : (![r, k] : Fin 2 → ℕ) 0 = r := rfl
  have s0 : S1x16.size 0 = 1 := rfl
  rw [e0, s0] at h0
  omega

/-- An element of row `r` whose column lies in `[k, k + 16)` is in that chunk. -/
theorem mem_chunk {k : ℕ} (inb : ∀ a, (![r, k] : Fin 2 → ℕ) a + S1x16.size a ≤ S128x128.size a) {y : S128x128.Idx}
    (hy : (y 0).val = r) (hk : k ≤ (y 1).val ∧ (y 1).val < k + 16) :
    y ∈ (Rect.unit (s := S128x128) ![r, k] S1x16.size inb).set := by
  refine Rect.mem_set_unit.mpr fun a => ?_
  match a with
  | ⟨0, _⟩ =>
    show r ≤ (y 0).val ∧ (y 0).val < r + 1
    omega
  | ⟨1, _⟩ =>
    show k ≤ (y 1).val ∧ (y 1).val < k + 16
    exact hk

include hf in
/-- What one chunk's store writes is the next stage of the block there: row `r` is not yet scaled when it is loaded, and
    is scaled after. -/
theorem piece_eq {k : ℕ} (inb : ∀ a, (![r, k] : Fin 2 → ℕ) a + S1x16.size a ≤ S128x128.size a)
    (x : (Rect.unit (s := S128x128) ![r, k] S1x16.size inb).shape.Idx) :
    scaleChunk (v.readAt (Elt F) (Rect.unit (s := S128x128) ![r, k] S1x16.size inb).toLoadRect f) x
      = scaledTo (r + 1) G ((Rect.unit (s := S128x128) ![r, k] S1x16.size inb).emb x) := by
  have hrow : (((Rect.unit (s := S128x128) ![r, k] S1x16.size inb).emb x) 0).val = r :=
    row_of_mem r (LoadRect.idx_mem (Rect.unit (s := S128x128) ![r, k] S1x16.size inb).toLoadRect x)
  rw [scaleChunk_apply, View.readAt_apply, hf]
  show FloatOps.mulf (scaledTo r G ((Rect.unit (s := S128x128) ![r, k] S1x16.size inb).emb x)) Cert.Spec.scale = _
  unfold scaledTo
  rw [if_neg (by rw [hrow]; exact Nat.lt_irrefl r), if_pos (by rw [hrow]; exact Nat.lt_succ_self r)]

include hf in
/-- ONE TRIP: from a block scaled below row `r`, the eight stores of row `r`'s chunks, each the chunk as loaded times the
    scale, leave the block scaled below row `r + 1`. The chunks tile row `r` and touch no other row. -/
theorem scale_trip_core
    (o0 o1 o2 o3 o4 o5 o6 o7 : Fin 2 → ℕ)
    (i0 : ∀ a, o0 a + S1x16.size a ≤ S128x128.size a)
    (i1 : ∀ a, o1 a + S1x16.size a ≤ S128x128.size a)
    (i2 : ∀ a, o2 a + S1x16.size a ≤ S128x128.size a)
    (i3 : ∀ a, o3 a + S1x16.size a ≤ S128x128.size a)
    (i4 : ∀ a, o4 a + S1x16.size a ≤ S128x128.size a)
    (i5 : ∀ a, o5 a + S1x16.size a ≤ S128x128.size a)
    (i6 : ∀ a, o6 a + S1x16.size a ≤ S128x128.size a)
    (i7 : ∀ a, o7 a + S1x16.size a ≤ S128x128.size a)
    (e0 : o0 = ![r, 0])     (e1 : o1 = ![r, 16])     (e2 : o2 = ![r, 32])     (e3 : o3 = ![r, 48])     (e4 : o4 = ![r, 64])     (e5 : o5 = ![r, 80])     (e6 : o6 = ![r, 96])     (e7 : o7 = ![r, 112]) :
    v.read (Elt F) (v.writes (Elt F) f
      [⟨Rect.unit (s := S128x128) o7 S1x16.size i7, scaleChunk (v.readAt (Elt F) (Rect.unit (s := S128x128) o7 S1x16.size i7).toLoadRect f)⟩,
       ⟨Rect.unit (s := S128x128) o6 S1x16.size i6, scaleChunk (v.readAt (Elt F) (Rect.unit (s := S128x128) o6 S1x16.size i6).toLoadRect f)⟩,
       ⟨Rect.unit (s := S128x128) o5 S1x16.size i5, scaleChunk (v.readAt (Elt F) (Rect.unit (s := S128x128) o5 S1x16.size i5).toLoadRect f)⟩,
       ⟨Rect.unit (s := S128x128) o4 S1x16.size i4, scaleChunk (v.readAt (Elt F) (Rect.unit (s := S128x128) o4 S1x16.size i4).toLoadRect f)⟩,
       ⟨Rect.unit (s := S128x128) o3 S1x16.size i3, scaleChunk (v.readAt (Elt F) (Rect.unit (s := S128x128) o3 S1x16.size i3).toLoadRect f)⟩,
       ⟨Rect.unit (s := S128x128) o2 S1x16.size i2, scaleChunk (v.readAt (Elt F) (Rect.unit (s := S128x128) o2 S1x16.size i2).toLoadRect f)⟩,
       ⟨Rect.unit (s := S128x128) o1 S1x16.size i1, scaleChunk (v.readAt (Elt F) (Rect.unit (s := S128x128) o1 S1x16.size i1).toLoadRect f)⟩,
       ⟨Rect.unit (s := S128x128) o0 S1x16.size i0, scaleChunk (v.readAt (Elt F) (Rect.unit (s := S128x128) o0 S1x16.size i0).toLoadRect f)⟩])
      = scaledTo (r + 1) G := by
  subst e0 e1 e2 e3 e4 e5 e6 e7
  funext y
  by_cases hy : (y 0).val = r
  · refine View.read_writes_apply_of_pieces v f (scaledTo (r + 1) G) _ ?_ y ?_
    · intro p hp
      simp only [List.mem_cons, List.not_mem_nil, or_false] at hp
      rcases hp with rfl | rfl | rfl | rfl | rfl | rfl | rfl | rfl <;> exact piece_eq v f G r hf _
    · have h1 : (y 1).val < 128 := idx2_lt1 y
      by_cases c0 : (y 1).val < 16
      · exact ⟨_, (List.Mem.tail _ (List.Mem.tail _ (List.Mem.tail _ (List.Mem.tail _ (List.Mem.tail _ (List.Mem.tail _ (List.Mem.tail _ (List.Mem.head _)))))))), mem_chunk r i0 hy ⟨by omega, by omega⟩⟩
      by_cases c1 : (y 1).val < 32
      · exact ⟨_, (List.Mem.tail _ (List.Mem.tail _ (List.Mem.tail _ (List.Mem.tail _ (List.Mem.tail _ (List.Mem.tail _ (List.Mem.head _))))))), mem_chunk r i1 hy ⟨by omega, by omega⟩⟩
      by_cases c2 : (y 1).val < 48
      · exact ⟨_, (List.Mem.tail _ (List.Mem.tail _ (List.Mem.tail _ (List.Mem.tail _ (List.Mem.tail _ (List.Mem.head _)))))), mem_chunk r i2 hy ⟨by omega, by omega⟩⟩
      by_cases c3 : (y 1).val < 64
      · exact ⟨_, (List.Mem.tail _ (List.Mem.tail _ (List.Mem.tail _ (List.Mem.tail _ (List.Mem.head _))))), mem_chunk r i3 hy ⟨by omega, by omega⟩⟩
      by_cases c4 : (y 1).val < 80
      · exact ⟨_, (List.Mem.tail _ (List.Mem.tail _ (List.Mem.tail _ (List.Mem.head _)))), mem_chunk r i4 hy ⟨by omega, by omega⟩⟩
      by_cases c5 : (y 1).val < 96
      · exact ⟨_, (List.Mem.tail _ (List.Mem.tail _ (List.Mem.head _))), mem_chunk r i5 hy ⟨by omega, by omega⟩⟩
      by_cases c6 : (y 1).val < 112
      · exact ⟨_, (List.Mem.tail _ (List.Mem.head _)), mem_chunk r i6 hy ⟨by omega, by omega⟩⟩
      exact ⟨_, (List.Mem.head _), mem_chunk r i7 hy ⟨by omega, by omega⟩⟩
  · have hn : ∀ p ∈ ([⟨Rect.unit (s := S128x128) ![r, 112] S1x16.size i7, scaleChunk (v.readAt (Elt F) (Rect.unit (s := S128x128) ![r, 112] S1x16.size i7).toLoadRect f)⟩,
        ⟨Rect.unit (s := S128x128) ![r, 96] S1x16.size i6, scaleChunk (v.readAt (Elt F) (Rect.unit (s := S128x128) ![r, 96] S1x16.size i6).toLoadRect f)⟩,
        ⟨Rect.unit (s := S128x128) ![r, 80] S1x16.size i5, scaleChunk (v.readAt (Elt F) (Rect.unit (s := S128x128) ![r, 80] S1x16.size i5).toLoadRect f)⟩,
        ⟨Rect.unit (s := S128x128) ![r, 64] S1x16.size i4, scaleChunk (v.readAt (Elt F) (Rect.unit (s := S128x128) ![r, 64] S1x16.size i4).toLoadRect f)⟩,
        ⟨Rect.unit (s := S128x128) ![r, 48] S1x16.size i3, scaleChunk (v.readAt (Elt F) (Rect.unit (s := S128x128) ![r, 48] S1x16.size i3).toLoadRect f)⟩,
        ⟨Rect.unit (s := S128x128) ![r, 32] S1x16.size i2, scaleChunk (v.readAt (Elt F) (Rect.unit (s := S128x128) ![r, 32] S1x16.size i2).toLoadRect f)⟩,
        ⟨Rect.unit (s := S128x128) ![r, 16] S1x16.size i1, scaleChunk (v.readAt (Elt F) (Rect.unit (s := S128x128) ![r, 16] S1x16.size i1).toLoadRect f)⟩,
        ⟨Rect.unit (s := S128x128) ![r, 0] S1x16.size i0, scaleChunk (v.readAt (Elt F) (Rect.unit (s := S128x128) ![r, 0] S1x16.size i0).toLoadRect f)⟩] : List (View.Piece (Elt F) S128x128 .f32)), y ∉ p.1.set := by
      intro p hp
      simp only [List.mem_cons, List.not_mem_nil, or_false] at hp
      rcases hp with rfl | rfl | rfl | rfl | rfl | rfl | rfl | rfl <;> (intro h; dsimp only at h; exact hy (row_of_mem r h))
    rw [View.read_writes_apply_of_forall_not_mem v f y _ hn, hf]
    unfold scaledTo
    by_cases hlt : (y 0).val < r
    · rw [if_pos hlt, if_pos (by omega)]
    · rw [if_neg hlt, if_neg (by omega)]

end Core

/-! ## The five row buffers

Each scaling loop's trip is the core at that buffer's whole view: the eight offsets are `[r, 16 c]`, `c = 0 … 7`, and
each stored value is the chunk as loaded, lane by lane times the scale (for the fifth chunk the product is taken in one
step and re-laid to `[1, 16]` in the next). Stores are listed last first. -/

/-- One trip of the first row buffer's scaling loop. -/
theorem scale_trip0 (G : S128x128.Idx → F .f32) (r : Fin k0_t2_loop.trips) :
    (Memref.whole cc0_scratch1).view.writes (Elt F) (scaledTo r.val G)
      [⟨Rect.unit (s := S128x128) (k0_off11 r) S1x16.size (k0_off11_inb r), k0_pay33 (View.readAt (Elt F) (Memref.whole cc0_scratch1).view (Rect.unit (s := S128x128) (k0_off11 r) S1x16.size (k0_off11_inb r)).toLoadRect (scaledTo r.val G))⟩,
       ⟨Rect.unit (s := S128x128) (k0_off10 r) S1x16.size (k0_off10_inb r), k0_pay32 (View.readAt (Elt F) (Memref.whole cc0_scratch1).view (Rect.unit (s := S128x128) (k0_off10 r) S1x16.size (k0_off10_inb r)).toLoadRect (scaledTo r.val G))⟩,
       ⟨Rect.unit (s := S128x128) (k0_off9 r) S1x16.size (k0_off9_inb r), k0_pay31 (View.readAt (Elt F) (Memref.whole cc0_scratch1).view (Rect.unit (s := S128x128) (k0_off9 r) S1x16.size (k0_off9_inb r)).toLoadRect (scaledTo r.val G))⟩,
       ⟨Rect.unit (s := S128x128) (k0_off8 r) S1x16.size (k0_off8_inb r), k0_pay30 (k0_pay9 (View.readAt (Elt F) (Memref.whole cc0_scratch1).view (Rect.unit (s := S128x128) (k0_off8 r) S1x16.size (k0_off8_inb r)).toLoadRect (scaledTo r.val G)))⟩,
       ⟨Rect.unit (s := S128x128) (k0_off7 r) S1x16.size (k0_off7_inb r), k0_pay8 (View.readAt (Elt F) (Memref.whole cc0_scratch1).view (Rect.unit (s := S128x128) (k0_off7 r) S1x16.size (k0_off7_inb r)).toLoadRect (scaledTo r.val G))⟩,
       ⟨Rect.unit (s := S128x128) (k0_off6 r) S1x16.size (k0_off6_inb r), k0_pay7 (View.readAt (Elt F) (Memref.whole cc0_scratch1).view (Rect.unit (s := S128x128) (k0_off6 r) S1x16.size (k0_off6_inb r)).toLoadRect (scaledTo r.val G))⟩,
       ⟨Rect.unit (s := S128x128) (k0_off5 r) S1x16.size (k0_off5_inb r), k0_pay6 (View.readAt (Elt F) (Memref.whole cc0_scratch1).view (Rect.unit (s := S128x128) (k0_off5 r) S1x16.size (k0_off5_inb r)).toLoadRect (scaledTo r.val G))⟩,
       ⟨Rect.unit (s := S128x128) (k0_off4 r) S1x16.size (k0_off4_inb r), k0_pay5 (View.readAt (Elt F) (Memref.whole cc0_scratch1).view (Rect.unit (s := S128x128) (k0_off4 r) S1x16.size (k0_off4_inb r)).toLoadRect (scaledTo r.val G))⟩]
      = scaledTo (r.val + 1) G :=
  scale_trip_core (Memref.whole cc0_scratch1).view (scaledTo r.val G) G r.val rfl
    (k0_off4 r) (k0_off5 r) (k0_off6 r) (k0_off7 r) (k0_off8 r) (k0_off9 r) (k0_off10 r) (k0_off11 r)
    (k0_off4_inb r) (k0_off5_inb r) (k0_off6_inb r) (k0_off7_inb r) (k0_off8_inb r) (k0_off9_inb r) (k0_off10_inb r) (k0_off11_inb r)
    (k0_off4_eq r) (k0_off5_eq r) (k0_off6_eq r) (k0_off7_eq r) (k0_off8_eq r) (k0_off9_eq r) (k0_off10_eq r) (k0_off11_eq r)

/-- One trip of the second row buffer's scaling loop. -/
theorem scale_trip1 (G : S128x128.Idx → F .f32) (r : Fin k0_t3_loop.trips) :
    (Memref.whole cc0_scratch2).view.writes (Elt F) (scaledTo r.val G)
      [⟨Rect.unit (s := S128x128) (k0_off22 r) S1x16.size (k0_off22_inb r), k0_pay37 (View.readAt (Elt F) (Memref.whole cc0_scratch2).view (Rect.unit (s := S128x128) (k0_off22 r) S1x16.size (k0_off22_inb r)).toLoadRect (scaledTo r.val G))⟩,
       ⟨Rect.unit (s := S128x128) (k0_off21 r) S1x16.size (k0_off21_inb r), k0_pay36 (View.readAt (Elt F) (Memref.whole cc0_scratch2).view (Rect.unit (s := S128x128) (k0_off21 r) S1x16.size (k0_off21_inb r)).toLoadRect (scaledTo r.val G))⟩,
       ⟨Rect.unit (s := S128x128) (k0_off20 r) S1x16.size (k0_off20_inb r), k0_pay35 (View.readAt (Elt F) (Memref.whole cc0_scratch2).view (Rect.unit (s := S128x128) (k0_off20 r) S1x16.size (k0_off20_inb r)).toLoadRect (scaledTo r.val G))⟩,
       ⟨Rect.unit (s := S128x128) (k0_off19 r) S1x16.size (k0_off19_inb r), k0_pay34 (k0_pay14 (View.readAt (Elt F) (Memref.whole cc0_scratch2).view (Rect.unit (s := S128x128) (k0_off19 r) S1x16.size (k0_off19_inb r)).toLoadRect (scaledTo r.val G)))⟩,
       ⟨Rect.unit (s := S128x128) (k0_off18 r) S1x16.size (k0_off18_inb r), k0_pay13 (View.readAt (Elt F) (Memref.whole cc0_scratch2).view (Rect.unit (s := S128x128) (k0_off18 r) S1x16.size (k0_off18_inb r)).toLoadRect (scaledTo r.val G))⟩,
       ⟨Rect.unit (s := S128x128) (k0_off17 r) S1x16.size (k0_off17_inb r), k0_pay12 (View.readAt (Elt F) (Memref.whole cc0_scratch2).view (Rect.unit (s := S128x128) (k0_off17 r) S1x16.size (k0_off17_inb r)).toLoadRect (scaledTo r.val G))⟩,
       ⟨Rect.unit (s := S128x128) (k0_off16 r) S1x16.size (k0_off16_inb r), k0_pay11 (View.readAt (Elt F) (Memref.whole cc0_scratch2).view (Rect.unit (s := S128x128) (k0_off16 r) S1x16.size (k0_off16_inb r)).toLoadRect (scaledTo r.val G))⟩,
       ⟨Rect.unit (s := S128x128) (k0_off15 r) S1x16.size (k0_off15_inb r), k0_pay10 (View.readAt (Elt F) (Memref.whole cc0_scratch2).view (Rect.unit (s := S128x128) (k0_off15 r) S1x16.size (k0_off15_inb r)).toLoadRect (scaledTo r.val G))⟩]
      = scaledTo (r.val + 1) G :=
  scale_trip_core (Memref.whole cc0_scratch2).view (scaledTo r.val G) G r.val rfl
    (k0_off15 r) (k0_off16 r) (k0_off17 r) (k0_off18 r) (k0_off19 r) (k0_off20 r) (k0_off21 r) (k0_off22 r)
    (k0_off15_inb r) (k0_off16_inb r) (k0_off17_inb r) (k0_off18_inb r) (k0_off19_inb r) (k0_off20_inb r) (k0_off21_inb r) (k0_off22_inb r)
    (k0_off15_eq r) (k0_off16_eq r) (k0_off17_eq r) (k0_off18_eq r) (k0_off19_eq r) (k0_off20_eq r) (k0_off21_eq r) (k0_off22_eq r)

/-- One trip of the third row buffer's scaling loop. -/
theorem scale_trip2 (G : S128x128.Idx → F .f32) (r : Fin k0_t4_loop.trips) :
    (Memref.whole cc0_scratch3).view.writes (Elt F) (scaledTo r.val G)
      [⟨Rect.unit (s := S128x128) (k0_off32 r) S1x16.size (k0_off32_inb r), k0_pay41 (View.readAt (Elt F) (Memref.whole cc0_scratch3).view (Rect.unit (s := S128x128) (k0_off32 r) S1x16.size (k0_off32_inb r)).toLoadRect (scaledTo r.val G))⟩,
       ⟨Rect.unit (s := S128x128) (k0_off31 r) S1x16.size (k0_off31_inb r), k0_pay40 (View.readAt (Elt F) (Memref.whole cc0_scratch3).view (Rect.unit (s := S128x128) (k0_off31 r) S1x16.size (k0_off31_inb r)).toLoadRect (scaledTo r.val G))⟩,
       ⟨Rect.unit (s := S128x128) (k0_off30 r) S1x16.size (k0_off30_inb r), k0_pay39 (View.readAt (Elt F) (Memref.whole cc0_scratch3).view (Rect.unit (s := S128x128) (k0_off30 r) S1x16.size (k0_off30_inb r)).toLoadRect (scaledTo r.val G))⟩,
       ⟨Rect.unit (s := S128x128) (k0_off29 r) S1x16.size (k0_off29_inb r), k0_pay38 (k0_pay19 (View.readAt (Elt F) (Memref.whole cc0_scratch3).view (Rect.unit (s := S128x128) (k0_off29 r) S1x16.size (k0_off29_inb r)).toLoadRect (scaledTo r.val G)))⟩,
       ⟨Rect.unit (s := S128x128) (k0_off28 r) S1x16.size (k0_off28_inb r), k0_pay18 (View.readAt (Elt F) (Memref.whole cc0_scratch3).view (Rect.unit (s := S128x128) (k0_off28 r) S1x16.size (k0_off28_inb r)).toLoadRect (scaledTo r.val G))⟩,
       ⟨Rect.unit (s := S128x128) (k0_off27 r) S1x16.size (k0_off27_inb r), k0_pay17 (View.readAt (Elt F) (Memref.whole cc0_scratch3).view (Rect.unit (s := S128x128) (k0_off27 r) S1x16.size (k0_off27_inb r)).toLoadRect (scaledTo r.val G))⟩,
       ⟨Rect.unit (s := S128x128) (k0_off26 r) S1x16.size (k0_off26_inb r), k0_pay16 (View.readAt (Elt F) (Memref.whole cc0_scratch3).view (Rect.unit (s := S128x128) (k0_off26 r) S1x16.size (k0_off26_inb r)).toLoadRect (scaledTo r.val G))⟩,
       ⟨Rect.unit (s := S128x128) (k0_off25 r) S1x16.size (k0_off25_inb r), k0_pay15 (View.readAt (Elt F) (Memref.whole cc0_scratch3).view (Rect.unit (s := S128x128) (k0_off25 r) S1x16.size (k0_off25_inb r)).toLoadRect (scaledTo r.val G))⟩]
      = scaledTo (r.val + 1) G :=
  scale_trip_core (Memref.whole cc0_scratch3).view (scaledTo r.val G) G r.val rfl
    (k0_off25 r) (k0_off26 r) (k0_off27 r) (k0_off28 r) (k0_off29 r) (k0_off30 r) (k0_off31 r) (k0_off32 r)
    (k0_off25_inb r) (k0_off26_inb r) (k0_off27_inb r) (k0_off28_inb r) (k0_off29_inb r) (k0_off30_inb r) (k0_off31_inb r) (k0_off32_inb r)
    (k0_off25_eq r) (k0_off26_eq r) (k0_off27_eq r) (k0_off28_eq r) (k0_off29_eq r) (k0_off30_eq r) (k0_off31_eq r) (k0_off32_eq r)

/-- One trip of the fourth row buffer's scaling loop. -/
theorem scale_trip3 (G : S128x128.Idx → F .f32) (r : Fin k0_t5_loop.trips) :
    (Memref.whole cc0_scratch4).view.writes (Elt F) (scaledTo r.val G)
      [⟨Rect.unit (s := S128x128) (k0_off42 r) S1x16.size (k0_off42_inb r), k0_pay45 (View.readAt (Elt F) (Memref.whole cc0_scratch4).view (Rect.unit (s := S128x128) (k0_off42 r) S1x16.size (k0_off42_inb r)).toLoadRect (scaledTo r.val G))⟩,
       ⟨Rect.unit (s := S128x128) (k0_off41 r) S1x16.size (k0_off41_inb r), k0_pay44 (View.readAt (Elt F) (Memref.whole cc0_scratch4).view (Rect.unit (s := S128x128) (k0_off41 r) S1x16.size (k0_off41_inb r)).toLoadRect (scaledTo r.val G))⟩,
       ⟨Rect.unit (s := S128x128) (k0_off40 r) S1x16.size (k0_off40_inb r), k0_pay43 (View.readAt (Elt F) (Memref.whole cc0_scratch4).view (Rect.unit (s := S128x128) (k0_off40 r) S1x16.size (k0_off40_inb r)).toLoadRect (scaledTo r.val G))⟩,
       ⟨Rect.unit (s := S128x128) (k0_off39 r) S1x16.size (k0_off39_inb r), k0_pay42 (k0_pay24 (View.readAt (Elt F) (Memref.whole cc0_scratch4).view (Rect.unit (s := S128x128) (k0_off39 r) S1x16.size (k0_off39_inb r)).toLoadRect (scaledTo r.val G)))⟩,
       ⟨Rect.unit (s := S128x128) (k0_off38 r) S1x16.size (k0_off38_inb r), k0_pay23 (View.readAt (Elt F) (Memref.whole cc0_scratch4).view (Rect.unit (s := S128x128) (k0_off38 r) S1x16.size (k0_off38_inb r)).toLoadRect (scaledTo r.val G))⟩,
       ⟨Rect.unit (s := S128x128) (k0_off37 r) S1x16.size (k0_off37_inb r), k0_pay22 (View.readAt (Elt F) (Memref.whole cc0_scratch4).view (Rect.unit (s := S128x128) (k0_off37 r) S1x16.size (k0_off37_inb r)).toLoadRect (scaledTo r.val G))⟩,
       ⟨Rect.unit (s := S128x128) (k0_off36 r) S1x16.size (k0_off36_inb r), k0_pay21 (View.readAt (Elt F) (Memref.whole cc0_scratch4).view (Rect.unit (s := S128x128) (k0_off36 r) S1x16.size (k0_off36_inb r)).toLoadRect (scaledTo r.val G))⟩,
       ⟨Rect.unit (s := S128x128) (k0_off35 r) S1x16.size (k0_off35_inb r), k0_pay20 (View.readAt (Elt F) (Memref.whole cc0_scratch4).view (Rect.unit (s := S128x128) (k0_off35 r) S1x16.size (k0_off35_inb r)).toLoadRect (scaledTo r.val G))⟩]
      = scaledTo (r.val + 1) G :=
  scale_trip_core (Memref.whole cc0_scratch4).view (scaledTo r.val G) G r.val rfl
    (k0_off35 r) (k0_off36 r) (k0_off37 r) (k0_off38 r) (k0_off39 r) (k0_off40 r) (k0_off41 r) (k0_off42 r)
    (k0_off35_inb r) (k0_off36_inb r) (k0_off37_inb r) (k0_off38_inb r) (k0_off39_inb r) (k0_off40_inb r) (k0_off41_inb r) (k0_off42_inb r)
    (k0_off35_eq r) (k0_off36_eq r) (k0_off37_eq r) (k0_off38_eq r) (k0_off39_eq r) (k0_off40_eq r) (k0_off41_eq r) (k0_off42_eq r)

/-- One trip of the fifth row buffer's scaling loop. -/
theorem scale_trip4 (G : S128x128.Idx → F .f32) (r : Fin k0_t6_loop.trips) :
    (Memref.whole cc0_scratch5).view.writes (Elt F) (scaledTo r.val G)
      [⟨Rect.unit (s := S128x128) (k0_off52 r) S1x16.size (k0_off52_inb r), k0_pay4 (View.readAt (Elt F) (Memref.whole cc0_scratch5).view (Rect.unit (s := S128x128) (k0_off52 r) S1x16.size (k0_off52_inb r)).toLoadRect (scaledTo r.val G))⟩,
       ⟨Rect.unit (s := S128x128) (k0_off51 r) S1x16.size (k0_off51_inb r), k0_pay3 (View.readAt (Elt F) (Memref.whole cc0_scratch5).view (Rect.unit (s := S128x128) (k0_off51 r) S1x16.size (k0_off51_inb r)).toLoadRect (scaledTo r.val G))⟩,
       ⟨Rect.unit (s := S128x128) (k0_off50 r) S1x16.size (k0_off50_inb r), k0_pay2 (View.readAt (Elt F) (Memref.whole cc0_scratch5).view (Rect.unit (s := S128x128) (k0_off50 r) S1x16.size (k0_off50_inb r)).toLoadRect (scaledTo r.val G))⟩,
       ⟨Rect.unit (s := S128x128) (k0_off49 r) S1x16.size (k0_off49_inb r), k0_pay1 (k0_pay29 (View.readAt (Elt F) (Memref.whole cc0_scratch5).view (Rect.unit (s := S128x128) (k0_off49 r) S1x16.size (k0_off49_inb r)).toLoadRect (scaledTo r.val G)))⟩,
       ⟨Rect.unit (s := S128x128) (k0_off48 r) S1x16.size (k0_off48_inb r), k0_pay28 (View.readAt (Elt F) (Memref.whole cc0_scratch5).view (Rect.unit (s := S128x128) (k0_off48 r) S1x16.size (k0_off48_inb r)).toLoadRect (scaledTo r.val G))⟩,
       ⟨Rect.unit (s := S128x128) (k0_off47 r) S1x16.size (k0_off47_inb r), k0_pay27 (View.readAt (Elt F) (Memref.whole cc0_scratch5).view (Rect.unit (s := S128x128) (k0_off47 r) S1x16.size (k0_off47_inb r)).toLoadRect (scaledTo r.val G))⟩,
       ⟨Rect.unit (s := S128x128) (k0_off46 r) S1x16.size (k0_off46_inb r), k0_pay26 (View.readAt (Elt F) (Memref.whole cc0_scratch5).view (Rect.unit (s := S128x128) (k0_off46 r) S1x16.size (k0_off46_inb r)).toLoadRect (scaledTo r.val G))⟩,
       ⟨Rect.unit (s := S128x128) (k0_off45 r) S1x16.size (k0_off45_inb r), k0_pay25 (View.readAt (Elt F) (Memref.whole cc0_scratch5).view (Rect.unit (s := S128x128) (k0_off45 r) S1x16.size (k0_off45_inb r)).toLoadRect (scaledTo r.val G))⟩]
      = scaledTo (r.val + 1) G :=
  scale_trip_core (Memref.whole cc0_scratch5).view (scaledTo r.val G) G r.val rfl
    (k0_off45 r) (k0_off46 r) (k0_off47 r) (k0_off48 r) (k0_off49 r) (k0_off50 r) (k0_off51 r) (k0_off52 r)
    (k0_off45_inb r) (k0_off46_inb r) (k0_off47_inb r) (k0_off48_inb r) (k0_off49_inb r) (k0_off50_inb r) (k0_off51_inb r) (k0_off52_inb r)
    (k0_off45_eq r) (k0_off46_eq r) (k0_off47_eq r) (k0_off48_eq r) (k0_off49_eq r) (k0_off50_eq r) (k0_off51_eq r) (k0_off52_eq r)

end Cert.Proof.KW

end
-- ==== Proof.Word.Values.lean ====
import proofs.«208012_g154618823073_cont_week2b_1161_14_alg».proof.Proof.Word.Inv

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## Stores and reads through the views, as values -/

/-- A store of a whole buffer leaves the payload: the whole rectangle places every index at itself, so every
    element is written, with the payload's element there. -/
theorem writes_whole (b : Ref sig .scVector) (f w : b.ty.Contents (Elt F)) :
    (Memref.whole b).view.writes (Elt F) f [⟨Rect.whole b.ty.shape, w⟩] = w := by
  rw [View.writes_singleton]
  funext i
  have h := View.write_emb_of_mem (v := ((Memref.whole b).view.slice (Rect.whole b.ty.shape))) f w (Finset.mem_univ i)
  rw [show ((Memref.whole b).view.slice (Rect.whole b.ty.shape)).emb i = i from Rect.emb_whole_apply _ i] at h
  exact h.trans (cast_eq _ _)

variable (d : Dev nD) (L : grid0.Coords) (fi : Buf (Elt F) (idsLoc d)) (fw : Buf (Elt F) (tabLoc d))

/-- Every word of the list buffer's closed form is a word of the index array: a list read anywhere in the buffer
    reads words below the table's height when the array's words are. -/
theorem hin_all (hfi : ∀ j, (fi j).toNat < 1000000) (o : Fin 2 → ℕ) (h : ∀ a, o a + S1x128.size a ≤ S50x128.size a) :
    ∀ x : S128.Idx, (View.read (Elt F) (((lstM).slice (Rect.unit (s := S50x128) o S1x128.size h) (fun _ => rfl)).squeeze S128 squeezes_S1x128_S128).view
      (listC d L fi) x).toNat < 1000000 := by
  intro x
  rw [(View.read_apply _ _).trans (cast_eq _ _)]
  exact hfi _

/-- Entry `x` of list `g` sits at row `g`, column `x` of the list buffer: the squeeze puts the one row coordinate
    `0` in front of the entry, and the slice moves it down by `g` rows. -/
theorem lrow_emb (g : Fin 50) (x : S128.Idx) :
    (lrowM g).view.emb x = (ix2 g (⟨(x 0).val, (x 0).isLt⟩ : Fin 128) : S50x128.Idx) := by
  have hz := Shape.rowMajor_reshapeEquiv (s := S1x128) (s' := S128) squeezes_S1x128_S128.numel_eq x
  rw [Shape.rowMajor_val_two, Shape.rowMajor_val_one] at hz
  have h0 : ((Shape.reshapeEquiv (s := S1x128) (s' := S128) squeezes_S1x128_S128.numel_eq x) 0).val < 1 :=
    (Shape.reshapeEquiv (s := S1x128) (s' := S128) squeezes_S1x128_S128.numel_eq x 0).isLt
  change ((Shape.reshapeEquiv (s := S1x128) (s' := S128) squeezes_S1x128_S128.numel_eq x) 0).val * 128
    + ((Shape.reshapeEquiv (s := S1x128) (s' := S128) squeezes_S1x128_S128.numel_eq x) 1).val = (x 0).val at hz
  funext a
  apply Fin.ext
  match a with
  | ⟨0, _⟩ =>
    show g.val + 1 * ((Shape.reshapeEquiv (s := S1x128) (s' := S128) squeezes_S1x128_S128.numel_eq x) 0).val = g.val
    omega
  | ⟨1, _⟩ =>
    show 0 + 1 * ((Shape.reshapeEquiv (s := S1x128) (s' := S128) squeezes_S1x128_S128.numel_eq x) 1).val = (x 0).val
    omega

/-- List `g` read at entry `x` is the list buffer's row `g` at column `x`. -/
theorem read_lrow (g : Fin 50) (c : S50x128.Idx → Elt F .i32) (x : S128.Idx) :
    View.read (Elt F) (lrowM g).view c x = c (ix2 g (⟨(x 0).val, (x 0).isLt⟩ : Fin 128)) := by
  rw [(View.read_apply _ _).trans (cast_eq _ _), lrow_emb]

/-- The list buffer's closed form at row `g`, column `r` is word `(w, g, r)` of the index lists. -/
theorem listC_ix2 (g : Fin 50) (r : Fin 128) : listC d L fi (ix2 g r) = fi (ix3 (widL L) g r) := rfl

/-- The row the offset list names for row `k` of a gathered block: word `k` of list `n`. -/
theorem rows_lrow (n : ℕ) (hnum : S128.numel = S128x128.size (gathers_S1000000x128_S128x128).axis')
    (hin : ∀ x : S128.Idx, (View.read (Elt F) (lrowN n).view (listC d L fi) x).toNat < S1000000x128.size (gathers_S1000000x128_S128x128).axis)
    (k : Fin (S128x128.size (gathers_S1000000x128_S128x128).axis')) :
    (SparseCore.rows (View.read (Elt F) (lrowN n).view (listC d L fi)) hnum hin k).val
      = (fi (ix3 (widL L) (⟨n % 50, Nat.mod_lt _ (by decide)⟩ : Fin 50) (⟨k.val, k.isLt⟩ : Fin 128))).toNat := by
  show (View.read (Elt F) (lrowN n).view (listC d L fi) (S128.rowMajor.symm (k.cast hnum.symm))).toNat = _
  rw [read_lrow, listC_ix2]
  have hx : (⟨((S128.rowMajor.symm (k.cast hnum.symm)) 0).val, ((S128.rowMajor.symm (k.cast hnum.symm)) 0).isLt⟩ : Fin 128) = ⟨k.val, k.isLt⟩ := by
    apply Fin.ext
    have h1 := Shape.rowMajor_val_one (S128.rowMajor.symm (k.cast hnum.symm))
    rw [Equiv.apply_symm_apply] at h1
    exact h1.symm
  rw [hx]

/-- The whole table sliced whole places every index at itself. -/
theorem tabSl_emb (z : S1000000x128.Idx) : (tabSl).view.emb z = z := by
  funext a
  apply Fin.ext
  match a with
  | ⟨0, _⟩ => show 0 + 1 * (z 0).val = (z 0).val; omega
  | ⟨1, _⟩ => show 0 + 1 * (z 1).val = (z 1).val; omega

/-- What the gather of list `n` delivers: at row `r`, column `c` of the block, the table at the row word `r` of the
    list names, column `c`. The offset list's word `r` is word `(w, n, r)` of the index lists; it is below the
    table's height, so the row it names is its value. -/
theorem gather_closed (n : ℕ) (hn : n < 50) (hnum : S128.numel = S128x128.size (gathers_S1000000x128_S128x128).axis')
    (hin : ∀ x : S128.Idx, (View.read (Elt F) (lrowN n).view (listC d L fi) x).toNat < S1000000x128.size (gathers_S1000000x128_S128x128).axis) :
    SparseCore.gatherPayload gathers_S1000000x128_S128x128 (View.read (Elt F) (tabSl).view fw)
      (SparseCore.rows (View.read (Elt F) (lrowN n).view (listC d L fi)) hnum hin) = gathC d L fi fw n := by
  funext y
  unfold SparseCore.gatherPayload
  refine ((View.read_apply _ _).trans (cast_eq _ _)).trans ?_
  rw [tabSl_emb]
  unfold gathC
  refine congrArg fw ?_
  have hk := rows_lrow d L fi n hnum hin (y (gathers_S1000000x128_S128x128).axis')
  have hlt : (fi (ix3 (widL L) (⟨n % 50, Nat.mod_lt _ (by decide)⟩ : Fin 50)
      (⟨(y (gathers_S1000000x128_S128x128).axis').val, (y (gathers_S1000000x128_S128x128).axis').isLt⟩ : Fin 128))).toNat < 1000000 := by
    rw [← hk]; exact (SparseCore.rows (View.read (Elt F) (lrowN n).view (listC d L fi)) hnum hin _).isLt
  funext a
  apply Fin.ext
  match a with
  | ⟨0, _⟩ =>
    have e0 := Shape.Gathers.idx_axis gathers_S1000000x128_S128x128
      (SparseCore.rows (View.read (Elt F) (lrowN n).view (listC d L fi)) hnum hin) y
    show ((gathers_S1000000x128_S128x128).idx (SparseCore.rows (View.read (Elt F) (lrowN n).view (listC d L fi)) hnum hin) y
      (gathers_S1000000x128_S128x128).axis).val = _
    rw [e0, hk]
    exact (Cert.Spec.rowOf_val hlt).symm
  | ⟨1, _⟩ =>
    exact Shape.Gathers.idx_of_ne gathers_S1000000x128_S128x128 _ y ⟨1, by decide⟩ (by decide)

/-- The same for the list memref spelt by a row number equal to `n mod 50`. -/
theorem gather_closed_row (m n : ℕ) (hn : n < 50) (hm : m = n % 50)
    (h : ∀ a, (![m, 0] : Fin 2 → ℕ) a + S1x128.size a ≤ S50x128.size a)
    (hnum : S128.numel = S128x128.size (gathers_S1000000x128_S128x128).axis')
    (hin : ∀ x : S128.Idx, (View.read (Elt F) (((lstM).slice (Rect.unit (s := S50x128) ![m, 0] S1x128.size h) (fun _ => rfl)).squeeze S128 squeezes_S1x128_S128).view
      (listC d L fi) x).toNat < S1000000x128.size (gathers_S1000000x128_S128x128).axis) :
    SparseCore.gatherPayload gathers_S1000000x128_S128x128 (View.read (Elt F) (tabSl).view fw)
      (SparseCore.rows (View.read (Elt F) (((lstM).slice (Rect.unit (s := S50x128) ![m, 0] S1x128.size h) (fun _ => rfl)).squeeze S128 squeezes_S1x128_S128).view
        (listC d L fi)) hnum hin) = gathC d L fi fw n := by
  subst hm
  exact gather_closed d L fi fw n hn hnum hin

/-- The same for the list memref spelt by its offsets `![n, 0]`: it is list `n`. -/
theorem gather_closed_off (o : Fin 2 → ℕ) (h : ∀ a, o a + S1x128.size a ≤ S50x128.size a) (n : ℕ) (hn : n < 50) (e : o = ![n, 0])
    (hnum : S128.numel = S128x128.size (gathers_S1000000x128_S128x128).axis')
    (hin : ∀ x : S128.Idx, (View.read (Elt F) (((lstM).slice (Rect.unit (s := S50x128) o S1x128.size h) (fun _ => rfl)).squeeze S128 squeezes_S1x128_S128).view
      (listC d L fi) x).toNat < S1000000x128.size (gathers_S1000000x128_S128x128).axis) :
    SparseCore.gatherPayload gathers_S1000000x128_S128x128 (View.read (Elt F) (tabSl).view fw)
      (SparseCore.rows (View.read (Elt F) (((lstM).slice (Rect.unit (s := S50x128) o S1x128.size h) (fun _ => rfl)).squeeze S128 squeezes_S1x128_S128).view
        (listC d L fi)) hnum hin) = gathC d L fi fw n := by
  subst e
  exact gather_closed_row d L fi fw n n hn (Nat.mod_eq_of_lt hn).symm h hnum hin

/-- A scaled block written to block `n` of the task is the flat lookup there. Element `y` of the block sits at row
    `6400 w + 128 n + y 0`, column `y 1` of the flat result; that row is entry `y 0` of list `n` of task `w`
    (`128 n + y 0 < 6400`), so the flat lookup there is the table row that word names, at column `y 1`, scaled. -/
theorem block_landed (n : ℕ) (hn : n < 50) (g : Buf (Elt F) ((oblkN L n).view.loc (thr d L))) :
    ∀ i ∈ (oblkN L n).view.set,
      (oblkN L n).view.writes (Elt F) g [⟨Rect.whole _, scalC d L fi fw n⟩] i = flatC d fi fw i := by
  intro i hi
  obtain ⟨y, -, rfl⟩ := Finset.mem_map.mp hi
  have h := View.read_writes_cons_emb (oblkN L n).view g (Rect.whole _) (scalC d L fi fw n) [] y
  rw [Rect.emb_whole_apply, (View.read_apply _ _).trans (cast_eq _ _)] at h
  rw [h]
  have hy0 : (y 0).val < 128 := (y 0).isLt
  have hL0 := L0_lt L
  have hL1 := L1_lt L
  have hn50 : n % 50 < 50 := Nat.mod_lt _ (by decide)
  have e0 : (((oblkN L n).view.emb y) 0).val = 12800 * (L 1).val + 6400 * (L 0).val + 128 * (n % 50) + (y 0).val := by
    show 12800 * (L 1).val + 6400 * (L 0).val + 128 * (n % 50) + 1 * (y 0).val = _
    omega
  have e1 : ((oblkN L n).view.emb y) 1 = (⟨(y 1).val, (y 1).isLt⟩ : Fin 128) := by
    apply Fin.ext
    show 0 + 1 * (y 1).val = (y 1).val
    omega
  have hl : Cert.Spec.lstIdx (((oblkN L n).view.emb y) 0)
      = ix3 (widL L) (⟨n % 50, Nat.mod_lt _ (by decide)⟩ : Fin 50) (⟨(y 0).val, (y 0).isLt⟩ : Fin 128) := by
    funext a
    match a with
    | ⟨0, _⟩ =>
      apply Fin.ext
      show (((oblkN L n).view.emb y) 0).val / 6400 = 2 * (L 1).val + (L 0).val
      rw [e0]; omega
    | ⟨1, _⟩ =>
      apply Fin.ext
      show (((oblkN L n).view.emb y) 0).val % 6400 / 128 = n % 50
      rw [e0]; omega
    | ⟨2, _⟩ =>
      apply Fin.ext
      show (((oblkN L n).view.emb y) 0).val % 128 = (y 0).val
      rw [e0]; omega
  show FloatOps.mulf (gathC d L fi fw n y) Cert.Spec.scale
    = FloatOps.mulf (fw (ix2 (Cert.Spec.rowOf (fi (Cert.Spec.lstIdx (((oblkN L n).view.emb y) 0)))) (((oblkN L n).view.emb y) 1))) Cert.Spec.scale
  rw [hl, e1]
  rfl

/-- Element `x` of the task's lists 0 … 7, as the index array holds them: word `(w, x 0, x 1)`. The squeeze
    puts the one task coordinate `0` in front of `x`; the slice moves it to task `w`. -/
theorem ids8_emb (x : S8x128.Idx) :
    (((idsM).slice (Rect.unit (s := S32x50x128) (k0_off1 L) S1x8x128.size (k0_off1_inb L)) (fun _ => rfl)).squeeze S8x128 squeezes_S1x8x128_S8x128).view.emb x
      = (ix3 (widL L) (⟨(x 0).val, by have := (x 0).isLt; show (x 0).val < 50; have : (x 0).val < 8 := this; omega⟩ : Fin 50)
          (⟨(x 1).val, (x 1).isLt⟩ : Fin 128) : S32x50x128.Idx) := by
  have hz := Shape.rowMajor_reshapeEquiv (s := S1x8x128) (s' := S8x128) squeezes_S1x8x128_S8x128.numel_eq x
  rw [Shape.rowMajor_val_three, Shape.rowMajor_val_two] at hz
  change (((Shape.reshapeEquiv (s := S1x8x128) (s' := S8x128) squeezes_S1x8x128_S8x128.numel_eq x) 0).val * 8 + ((Shape.reshapeEquiv (s := S1x8x128) (s' := S8x128) squeezes_S1x8x128_S8x128.numel_eq x) 1).val) * 128 + ((Shape.reshapeEquiv (s := S1x8x128) (s' := S8x128) squeezes_S1x8x128_S8x128.numel_eq x) 2).val = (x 0).val * 128 + (x 1).val at hz
  have h0 : ((Shape.reshapeEquiv (s := S1x8x128) (s' := S8x128) squeezes_S1x8x128_S8x128.numel_eq x) 0).val < 1 := ((Shape.reshapeEquiv (s := S1x8x128) (s' := S8x128) squeezes_S1x8x128_S8x128.numel_eq x) 0).isLt
  have h1 : ((Shape.reshapeEquiv (s := S1x8x128) (s' := S8x128) squeezes_S1x8x128_S8x128.numel_eq x) 1).val < 8 := ((Shape.reshapeEquiv (s := S1x8x128) (s' := S8x128) squeezes_S1x8x128_S8x128.numel_eq x) 1).isLt
  have h2 : ((Shape.reshapeEquiv (s := S1x8x128) (s' := S8x128) squeezes_S1x8x128_S8x128.numel_eq x) 2).val < 128 := ((Shape.reshapeEquiv (s := S1x8x128) (s' := S8x128) squeezes_S1x8x128_S8x128.numel_eq x) 2).isLt
  have hx0 : (x 0).val < 8 := (x 0).isLt
  have hx1 : (x 1).val < 128 := (x 1).isLt
  have hoff := k0_off1_eq L
  funext a
  apply Fin.ext
  match a with
  | ⟨0, _⟩ =>
    show k0_off1 L 0 + 1 * ((Shape.reshapeEquiv (s := S1x8x128) (s' := S8x128) squeezes_S1x8x128_S8x128.numel_eq x) 0).val = 2 * (L 1).val + (L 0).val
    rw [hoff]
    show 2 * (L 1).val + (L 0).val + 1 * ((Shape.reshapeEquiv (s := S1x8x128) (s' := S8x128) squeezes_S1x8x128_S8x128.numel_eq x) 0).val = 2 * (L 1).val + (L 0).val
    omega
  | ⟨1, _⟩ =>
    show k0_off1 L 1 + 1 * ((Shape.reshapeEquiv (s := S1x8x128) (s' := S8x128) squeezes_S1x8x128_S8x128.numel_eq x) 1).val = (x 0).val
    rw [hoff]
    show 0 + 1 * ((Shape.reshapeEquiv (s := S1x8x128) (s' := S8x128) squeezes_S1x8x128_S8x128.numel_eq x) 1).val = (x 0).val
    omega
  | ⟨2, _⟩ =>
    show k0_off1 L 2 + 1 * ((Shape.reshapeEquiv (s := S1x8x128) (s' := S8x128) squeezes_S1x8x128_S8x128.numel_eq x) 2).val = (x 1).val
    rw [hoff]
    show 0 + 1 * ((Shape.reshapeEquiv (s := S1x8x128) (s' := S8x128) squeezes_S1x8x128_S8x128.numel_eq x) 2).val = (x 1).val
    omega

/-- Element `x` of the task's lists 8 … 49, as the index array holds them: word `(w, 8 + x 0, x 1)`. The squeeze
    puts the one task coordinate `0` in front of `x`; the slice moves it to task `w`, list 8. -/
theorem ids42_emb (x : S42x128.Idx) :
    (((idsM).slice (Rect.unit (s := S32x50x128) (k0_off2 L) S1x42x128.size (k0_off2_inb L)) (fun _ => rfl)).squeeze S42x128 squeezes_S1x42x128_S42x128).view.emb x
      = (ix3 (widL L) (⟨8 + (x 0).val, by have := (x 0).isLt; show 8 + (x 0).val < 50; have : (x 0).val < 42 := this; omega⟩ : Fin 50)
          (⟨(x 1).val, (x 1).isLt⟩ : Fin 128) : S32x50x128.Idx) := by
  have hz := Shape.rowMajor_reshapeEquiv (s := S1x42x128) (s' := S42x128) squeezes_S1x42x128_S42x128.numel_eq x
  rw [Shape.rowMajor_val_three, Shape.rowMajor_val_two] at hz
  change (((Shape.reshapeEquiv (s := S1x42x128) (s' := S42x128) squeezes_S1x42x128_S42x128.numel_eq x) 0).val * 42 + ((Shape.reshapeEquiv (s := S1x42x128) (s' := S42x128) squeezes_S1x42x128_S42x128.numel_eq x) 1).val) * 128 + ((Shape.reshapeEquiv (s := S1x42x128) (s' := S42x128) squeezes_S1x42x128_S42x128.numel_eq x) 2).val = (x 0).val * 128 + (x 1).val at hz
  have h0 : ((Shape.reshapeEquiv (s := S1x42x128) (s' := S42x128) squeezes_S1x42x128_S42x128.numel_eq x) 0).val < 1 := ((Shape.reshapeEquiv (s := S1x42x128) (s' := S42x128) squeezes_S1x42x128_S42x128.numel_eq x) 0).isLt
  have h1 : ((Shape.reshapeEquiv (s := S1x42x128) (s' := S42x128) squeezes_S1x42x128_S42x128.numel_eq x) 1).val < 42 := ((Shape.reshapeEquiv (s := S1x42x128) (s' := S42x128) squeezes_S1x42x128_S42x128.numel_eq x) 1).isLt
  have h2 : ((Shape.reshapeEquiv (s := S1x42x128) (s' := S42x128) squeezes_S1x42x128_S42x128.numel_eq x) 2).val < 128 := ((Shape.reshapeEquiv (s := S1x42x128) (s' := S42x128) squeezes_S1x42x128_S42x128.numel_eq x) 2).isLt
  have hx0 : (x 0).val < 42 := (x 0).isLt
  have hx1 : (x 1).val < 128 := (x 1).isLt
  have hoff := k0_off2_eq L
  funext a
  apply Fin.ext
  match a with
  | ⟨0, _⟩ =>
    show k0_off2 L 0 + 1 * ((Shape.reshapeEquiv (s := S1x42x128) (s' := S42x128) squeezes_S1x42x128_S42x128.numel_eq x) 0).val = 2 * (L 1).val + (L 0).val
    rw [hoff]
    show 2 * (L 1).val + (L 0).val + 1 * ((Shape.reshapeEquiv (s := S1x42x128) (s' := S42x128) squeezes_S1x42x128_S42x128.numel_eq x) 0).val = 2 * (L 1).val + (L 0).val
    omega
  | ⟨1, _⟩ =>
    show k0_off2 L 1 + 1 * ((Shape.reshapeEquiv (s := S1x42x128) (s' := S42x128) squeezes_S1x42x128_S42x128.numel_eq x) 1).val = 8 + (x 0).val
    rw [hoff]
    show 8 + 1 * ((Shape.reshapeEquiv (s := S1x42x128) (s' := S42x128) squeezes_S1x42x128_S42x128.numel_eq x) 1).val = 8 + (x 0).val
    omega
  | ⟨2, _⟩ =>
    show k0_off2 L 2 + 1 * ((Shape.reshapeEquiv (s := S1x42x128) (s' := S42x128) squeezes_S1x42x128_S42x128.numel_eq x) 2).val = (x 1).val
    rw [hoff]
    show 0 + 1 * ((Shape.reshapeEquiv (s := S1x42x128) (s' := S42x128) squeezes_S1x42x128_S42x128.numel_eq x) 2).val = (x 1).val
    omega

/-- The payload of the copy of lists 0 … 7, at element `x`, is the list buffer's closed form at the element's place. -/
theorem pay8_apply (x : S8x128.Idx) :
    (ReadAs.same.apply (View.read (Elt F) (((idsM).slice (Rect.unit (s := S32x50x128) (k0_off1 L) S1x8x128.size (k0_off1_inb L)) (fun _ => rfl)).squeeze S8x128 squeezes_S1x8x128_S8x128).view fi)) x = listC d L fi ((Rect.unit (s := S50x128) ![0, 0] S8x128.size inb_S50x128_S8x128_0_0).emb x) := by
  show View.read (Elt F) (((idsM).slice (Rect.unit (s := S32x50x128) (k0_off1 L) S1x8x128.size (k0_off1_inb L)) (fun _ => rfl)).squeeze S8x128 squeezes_S1x8x128_S8x128).view fi x = _
  rw [(View.read_apply _ _).trans (cast_eq _ _), ids8_emb]
  unfold listC
  refine congrArg fi ?_
  funext a
  match a with
  | ⟨0, _⟩ => rfl
  | ⟨1, _⟩ => apply Fin.ext; show (x 0).val = 0 + 1 * (x 0).val; omega
  | ⟨2, _⟩ => apply Fin.ext; show (x 1).val = 0 + 1 * (x 1).val; omega

/-- The payload of the copy of lists 8 … 49, at element `x`, is the list buffer's closed form at the element's place. -/
theorem pay42_apply (x : S42x128.Idx) :
    (ReadAs.same.apply (View.read (Elt F) (((idsM).slice (Rect.unit (s := S32x50x128) (k0_off2 L) S1x42x128.size (k0_off2_inb L)) (fun _ => rfl)).squeeze S42x128 squeezes_S1x42x128_S42x128).view fi)) x = listC d L fi ((Rect.unit (s := S50x128) ![8, 0] S42x128.size inb_S50x128_S42x128_8_0).emb x) := by
  show View.read (Elt F) (((idsM).slice (Rect.unit (s := S32x50x128) (k0_off2 L) S1x42x128.size (k0_off2_inb L)) (fun _ => rfl)).squeeze S42x128 squeezes_S1x42x128_S42x128).view fi x = _
  rw [(View.read_apply _ _).trans (cast_eq _ _), ids42_emb]
  unfold listC
  refine congrArg fi ?_
  funext a
  match a with
  | ⟨0, _⟩ => rfl
  | ⟨1, _⟩ => apply Fin.ext; show 8 + (x 0).val = 8 + 1 * (x 0).val; omega
  | ⟨2, _⟩ => apply Fin.ext; show (x 1).val = 0 + 1 * (x 1).val; omega

/-- After the copy of lists 0 … 7 lands, rows 0 … 7 of the list buffer hold the closed form, whatever the buffer held. -/
theorem lists_landed8 (fl : Buf (Elt F) ((thr d L).loc cc0_scratch0)) :
    ∀ i ∈ ((lstM).slice (Rect.unit (s := S50x128) ![0, 0] S8x128.size inb_S50x128_S8x128_0_0) (fun _ => rfl)).view.set,
      (lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  obtain ⟨x, -, rfl⟩ := Finset.mem_map.mp hi
  have h := View.read_writes_cons_emb (lstM).view fl (Rect.unit (s := S50x128) ![0, 0] S8x128.size inb_S50x128_S8x128_0_0)
    (ReadAs.same.apply (View.read (Elt F) (((idsM).slice (Rect.unit (s := S32x50x128) (k0_off1 L) S1x8x128.size (k0_off1_inb L)) (fun _ => rfl)).squeeze S8x128 squeezes_S1x8x128_S8x128).view fi)) [] x
  rw [(View.read_apply _ _).trans (cast_eq _ _)] at h
  exact h.trans (pay8_apply d L fi x)

/-- An element of rows 0 … 7 is not one of rows 8 … 49. -/
theorem row8_not_mem42 (x : S8x128.Idx) :
    ((lstM).view.slice (Rect.unit (s := S50x128) ![0, 0] S8x128.size inb_S50x128_S8x128_0_0)).emb x ∉ ((lstM).view.slice (Rect.unit (s := S50x128) ![8, 0] S42x128.size inb_S50x128_S42x128_8_0)).setOn Finset.univ := by
  intro hm
  obtain ⟨x', -, hx'⟩ := Finset.mem_map.mp hm
  have h0 := congrArg (fun j : S50x128.Idx => (j 0).val) hx'
  have hx0 : (x 0).val < 8 := (x 0).isLt
  change 8 + 1 * (x' 0).val = 0 + 1 * (x 0).val at h0
  omega

/-- After the copy of lists 8 … 49 lands over the first copy, rows 8 … 49 hold the closed form; -/
theorem lists_landed42 (fl : Buf (Elt F) ((thr d L).loc cc0_scratch0)) :
    ∀ i ∈ ((lstM).slice (Rect.unit (s := S50x128) ![8, 0] S42x128.size inb_S50x128_S42x128_8_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  obtain ⟨x, -, rfl⟩ := Finset.mem_map.mp hi
  have h := View.read_writes_cons_emb (lstM).view fl (Rect.unit (s := S50x128) ![8, 0] S42x128.size inb_S50x128_S42x128_8_0)
    (ReadAs.same.apply (View.read (Elt F) (((idsM).slice (Rect.unit (s := S32x50x128) (k0_off2 L) S1x42x128.size (k0_off2_inb L)) (fun _ => rfl)).squeeze S42x128 squeezes_S1x42x128_S42x128).view fi))
    [⟨Rect.unit (s := S50x128) ![0, 0] S8x128.size inb_S50x128_S8x128_0_0, ReadAs.same.apply (View.read (Elt F) (((idsM).slice (Rect.unit (s := S32x50x128) (k0_off1 L) S1x8x128.size (k0_off1_inb L)) (fun _ => rfl)).squeeze S8x128 squeezes_S1x8x128_S8x128).view fi)⟩] x
  rw [(View.read_apply _ _).trans (cast_eq _ _)] at h
  exact h.trans (pay42_apply d L fi x)

/-- and rows 0 … 7 still do: the second copy writes no element of them. -/
theorem lists_landed42_low (fl : Buf (Elt F) ((thr d L).loc cc0_scratch0)) :
    ∀ i ∈ ((lstM).slice (Rect.unit (s := S50x128) ![0, 0] S8x128.size inb_S50x128_S8x128_0_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  have hi' := hi
  obtain ⟨x, -, rfl⟩ := Finset.mem_map.mp hi
  rw [View.writes_cons]
  refine (View.write_of_not_mem _ _ _ (row8_not_mem42 x)).trans ?_
  exact lists_landed8 d L fi fl _ hi'

/-- Both together: after the two copies every row of the list buffer they wrote holds the closed form. -/
theorem lists_landed50 (fl : Buf (Elt F) ((thr d L).loc cc0_scratch0)) :
    ∀ i ∈ ((lstM).slice (Rect.unit (s := S50x128) ![0, 0] S8x128.size inb_S50x128_S8x128_0_0) (fun _ => rfl)).view.set ∪ ((lstM).slice (Rect.unit (s := S50x128) ![8, 0] S42x128.size inb_S50x128_S42x128_8_0) (fun _ => rfl)).view.set,
      (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] i = listC d L fi i := by
  intro i hi
  rcases Finset.mem_union.mp hi with h | h
  · exact lists_landed42_low d L fi fl i h
  · exact lists_landed42 d L fi fl i h

end Cert.Proof.KW

end
-- ==== Proof.Word.Canon.lean ====
import proofs.«208012_g154618823073_cont_week2b_1161_14_alg».proof.Proof.Word.Common
import proofs.«208012_g154618823073_cont_week2b_1161_14_alg».proof.Proof.Word.Runs
import proofs.«208012_g154618823073_cont_week2b_1161_14_alg».proof.Proof.Word.ScaleTrip
import proofs.«208012_g154618823073_cont_week2b_1161_14_alg».proof.Proof.Word.Values

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

variable (d : Dev nD) (L : grid0.Coords) (fi : Buf (Elt F) (idsLoc d)) (fw : Buf (Elt F) (tabLoc d)) (qT : PosShare TreeShare)

/-! ## From the program's spellings to the numbered pieces -/

/-- A list sliced at its offsets, at the list buffer's closed form, is the numbered list's assertion. -/
theorem rowAt_congr {o o' : Fin 2 → ℕ} (e : o = o') (h : ∀ a, o a + S1x128.size a ≤ S50x128.size a) (h' : ∀ a, o' a + S1x128.size a ≤ S50x128.size a) :
    (((((lstM).slice (Rect.unit (s := S50x128) o S1x128.size h) (fun _ => rfl)).squeeze S128 squeezes_S1x128_S128).view.loc (thr d L)
        ↦[(((lstM).slice (Rect.unit (s := S50x128) o S1x128.size h) (fun _ => rfl)).squeeze S128 squeezes_S1x128_S128).view.set]{fullShare} listC d L fi) : sProp 𝕄)
      = ((((lstM).slice (Rect.unit (s := S50x128) o' S1x128.size h') (fun _ => rfl)).squeeze S128 squeezes_S1x128_S128).view.loc (thr d L)
        ↦[(((lstM).slice (Rect.unit (s := S50x128) o' S1x128.size h') (fun _ => rfl)).squeeze S128 squeezes_S1x128_S128).view.set]{fullShare} listC d L fi) := by
  subst e; rfl

theorem rowAt_of (o : Fin 2 → ℕ) (h : ∀ a, o a + S1x128.size a ≤ S50x128.size a) (n : ℕ) (hn : n < 50) (e : o = ![n, 0]) :
    (((((lstM).slice (Rect.unit (s := S50x128) o S1x128.size h) (fun _ => rfl)).squeeze S128 squeezes_S1x128_S128).view.loc (thr d L)
        ↦[(((lstM).slice (Rect.unit (s := S50x128) o S1x128.size h) (fun _ => rfl)).squeeze S128 squeezes_S1x128_S128).view.set]{fullShare} listC d L fi) : sProp 𝕄)
      = rowAt d L fi n :=
  rowAt_congr d L fi (e.trans (by show (![n, 0] : Fin 2 → ℕ) = ![n % 50, 0]; rw [Nat.mod_eq_of_lt hn])) h _

theorem blk_congr {o o' : Fin 2 → ℕ} (e : o = o') (h : ∀ a, o a + S128x128.size a ≤ S204800x128.size a) (h' : ∀ a, o' a + S128x128.size a ≤ S204800x128.size a)
    (f : Buf (Elt F) (outLoc d)) :
    ((((outM).slice (Rect.unit (s := S204800x128) o S128x128.size h) (fun _ => rfl)).view.loc (thr d L)
        ↦[((outM).slice (Rect.unit (s := S204800x128) o S128x128.size h) (fun _ => rfl)).view.set]{fullShare} f) : sProp 𝕄)
      = (((outM).slice (Rect.unit (s := S204800x128) o' S128x128.size h') (fun _ => rfl)).view.loc (thr d L)
        ↦[((outM).slice (Rect.unit (s := S204800x128) o' S128x128.size h') (fun _ => rfl)).view.set]{fullShare} f) := by
  subst e; rfl

/-- The block written at sub-step `r` of trip `k` is block `5 k + r`. -/
theorem blk_of (k : Fin k0_t1_loop.trips) (r : Fin 5) (f : Buf (Elt F) (outLoc d)) :
    ((((outM).slice (Rect.unit (s := S204800x128) (k0_off12 L k (BitVec.ofNat 32 r.val)) S128x128.size (k0_off12_inb L k r)) (fun _ => rfl)).view.loc (thr d L)
        ↦[((outM).slice (Rect.unit (s := S204800x128) (k0_off12 L k (BitVec.ofNat 32 r.val)) S128x128.size (k0_off12_inb L k r)) (fun _ => rfl)).view.set]{fullShare} f) : sProp 𝕄)
      = ((oblkN L (5 * k.val + r.val)).view.loc (thr d L) ↦[(oblkN L (5 * k.val + r.val)).view.set]{fullShare} f) := by
  have hk := trips_lt k
  refine blk_congr d L ?_ _ _ f
  rw [k0_off12_eq, oOff, Nat.mod_eq_of_lt (by omega)]
  congr 1; omega

theorem off12_eq (k : Fin k0_t1_loop.trips) (r : Fin 5) : k0_off12 L k (BitVec.ofNat 32 r.val) = oOff L (5 * k.val + r.val) := by
  have hk := trips_lt k
  rw [k0_off12_eq, oOff, Nat.mod_eq_of_lt (by omega)]
  congr 1; omega

/-- The scaling loops run 128 trips. -/
theorem trips_t2 : Scf.trips k0_t2_loop.lb k0_t2_loop.ub k0_t2_loop.st = 128 := rfl
theorem trips_t3 : Scf.trips k0_t3_loop.lb k0_t3_loop.ub k0_t3_loop.st = 128 := rfl
theorem trips_t4 : Scf.trips k0_t4_loop.lb k0_t4_loop.ub k0_t4_loop.st = 128 := rfl
theorem trips_t5 : Scf.trips k0_t5_loop.lb k0_t5_loop.ub k0_t5_loop.st = 128 := rfl
theorem trips_t6 : Scf.trips k0_t6_loop.lb k0_t6_loop.ub k0_t6_loop.st = 128 := rfl

/-- After the last trip the block is the scaled block. -/
theorem scaled_done (n T : ℕ) (hT : T = 128) : scaledTo T (gathC d L fi fw n) = scalC d L fi fw n := by
  subst hT; rw [scaledTo_all]; rfl

/-- What a copy reads off a whole buffer is the buffer's contents. -/
theorem read_same_whole (b : Ref sig .scVector) (X : b.ty.Contents (Elt F)) :
    ReadAs.same.apply (View.read (Elt F) (Memref.whole b).view X) = X := by
  show View.read (Elt F) (View.whole b) X = X
  exact View.read_whole b X

/-- The copy-out's payload: the buffer after its 128 scaling trips. -/
theorem pay_scaled (b : Ref sig .scVector) (hb : b.ty = ⟨S128x128, .f32⟩) (n T : ℕ) (hT : T = 128)
    (P : S128x128.Idx → Elt F .f32) (X : S128x128.Idx → Elt F .f32) (hX : X = scaledTo T (gathC d L fi fw n)) (hP : P = X) :
    P = scalC d L fi fw n := by
  rw [hP, hX]; exact scaled_done d L fi fw n T hT

/-- A block the copy-out landed in, spelt by its offsets, is the numbered block at the lookup. -/
theorem blk_canon (o : Fin 2 → ℕ) (h : ∀ a, o a + S128x128.size a ≤ S204800x128.size a) (n : ℕ) (hn : n < 50) (e : o = oOff L n)
    (g : Buf (Elt F) (outLoc d)) (P : S128x128.Idx → Elt F .f32) (hP : P = scalC d L fi fw n) :
    ((((outM).slice (Rect.unit (s := S204800x128) o S128x128.size h) (fun _ => rfl)).view.loc (thr d L)
        ↦[((outM).slice (Rect.unit (s := S204800x128) o S128x128.size h) (fun _ => rfl)).view.set]{fullShare}
          ((outM).slice (Rect.unit (s := S204800x128) o S128x128.size h) (fun _ => rfl)).view.writes (Elt F) g [⟨Rect.whole _, P⟩]) : sProp 𝕄)
      ⊢ blkDone d L fi fw n := by
  subst e; subst hP
  exact Entails.of_eq (pointsTo_congr (block_landed d L fi fw n hn g))

theorem gath_canon0 (o : Fin 2 → ℕ) (h : ∀ a, o a + S1x128.size a ≤ S50x128.size a) (n : ℕ) (hn : n < 50) (e : o = ![n, 0])
    (X : Buf (Elt F) ((bufM0).view.loc (thr d L))) (P : S128x128.Idx → Elt F .f32) (hP : P = gathC d L fi fw n) :
    iprop(Transfers.Flight (countersEmb (U := UU)) (thr d L) (gcell 0) (default : HIx 1) 524288
        iprop((((bufM0).view.loc (thr d L) ↦{fullShare} (bufM0).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 0)
      ∗ tokRest d L fw qT 0)
      ⊢ gath0 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM0).view.loc (thr d L) ↦{fullShare} f : sProp 𝕄))
          (show (bufM0).view.writes (Elt F) X [⟨Rect.whole _, gathC d L fi fw n⟩] = gathC d L fi fw n from writes_whole (F := F) cc0_scratch1 X (gathC d L fi fw n))))
        (Entails.of_eq (rowAt_of d L fi o h n hn e))) (BI.Entails.refl _)))
    iexact Hf
  · iexact Ht

theorem gath_canon1 (o : Fin 2 → ℕ) (h : ∀ a, o a + S1x128.size a ≤ S50x128.size a) (n : ℕ) (hn : n < 50) (e : o = ![n, 0])
    (X : Buf (Elt F) ((bufM1).view.loc (thr d L))) (P : S128x128.Idx → Elt F .f32) (hP : P = gathC d L fi fw n) :
    iprop(Transfers.Flight (countersEmb (U := UU)) (thr d L) (gcell 1) (default : HIx 1) 524288
        iprop((((bufM1).view.loc (thr d L) ↦{fullShare} (bufM1).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 1)
      ∗ tokRest d L fw qT 1)
      ⊢ gath1 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM1).view.loc (thr d L) ↦{fullShare} f : sProp 𝕄))
          (show (bufM1).view.writes (Elt F) X [⟨Rect.whole _, gathC d L fi fw n⟩] = gathC d L fi fw n from writes_whole (F := F) cc0_scratch2 X (gathC d L fi fw n))))
        (Entails.of_eq (rowAt_of d L fi o h n hn e))) (BI.Entails.refl _)))
    iexact Hf
  · iexact Ht

theorem gath_canon2 (o : Fin 2 → ℕ) (h : ∀ a, o a + S1x128.size a ≤ S50x128.size a) (n : ℕ) (hn : n < 50) (e : o = ![n, 0])
    (X : Buf (Elt F) ((bufM2).view.loc (thr d L))) (P : S128x128.Idx → Elt F .f32) (hP : P = gathC d L fi fw n) :
    iprop(Transfers.Flight (countersEmb (U := UU)) (thr d L) (gcell 2) (default : HIx 1) 524288
        iprop((((bufM2).view.loc (thr d L) ↦{fullShare} (bufM2).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 2)
      ∗ tokRest d L fw qT 2)
      ⊢ gath2 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM2).view.loc (thr d L) ↦{fullShare} f : sProp 𝕄))
          (show (bufM2).view.writes (Elt F) X [⟨Rect.whole _, gathC d L fi fw n⟩] = gathC d L fi fw n from writes_whole (F := F) cc0_scratch3 X (gathC d L fi fw n))))
        (Entails.of_eq (rowAt_of d L fi o h n hn e))) (BI.Entails.refl _)))
    iexact Hf
  · iexact Ht

theorem gath_canon3 (o : Fin 2 → ℕ) (h : ∀ a, o a + S1x128.size a ≤ S50x128.size a) (n : ℕ) (hn : n < 50) (e : o = ![n, 0])
    (X : Buf (Elt F) ((bufM3).view.loc (thr d L))) (P : S128x128.Idx → Elt F .f32) (hP : P = gathC d L fi fw n) :
    iprop(Transfers.Flight (countersEmb (U := UU)) (thr d L) (gcell 3) (default : HIx 1) 524288
        iprop((((bufM3).view.loc (thr d L) ↦{fullShare} (bufM3).view.writes (Elt F) X [⟨Rect.whole _, P⟩])
          ∗ ((((lstM).slice (Rect.unit (s := S50x128) o S1x128.size h) (fun _ => rfl)).squeeze S128 squeezes_S1x128_S128).view.loc (thr d L)
              ↦[(((lstM).slice (Rect.unit (s := S50x128) o S1x128.size h) (fun _ => rfl)).squeeze S128 squeezes_S1x128_S128).view.set]{fullShare} listC d L fi))
          ∗ tokLent d L fw qT 3)
      ∗ tokRest d L fw qT 3)
      ⊢ gath3 d L fi fw qT n := by
  subst hP
  iintro ⟨Hf, Ht⟩
  isplitl [Hf]
  · iapply (Transfers.Flight_mono (countersEmb (U := UU)) (thr d L)
      (BI.sep_mono (BI.sep_mono (Entails.of_eq (congrArg (fun f => ((bufM3).view.loc (thr d L) ↦{fullShare} f : sProp 𝕄))
          (show (bufM3).view.writes (Elt F) X [⟨Rect.whole _, gathC d L fi fw n⟩] = gathC d L fi fw n from writes_whole (F := F) cc0_scratch4 X (gathC d L fi fw n))))
        (Entails.of_eq (rowAt_of d L fi o h n hn e))) (BI.Entails.refl _)))
    iexact Hf
  · iexact Ht

/-- The copy-out of block `n` from row buffer 4, in flight, in the invariant's spelling. -/
theorem out4_canon (o : Fin 2 → ℕ) (h : ∀ a, o a + S128x128.size a ≤ S204800x128.size a) (n : ℕ) (hn : n < 50) (e : o = oOff L n)
    (g : Buf (Elt F) (outLoc d)) (P : S128x128.Idx → Elt F .f32) (hP : P = scalC d L fi fw n) (T : ℕ) (hT : T = 128) :
    iprop(Transfers.Flight (countersEmb (U := UU)) (thr d L) (scell 4) (default : HIx 1) 524288
        iprop((((outM).slice (Rect.unit (s := S204800x128) o S128x128.size h) (fun _ => rfl)).view.loc (thr d L)
            ↦[((outM).slice (Rect.unit (s := S204800x128) o S128x128.size h) (fun _ => rfl)).view.set]{fullShare}
              ((outM).slice (Rect.unit (s := S204800x128) o S128x128.size h) (fun _ => rfl)).view.writes (Elt F) g [⟨Rect.whole _, P⟩])
          ∗ ((bufM4).view.loc (thr d L) ↦[(bufM4).view.set]{fullShare} scaledTo T (gathC d L fi fw n)))
      ∗ ((bufM4).view.loc (thr d L) ↦[Finset.univ \ (bufM4).view.set]{fullShare} scaledTo T (gathC d L fi fw n)))
      ⊢ out4 d L fi fw n := by
  rw [scaled_done d L fi fw n T hT]
  iintro ⟨Hf, Hr⟩
  isplitl [Hf]
  · iapply (Transfers.Flight_mono (countersEmb (U := UU)) (thr d L)
      (BI.sep_mono (blk_canon d L fi fw o h n hn e g P hP) (BI.Entails.refl _)))
    iexact Hf
  · iexact Hr

end Cert.Proof.KW

end
-- ==== Proof.Word.Rows.lean ====
import proofs.«208012_g154618823073_cont_week2b_1161_14_alg».proof.Proof.Word.Values

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## The list buffer as its fifty lists

List `g` is row `g` of the `[50, 128]` buffer: its elements are those whose row coordinate is `g`. So the fifty lists are
pairwise disjoint and together are the whole buffer, and the buffer held whole is the fifty lists held each by its own
elements. -/

variable (d : Dev nD) (L : grid0.Coords) (fi : Buf (Elt F) (idsLoc d))

/-- An element of the buffer is in list `g` exactly when its row is `g`. -/
theorem mem_lrow (g : Fin 50) (i : S50x128.Idx) : i ∈ (lrowM g).view.set ↔ (i 0).val = g.val := by
  have hs : (lrowM g).view.set = (Rect.unit (s := S50x128) ![g.val, 0] S1x128.size (lrow_inb g)).set :=
    (View.set_reshape _ _).trans (View.set_slice_whole _ _)
  rw [hs, Rect.mem_set_unit]
  constructor
  · intro h
    have h0 := h 0
    change g.val ≤ (i 0).val ∧ (i 0).val < g.val + 1 at h0
    omega
  · intro h a
    match a with
    | ⟨0, _⟩ => show g.val ≤ (i 0).val ∧ (i 0).val < g.val + 1; omega
    | ⟨1, _⟩ => show 0 ≤ (i 1).val ∧ (i 1).val < 0 + 128; have := (i 1).isLt; change (i 1).val < 128 at this; omega

/-- An element is among lists 0 … 7 exactly when its row is below 8, -/
theorem mem_rows8 (i : S50x128.Idx) : i ∈ ((lstM).slice (Rect.unit (s := S50x128) ![0, 0] S8x128.size inb_S50x128_S8x128_0_0) (fun _ => rfl)).view.set ↔ (i 0).val < 8 := by
  have hs : ((lstM).slice (Rect.unit (s := S50x128) ![0, 0] S8x128.size inb_S50x128_S8x128_0_0) (fun _ => rfl)).view.set = (Rect.unit (s := S50x128) ![0, 0] S8x128.size inb_S50x128_S8x128_0_0).set := View.set_slice_whole _ _
  rw [hs, Rect.mem_set_unit]
  constructor
  · intro h
    have h0 := h 0
    change 0 ≤ (i 0).val ∧ (i 0).val < 0 + 8 at h0
    omega
  · intro h a
    match a with
    | ⟨0, _⟩ => show 0 ≤ (i 0).val ∧ (i 0).val < 0 + 8; omega
    | ⟨1, _⟩ => show 0 ≤ (i 1).val ∧ (i 1).val < 0 + 128; have := (i 1).isLt; change (i 1).val < 128 at this; omega

/-- and among lists 8 … 49 exactly when it is 8 or more. -/
theorem mem_rows42 (i : S50x128.Idx) : i ∈ ((lstM).slice (Rect.unit (s := S50x128) ![8, 0] S42x128.size inb_S50x128_S42x128_8_0) (fun _ => rfl)).view.set ↔ 8 ≤ (i 0).val := by
  have hs : ((lstM).slice (Rect.unit (s := S50x128) ![8, 0] S42x128.size inb_S50x128_S42x128_8_0) (fun _ => rfl)).view.set = (Rect.unit (s := S50x128) ![8, 0] S42x128.size inb_S50x128_S42x128_8_0).set := View.set_slice_whole _ _
  rw [hs, Rect.mem_set_unit]
  constructor
  · intro h
    have h0 := h 0
    change 8 ≤ (i 0).val ∧ (i 0).val < 8 + 42 at h0
    omega
  · intro h a
    match a with
    | ⟨0, _⟩ => show 8 ≤ (i 0).val ∧ (i 0).val < 8 + 42; have := (i 0).isLt; change (i 0).val < 50 at this; omega
    | ⟨1, _⟩ => show 0 ≤ (i 1).val ∧ (i 1).val < 0 + 128; have := (i 1).isLt; change (i 1).val < 128 at this; omega

/-- The elements of list `g`, as a set of the buffer's indices. -/
abbrev lrowS (g : Fin 50) : Finset S50x128.Idx := (lrowM g).view.set

/-- Different lists share no element. -/
theorem lrows_disjoint : ∀ g ∈ (Finset.univ : Finset (Fin 50)), ∀ g' ∈ (Finset.univ : Finset (Fin 50)), g ≠ g' →
    Disjoint (lrowS g) (lrowS g') := by
  intro g _ g' _ hne
  rw [Finset.disjoint_left]
  intro i hi hi'
  rw [mem_lrow] at hi hi'
  exact hne (Fin.ext (hi.symm.trans hi'))

/-- Every element is in some list. -/
theorem lrows_cover : (Finset.univ : Finset (Fin 50)).biUnion lrowS = Finset.univ := by
  ext i
  simp only [Finset.mem_biUnion, Finset.mem_univ, true_and, iff_true]
  exact ⟨⟨(i 0).val, (i 0).isLt⟩, (mem_lrow _ i).mpr rfl⟩

/-- List `n` by number is list `g` when `n mod 50 = g`: the same elements. -/
theorem lrowN_set (n : ℕ) (g : Fin 50) (h : n % 50 = g.val) : ((lrowN n).view.set : Finset S50x128.Idx) = lrowS g := by
  obtain ⟨gv, hgv⟩ := g
  dsimp only at h
  subst h
  rfl

/-- List `n` held by its own elements is the buffer held on list `g`'s elements, when `n mod 50 = g`. -/
theorem lrowN_pts (n : ℕ) (g : Fin 50) (h : n % 50 = g.val) (f : Buf (Elt F) ((thr d L).loc cc0_scratch0)) :
    ((lrowN n).view.loc (thr d L) ↦[(lrowN n).view.set]{fullShare} f : sProp 𝕄)
      = ((lstM).view.loc (thr d L) ↦[lrowS g]{fullShare} f) := by
  obtain ⟨gv, hgv⟩ := g
  dsimp only at h
  subst h
  rfl

/-- The buffer held whole is its fifty lists, each held by its own elements. -/
theorem rows_split (f : Buf (Elt F) ((thr d L).loc cc0_scratch0)) :
    ((lstM).view.loc (thr d L) ↦{fullShare} f : sProp 𝕄)
      = bigSep (Ring.rangeSet 50 0 50) (fun g => (lrowN g.val).view.loc (thr d L) ↦[(lrowN g.val).view.set]{fullShare} f) := by
  rw [Ring.rangeSet_univ,
    bigSep_congr (Ψ := fun g : Fin 50 => ((lstM).view.loc (thr d L) ↦[lrowS g]{fullShare} f : sProp 𝕄))
      fun g _ => lrowN_pts d L g.val g (Nat.mod_eq_of_lt g.isLt) f,
    ← pointsTo_biUnion Finset.univ (ℓ := (lstM).view.loc (thr d L)) lrowS lrows_disjoint,
    lrows_cover]

/-- The elements outside lists 0 … 3 are those of lists 4 … 49. -/
theorem rest_set : ((((Finset.univ : Finset S50x128.Idx) \ lrowS 0) \ lrowS 1) \ lrowS 2) \ lrowS 3 = (Ring.rangeSet 50 4 50).biUnion lrowS := by
  ext i
  simp only [Finset.mem_sdiff, Finset.mem_univ, true_and, Finset.mem_biUnion, Ring.mem_rangeSet]
  rw [mem_lrow, mem_lrow, mem_lrow, mem_lrow]
  have e0 : ((0 : Fin 50)).val = 0 := rfl
  have e1 : ((1 : Fin 50)).val = 1 := rfl
  have e2 : ((2 : Fin 50)).val = 2 := rfl
  have e3 : ((3 : Fin 50)).val = 3 := rfl
  rw [e0, e1, e2, e3]
  constructor
  · intro h
    have hi := (i 0).isLt
    change (i 0).val < 50 at hi
    exact ⟨⟨(i 0).val, hi⟩, ⟨by show 4 ≤ (i 0).val; omega, hi⟩, (mem_lrow _ i).mpr rfl⟩
  · rintro ⟨g, ⟨h4, _⟩, hg⟩
    rw [mem_lrow] at hg
    omega

/-- The buffer less lists 0 … 3 is lists 4 … 49. -/
theorem rest_rows (f : Buf (Elt F) ((thr d L).loc cc0_scratch0)) :
    ((lstM).view.loc (thr d L) ↦[(((Finset.univ \ (lrowM (0 : Fin 50)).view.set) \ (lrowM (1 : Fin 50)).view.set)
        \ (lrowM (2 : Fin 50)).view.set) \ (lrowM (3 : Fin 50)).view.set]{fullShare} f : sProp 𝕄)
      = bigSep (Ring.rangeSet 50 4 50) (fun g => (lrowN g.val).view.loc (thr d L) ↦[(lrowN g.val).view.set]{fullShare} f) := by
  have h1 : (bigSep (Ring.rangeSet 50 4 50) (fun g => (lrowN g.val).view.loc (thr d L) ↦[(lrowN g.val).view.set]{fullShare} f) : sProp 𝕄)
      = bigSep (Ring.rangeSet 50 4 50) (fun g : Fin 50 => ((lstM).view.loc (thr d L) ↦[lrowS g]{fullShare} f : sProp 𝕄)) :=
    bigSep_congr fun g _ => lrowN_pts d L g.val g (Nat.mod_eq_of_lt g.isLt) f
  have h2 : ((lstM).view.loc (thr d L) ↦[(Ring.rangeSet 50 4 50).biUnion lrowS]{fullShare} f : sProp 𝕄)
      = bigSep (Ring.rangeSet 50 4 50) (fun g : Fin 50 => ((lstM).view.loc (thr d L) ↦[lrowS g]{fullShare} f : sProp 𝕄)) :=
    pointsTo_biUnion (Ring.rangeSet 50 4 50) (ℓ := (lstM).view.loc (thr d L)) lrowS
      (fun g _ g' _ hne => lrows_disjoint g (Finset.mem_univ _) g' (Finset.mem_univ _) hne)
  rw [h1, ← h2, ← rest_set]

/-- After the two copies land, list `g` holds the closed form: its row is among rows 0 … 7 or among rows 8 … 49. -/
theorem row_landed (g : Fin 50) (fl : Buf (Elt F) ((thr d L).loc cc0_scratch0)) :
    ((lrowN g.val).view.loc (thr d L) ↦[(lrowN g.val).view.set]{fullShare}
        (lstM).view.writes (Elt F) fl [⟨Rect.unit (s := S50x128) ![8, 0] S42x128.size inb_S50x128_S42x128_8_0,
        ReadAs.same.apply (View.read (Elt F) (((idsM).slice (Rect.unit (s := S32x50x128) (k0_off2 L) S1x42x128.size (k0_off2_inb L)) (fun _ => rfl)).squeeze S42x128 squeezes_S1x42x128_S42x128).view fi)⟩,
        ⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] : sProp 𝕄)
      = rowAt d L fi g.val := by
  refine pointsTo_congr fun i hi => ?_
  have hi' : i ∈ lrowS g := (lrowN_set g.val g (Nat.mod_eq_of_lt g.isLt)) ▸ hi
  rw [mem_lrow] at hi'
  refine lists_landed50 d L fi fl i (Finset.mem_union.mpr ?_)
  by_cases h8 : (i 0).val < 8
  · exact .inl ((mem_rows8 i).mpr h8)
  · exact .inr ((mem_rows42 i).mpr (by omega))

/-- After the first copy lands, a list among the first eight holds the closed form. -/
theorem row_landed8 (g : Fin 50) (hg : g.val < 8) (fl : Buf (Elt F) ((thr d L).loc cc0_scratch0)) :
    ((lrowM g).view.loc (thr d L) ↦[(lrowM g).view.set]{fullShare}
        (lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩] : sProp 𝕄)
      = ((lrowM g).view.loc (thr d L) ↦[(lrowM g).view.set]{fullShare} listC d L fi) := by
  refine pointsTo_congr fun i hi => ?_
  have hi' := (mem_lrow g i).mp hi
  exact lists_landed8 d L fi fl i ((mem_rows8 i).mpr (by omega))

/-- The fifty lists, each held by its own elements at some contents, are the buffer held whole at some contents. -/
theorem rows_join :
    (bigSep (Ring.rangeSet 50 0 50) (fun g => iprop(∃ f, (lstM).view.loc (thr d L) ↦[(lrowN g.val).view.set]{fullShare} f)) : sProp 𝕄)
      ⊢ iprop(∃ f, (lstM).view.loc (thr d L) ↦{fullShare} f) := by
  rw [Ring.rangeSet_univ,
    bigSep_congr (Ψ := fun g : Fin 50 => (iprop(∃ f, (lstM).view.loc (thr d L) ↦[lrowS g]{fullShare} f) : sProp 𝕄))
      fun g _ => by rw [lrowN_set g.val g (Nat.mod_eq_of_lt g.isLt)]]
  refine (bigSep_exists_pi Finset.univ (fun (g : Fin 50) (f : Buf (Elt F) ((lstM).view.loc (thr d L))) =>
    ((lstM).view.loc (thr d L) ↦[lrowS g]{fullShare} f : sProp 𝕄))).trans ?_
  iintro ⟨%fs, H⟩
  ihave H' := (pointsTo_biUnion_join Finset.univ lrowS fs (fs 0) lrows_disjoint) $$ H
  icases H' with ⟨%g, -, Hg⟩
  rw [lrows_cover]
  iexists g; iexact Hg

end Cert.Proof.KW

end
-- ==== Proof.Word.Entry.lean ====
import proofs.«208012_g154618823073_cont_week2b_1161_14_alg».proof.Proof.Word.Rows

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## The first four gathers

They are issued when only the copy of lists 0 … 7 has landed: the list buffer then holds that copy's payload over
whatever it held before. A list among the first eight reads the closed form through it, so its gather delivers the
same block. -/

variable (d : Dev nD) (L : grid0.Coords) (fi : Buf (Elt F) (idsLoc d)) (fw : Buf (Elt F) (tabLoc d))

/-- A list among the first eight, read after the first copy, reads the closed form: its elements are among rows 0 … 7. -/
theorem read_lrow_first (g : Fin 50) (hg : g.val < 8) (fl : Buf (Elt F) ((thr d L).loc cc0_scratch0)) :
    View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩])
      = View.read (Elt F) (lrowM g).view (listC d L fi) := by
  refine View.read_congr fun i hi => ?_
  have hi' := (mem_lrow g i).mp hi
  exact lists_landed8 d L fi fl i ((mem_rows8 i).mpr (by omega))

/-- Its words are words of the index array, below the table's height when those are. -/
theorem hin_pro (hfi : ∀ j, (fi j).toNat < 1000000) (g : Fin 50) (hg : g.val < 8) (fl : Buf (Elt F) ((thr d L).loc cc0_scratch0)) :
    ∀ x : S128.Idx, (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩]) x).toNat < 1000000 := by
  intro x
  rw [read_lrow_first d L fi g hg fl]
  exact hin_all d L fi hfi ![g.val, 0] (lrow_inb g) x

/-- The rows an offset list names depend on the list's words only. -/
theorem rows_congr {si : Shape} {o z : ℕ} {idx idx' : si.Idx → Elt F .i32} (e : idx = idx') (hn : si.numel = o)
    (h : ∀ x, (idx x).toNat < z) (h' : ∀ x, (idx' x).toNat < z) : SparseCore.rows idx hn h = SparseCore.rows idx' hn h' := by
  subst e; rfl

/-- The gather of a list among the first eight, issued after the first copy, delivers the block of the closed form. -/
theorem gather_closed_pro (g : Fin 50) (hg : g.val < 8) (fl : Buf (Elt F) ((thr d L).loc cc0_scratch0))
    (hnum : S128.numel = S128x128.size (gathers_S1000000x128_S128x128).axis')
    (hin : ∀ x : S128.Idx, (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩]) x).toNat
      < S1000000x128.size (gathers_S1000000x128_S128x128).axis) :
    SparseCore.gatherPayload gathers_S1000000x128_S128x128 (View.read (Elt F) (tabSl).view fw)
      (SparseCore.rows (View.read (Elt F) (lrowM g).view ((lstM).view.writes (Elt F) fl [⟨Rect.unit (s := S50x128) ![0, 0] S8x128.size inb_S50x128_S8x128_0_0,
        ReadAs.same.apply (View.read (Elt F) (((idsM).slice (Rect.unit (s := S32x50x128) (k0_off1 L) S1x8x128.size (k0_off1_inb L)) (fun _ => rfl)).squeeze S8x128 squeezes_S1x8x128_S8x128).view fi)⟩])) hnum hin) = gathC d L fi fw g.val := by
  have e := read_lrow_first d L fi g hg fl
  have hin' : ∀ x : S128.Idx, (View.read (Elt F) (lrowM g).view (listC d L fi) x).toNat
      < S1000000x128.size (gathers_S1000000x128_S128x128).axis := by
    intro x; rw [← e]; exact hin x
  rw [rows_congr e hnum hin hin']
  exact gather_closed_row d L fi fw g.val g.val g.isLt (Nat.mod_eq_of_lt g.isLt).symm (lrow_inb g) hnum hin'

end Cert.Proof.KW

end
-- ==== Proof.Word.LoopEntry.lean ====
import proofs.«208012_g154618823073_cont_week2b_1161_14_alg».proof.Proof.Word.Common
import proofs.«208012_g154618823073_cont_week2b_1161_14_alg».proof.Proof.Word.Canon
import proofs.«208012_g154618823073_cont_week2b_1161_14_alg».proof.Proof.Word.Entry

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

variable (d : Dev nD) (L : grid0.Coords) (fi : Buf (Elt F) (idsLoc d)) (fw : Buf (Elt F) (tabLoc d)) (qT : PosShare TreeShare)

/-! ## From the prologue to the state before the first trip

The task copies lists 0–7 into the list buffer, starts the gathers of lists 0–3, then copies lists 8–49. What the two
copies land and what the first four gathers will deliver are the closed forms; the list buffer less the four lists
in flight is lists 4–49. -/

/-- The two copies' rectangles and payloads: rows 0–7 and rows 8–49 of the task's row of the index lists. -/
abbrev r8 : Rect S50x128 := Rect.unit (s := S50x128) ![0, 0] S8x128.size inb_S50x128_S8x128_0_0
abbrev r42 : Rect S50x128 := Rect.unit (s := S50x128) ![8, 0] S42x128.size inb_S50x128_S42x128_8_0
abbrev p8 : S8x128.Idx → Elt F .i32 :=
  ReadAs.same.apply (View.read (Elt F) (((idsM).slice (Rect.unit (s := S32x50x128) (k0_off1 L) S1x8x128.size (k0_off1_inb L)) (fun _ => rfl)).squeeze S8x128 squeezes_S1x8x128_S8x128).view fi)
abbrev p42 : S42x128.Idx → Elt F .i32 :=
  ReadAs.same.apply (View.read (Elt F) (((idsM).slice (Rect.unit (s := S32x50x128) (k0_off2 L) S1x42x128.size (k0_off2_inb L)) (fun _ => rfl)).squeeze S42x128 squeezes_S1x42x128_S42x128).view fi)

/-- Lists 0–3 as the prologue slices them. -/
abbrev rowLit0 : Memref sig .scVector .vmem S128 .i32 := ((lstM).slice (Rect.unit (s := S50x128) ![0, 0] S1x128.size inb_S50x128_S1x128_0_0) (fun _ => rfl)).squeeze S128 squeezes_S1x128_S128
abbrev rowLit1 : Memref sig .scVector .vmem S128 .i32 := ((lstM).slice (Rect.unit (s := S50x128) ![1, 0] S1x128.size inb_S50x128_S1x128_1_0) (fun _ => rfl)).squeeze S128 squeezes_S1x128_S128
abbrev rowLit2 : Memref sig .scVector .vmem S128 .i32 := ((lstM).slice (Rect.unit (s := S50x128) ![2, 0] S1x128.size inb_S50x128_S1x128_2_0) (fun _ => rfl)).squeeze S128 squeezes_S1x128_S128
abbrev rowLit3 : Memref sig .scVector .vmem S128 .i32 := ((lstM).slice (Rect.unit (s := S50x128) ![3, 0] S1x128.size inb_S50x128_S1x128_3_0) (fun _ => rfl)).squeeze S128 squeezes_S1x128_S128

theorem entry_gath0 (fl : Buf (Elt F) ((thr d L).loc cc0_scratch0)) (f : (bufM0).view.ty.Contents (Elt F)) (P : S128x128.Idx → Elt F .f32)
    (hP : P = gathC d L fi fw 0) :
    iprop(Transfers.Flight (countersEmb (U := UU)) (thr d L) (gcell 0) (default : HIx 1) 524288
        iprop((((bufM0).view.loc (thr d L) ↦[(bufM0).view.set]{fullShare} (bufM0).view.writes (Elt F) f [⟨Rect.whole _, P⟩])
          ∗ ((lstM).view.loc (thr d L) ↦[(rowLit0).view.set]{fullShare} (lstM).view.writes (Elt F) fl [⟨r8, p8 d L fi⟩]))
          ∗ tokLent d L fw qT 0)
      ∗ tokRest d L fw qT 0)
      ⊢ gath0 d L fi fw qT 0 := by
  subst hP
  iintro ⟨Hf, Ht⟩
  isplitl [Hf]
  · iapply (Transfers.Flight_mono (countersEmb (U := UU)) (thr d L)
      (BI.sep_mono (BI.sep_mono
        (Entails.of_eq (show (((bufM0).view.loc (thr d L) ↦[(bufM0).view.set]{fullShare} (bufM0).view.writes (Elt F) f [⟨Rect.whole _, gathC d L fi fw 0⟩]) : sProp 𝕄)
            = ((bufM0).view.loc (thr d L) ↦{fullShare} gathC d L fi fw 0) by
          rw [show (bufM0).view.writes (Elt F) f [⟨Rect.whole _, gathC d L fi fw 0⟩] = gathC d L fi fw 0 from writes_whole (F := F) cc0_scratch1 f (gathC d L fi fw 0),
            show (bufM0).view.set = Finset.univ from View.set_whole _]))
        (Entails.of_eq (row_landed8 d L fi (0 : Fin 50) (by decide) fl))) (BI.Entails.refl _)))
    iexact Hf
  · iexact Ht

theorem entry_gath1 (fl : Buf (Elt F) ((thr d L).loc cc0_scratch0)) (f : (bufM1).view.ty.Contents (Elt F)) (P : S128x128.Idx → Elt F .f32)
    (hP : P = gathC d L fi fw 1) :
    iprop(Transfers.Flight (countersEmb (U := UU)) (thr d L) (gcell 1) (default : HIx 1) 524288
        iprop((((bufM1).view.loc (thr d L) ↦[(bufM1).view.set]{fullShare} (bufM1).view.writes (Elt F) f [⟨Rect.whole _, P⟩])
          ∗ ((lstM).view.loc (thr d L) ↦[(rowLit1).view.set]{fullShare} (lstM).view.writes (Elt F) fl [⟨r8, p8 d L fi⟩]))
          ∗ tokLent d L fw qT 1)
      ∗ tokRest d L fw qT 1)
      ⊢ gath1 d L fi fw qT 1 := by
  subst hP
  iintro ⟨Hf, Ht⟩
  isplitl [Hf]
  · iapply (Transfers.Flight_mono (countersEmb (U := UU)) (thr d L)
      (BI.sep_mono (BI.sep_mono
        (Entails.of_eq (show (((bufM1).view.loc (thr d L) ↦[(bufM1).view.set]{fullShare} (bufM1).view.writes (Elt F) f [⟨Rect.whole _, gathC d L fi fw 1⟩]) : sProp 𝕄)
            = ((bufM1).view.loc (thr d L) ↦{fullShare} gathC d L fi fw 1) by
          rw [show (bufM1).view.writes (Elt F) f [⟨Rect.whole _, gathC d L fi fw 1⟩] = gathC d L fi fw 1 from writes_whole (F := F) cc0_scratch2 f (gathC d L fi fw 1),
            show (bufM1).view.set = Finset.univ from View.set_whole _]))
        (Entails.of_eq (row_landed8 d L fi (1 : Fin 50) (by decide) fl))) (BI.Entails.refl _)))
    iexact Hf
  · iexact Ht

theorem entry_gath2 (fl : Buf (Elt F) ((thr d L).loc cc0_scratch0)) (f : (bufM2).view.ty.Contents (Elt F)) (P : S128x128.Idx → Elt F .f32)
    (hP : P = gathC d L fi fw 2) :
    iprop(Transfers.Flight (countersEmb (U := UU)) (thr d L) (gcell 2) (default : HIx 1) 524288
        iprop((((bufM2).view.loc (thr d L) ↦[(bufM2).view.set]{fullShare} (bufM2).view.writes (Elt F) f [⟨Rect.whole _, P⟩])
          ∗ ((lstM).view.loc (thr d L) ↦[(rowLit2).view.set]{fullShare} (lstM).view.writes (Elt F) fl [⟨r8, p8 d L fi⟩]))
          ∗ tokLent d L fw qT 2)
      ∗ tokRest d L fw qT 2)
      ⊢ gath2 d L fi fw qT 2 := by
  subst hP
  iintro ⟨Hf, Ht⟩
  isplitl [Hf]
  · iapply (Transfers.Flight_mono (countersEmb (U := UU)) (thr d L)
      (BI.sep_mono (BI.sep_mono
        (Entails.of_eq (show (((bufM2).view.loc (thr d L) ↦[(bufM2).view.set]{fullShare} (bufM2).view.writes (Elt F) f [⟨Rect.whole _, gathC d L fi fw 2⟩]) : sProp 𝕄)
            = ((bufM2).view.loc (thr d L) ↦{fullShare} gathC d L fi fw 2) by
          rw [show (bufM2).view.writes (Elt F) f [⟨Rect.whole _, gathC d L fi fw 2⟩] = gathC d L fi fw 2 from writes_whole (F := F) cc0_scratch3 f (gathC d L fi fw 2),
            show (bufM2).view.set = Finset.univ from View.set_whole _]))
        (Entails.of_eq (row_landed8 d L fi (2 : Fin 50) (by decide) fl))) (BI.Entails.refl _)))
    iexact Hf
  · iexact Ht

theorem entry_gath3 (fl : Buf (Elt F) ((thr d L).loc cc0_scratch0)) (f : (bufM3).view.ty.Contents (Elt F)) (P : S128x128.Idx → Elt F .f32)
    (hP : P = gathC d L fi fw 3) :
    iprop(Transfers.Flight (countersEmb (U := UU)) (thr d L) (gcell 3) (default : HIx 1) 524288
        iprop((((bufM3).view.loc (thr d L) ↦[(bufM3).view.set]{fullShare} (bufM3).view.writes (Elt F) f [⟨Rect.whole _, P⟩])
          ∗ ((lstM).view.loc (thr d L) ↦[(rowLit3).view.set]{fullShare} (lstM).view.writes (Elt F) fl [⟨r8, p8 d L fi⟩]))
          ∗ tokLent d L fw qT 3)
      ∗ tokRest d L fw qT 3)
      ⊢ gath3 d L fi fw qT 3 := by
  subst hP
  iintro ⟨Hf, Ht⟩
  isplitl [Hf]
  · iapply (Transfers.Flight_mono (countersEmb (U := UU)) (thr d L)
      (BI.sep_mono (BI.sep_mono
        (Entails.of_eq (show (((bufM3).view.loc (thr d L) ↦[(bufM3).view.set]{fullShare} (bufM3).view.writes (Elt F) f [⟨Rect.whole _, gathC d L fi fw 3⟩]) : sProp 𝕄)
            = ((bufM3).view.loc (thr d L) ↦{fullShare} gathC d L fi fw 3) by
          rw [show (bufM3).view.writes (Elt F) f [⟨Rect.whole _, gathC d L fi fw 3⟩] = gathC d L fi fw 3 from writes_whole (F := F) cc0_scratch4 f (gathC d L fi fw 3),
            show (bufM3).view.set = Finset.univ from View.set_whole _]))
        (Entails.of_eq (row_landed8 d L fi (3 : Fin 50) (by decide) fl))) (BI.Entails.refl _)))
    iexact Hf
  · iexact Ht

/-- The list buffer less the four lists in flight, after both copies, is lists 4–49 at their contents. -/
theorem entry_rows (fl : Buf (Elt F) ((thr d L).loc cc0_scratch0)) :
    ((lstM).view.loc (thr d L) ↦[(((Finset.univ \ (rowLit0).view.set) \ (rowLit1).view.set) \ (rowLit2).view.set) \ (rowLit3).view.set]{fullShare}
        (lstM).view.writes (Elt F) fl [⟨r42, p42 d L fi⟩, ⟨r8, p8 d L fi⟩] : sProp 𝕄)
      ⊢ bigSep (Ring.rangeSet 50 4 50) fun g => rowAt d L fi g.val := by
  refine (Entails.of_eq (rest_rows d L _)).trans (Entails.of_eq ?_)
  exact bigSep_congr fun g _ => row_landed d L fi g fl

end Cert.Proof.KW

end
-- ==== Proof.Word.TripFirst.lean ====
import proofs.«208012_g154618823073_cont_week2b_1161_14_alg».proof.Proof.Word.Common
import proofs.«208012_g154618823073_cont_week2b_1161_14_alg».proof.Proof.Word.Canon

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## The first trip of the pipelined loop

Trip 0 handles lists 0 … 4. It differs from a middle trip in one place: no copy-out is in flight when it starts, so
row buffer 4 is free, nothing is awaited before the gather of list 4 into it, and no block is finished by that wait:
after the trip the blocks 0 … 3 hold the lookup and block 4 is being written. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_first (hfi : ∀ j, (fi j).toNat < 1000000) (k : Fin k0_t1_loop.trips) (hk0 : k.val = 0) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have hk8 : k.val ≤ 8 := by omega
  have h1 : ¬ k0_cond1 k = 1#1 := fun h => by have := (cond1_iff k).1 h; omega
  have h2 := cond2_all k
  have h3 := cond3_all k
  have h4 := (cond4_iff k).2 hk8
  have h5 := cond5_all k
  have h6 := (cond6_iff k).2 hk8
  have h7 := cond7_all k
  have h8 := (cond8_iff k).2 hk8
  have h9 := cond9_all k
  have h10 := (cond10_iff k).2 hk8
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_pos hk0]
  rw [take5 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨⟨%f4, Hb4⟩, Hs4⟩, Hg4, Htab4, Hs0, Hs1, Hs2, Hs3,
    ⟨Hr4, Hr5, Hr6, Hr7, Hr8, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Hr5 := (Entails.of_eq (rowAt_of d L fi (k0_off24 k) (k0_off24_inb k h4) (5 * k.val + 5) (by omega) (k0_off24_eq k)).symm) $$ Hr5
  ihave Hr6 := (Entails.of_eq (rowAt_of d L fi (k0_off34 k) (k0_off34_inb k h6) (5 * k.val + 6) (by omega) (k0_off34_eq k)).symm) $$ Hr6
  ihave Hr7 := (Entails.of_eq (rowAt_of d L fi (k0_off44 k) (k0_off44_inb k h8) (5 * k.val + 7) (by omega) (k0_off44_eq k)).symm) $$ Hr7
  ihave Hr8 := (Entails.of_eq (rowAt_of d L fi (k0_off54 k) (k0_off54_inb k h10) (5 * k.val + 8) (by omega) (k0_off54_eq k)).symm) $$ Hr8
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_first.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hG0 : trip_first.sl.gather1_1 d L fi fw k h4 hinA = G0
  have hG0' : G0 = gathC d L fi fw (5 * k.val + 5) := by
    rw [← hG0]
    exact gather_closed_off d L fi fw (k0_off24 k) (k0_off24_inb k h4) (5 * k.val + 5) (by omega) (k0_off24_eq k) _ (hinA _ _)
  generalize hG1 : trip_first.sl.gather1_2 d L fi fw k h6 hinA = G1
  have hG1' : G1 = gathC d L fi fw (5 * k.val + 6) := by
    rw [← hG1]
    exact gather_closed_off d L fi fw (k0_off34 k) (k0_off34_inb k h6) (5 * k.val + 6) (by omega) (k0_off34_eq k) _ (hinA _ _)
  generalize hG2 : trip_first.sl.gather1_3 d L fi fw k h8 hinA = G2
  have hG2' : G2 = gathC d L fi fw (5 * k.val + 7) := by
    rw [← hG2]
    exact gather_closed_off d L fi fw (k0_off44 k) (k0_off44_inb k h8) (5 * k.val + 7) (by omega) (k0_off44_eq k) _ (hinA _ _)
  generalize hG3 : trip_first.sl.gather1_4 d L fi fw k h10 hinA = G3
  have hG3' : G3 = gathC d L fi fw (5 * k.val + 8) := by
    rw [← hG3]
    exact gather_closed_off d L fi fw (k0_off54 k) (k0_off54_inb k h10) (5 * k.val + 8) (by omega) (k0_off54_eq k) _ (hinA _ _)
  generalize hQ0 : trip_first.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_first.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_first.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_first.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_first.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_pos (show k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 5) 50) fun g => rowAt d L fi g.val := by
    rw [show 5 * (k.val + 1) + 4 = 5 * k.val + 4 + 5 by omega]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ bigSep (Ring.rangeSet 50 0 (5 * k.val - 1)) fun g => blkDone d L fi fw g.val) := by
    rw [show 5 * (k.val + 1) - 1 = 5 * k.val + 3 + 1 by omega, show 5 * k.val - 1 = 5 * k.val by omega,
      push1 (fun n => blkDone d L fi fw n) 0 (5 * k.val + 3) (by omega) (by omega), show 5 * k.val + 3 = 5 * k.val + 2 + 1 from rfl,
      push1 (fun n => blkDone d L fi fw n) 0 (5 * k.val + 2) (by omega) (by omega), show 5 * k.val + 2 = 5 * k.val + 1 + 1 from rfl,
      push1 (fun n => blkDone d L fi fw n) 0 (5 * k.val + 1) (by omega) (by omega),
      push1 (fun n => blkDone d L fi fw n) 0 (5 * k.val) (by omega) (by omega)]
  rw [eR, eT, eRD, eBD,
    show 5 * (k.val + 1) + 3 = 5 * k.val + 8 by omega, show 5 * (k.val + 1) + 2 = 5 * k.val + 7 by omega,
    show 5 * (k.val + 1) + 1 = 5 * k.val + 6 by omega, show 5 * (k.val + 1) - 1 = 5 * k.val + 4 by omega,
    show 5 * (k.val + 1) = 5 * k.val + 5 by omega]
  isplitr
  · iexact Hmw
  isplitl [Hg0 Htab0 Hg1 Htab1 Hg2 Htab2 Hg3 Htab3]
  · isplitl [Hg0 Htab0]
    · iapply (gath_canon0 d L fi fw qT (k0_off24 k) (k0_off24_inb k h4) (5 * k.val + 5) (by omega) (k0_off24_eq k)
        (scaledTo (Scf.trips k0_t2_loop.lb k0_t2_loop.ub k0_t2_loop.st) (gathC d L fi fw (5 * k.val))) G0 hG0')
      isplitl [Hg0]
      · iexact Hg0
      · iexact Htab0
    isplitl [Hg1 Htab1]
    · iapply (gath_canon1 d L fi fw qT (k0_off34 k) (k0_off34_inb k h6) (5 * k.val + 6) (by omega) (k0_off34_eq k)
        (scaledTo (Scf.trips k0_t3_loop.lb k0_t3_loop.ub k0_t3_loop.st) (gathC d L fi fw (5 * k.val + 1))) G1 hG1')
      isplitl [Hg1]
      · iexact Hg1
      · iexact Htab1
    isplitl [Hg2 Htab2]
    · iapply (gath_canon2 d L fi fw qT (k0_off44 k) (k0_off44_inb k h8) (5 * k.val + 7) (by omega) (k0_off44_eq k)
        (scaledTo (Scf.trips k0_t4_loop.lb k0_t4_loop.ub k0_t4_loop.st) (gathC d L fi fw (5 * k.val + 2))) G2 hG2')
      isplitl [Hg2]
      · iexact Hg2
      · iexact Htab2
    · iapply (gath_canon3 d L fi fw qT (k0_off54 k) (k0_off54_inb k h10) (5 * k.val + 8) (by omega) (k0_off54_eq k)
        (scaledTo (Scf.trips k0_t5_loop.lb k0_t5_loop.ub k0_t5_loop.st) (gathC d L fi fw (5 * k.val + 3))) G3 hG3')
      isplitl [Hg3]
      · iexact Hg3
      · iexact Htab3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    iexact Hbdone
  iexists _
  isplitr
  swap
  · iexact HO
  ipureintro; intro p hp
  repeat (rcases Finset.mem_insert.mp hp with rfl | hp; exact .inr rfl)
  exact hW' p hp

end Cert.Proof.KW

end
-- ==== Proof.Word.TripMid.lean ====
import proofs.«208012_g154618823073_cont_week2b_1161_14_alg».proof.Proof.Word.Common
import proofs.«208012_g154618823073_cont_week2b_1161_14_alg».proof.Proof.Word.Canon

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## One trip of the pipelined loop, in the middle of the run

Trip `k` (1 ≤ k ≤ 8) handles lists `5 k … 5 k + 4`. For each row buffer in turn: the gather of its list has landed
(the buffer holds the gathered block, the list is handed back); the 128 scaling trips turn it into the scaled block;
its copy-out to the block of that number starts; the copy-out of the previous block has landed (that block holds the
lookup) and frees the previous row buffer, into which the gather of the list four ahead starts. So the state before
trip `k + 1` is the state before trip `k` with every number advanced by five. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_mid (hfi : ∀ j, (fi j).toNat < 1000000) (k : Fin k0_t1_loop.trips) (hk1 : 1 ≤ k.val) (hk8 : k.val ≤ 8) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have h1 := (cond1_iff k).2 hk1
  have h2 := cond2_all k
  have h3 := cond3_all k
  have h4 := (cond4_iff k).2 hk8
  have h5 := cond5_all k
  have h6 := (cond6_iff k).2 hk8
  have h7 := cond7_all k
  have h8 := (cond8_iff k).2 hk8
  have h9 := cond9_all k
  have h10 := (cond10_iff k).2 hk8
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_neg (show ¬ k.val = 0 by omega)]
  rw [take5 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨Hs4, Hb4⟩, Hg4, Htab4, Hs0, Hs1, Hs2, Hs3,
    ⟨Hr4, Hr5, Hr6, Hr7, Hr8, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Hr5 := (Entails.of_eq (rowAt_of d L fi (k0_off24 k) (k0_off24_inb k h4) (5 * k.val + 5) (by omega) (k0_off24_eq k)).symm) $$ Hr5
  ihave Hr6 := (Entails.of_eq (rowAt_of d L fi (k0_off34 k) (k0_off34_inb k h6) (5 * k.val + 6) (by omega) (k0_off34_eq k)).symm) $$ Hr6
  ihave Hr7 := (Entails.of_eq (rowAt_of d L fi (k0_off44 k) (k0_off44_inb k h8) (5 * k.val + 7) (by omega) (k0_off44_eq k)).symm) $$ Hr7
  ihave Hr8 := (Entails.of_eq (rowAt_of d L fi (k0_off54 k) (k0_off54_inb k h10) (5 * k.val + 8) (by omega) (k0_off54_eq k)).symm) $$ Hr8
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_mid.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hG0 : trip_mid.sl.gather1_1 d L fi fw k h4 hinA = G0
  have hG0' : G0 = gathC d L fi fw (5 * k.val + 5) := by
    rw [← hG0]
    exact gather_closed_off d L fi fw (k0_off24 k) (k0_off24_inb k h4) (5 * k.val + 5) (by omega) (k0_off24_eq k) _ (hinA _ _)
  generalize hG1 : trip_mid.sl.gather1_2 d L fi fw k h6 hinA = G1
  have hG1' : G1 = gathC d L fi fw (5 * k.val + 6) := by
    rw [← hG1]
    exact gather_closed_off d L fi fw (k0_off34 k) (k0_off34_inb k h6) (5 * k.val + 6) (by omega) (k0_off34_eq k) _ (hinA _ _)
  generalize hG2 : trip_mid.sl.gather1_3 d L fi fw k h8 hinA = G2
  have hG2' : G2 = gathC d L fi fw (5 * k.val + 7) := by
    rw [← hG2]
    exact gather_closed_off d L fi fw (k0_off44 k) (k0_off44_inb k h8) (5 * k.val + 7) (by omega) (k0_off44_eq k) _ (hinA _ _)
  generalize hG3 : trip_mid.sl.gather1_4 d L fi fw k h10 hinA = G3
  have hG3' : G3 = gathC d L fi fw (5 * k.val + 8) := by
    rw [← hG3]
    exact gather_closed_off d L fi fw (k0_off54 k) (k0_off54_inb k h10) (5 * k.val + 8) (by omega) (k0_off54_eq k) _ (hinA _ _)
  generalize hQ0 : trip_mid.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_mid.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_mid.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_mid.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_mid.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_pos (show k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 5) 50) fun g => rowAt d L fi g.val := by
    rw [show 5 * (k.val + 1) + 4 = 5 * k.val + 4 + 5 by omega]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ blkDone d L fi fw (5 * k.val - 1) ∗ bigSep (Ring.rangeSet 50 0 (5 * k.val - 1)) fun g => blkDone d L fi fw g.val) := by
    rw [show 5 * (k.val + 1) - 1 = (5 * k.val - 1) + 5 by omega,
      push5 (fun n => blkDone d L fi fw n) 0 (5 * k.val - 1) (by omega) (by omega),
      show 5 * k.val - 1 + 4 = 5 * k.val + 3 by omega, show 5 * k.val - 1 + 3 = 5 * k.val + 2 by omega,
      show 5 * k.val - 1 + 2 = 5 * k.val + 1 by omega, show 5 * k.val - 1 + 1 = 5 * k.val by omega]
  rw [eR, eT, eRD, eBD,
    show 5 * (k.val + 1) + 3 = 5 * k.val + 8 by omega, show 5 * (k.val + 1) + 2 = 5 * k.val + 7 by omega,
    show 5 * (k.val + 1) + 1 = 5 * k.val + 6 by omega, show 5 * (k.val + 1) - 1 = 5 * k.val + 4 by omega,
    show 5 * (k.val + 1) = 5 * k.val + 5 by omega]
  isplitr
  · iexact Hmw
  isplitl [Hg0 Htab0 Hg1 Htab1 Hg2 Htab2 Hg3 Htab3]
  · isplitl [Hg0 Htab0]
    · iapply (gath_canon0 d L fi fw qT (k0_off24 k) (k0_off24_inb k h4) (5 * k.val + 5) (by omega) (k0_off24_eq k)
        (scaledTo (Scf.trips k0_t2_loop.lb k0_t2_loop.ub k0_t2_loop.st) (gathC d L fi fw (5 * k.val))) G0 hG0')
      isplitl [Hg0]
      · iexact Hg0
      · iexact Htab0
    isplitl [Hg1 Htab1]
    · iapply (gath_canon1 d L fi fw qT (k0_off34 k) (k0_off34_inb k h6) (5 * k.val + 6) (by omega) (k0_off34_eq k)
        (scaledTo (Scf.trips k0_t3_loop.lb k0_t3_loop.ub k0_t3_loop.st) (gathC d L fi fw (5 * k.val + 1))) G1 hG1')
      isplitl [Hg1]
      · iexact Hg1
      · iexact Htab1
    isplitl [Hg2 Htab2]
    · iapply (gath_canon2 d L fi fw qT (k0_off44 k) (k0_off44_inb k h8) (5 * k.val + 7) (by omega) (k0_off44_eq k)
        (scaledTo (Scf.trips k0_t4_loop.lb k0_t4_loop.ub k0_t4_loop.st) (gathC d L fi fw (5 * k.val + 2))) G2 hG2')
      isplitl [Hg2]
      · iexact Hg2
      · iexact Htab2
    · iapply (gath_canon3 d L fi fw qT (k0_off54 k) (k0_off54_inb k h10) (5 * k.val + 8) (by omega) (k0_off54_eq k)
        (scaledTo (Scf.trips k0_t5_loop.lb k0_t5_loop.ub k0_t5_loop.st) (gathC d L fi fw (5 * k.val + 3))) G3 hG3')
      isplitl [Hg3]
      · iexact Hg3
      · iexact Htab3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Hs4_dst Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    isplitl [Hs4_dst]
    · iexact Hs4_dst
    iexact Hbdone
  iexists _
  isplitr
  swap
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW' p hp

end Cert.Proof.KW

end
-- ==== Proof.Word.TripLast.lean ====
import proofs.«208012_g154618823073_cont_week2b_1161_14_alg».proof.Proof.Word.Common
import proofs.«208012_g154618823073_cont_week2b_1161_14_alg».proof.Proof.Word.Canon

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

/-! ## The last trip of the pipelined loop

Trip 9 handles lists 45 … 49. It differs from a middle trip in one place: there is no list four ahead, so no gather is
started into row buffers 0 … 3 once their copy-outs have landed; they end idle, each whole with its read token of the
table whole and its semaphore at zero. Only list 49 is still to be gathered (into row buffer 4) when the trip starts;
after it no list and no block remains, blocks 0 … 48 hold the lookup and block 49 is being written. -/

variable (d : Dev nD) (L : grid0.Coords) (fi : Buf (Elt F) (idsLoc d)) (fw : Buf (Elt F) (tabLoc d))
variable (O : CellTallies nD τ sig (HIx 1)) (W : Waits sig (HIx 1)) (qT : PosShare TreeShare)

set_option maxHeartbeats 1600000 in
theorem trip_last (hfi : ∀ j, (fi j).toNat < 1000000) (k : Fin k0_t1_loop.trips) (hk9 : k.val = 9) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  have h1 := (cond1_iff k).2 (show 1 ≤ k.val by omega)
  have h2 := cond2_all k
  have h3 := cond3_all k
  have h4 : ¬ k0_cond4 k = 1#1 := fun h => by have := (cond4_iff k).1 h; omega
  have h5 := cond5_all k
  have h6 : ¬ k0_cond6 k = 1#1 := fun h => by have := (cond6_iff k).1 h; omega
  have h7 := cond7_all k
  have h8 : ¬ k0_cond8 k = 1#1 := fun h => by have := (cond8_iff k).1 h; omega
  have h9 := cond9_all k
  have h10 : ¬ k0_cond10 k = 1#1 := fun h => by have := (cond10_iff k).1 h; omega
  have hinA : ∀ (o : Fin 2 → ℕ) (h : ∀ a, o a + S1x128.size a ≤ S50x128.size a) (x : S128.Idx),
      (View.read (Elt F) (((lstM).slice (Rect.unit (s := S50x128) o S1x128.size h) (fun _ => rfl)).squeeze S128 squeezes_S1x128_S128).view (listC d L fi) x).toNat < 1000000 :=
    fun o h => hin_all d L fi hfi o h
  unfold k0_t1_body inv
  rw [if_pos (show k.val < 10 from hk), if_neg (show ¬ k.val = 0 by omega)]
  rw [take1 (fun n => rowAt d L fi n) (5 * k.val + 4) 50 (by omega) (by omega)]
  rw [take5 (fun n => blkTodo d L n) (5 * k.val) 50 (by omega) (by omega)]
  iintro ⟨#Hmw, ⟨⟨Hg0, Htab0⟩, ⟨Hg1, Htab1⟩, ⟨Hg2, Htab2⟩, ⟨Hg3, Htab3⟩⟩, ⟨Hs4, Hb4⟩, Hg4, Htab4, Hs0, Hs1, Hs2, Hs3,
    ⟨Hr4, Hrows⟩, Hrdone, ⟨⟨%fo0, Ho0⟩, ⟨%fo1, Ho1⟩, ⟨%fo2, Ho2⟩, ⟨%fo3, Ho3⟩, ⟨%fo4, Ho4⟩, Htodo⟩, Hbdone, %W', %hW', HO⟩
  ihave Hr4 := (Entails.of_eq (rowAt_of d L fi (k0_off14 k) (k0_off14_inb k h2) (5 * k.val + 4) (by omega) (k0_off14_eq k)).symm) $$ Hr4
  ihave Ho0 := (Entails.of_eq (blk_of d L k 0 fo0).symm) $$ Ho0
  ihave Ho1 := (Entails.of_eq (blk_of d L k 1 fo1).symm) $$ Ho1
  ihave Ho2 := (Entails.of_eq (blk_of d L k 2 fo2).symm) $$ Ho2
  ihave Ho3 := (Entails.of_eq (blk_of d L k 3 fo3).symm) $$ Ho3
  ihave Ho4 := (Entails.of_eq (blk_of d L k 4 fo4).symm) $$ Ho4
  sl_exec
  sl_for (fun (r : ℕ) (_ : PUnit) => iprop((bufM0).view.loc (thr d L) ↦{fullShare} scaledTo r (gathC d L fi fw (5 * k.val)))) $$ [Hg0_dst]
  case region =>
    intro r _
    iintro Hb
    sl_exec
    sl_step
    iapply (Entails.of_eq (congrArg (fun f => ((bufM0).view.loc (thr d L) ↦{fullShare} f : sProp 𝕄)) (scale_trip0 (gathC d L fi fw (5 * k.val)) r))); iexact Hb
  · rw [scaledTo_zero]; iexact Hg0_dst
  iintro %_ Hsc0
  sl_exec
  sl_for (fun (r : ℕ) (_ : PUnit) => iprop((bufM1).view.loc (thr d L) ↦{fullShare} scaledTo r (gathC d L fi fw (5 * k.val + 1)))) $$ [Hg1_dst]
  case region =>
    intro r _
    iintro Hb
    sl_exec
    sl_step
    iapply (Entails.of_eq (congrArg (fun f => ((bufM1).view.loc (thr d L) ↦{fullShare} f : sProp 𝕄)) (scale_trip1 (gathC d L fi fw (5 * k.val + 1)) r))); iexact Hb
  · rw [scaledTo_zero]; iexact Hg1_dst
  iintro %_ Hsc1
  sl_exec
  sl_for (fun (r : ℕ) (_ : PUnit) => iprop((bufM2).view.loc (thr d L) ↦{fullShare} scaledTo r (gathC d L fi fw (5 * k.val + 2)))) $$ [Hg2_dst]
  case region =>
    intro r _
    iintro Hb
    sl_exec
    sl_step
    iapply (Entails.of_eq (congrArg (fun f => ((bufM2).view.loc (thr d L) ↦{fullShare} f : sProp 𝕄)) (scale_trip2 (gathC d L fi fw (5 * k.val + 2)) r))); iexact Hb
  · rw [scaledTo_zero]; iexact Hg2_dst
  iintro %_ Hsc2
  sl_exec
  sl_for (fun (r : ℕ) (_ : PUnit) => iprop((bufM3).view.loc (thr d L) ↦{fullShare} scaledTo r (gathC d L fi fw (5 * k.val + 3)))) $$ [Hg3_dst]
  case region =>
    intro r _
    iintro Hb
    sl_exec
    sl_step
    iapply (Entails.of_eq (congrArg (fun f => ((bufM3).view.loc (thr d L) ↦{fullShare} f : sProp 𝕄)) (scale_trip3 (gathC d L fi fw (5 * k.val + 3)) r))); iexact Hb
  · rw [scaledTo_zero]; iexact Hg3_dst
  iintro %_ Hsc3
  sl_exec
  have conv4 : ∀ (g : (bufM4).view.ty.Contents (Elt F)) (P : S128x128.Idx → Elt F .f32), P = gathC d L fi fw (5 * k.val + 4) →
      (((bufM4).view.loc (thr d L) ↦{fullShare} (bufM4).view.writes (Elt F) g [⟨Rect.whole cc0_scratch5.ty.shape, P⟩] : sProp 𝕄)
        ⊢ (bufM4).view.loc (thr d L) ↦{fullShare} gathC d L fi fw (5 * k.val + 4)) := by
    intro g P hP; subst hP
    exact Entails.of_eq (congrArg (fun f => ((bufM4).view.loc (thr d L) ↦{fullShare} f : sProp 𝕄))
      (show (bufM4).view.writes (Elt F) g [⟨Rect.whole _, gathC d L fi fw (5 * k.val + 4)⟩] = gathC d L fi fw (5 * k.val + 4) from writes_whole (F := F) cc0_scratch5 g (gathC d L fi fw (5 * k.val + 4))))
  generalize hP4 : trip_last.sl.gather1 d L fi fw k h2 hinA = P4
  have hP4' : P4 = gathC d L fi fw (5 * k.val + 4) := by
    rw [← hP4]
    exact gather_closed_off d L fi fw (k0_off14 k) (k0_off14_inb k h2) (5 * k.val + 4) (by omega) (k0_off14_eq k) _ (hinA _ _)
  ihave Hb4 := (conv4 _ P4 hP4') $$ Hb4
  sl_for (fun (r : ℕ) (_ : PUnit) => iprop((bufM4).view.loc (thr d L) ↦{fullShare} scaledTo r (gathC d L fi fw (5 * k.val + 4)))) $$ [Hb4]
  case region =>
    intro r _
    iintro Hb
    sl_exec
    sl_step
    iapply (Entails.of_eq (congrArg (fun f => ((bufM4).view.loc (thr d L) ↦{fullShare} f : sProp 𝕄)) (scale_trip4 (gathC d L fi fw (5 * k.val + 4)) r))); iexact Hb
  · rw [scaledTo_zero]; iexact Hb4
  iintro %_ Hsc4
  sl_exec
  sl_step
  generalize hQ0 : trip_last.sl.dma0 d L fi fw k = Q0
  have hQ0' : Q0 = scalC d L fi fw (5 * k.val) := by
    rw [← hQ0]
    exact (read_same_whole cc0_scratch1 (scaledTo (Scf.trips k0_t2_loop.lb k0_t2_loop.ub k0_t2_loop.st) (gathC d L fi fw (5 * k.val)))).trans (scaled_done d L fi fw (5 * k.val) _ trips_t2)
  generalize hQ1 : trip_last.sl.dma0_1 d L fi fw k = Q1
  have hQ1' : Q1 = scalC d L fi fw (5 * k.val + 1) := by
    rw [← hQ1]
    exact (read_same_whole cc0_scratch2 (scaledTo (Scf.trips k0_t3_loop.lb k0_t3_loop.ub k0_t3_loop.st) (gathC d L fi fw (5 * k.val + 1)))).trans (scaled_done d L fi fw (5 * k.val + 1) _ trips_t3)
  generalize hQ2 : trip_last.sl.dma0_2 d L fi fw k = Q2
  have hQ2' : Q2 = scalC d L fi fw (5 * k.val + 2) := by
    rw [← hQ2]
    exact (read_same_whole cc0_scratch3 (scaledTo (Scf.trips k0_t4_loop.lb k0_t4_loop.ub k0_t4_loop.st) (gathC d L fi fw (5 * k.val + 2)))).trans (scaled_done d L fi fw (5 * k.val + 2) _ trips_t4)
  generalize hQ3 : trip_last.sl.dma0_3 d L fi fw k = Q3
  have hQ3' : Q3 = scalC d L fi fw (5 * k.val + 3) := by
    rw [← hQ3]
    exact (read_same_whole cc0_scratch4 (scaledTo (Scf.trips k0_t5_loop.lb k0_t5_loop.ub k0_t5_loop.st) (gathC d L fi fw (5 * k.val + 3)))).trans (scaled_done d L fi fw (5 * k.val + 3) _ trips_t5)
  generalize hQ4 : trip_last.sl.dma0_4 d L fi fw k = Q4
  have hQ4' : Q4 = scalC d L fi fw (5 * k.val + 4) := by
    rw [← hQ4]
    exact (read_same_whole cc0_scratch5 (scaledTo (Scf.trips k0_t6_loop.lb k0_t6_loop.ub k0_t6_loop.st) (gathC d L fi fw (5 * k.val + 4)))).trans (scaled_done d L fi fw (5 * k.val + 4) _ trips_t6)
  rw [if_neg (show ¬ k.val + 1 < 10 by omega), if_neg (show ¬ k.val + 1 = 0 by omega)]
  have eR : (bigSep (Ring.rangeSet 50 (5 * (k.val + 1) + 4) 50) fun g => rowAt d L fi g.val : sProp 𝕄)
      = bigSep (Ring.rangeSet 50 (5 * k.val + 4 + 1) 50) fun g => rowAt d L fi g.val := by
    rw [Ring.rangeSet_empty (show 50 ≤ 5 * (k.val + 1) + 4 by omega), Ring.rangeSet_empty (show 50 ≤ 5 * k.val + 4 + 1 by omega)]
  have eT : (bigSep (Ring.rangeSet 50 (5 * (k.val + 1)) 50) fun g => blkTodo d L g.val : sProp 𝕄)
      = bigSep (Ring.rangeSet 50 (5 * k.val + 5) 50) fun g => blkTodo d L g.val := by
    rw [show 5 * (k.val + 1) = 5 * k.val + 5 by omega]
  have eRD : (bigSep (Ring.rangeSet 50 0 (5 * (k.val + 1))) fun g => rowFree d L g.val : sProp 𝕄)
      = iprop(rowFree d L (5 * k.val + 4) ∗ rowFree d L (5 * k.val + 3) ∗ rowFree d L (5 * k.val + 2) ∗ rowFree d L (5 * k.val + 1) ∗ rowFree d L (5 * k.val)
        ∗ bigSep (Ring.rangeSet 50 0 (5 * k.val)) fun g => rowFree d L g.val) := by
    rw [show 5 * (k.val + 1) = 5 * k.val + 5 by omega, push5 (fun n => rowFree d L n) 0 (5 * k.val) (by omega) (by omega)]
  have eBD : (bigSep (Ring.rangeSet 50 0 (5 * (k.val + 1) - 1)) fun g => blkDone d L fi fw g.val : sProp 𝕄)
      = iprop(blkDone d L fi fw (5 * k.val + 3) ∗ blkDone d L fi fw (5 * k.val + 2) ∗ blkDone d L fi fw (5 * k.val + 1) ∗ blkDone d L fi fw (5 * k.val)
        ∗ blkDone d L fi fw (5 * k.val - 1) ∗ bigSep (Ring.rangeSet 50 0 (5 * k.val - 1)) fun g => blkDone d L fi fw g.val) := by
    rw [show 5 * (k.val + 1) - 1 = (5 * k.val - 1) + 5 by omega,
      push5 (fun n => blkDone d L fi fw n) 0 (5 * k.val - 1) (by omega) (by omega),
      show 5 * k.val - 1 + 4 = 5 * k.val + 3 by omega, show 5 * k.val - 1 + 3 = 5 * k.val + 2 by omega,
      show 5 * k.val - 1 + 2 = 5 * k.val + 1 by omega, show 5 * k.val - 1 + 1 = 5 * k.val by omega]
  rw [eR, eT, eRD, eBD, show 5 * (k.val + 1) - 1 = 5 * k.val + 4 by omega]
  isplitr
  · iexact Hmw
  isplitl [Hsc0 Htab0 Hg0 Hsc1 Htab1 Hg1 Hsc2 Htab2 Hg2 Hsc3 Htab3 Hg3]
  · isplitl [Hsc0 Htab0 Hg0]
    · isplitl [Hsc0]
      · iexists _; iexact Hsc0
      isplitl [Htab0]
      · iexact Htab0
      iexact Hg0
    isplitl [Hsc1 Htab1 Hg1]
    · isplitl [Hsc1]
      · iexists _; iexact Hsc1
      isplitl [Htab1]
      · iexact Htab1
      iexact Hg1
    isplitl [Hsc2 Htab2 Hg2]
    · isplitl [Hsc2]
      · iexists _; iexact Hsc2
      isplitl [Htab2]
      · iexact Htab2
      iexact Hg2
    · isplitl [Hsc3]
      · iexists _; iexact Hsc3
      isplitl [Htab3]
      · iexact Htab3
      iexact Hg3
  isplitl [Hs4 Hsc4]
  · iapply (out4_canon d L fi fw (k0_off12 L k (BitVec.ofNat 32 (4 : Fin 5).val)) (k0_off12_inb L k 4) (5 * k.val + 4) (by omega) (off12_eq L k 4) fo4 Q4 hQ4'
      (Scf.trips k0_t6_loop.lb k0_t6_loop.ub k0_t6_loop.st) trips_t6)
    isplitl [Hs4]
    · iexact Hs4
    · iexact Hsc4
  isplitl [Hg4]
  · iexact Hg4
  isplitl [Htab4]
  · iexact Htab4
  isplitl [Hs0]
  · iexact Hs0
  isplitl [Hs1]
  · iexact Hs1
  isplitl [Hs2]
  · iexact Hs2
  isplitl [Hs3]
  · iexact Hs3
  isplitl [Hrows]
  · iexact Hrows
  isplitl [Hrdone Hg0_dst_and Hg1_dst_and Hg2_dst_and Hg3_dst_and Hr4]
  · isplitl [Hr4]
    · iexists _; iapply (Entails.of_eq (rowAt_of d L fi (k0_off14 k) (k0_off14_inb k h2) (5 * k.val + 4) (by omega) (k0_off14_eq k))) $$ Hr4
    isplitl [Hg3_dst_and]
    · iexists _; iexact Hg3_dst_and
    isplitl [Hg2_dst_and]
    · iexists _; iexact Hg2_dst_and
    isplitl [Hg1_dst_and]
    · iexists _; iexact Hg1_dst_and
    isplitl [Hg0_dst_and]
    · iexists _; iexact Hg0_dst_and
    iexact Hrdone
  isplitl [Htodo]
  · iexact Htodo
  isplitl [Hbdone Hs4_dst Ho0 Ho1 Ho2 Ho3]
  · isplitl [Ho3]
    · iapply (blk_canon d L fi fw (k0_off12 L k (BitVec.ofNat 32 (3 : Fin 5).val)) (k0_off12_inb L k 3) (5 * k.val + 3) (by omega) (off12_eq L k 3) fo3 Q3 hQ3') $$ Ho3
    isplitl [Ho2]
    · iapply (blk_canon d L fi fw (k0_off12 L k (BitVec.ofNat 32 (2 : Fin 5).val)) (k0_off12_inb L k 2) (5 * k.val + 2) (by omega) (off12_eq L k 2) _ Q2 hQ2') $$ Ho2
    isplitl [Ho1]
    · iapply (blk_canon d L fi fw (k0_off12 L k (BitVec.ofNat 32 (1 : Fin 5).val)) (k0_off12_inb L k 1) (5 * k.val + 1) (by omega) (off12_eq L k 1) _ Q1 hQ1') $$ Ho1
    isplitl [Ho0]
    · iapply (blk_canon d L fi fw (k0_off12 L k (BitVec.ofNat 32 (0 : Fin 5).val)) (k0_off12_inb L k 0) (5 * k.val) (by omega) ((off12_eq L k 0).trans (by show oOff L (5 * k.val + 0) = oOff L (5 * k.val); rw [Nat.add_zero])) _ Q0 hQ0') $$ Ho0
    isplitl [Hs4_dst]
    · iexact Hs4_dst
    iexact Hbdone
  iexists _
  isplitr
  swap
  · iexact HO
  ipureintro; intro p hp
  repeat (rcases Finset.mem_insert.mp hp with rfl | hp; exact .inr rfl)
  exact hW' p hp

end Cert.Proof.KW

end
-- ==== Proof.Word.Body.lean ====
import proofs.«208012_g154618823073_cont_week2b_1161_14_alg».proof.Proof.Word.Common
import proofs.«208012_g154618823073_cont_week2b_1161_14_alg».proof.Proof.Word.LoopEntry
import proofs.«208012_g154618823073_cont_week2b_1161_14_alg».proof.Proof.Word.CoreStmt
import proofs.«208012_g154618823073_cont_week2b_1161_14_alg».proof.Proof.Word.Rows
import proofs.«208012_g154618823073_cont_week2b_1161_14_alg».proof.Proof.Word.TripFirst
import proofs.«208012_g154618823073_cont_week2b_1161_14_alg».proof.Proof.Word.TripMid
import proofs.«208012_g154618823073_cont_week2b_1161_14_alg».proof.Proof.Word.TripLast
import proofs.«208012_g154618823073_cont_week2b_1161_14_alg».proof.Proof.Word.LaunchFacts

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "idsM" => (Memref.whole Cert.Kernel.main_v1_scv : Memref Cert.Kernel.sig Kind.scVector Space.hbm Cert.Kernel.S32x50x128 EltTy.i32)
local notation "tabM" => (Memref.whole Cert.Kernel.main_arg1_scv : Memref Cert.Kernel.sig Kind.scVector Space.hbm Cert.Kernel.S1000000x128 EltTy.f32)
local notation "outM" => (Memref.whole Cert.Kernel.main_v2_scv : Memref Cert.Kernel.sig Kind.scVector Space.hbm Cert.Kernel.S204800x128 EltTy.f32)
local notation "lstM" => (Memref.whole Cert.Kernel.cc0_scratch0 : Memref Cert.Kernel.sig Kind.scVector Space.vmem Cert.Kernel.S50x128 EltTy.i32)
local notation "bufM0" => (Memref.whole Cert.Kernel.cc0_scratch1 : Memref Cert.Kernel.sig Kind.scVector Space.vmem Cert.Kernel.S128x128 EltTy.f32)
local notation "bufM1" => (Memref.whole Cert.Kernel.cc0_scratch2 : Memref Cert.Kernel.sig Kind.scVector Space.vmem Cert.Kernel.S128x128 EltTy.f32)
local notation "bufM2" => (Memref.whole Cert.Kernel.cc0_scratch3 : Memref Cert.Kernel.sig Kind.scVector Space.vmem Cert.Kernel.S128x128 EltTy.f32)
local notation "bufM3" => (Memref.whole Cert.Kernel.cc0_scratch4 : Memref Cert.Kernel.sig Kind.scVector Space.vmem Cert.Kernel.S128x128 EltTy.f32)
local notation "bufM4" => (Memref.whole Cert.Kernel.cc0_scratch5 : Memref Cert.Kernel.sig Kind.scVector Space.vmem Cert.Kernel.S128x128 EltTy.f32)

open Idealize.ShloMosaic.ValueIdx

variable (d : Dev nD) (L : grid0.Coords) (fi : Buf (Elt F) (idsLoc d)) (fw : Buf (Elt F) (tabLoc d))

/-! ## One task, from its first copy to its last wait

The prologue copies the task's lists in and starts the first four gathers; the ten trips of the pipelined loop keep
the invariant; after the last trip only block 49's copy-out is in flight, and the kernel's last wait lands it. The
table's read share is dealt as five tokens, one per row buffer's gather, and joined again at the end; the fifty lists
of the list buffer are joined again once every gather has handed its list back. -/

/-- A family over five is its five members. -/
theorem bigSep_fin5 {M : Type} [URA M] (Φ : Fin 5 → sProp M) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem trips_t1 : Scf.trips k0_t1_loop.lb k0_t1_loop.ub k0_t1_loop.st = 10 := rfl

/-- Any trip keeps the invariant: the first, a middle one, the last. -/
theorem trip (hfi : ∀ j, (fi j).toNat < 1000000) (O : CellTallies nD τ sig (HIx 1)) (W : Waits sig (HIx 1)) (qT : PosShare TreeShare)
    (k : Fin k0_t1_loop.trips) (v2 : BitVec 32) :
    inv d L fi fw O W qT k.val ⟨⟩
      ⊢ wp frame (wpE (defs₀ (F := F)) 𝒱₀ (thr d L) none) Set.univ
          (k0_t1_body (F := F) L idsW (Memref.isWhole_whole _) tabW (Memref.isWhole_whole _) outW (Memref.isWhole_whole _)
            lstW (Memref.isWhole_whole _) bufW0 (Memref.isWhole_whole _) bufW1 (Memref.isWhole_whole _) bufW2 (Memref.isWhole_whole _)
            bufW3 (Memref.isWhole_whole _) bufW4 (Memref.isWhole_whole _)
            cc0_scratch6 cc0_scratch7 cc0_scratch8 cc0_scratch9 cc0_scratch10 cc0_scratch11 cc0_scratch12 cc0_scratch13 cc0_scratch14 cc0_scratch15
            cc0_scoped0 cc0_scoped1 v2 k ()) (fun a => inv d L fi fw O W qT (k.val + 1) a) := by
  have hk := trips_lt k
  by_cases h0 : k.val = 0
  · exact trip_first d L fi fw O W qT hfi k h0 v2
  by_cases h9 : k.val = 9
  · exact trip_last d L fi fw O W qT hfi k h9 v2
  · exact trip_mid d L fi fw O W qT hfi k (by omega) (by omega) v2

set_option maxHeartbeats 1600000 in
theorem core_of (hfi : ∀ j, (fi j).toNat < 1000000) : TileCore d L fi fw := by
  intro O W qI qT fl f0 f1 f2 f3 f4
  unfold kernelAt
  simp only [cc0_sc_kernel_eq_skeleton]; unfold cc0_sc_kernel_skel
  iintro ⟨#Hmw, Hids, Htab, Hlst, Hb0, Hb1, Hb2, Hb3, Hb4, Hg0, Hg1, Hg2, Hg3, Hg4, Hs0, Hs1, Hs2, Hs3, Hs4, Hc0, Hc1, Hblk, HO⟩
  ihave Hids := (Entails.of_eq (pts_ids (F := F) d L _ _).symm) $$ Hids
  ihave Htab := (Entails.of_eq (pts_tab (F := F) d L _ _).symm) $$ Htab
  ihave Hlst := (Entails.of_eq (pts_lst (F := F) d L _).symm) $$ Hlst
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  ihave Htoks := (Transfers.pointsTo_toks_split (ℓ := (tabM).view.loc (thr d L)) (S := Finset.univ) (f := fw) qT 5) $$ Htab
  rw [bigSep_fin5]
  icases Htoks with ⟨Hdrop, Htab0, Htab1, Htab2, Htab3, Htab4⟩
  have hin0 := hin_pro d L fi hfi (0 : Fin 50) (by decide) fl
  have hin1 := hin_pro d L fi hfi (1 : Fin 50) (by decide) fl
  have hin2 := hin_pro d L fi hfi (2 : Fin 50) (by decide) fl
  have hin3 := hin_pro d L fi hfi (3 : Fin 50) (by decide) fl
  sl_exec
  generalize hG0 : core_of.sl.gather1 d L fi fw fl hin0 = G0
  have hG0' : G0 = gathC d L fi fw 0 := by
    rw [← hG0]; exact gather_closed_pro d L fi fw (0 : Fin 50) (by decide) fl _ hin0
  generalize hG1 : core_of.sl.gather2 d L fi fw fl hin1 = G1
  have hG1' : G1 = gathC d L fi fw 1 := by
    rw [← hG1]; exact gather_closed_pro d L fi fw (1 : Fin 50) (by decide) fl _ hin1
  generalize hG2 : core_of.sl.gather3 d L fi fw fl hin2 = G2
  have hG2' : G2 = gathC d L fi fw 2 := by
    rw [← hG2]; exact gather_closed_pro d L fi fw (2 : Fin 50) (by decide) fl _ hin2
  generalize hG3 : core_of.sl.gather4 d L fi fw fl hin3 = G3
  have hG3' : G3 = gathC d L fi fw 3 := by
    rw [← hG3]; exact gather_closed_pro d L fi fw (3 : Fin 50) (by decide) fl _ hin3
  generalize hD0 : core_of.sl.dma0 d L fi = D0
  have hD0' : D0 = p8 d L fi := by rw [← hD0]; rfl
  generalize hD1 : core_of.sl.dma0_1 d L fi = D1
  have hD1' : D1 = p42 d L fi := by rw [← hD1]; rfl
  subst hD0' hD1'
  sl_for (inv d L fi fw O W qT) $$ [Hg0 Htab0 Hg1 Htab1 Hg2 Htab2 Hg3 Htab3 Hb4 Hs4 Hg4 Htab4 Hs0 Hs1 Hs2 Hs3 Hlst Hblk HO]
  case region =>
    intro k a
    exact trip d L fi fw hfi O W qT k _
  · unfold inv
    rw [if_pos (show 0 < 10 by decide), if_pos rfl]
    simp only [Nat.mul_zero, Nat.zero_add, Nat.zero_sub]
    rw [Ring.bigSep_rangeSet_empty (le_refl 0), Ring.bigSep_rangeSet_empty (le_refl 0)]
    isplitr
    · iexact Hmw
    isplitl [Hg0 Htab0 Hg1 Htab1 Hg2 Htab2 Hg3 Htab3]
    · isplitl [Hg0 Htab0]
      · iapply (entry_gath0 d L fi fw qT fl f0 G0 hG0')
        isplitl [Hg0]
        · iexact Hg0
        · iexact Htab0
      isplitl [Hg1 Htab1]
      · iapply (entry_gath1 d L fi fw qT fl f1 G1 hG1')
        isplitl [Hg1]
        · iexact Hg1
        · iexact Htab1
      isplitl [Hg2 Htab2]
      · iapply (entry_gath2 d L fi fw qT fl f2 G2 hG2')
        isplitl [Hg2]
        · iexact Hg2
        · iexact Htab2
      · iapply (entry_gath3 d L fi fw qT fl f3 G3 hG3')
        isplitl [Hg3]
        · iexact Hg3
        · iexact Htab3
    isplitl [Hb4 Hs4]
    · isplitl [Hb4]
      · iexists _; iexact Hb4
      · iexact Hs4
    isplitl [Hg4]
    · iexact Hg4
    isplitl [Htab4]
    · iexact Htab4
    isplitl [Hs0]
    · iexact Hs0
    isplitl [Hs1]
    · iexact Hs1
    isplitl [Hs2]
    · iexact Hs2
    isplitl [Hs3]
    · iexact Hs3
    isplitl [Hlst]
    · iapply (entry_rows d L fi fl); iexact Hlst
    isplitr
    · iempintro
    isplitl [Hblk]
    · iexact Hblk
    isplitr
    · iempintro
    iexists _
    isplitr
    swap
    · iexact HO
    ipureintro; intro p hp
    rcases Finset.mem_insert.mp hp with rfl | hp
    · exact .inr rfl
    rcases Finset.mem_insert.mp hp with rfl | hp
    · exact .inr rfl
    exact .inl hp
  iintro %_ HI
  unfold inv
  rw [trips_t1, if_neg (show ¬ (10 : ℕ) < 10 by decide), if_neg (show ¬ (10 : ℕ) = 0 by decide)]
  icases HI with ⟨-, ⟨⟨⟨%b0, Hbf0⟩, Htab0, Hg0⟩, ⟨⟨%b1, Hbf1⟩, Htab1, Hg1⟩, ⟨⟨%b2, Hbf2⟩, Htab2, Hg2⟩, ⟨⟨%b3, Hbf3⟩, Htab3, Hg3⟩⟩, ⟨Hs4, Hsc4⟩, Hg4, Htab4, Hs0, Hs1, Hs2, Hs3, Hrows, Hrdone, Htodo, Hbdone, %W', %hW', HO⟩
  sl_exec
  sl_step
  isplitl [Hids]
  · iexact Hids
  isplitl [Hdrop Htab0 Htab1 Htab2 Htab3 Htab4]
  · iapply (Transfers.pointsTo_toks_join (ℓ := (tabM).view.loc (thr d L)) (S := Finset.univ) (f := fw) qT 5)
    rw [bigSep_fin5]
    isplitl [Hdrop]
    · iexact Hdrop
    isplitl [Htab0]
    · iexact Htab0
    isplitl [Htab1]
    · iexact Htab1
    isplitl [Htab2]
    · iexact Htab2
    isplitl [Htab3]
    · iexact Htab3
    · iexact Htab4
  isplitl [Hrdone]
  · iapply (rows_join d L); iexact Hrdone
  isplitl [Hbf0]
  · iexists _; iexact Hbf0
  isplitl [Hbf1]
  · iexists _; iexact Hbf1
  isplitl [Hbf2]
  · iexists _; iexact Hbf2
  isplitl [Hbf3]
  · iexists _; iexact Hbf3
  isplitl [Hsc4]
  · iexists _; iexact Hsc4
  isplitl [Hg0]
  · iexact Hg0
  isplitl [Hg1]
  · iexact Hg1
  isplitl [Hg2]
  · iexact Hg2
  isplitl [Hg3]
  · iexact Hg3
  isplitl [Hg4]
  · iexact Hg4
  isplitl [Hs0]
  · iexact Hs0
  isplitl [Hs1]
  · iexact Hs1
  isplitl [Hs2]
  · iexact Hs2
  isplitl [Hs3]
  · iexact Hs3
  isplitl [Hs4]
  · iexact Hs4
  isplitl [Hc0]
  · iexact Hc0
  isplitl [Hc1]
  · iexact Hc1
  isplitl [Hbdone Hs4_dst]
  · rw [show (50 : ℕ) = 49 + 1 from rfl, push1 (fun n => blkDone d L fi fw n) 0 49 (by omega) (by omega)]
    isplitl [Hs4_dst]
    · iexact Hs4_dst
    · iexact Hbdone
  iexists _
  isplitr
  swap
  · iexact HO
  ipureintro; intro p hp
  rcases Finset.mem_insert.mp hp with rfl | hp
  · exact .inr rfl
  exact hW' p hp

/-- Every task of the kernel, from the precondition on the index array. -/
theorem core (m : (ℓ : Loc nD τ sig) → Buf (Elt F) ℓ) (hpre : PreOK m) (d : Dev nD) (L : grid0.Coords) :
    TileCore d L (lists m d) (m (tabLoc d)) :=
  core_of d L (lists m d) (m (tabLoc d)) (lists_lt m hpre d)

end Cert.Proof.KW

end
-- ==== Proof.lean ====
/-
  The proof of `Cert.Claim`: the kernel and the reference compute the same embedding lookup.

  Both programs take an index array `ids : i32[4096, 50]` and a table `w : f32[1000000, 128]` and return
  `out[b, s, d] = w[ids[b, s], d] · c` with `c` the single-precision word nearest `sqrt 128` (the specification, one
  function of the two arrays). The precondition bounds every index word between 0 and 999999, so each names a row.

  The kernel transposes the index array, cuts it into 32 tasks × 50 lists × 128 entries, and starts the two SparseCores'
  sixteen vector subcores each on one task: a task copies its lists in, gathers the 128 table rows each list names,
  scales them and writes them out as one 128-row block of a flat `[204800, 128]` array, block `50 t + g` for list `g`
  of task `t`. One task's run is proved once at a symbolic place; the launch theorem turns it into the run of all 35
  threads, with the index array and the table read through shares and the flat result divided into the 1600 blocks.
  Read as `[50, 4096, 128]` with its first two axes exchanged, the flat result is the specification's array: flat row
  `s · 4096 + b` holds entry `(b, s)`. The program is printed twice, as compiled and at the ideal instance, with the same
  text; the proof is written once, generic in the float instance, and stated over each printed program.

  The reference is a straight line of array operations whose result buffer ends at a closed term of the arguments; under
  the precondition its wrap-around, clamp and range mask are all inactive and the term is the specification's lookup.

  Hence the three frames (each program runs, arguments unchanged), and at the ideal instance the two results are the
  same array. The idealization rewrote no operation, so nothing is to be preserved.
-/
import proofs.«208012_g154618823073_cont_week2b_1161_14_alg».proof.Defs
import proofs.«208012_g154618823073_cont_week2b_1161_14_alg».proof.Proof.Gen.Kernel
import proofs.«208012_g154618823073_cont_week2b_1161_14_alg».proof.Proof.Gen.Kernel.Skeleton
import proofs.«208012_g154618823073_cont_week2b_1161_14_alg».proof.Proof.Gen.KernelIdeal
import proofs.«208012_g154618823073_cont_week2b_1161_14_alg».proof.Proof.Gen.KernelIdeal.Skeleton
import proofs.«208012_g154618823073_cont_week2b_1161_14_alg».proof.Proof.Gen.ReferenceIdeal
import proofs.«208012_g154618823073_cont_week2b_1161_14_alg».proof.Proof.Gen.Pre_input_domain
import proofs.«208012_g154618823073_cont_week2b_1161_14_alg».proof.Proof.RefRun
import proofs.«208012_g154618823073_cont_week2b_1161_14_alg».proof.Proof.PreOK
import proofs.«208012_g154618823073_cont_week2b_1161_14_alg».proof.Proof.Launch
import proofs.«208012_g154618823073_cont_week2b_1161_14_alg».proof.Proof.Word.Launch
import proofs.«208012_g154618823073_cont_week2b_1161_14_alg».proof.Proof.Tile
import proofs.«208012_g154618823073_cont_week2b_1161_14_alg».proof.Proof.Word.Tile
import proofs.«208012_g154618823073_cont_week2b_1161_14_alg».proof.Proof.Body
import proofs.«208012_g154618823073_cont_week2b_1161_14_alg».proof.Proof.Word.Body
import Idealize.ShloMosaic.Adequacy
import Idealize.ShloMosaic.Init

noncomputable section

namespace Cert.Proof

open Idealize.ShloMosaic Idealize.SL.Sem

/-! ## The three frames -/

/-- The program as printed, at the bit-exact instance: it runs and leaves its two arguments unchanged. -/
theorem frame_Kernel :
    Cert.frame_Kernel (hKernel := Cert.Kernel.Gen.facts) (hPre_input_domain := Cert.Pre_input_domain.Gen.facts) :=
  fun m ρ hpre =>
    (θ_run Cert.Kernel.defs _ _).mono (fun _ h c => (h c).2)
      (Cert.Proof.KW.run_main (F := Bits) m ρ (Cert.Proof.KW.tileObl m (Cert.Proof.KW.core m (preOK_KW m hpre))))

/-- The same text read at the ideal instance. -/
theorem frame_KernelIdeal :
    Cert.frame_KernelIdeal (hKernelIdeal := Cert.KernelIdeal.Gen.facts) (hPre_input_domain := Cert.Pre_input_domain.Gen.facts) :=
  fun m ρ hpre =>
    (θ_run Cert.KernelIdeal.defs _ _).mono (fun _ h c => (h c).2)
      (Cert.Proof.KI.run_main (F := Ideal) m ρ (Cert.Proof.KI.tileObl m (Cert.Proof.KI.core m (preOK_KI m hpre))))

/-- The reference: its run, with the result dropped. -/
theorem frame_ReferenceIdeal :
    Cert.frame_ReferenceIdeal (hReferenceIdeal := Cert.ReferenceIdeal.Gen.facts) (hPre_input_domain := Cert.Pre_input_domain.Gen.facts) :=
  fun m ρ hpre => (θ_run Cert.ReferenceIdeal.defs _ _).mono (fun _ h c => (h c).2) (Cert.Proof.Ref.run m ρ hpre)

/-! ## The two programs compute the same array -/

/-- From memories that agree on the index array and the table, both programs end with their result at the
    specification's lookup of those two arrays, and with the arrays unchanged. -/
theorem algebraic :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m ρ m' ρ' hpre hagree
  -- the reference's precondition is the kernel's, read at the equal arguments
  have hpre' : Cert.Pre_ReferenceIdeal (hPre_input_domain := Cert.Pre_input_domain.Gen.facts) m' := fun c => by
    have e := hpre c
    rw [← (hagree c).1, ← (hagree c).2] at e
    exact e
  refine ⟨fun c => Cert.Spec.lookup (F := Ideal) (m (Cert.Proof.KI.argLoc0 c)) (m (Cert.Proof.KI.tabLoc c)), ?_, ?_⟩
  · exact (θ_run Cert.KernelIdeal.defs _ _).mono (fun _ h c => ⟨(h c).1.trans (Cert.Proof.KI.resOf_eq m c), (h c).2⟩)
      (Cert.Proof.KI.run_main (F := Ideal) m ρ (Cert.Proof.KI.tileObl m (Cert.Proof.KI.core m (preOK_KI m hpre))))
  · refine (θ_run Cert.ReferenceIdeal.defs _ _).mono (fun _ h c => ⟨?_, (h c).2⟩) (Cert.Proof.Ref.run m' ρ' hpre')
    rw [(h c).1, (hagree c).1, (hagree c).2]

/-! ## The claim -/

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
